-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S4096x4095 : Shape := ⟨2, ![4096, 4095]⟩
abbrev S4096x4096 : Shape := ⟨2, ![4096, 4096]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S4096x4095 : S_.BroadcastsInDim S4096x4095 (![] : Fin 0 → Fin S4096x4095.rank)
  reducesTo_S4096x4095_S_d0_1 : S4096x4095.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256x256 .f32) (main_arg9 : FVec F S256x256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256x256 .f32) (main_arg5 : FVec F S4096x4096 .f32) (main_arg6 : FVec F S256x256 .f32) (main_arg7 : FVec F S256x256 .f32) (main_arg8 : FVec F S256x256 .f32) (main_arg9 : FVec F S256x256 .f32) (main_arg10 : FVec F S256 .f32) (main_v13 : IVec S_ 1) (main_v16 : IVec S4096x4095 1) : IVec S_ 1 :=
  let main_c_5 : IVec S_ 1 := constantI S_ 1 1#1
  let main_v17 : IVec S_ 1 := (fun x v => Host.reduce IntOp.andi x v reducesTo_S4096x4095_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x256 .f32) (main_arg1 : FVec F S4096x256 .f32) (main_arg2 : FVec F S256x256 .f32) (main_arg3 : FVec F S4096x4095 .f32) (main_arg4 : FVec F S256x256 .f32) (main_arg5 : FVec F S4096x4096 .f32) (main_arg6 : FVec F S256x256 .f32) (main_arg7 : FVec F S256x256 .f32) (main_arg8 : FVec F S256x256 .f32) (main_arg9 : FVec F S256x256 .f32) (main_arg10 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S4096x4095 .f32 := Host.absf main_arg3
  let main_cst_4 : FVec F S_ .f32 := constant S_ .f32 0x7F800000#32
  let main_v15 : FVec F S4096x4095 .f32 := broadcastInDim S4096x4095 ![] bcast_S_S4096x4095 main_cst_4
  let main_v16 : IVec S4096x4095 1 := cmpf .olt main_v14 main_v15
  fn_part1 (F := F) main_arg4 main_arg5 main_arg6 main_arg7 main_arg8 main_arg9 main_arg10 main_v13 main_v16
-- ==== Kernel.lean ====
abbrev S4096x256 : Shape := ⟨2, ![4096, 256]⟩
abbrev S256x256 : Shape := ⟨2, ![256, 256]⟩
abbrev S4096x4095 : Shape := ⟨2, ![4096, 4095]⟩
abbrev S4096x4096 : Shape := ⟨2, ![4096, 4096]⟩
abbrev S256 : Shape := ⟨1, ![256]⟩
abbrev S2048x256 : Shape := ⟨2, ![2048, 256]⟩
abbrev S_ : Shape := ⟨0, ![]⟩
abbrev S4096x1 : Shape := ⟨2, ![4096, 1]⟩
abbrev S1024x512 : Shape := ⟨2, ![1024, 512]⟩
abbrev S512x256 : Shape := ⟨2, ![512, 256]⟩
abbrev S1024x256 : Shape := ⟨2, ![1024, 256]⟩
abbrev S4096x128 : Shape := ⟨2, ![4096, 128]⟩
abbrev S1024x128 : Shape := ⟨2, ![1024, 128]⟩
abbrev S1024 : Shape := ⟨1, ![1024]⟩
abbrev S1024x1 : Shape := ⟨2, ![1024, 1]⟩
abbrev S1x256 : Shape := ⟨2, ![1, 256]⟩

abbrev nBuf : Space → Nat
  | .hbm => 98
  | .vmem => 59
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S4096x4095, .f32⟩
  | .hbm, ⟨4, _⟩ => ⟨S256x256, .f32⟩
  | .hbm, ⟨5, _⟩ => ⟨S4096x4096, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S4096x256, .f32⟩
  | .hbm, ⟨12, _⟩ => ⟨S_, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x4095, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x4095, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x4095, .f32⟩
  | .hbm, ⟨46, _⟩ => ⟨S4096x4095, .f32⟩
  | .hbm, ⟨47, _⟩ => ⟨S_, .f32⟩
  | .hbm, ⟨48, _⟩ => ⟨S4096x1, .f32⟩
  | .hbm, ⟨49, _⟩ => ⟨S4096x4096, .f32⟩
  | .hbm, ⟨50, _⟩ => ⟨S4096x4096, .f32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S4096x4096, .i1⟩
  | .hbm, ⟨55, _⟩ => ⟨S_, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4096x4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x256, .f32⟩
  | .hbm, ⟨81, _⟩ => ⟨S4096x128, .f32⟩
  | .hbm, ⟨82, _⟩ => ⟨S4096x1, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x128, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S256x256, .f32⟩
  | .hbm, ⟨95, _⟩ => ⟨S1x256, .f32⟩
  | .hbm, ⟨96, _⟩ => ⟨S4096x256, .f32⟩
  | .hbm, ⟨97, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1024x512, .f32⟩
  | .local _ .vmem, ⟨7, _⟩ => ⟨S1024x512, .f32⟩
  | .local _ .vmem, ⟨8, _⟩ => ⟨S512x256, .f32⟩
  | .local _ .vmem, ⟨9, _⟩ => ⟨S512x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S2048x256, .f32⟩
  | .local _ .vmem, ⟨14, _⟩ => ⟨S2048x256, .f32⟩
  | .local _ .vmem, ⟨15, _⟩ => ⟨S256x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S1024x512, .f32⟩
  | .local _ .vmem, ⟨20, _⟩ => ⟨S1024x512, .f32⟩
  | .local _ .vmem, ⟨21, _⟩ => ⟨S512x256, .f32⟩
  | .local _ .vmem, ⟨22, _⟩ => ⟨S512x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x512, .f32⟩
  | .local _ .vmem, ⟨27, _⟩ => ⟨S1024x512, .f32⟩
  | .local _ .vmem, ⟨28, _⟩ => ⟨S512x256, .f32⟩
  | .local _ .vmem, ⟨29, _⟩ => ⟨S512x256, .f32⟩
  | .local _ .vmem, ⟨30, _⟩ => ⟨S1024x256, .f32⟩
  | .local _ .vmem, ⟨31, _⟩ => ⟨S1024x256, .f32⟩
  | .local _ .vmem, ⟨32, _⟩ => ⟨S1024x128, .f32⟩
  | .local _ .vmem, ⟨33, _⟩ => ⟨S1024x128, .f32⟩
  | .local _ .vmem, ⟨34, _⟩ => ⟨S1024x256, .f32⟩
  | .local _ .vmem, ⟨35, _⟩ => ⟨S1024x128, .f32⟩
  | .local _ .vmem, ⟨36, _⟩ => ⟨S1024x512, .f32⟩
  | .local _ .vmem, ⟨37, _⟩ => ⟨S1024x512, .f32⟩
  | .local _ .vmem, ⟨38, _⟩ => ⟨S512x256, .f32⟩
  | .local _ .vmem, ⟨39, _⟩ => ⟨S512x256, .f32⟩
  | .local _ .vmem, ⟨40, _⟩ => ⟨S1024x256, .f32⟩
  | .local _ .vmem, ⟨41, _⟩ => ⟨S1024x256, .f32⟩
  | .local _ .vmem, ⟨42, _⟩ => ⟨S1024x128, .f32⟩
  | .local _ .vmem, ⟨43, _⟩ => ⟨S1024x128, .f32⟩
  | .local _ .vmem, ⟨44, _⟩ => ⟨S1024x256, .f32⟩
  | .local _ .vmem, ⟨45, _⟩ => ⟨S1024x128, .f32⟩
  | .local _ .vmem, ⟨46, _⟩ => ⟨S1024x256, .f32⟩
  | .local _ .vmem, ⟨47, _⟩ => ⟨S1024x256, .f32⟩
  | .local _ .vmem, ⟨48, _⟩ => ⟨S1024x256, .f32⟩
  | .local _ .vmem, ⟨49, _⟩ => ⟨S1024x256, .f32⟩
  | .local _ .vmem, ⟨50, _⟩ => ⟨S1024x256, .f32⟩
  | .local _ .vmem, ⟨51, _⟩ => ⟨S1024x256, .f32⟩
  | .local _ .vmem, ⟨52, _⟩ => ⟨S256x256, .f32⟩
  | .local _ .vmem, ⟨53, _⟩ => ⟨S256x256, .f32⟩
  | .local _ .vmem, ⟨54, _⟩ => ⟨S256x256, .f32⟩
  | .local _ .vmem, ⟨55, _⟩ => ⟨S256x256, .f32⟩
  | .local _ .vmem, ⟨56, _⟩ => ⟨S1x256, .f32⟩
  | .local _ .vmem, ⟨57, _⟩ => ⟨S1024x256, .f32⟩
  | .local _ .vmem, ⟨58, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_call2_v0 : Ref sig .tc := ⟨.hbm, 56, rfl⟩
abbrev main_call2_v1 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_v50_0 : Ref sig .tc := ⟨.hbm, 80, rfl⟩
abbrev main_v50_1 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54_0 : Ref sig .tc := ⟨.hbm, 85, rfl⟩
abbrev main_v54_1 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc4_scratch1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc5_scratch0 : Ref sig .tc := ⟨.vmem, 44, rfl⟩
abbrev cc5_scratch1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg7_0 : Ref sig .tc := ⟨.vmem, 56, rfl⟩
abbrev cc6_stg8_0 : Ref sig .tc := ⟨.vmem, 57, rfl⟩
abbrev cc6_stg8_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem4_0 : DmaSem sig := 45
abbrev cc6_sem5_0 : DmaSem sig := 46
abbrev cc6_sem6_0 : DmaSem sig := 47
abbrev cc6_sem7_0 : DmaSem sig := 48
abbrev cc6_sem8_0 : DmaSem sig := 49
abbrev cc6_sem8_1 : DmaSem sig := 50

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 8], ![false, false]⟩

def k4_cond2 (i : grid4.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_13 : BitVec 32 := 0#32
  let v25 : BitVec 1 := Scalar.cmpi .ne v24 c0_i32_13
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![4, 8], ![false, false]⟩

def k5_cond2 (i : grid5.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_14 : BitVec 32 := 0#32
  let v26 : BitVec 1 := Scalar.cmpi .ne v25 c0_i32_14
  v26

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S1024x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S4096x1 : S_.BroadcastsInDim S4096x1 (![] : Fin 0 → Fin S4096x1.rank)
  concatenates_S4096x4095_S4096x1_S4096x4096_d1 : Shape.Concatenates [S4096x4095, S4096x1] S4096x4096 1
  concatenates_S4096x1_S4096x4095_S4096x4096_d1 : Shape.Concatenates [S4096x1, S4096x4095] S4096x4096 1
  bcast_S_S4096x4096 : S_.BroadcastsInDim S4096x4096 (![] : Fin 0 → Fin S4096x4096.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  reducesTo_S4096x256_S_d0_1 : S4096x256.ReducesTo [0, 1] S_
  h_S_ : 0 < S_.numel
  reducesTo_S4096x4095_S_d0_1 : S4096x4095.ReducesTo [0, 1] S_
  bcast_S_S4096x4095 : S_.BroadcastsInDim S4096x4095 (![] : Fin 0 → Fin S4096x4095.rank)
  reducesTo_S4096x4096_S_d0_1 : S4096x4096.ReducesTo [0, 1] S_
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x512_S1024 : S1024x512.Reduces [1] S1024
  shapeCasts_S1024_S1024x1 : S1024.ShapeCasts S1024x1
  shapeCasts_S1024x1_S1024x1 : S1024x1.ShapeCasts S1024x1
  broadcasts_S1024x1_S1024x128 : S1024x1.Broadcasts S1024x128
  slices_S4096x128_S4096x1_0_0 : S4096x128.Slices ![0, 0] S4096x1
  bcast_S4096x1_S4096x256_0_1 : S4096x1.BroadcastsInDim S4096x256 (![0, 1] : Fin 2 → Fin S4096x256.rank)
  transposes_S256x256_S256x256_1_0 : S256x256.Transposes [1, 0] S256x256
  shapeCasts_S256_S1x256 : S256.ShapeCasts S1x256
  shapeCasts_S256x256_S256x256 : S256x256.ShapeCasts S256x256
  reduces_S1024x256_S1024 : S1024x256.Reduces [1] S1024
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S2048x256_S256x256_S2048x256_1_0_0_1_n_n_wf : DotDims.WF S2048x256 S256x256 S2048x256 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x256.size a
  hwx0_2 : ∀ i : grid0.Coords, EltTy.bits .f32 = 32 ∨ (Rect.block (s := S4096x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S4096x256.size a
  hwx1_2 : ∀ i : grid1.Coords, EltTy.bits .f32 = 32 ∨ (Rect.block (s := S4096x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S4096x256.size a
  hwx2_0 : ∀ i : grid2.Coords, EltTy.bits .f32 = 32 ∨ (Rect.block (s := S4096x256) S2048x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S4096x256.size a
  hwx2_2 : ∀ i : grid2.Coords, EltTy.bits .f32 = 32 ∨ (Rect.block (s := S4096x256) S2048x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S4096x4096.size a
  hwx3_0 : ∀ i : grid3.Coords, EltTy.bits .f32 = 32 ∨ (Rect.block (s := S4096x4096) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .f32 = 32 ∨ (Rect.block (s := S4096x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S4096x256.size a
  hwx3_2 : ∀ i : grid3.Coords, EltTy.bits .f32 = 32 ∨ (Rect.block (s := S4096x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x4096.size a
  hwx4_0 : ∀ i : grid4.Coords, EltTy.bits .f32 = 32 ∨ (Rect.block (s := S4096x4096) S1024x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S4096x256.size a
  hwx4_1 : ∀ i : grid4.Coords, EltTy.bits .f32 = 32 ∨ (Rect.block (s := S4096x256) S512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S4096x256.size a
  hwx4_2 : ∀ i : grid4.Coords, EltTy.bits .f32 = 32 ∨ (Rect.block (s := S4096x256) S1024x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S4096x128.size a
  hwx4_3 : ∀ i : grid4.Coords, EltTy.bits .f32 = 32 ∨ (Rect.block (s := S4096x128) S1024x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x512.size a ≤ S4096x4096.size a
  hwx5_0 : ∀ i : grid5.Coords, EltTy.bits .f32 = 32 ∨ (Rect.block (s := S4096x4096) S1024x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S4096x256.size a
  hwx5_1 : ∀ i : grid5.Coords, EltTy.bits .f32 = 32 ∨ (Rect.block (s := S4096x256) S512x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x256.size a ≤ S4096x256.size a
  hwx5_2 : ∀ i : grid5.Coords, EltTy.bits .f32 = 32 ∨ (Rect.block (s := S4096x256) S1024x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S4096x128.size a
  hwx5_3 : ∀ i : grid5.Coords, EltTy.bits .f32 = 32 ∨ (Rect.block (s := S4096x128) S1024x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S4096x256.size a
  hwx6_0 : ∀ i : grid6.Coords, EltTy.bits .f32 = 32 ∨ (Rect.block (s := S4096x256) S1024x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S4096x256.size a
  hwx6_1 : ∀ i : grid6.Coords, EltTy.bits .f32 = 32 ∨ (Rect.block (s := S4096x256) S1024x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x256.size a ≤ S4096x256.size a
  hwx6_2 : ∀ i : grid6.Coords, EltTy.bits .f32 = 32 ∨ (Rect.block (s := S4096x256) S1024x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x256.size a ≤ S256x256.size a
  hwx6_6 : ∀ i : grid6.Coords, EltTy.bits .f32 = 32 ∨ (Rect.block (s := S256x256) S256x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1024x256.size a ≤ S4096x256.size a
  hwx6_8 : ∀ i : grid6.Coords, EltTy.bits .f32 = 32 ∨ (Rect.block (s := S4096x256) S1024x256.size (cc6_transform_8 i) (hinb6_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg5) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v34) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S512x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50_0) S1024x256.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v50_1) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg5) S1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S512x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54_0) S1024x256.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v54_1) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun i => !(k5_cond2 i == 1#1) | 3 => fun i => !(k5_cond2 i == 1#1) | ⟨_ + 4, h⟩ => absurd h (Nat.not_lt.2 (Nat.le_add_left _ _))

abbrev win6_0 : Pipeline.Window sig grid6 :=
  Pipeline.Window.ofSpec (Memref.whole main_arg0) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S1024x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1024x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg6) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg7) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg8) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v61) S256x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v62) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v63) S1024x256.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S4096x4095 : Shape := ⟨2, ![4096, 4095]⟩
abbrev S4096x4096 : Shape := ⟨2, ![4096, 4096]⟩
abbrev S256 : Shape := ⟨1, ![256]⟩
abbrev S4095 : Shape := ⟨1, ![4095]⟩
abbrev S1x4095 : Shape := ⟨2, ![1, 4095]⟩
abbrev S4096 : Shape := ⟨1, ![4096]⟩
abbrev S4096x1 : Shape := ⟨2, ![4096, 1]⟩
abbrev S_ : Shape := ⟨0, ![]⟩
abbrev S16773120 : Shape := ⟨1, ![16773120]⟩
abbrev S16773120x1 : Shape := ⟨2, ![16773120, 1]⟩
abbrev S16773120x2 : Shape := ⟨2, ![16773120, 2]⟩
abbrev S1x256 : Shape := ⟨2, ![1, 256]⟩

abbrev nBuf : Space → Nat
  | .hbm => 188
  | .vmem => 0
  | .smem => 0
  | _ => 0

abbrev hbmTy0_0 (i : Nat) : BufTy := match i % 128 with
  | 0 => ⟨S4096x256, .f32⟩
  | 1 => ⟨S4096x256, .f32⟩
  | 2 => ⟨S256x256, .f32⟩
  | 3 => ⟨S4096x4095, .f32⟩
  | 4 => ⟨S256x256, .f32⟩
  | 5 => ⟨S4096x4096, .f32⟩
  | 6 => ⟨S256x256, .f32⟩
  | 7 => ⟨S256x256, .f32⟩
  | 8 => ⟨S256x256, .f32⟩
  | 9 => ⟨S256x256, .f32⟩
  | 10 => ⟨S256, .f32⟩
  | 11 => ⟨S4096x256, .f32⟩
  | 12 => ⟨S4095, .i32⟩
  | 13 => ⟨S1x4095, .i32⟩
  | 14 => ⟨S4096, .i32⟩
  | 15 => ⟨S4096x1, .i32⟩
  | 16 => ⟨S4096x4095, .i32⟩
  | 17 => ⟨S4096x4095, .i32⟩
  | 18 => ⟨S4096x4095, .i1⟩
  | 19 => ⟨S4096x4095, .i32⟩
  | 20 => ⟨S4096x4095, .i32⟩
  | 21 => ⟨S4096x4095, .i32⟩
  | 22 => ⟨S4096, .i32⟩
  | 23 => ⟨S4096x1, .i32⟩
  | 24 => ⟨S4096x4095, .i32⟩
  | 25 => ⟨S_, .f32⟩
  | 26 => ⟨S4096x4096, .f32⟩
  | 27 => ⟨S16773120, .i32⟩
  | 28 => ⟨S16773120, .i32⟩
  | 29 => ⟨S16773120, .f32⟩
  | 30 => ⟨S_, .i32⟩
  | 31 => ⟨S16773120, .i32⟩
  | 32 => ⟨S16773120, .i1⟩
  | 33 => ⟨S_, .i32⟩
  | 34 => ⟨S16773120, .i32⟩
  | 35 => ⟨S16773120, .i32⟩
  | 36 => ⟨S16773120, .i32⟩
  | 37 => ⟨S_, .i32⟩
  | 38 => ⟨S16773120, .i32⟩
  | 39 => ⟨S16773120, .i1⟩
  | 40 => ⟨S_, .i32⟩
  | 41 => ⟨S16773120, .i32⟩
  | 42 => ⟨S16773120, .i32⟩
  | 43 => ⟨S16773120, .i32⟩
  | 44 => ⟨S16773120x1, .i32⟩
  | 45 => ⟨S16773120x1, .i32⟩
  | 46 => ⟨S16773120x2, .i32⟩
  | 47 => ⟨S4096x4096, .f32⟩
  | 48 => ⟨S4096x256, .f32⟩
  | 49 => ⟨S4096x256, .f32⟩
  | 50 => ⟨S4096x256, .f32⟩
  | 51 => ⟨S_, .f32⟩
  | 52 => ⟨S_, .f32⟩
  | 53 => ⟨S_, .f32⟩
  | 54 => ⟨S_, .f32⟩
  | 55 => ⟨S_, .f32⟩
  | 56 => ⟨S4096x4095, .f32⟩
  | 57 => ⟨S_, .f32⟩
  | 58 => ⟨S_, .f32⟩
  | 59 => ⟨S_, .f32⟩
  | 60 => ⟨S4096x4095, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S4096x4095, .f32⟩
  | 69 => ⟨S4096x4095, .i1⟩
  | 70 => ⟨S_, .f32⟩
  | 71 => ⟨S_, .f32⟩
  | 72 => ⟨S4096x4095, .f32⟩
  | 73 => ⟨S4096x4095, .f32⟩
  | 74 => ⟨S4095, .i32⟩
  | 75 => ⟨S1x4095, .i32⟩
  | 76 => ⟨S4096, .i32⟩
  | 77 => ⟨S4096x1, .i32⟩
  | 78 => ⟨S4096x4095, .i32⟩
  | 79 => ⟨S4096x4095, .i32⟩
  | 80 => ⟨S4096x4095, .i1⟩
  | 81 => ⟨S4096x4095, .i32⟩
  | 82 => ⟨S4096x4095, .i32⟩
  | 83 => ⟨S4096x4095, .i32⟩
  | 84 => ⟨S4096, .i32⟩
  | 85 => ⟨S4096x1, .i32⟩
  | 86 => ⟨S4096x4095, .i32⟩
  | 87 => ⟨S_, .f32⟩
  | 88 => ⟨S4096x4096, .f32⟩
  | 89 => ⟨S16773120, .i32⟩
  | 90 => ⟨S16773120, .i32⟩
  | 91 => ⟨S16773120, .f32⟩
  | 92 => ⟨S_, .i32⟩
  | 93 => ⟨S16773120, .i32⟩
  | 94 => ⟨S16773120, .i1⟩
  | 95 => ⟨S_, .i32⟩
  | 96 => ⟨S16773120, .i32⟩
  | 97 => ⟨S16773120, .i32⟩
  | 98 => ⟨S16773120, .i32⟩
  | 99 => ⟨S_, .i32⟩
  | 100 => ⟨S16773120, .i32⟩
  | 101 => ⟨S16773120, .i1⟩
  | 102 => ⟨S_, .i32⟩
  | 103 => ⟨S16773120, .i32⟩
  | 104 => ⟨S16773120, .i32⟩
  | 105 => ⟨S16773120, .i32⟩
  | 106 => ⟨S16773120x1, .i32⟩
  | 107 => ⟨S16773120x1, .i32⟩
  | 108 => ⟨S16773120x2, .i32⟩
  | 109 => ⟨S4096x4096, .f32⟩
  | 110 => ⟨S4096x4096, .i32⟩
  | 111 => ⟨S4096x4096, .i32⟩
  | 112 => ⟨S_, .i32⟩
  | 113 => ⟨S4096x4096, .i32⟩
  | 114 => ⟨S4096x4096, .i32⟩
  | 115 => ⟨S4096x4096, .i1⟩
  | 116 => ⟨S4096x4096, .f32⟩
  | 117 => ⟨S4096x4096, .f32⟩
  | 118 => ⟨S4096x256, .f32⟩
  | 119 => ⟨S4096x256, .f32⟩
  | 120 => ⟨S4096x256, .f32⟩
  | 121 => ⟨S4096x256, .f32⟩
  | 122 => ⟨S_, .f32⟩
  | 123 => ⟨S_, .f32⟩
  | 124 => ⟨S_, .f32⟩
  | 125 => ⟨S_, .f32⟩
  | 126 => ⟨S_, .f32⟩
  | 127 => ⟨S4096x4096, .f32⟩
  | _ => ⟨S4096x256, .f32⟩

abbrev hbmTy0_1 (i : Nat) : BufTy := match i % 128 with
  | 0 => ⟨S_, .f32⟩
  | 1 => ⟨S_, .f32⟩
  | 2 => ⟨S_, .f32⟩
  | 3 => ⟨S4096x4096, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4096x4096, .f32⟩
  | 12 => ⟨S4096x4096, .f32⟩
  | 13 => ⟨S4096x256, .f32⟩
  | 14 => ⟨S_, .f32⟩
  | 15 => ⟨S4096, .f32⟩
  | 16 => ⟨S4096x1, .f32⟩
  | 17 => ⟨S4096x256, .f32⟩
  | 18 => ⟨S4096x256, .f32⟩
  | 19 => ⟨S4096x256, .f32⟩
  | 20 => ⟨S4096x256, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x256, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S256x256, .f32⟩
  | 52 => ⟨S4096x256, .f32⟩
  | 53 => ⟨S1x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_call0_v0 : Ref sig .tc := ⟨.hbm, 71, rfl⟩
abbrev main_call0_v1 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_15 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_v94 : Ref sig .tc := ⟨.hbm, 127, rfl⟩
abbrev main_cst_18 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_19 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_23 : Ref sig .tc := ⟨.hbm, 149, rfl⟩
abbrev main_v111 : Ref sig .tc := ⟨.hbm, 150, rfl⟩
abbrev main_v112 : Ref sig .tc := ⟨.hbm, 151, rfl⟩
abbrev main_cst_24 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_25 : Ref sig .tc := ⟨.hbm, 161, rfl⟩
abbrev main_v121 : Ref sig .tc := ⟨.hbm, 162, rfl⟩
abbrev main_v122 : Ref sig .tc := ⟨.hbm, 163, rfl⟩
abbrev main_cst_26 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_27 : Ref sig .tc := ⟨.hbm, 168, rfl⟩
abbrev main_v126 : Ref sig .tc := ⟨.hbm, 169, rfl⟩
abbrev main_v127 : Ref sig .tc := ⟨.hbm, 170, rfl⟩
abbrev main_cst_28 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_call1_cst : Ref sig .tc := ⟨.hbm, 184, rfl⟩
abbrev main_call1_v0 : Ref sig .tc := ⟨.hbm, 185, rfl⟩
abbrev main_v140 : Ref sig .tc := ⟨.hbm, 186, rfl⟩
abbrev main_v141 : Ref sig .tc := ⟨.hbm, 187, rfl⟩

abbrev nD : Nat := 1
abbrev τ : Topo := Topo.v7x

variable {F : FTy → Type} [FloatOps F]

class Facts₀ : Prop where
  bcast_S4095_S1x4095_1 : S4095.BroadcastsInDim S1x4095 (![1] : Fin 1 → Fin S1x4095.rank)
  bcast_S4096_S4096x1_0 : S4096.BroadcastsInDim S4096x1 (![0] : Fin 1 → Fin S4096x1.rank)
  bcast_S1x4095_S4096x4095_0_1 : S1x4095.BroadcastsInDim S4096x4095 (![0, 1] : Fin 2 → Fin S4096x4095.rank)
  bcast_S4096x1_S4096x4095_0_1 : S4096x1.BroadcastsInDim S4096x4095 (![0, 1] : Fin 2 → Fin S4096x4095.rank)
  natLt_1_32 : 1 < 32
  bcast_S_S4096x4096 : S_.BroadcastsInDim S4096x4096 (![] : Fin 0 → Fin S4096x4096.rank)
  shapeCasts_S4096x4095_S16773120 : S4096x4095.ShapeCasts S16773120
  bcast_S_S16773120 : S_.BroadcastsInDim S16773120 (![] : Fin 0 → Fin S16773120.rank)
  bcast_S16773120_S16773120x1_0 : S16773120.BroadcastsInDim S16773120x1 (![0] : Fin 1 → Fin S16773120x1.rank)
  concatenates_S16773120x1_S16773120x1_S16773120x2_d1 : Shape.Concatenates [S16773120x1, S16773120x1] S16773120x2 1
  reducesTo_S4096x256_S_d0_1 : S4096x256.ReducesTo [0, 1] S_
  h_S_ : 0 < S_.numel
  reducesTo_S4096x4095_S_d0_1 : S4096x4095.ReducesTo [0, 1] S_
  bcast_S_S4096x4095 : S_.BroadcastsInDim S4096x4095 (![] : Fin 0 → Fin S4096x4095.rank)
  reducesTo_S4096x4096_S_d0_1 : S4096x4096.ReducesTo [0, 1] S_
  reducesTo_S4096x4096_S4096_d1 : S4096x4096.ReducesTo [1] S4096
  bcast_S4096x1_S4096x256_0_1 : S4096x1.BroadcastsInDim S4096x256 (![0, 1] : Fin 2 → Fin S4096x256.rank)
  bcast_S_S4096x1 : S_.BroadcastsInDim S4096x1 (![] : Fin 0 → Fin S4096x1.rank)
  reducesTo_S4096x256_S4096_d1 : S4096x256.ReducesTo [1] S4096
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  scatter_S4096x4096_S16773120x2_S16773120_n_01_01_1_wf : ScatterDims.WF S4096x4096 S16773120x2 S16773120 [] [0, 1] [0, 1] 1
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S4096x4096_S16773120x2_S16773120_n_01_01_1 : ScatterDims S4096x4096 S16773120x2 S16773120 where
  updateWindowDims := []
  insertedWindowDims := [0, 1]
  scatterDimsToOperandDims := [0, 1]
  indexVectorDim := 1
  wf := scatter_S4096x4096_S16773120x2_S16773120_n_01_01_1_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K.R0Run.lean ====
/-
  Region 0: the tiled product  cur · r_proj_s  (row tiles of 2048, the whole contraction of 256 in one step).
  The grid is 2 × 1, so the contraction coordinate is 0 at both points: each point is at once the first step
  (the accumulator is cleared) and the last (the accumulator is copied to the output tile).  This module holds the
  two branch conditions, decided over the grid, and the run of the kernel body in that one control case.
-/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first contraction step": the condition under which the accumulator is cleared. -/
abbrev cond0_0 (i : grid0.Coords) : Prop :=
  (Scalar.cmpi .ne (Scalar.extui (Scalar.cmpi .eq (BitVec.ofNat 32 (i 1).val) 0#32)) 0#32) = 1#1
/-- It holds at every point: the contraction axis has one step. -/
theorem hcond0_0 : ∀ t : Fin cfg0.N, cond0_0 (grid0.coords t) :=
  (by decide +kernel : ∀ t : Fin grid0.N, cond0_0 (grid0.coords t))

/-- "This is the last contraction step": the condition under which the output tile is written. -/
abbrev cond0_1 (i : grid0.Coords) : Prop := k0_cond2 i = 1#1
/-- It holds at every point as well. -/
theorem hcond0_1 : ∀ t : Fin cfg0.N, cond0_1 (grid0.coords t) :=
  (by decide +kernel : ∀ t : Fin grid0.N, cond0_1 (grid0.coords t))

/-! ## The staging memrefs and the accumulator -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S2048x256 .f32 := Memref.whole cc0_scratch0
/-- One staging buffer of the output window, through which its contents are stated. -/
abbrev VO0_2 : View sig .tc .vmem S2048x256 .f32 := (Memref.whole cc0_stg2_0 : Memref sig .tc .vmem S2048x256 .f32).view

/-! ## The body's run -/

set_option maxHeartbeats 1000000 in
/-- The body on whole memrefs, both conditions holding: from the two input tiles at `x0`, `x1`, the output tile and
    the accumulator at anything, it runs to the continuation with the inputs as they were, the output tile with the
    pieces `L2` written and the accumulator with the pieces `LS0` written.  The piece lists are what the symbolic
    run of the body's loads and stores finds. -/
noncomputable def kernelRun0 (c : Dev nD) (i : grid0.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond0_0 i) (hc1 : cond0_1 i) (x0 : Vec F S2048x256 .f32) (x1 : Vec F S256x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.R0.lean ====
/-
  Region 0: the tiled product of a 4096 × 256 matrix with a 256 × 256 matrix, two row tiles of 2048, the whole
  contraction in one step.  The proof data of the region as a pipeline, over any contents `V` of the buffers at the
  region's entry: each input window's staging buffer holds its tile; the output's holds what the body's stores leave
  (the accumulator, cleared and then increased by the tile product, copied out); the accumulator itself is cleared at
  every point before it is read, so the region invariant keeps it at unspecified contents.  Then the body obligation.
-/
import proofs.«140739_j42683384987781_2_alg».proof.Proof.K.R0Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its tile at every point, for any proof data over `V` whose body
    leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's: fetched at the first point only, its tile index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window is live at every point: every point is a last contraction step. -/
theorem liveAt0_2 : ∀ t : Fin cfg0.N, cfg0.idle 2 (grid0.coords t) = false := by decide +kernel

/-! ## What the body leaves in the output tile -/

/-- The stores into the output's staging buffer tile it. -/
theorem cover0_2 (c : Dev nD) (i : grid0.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond0_0 i) (hc1 : cond0_1 i) (x0 : Vec F S2048x256 .f32) (x1 : Vec F S256x256 .f32) (y : S2048x256.Idx) :
    ∃ pc ∈ (kernelRun0 c i arg2 harg2 arg3 harg3 arg4 harg4 arg5 harg5 hc0 hc1 x0 x1).1, y ∈ pc.1.set :=
  View.cover_of_tiledL (kernelRun0 c i arg2 harg2 arg3 harg3 arg4 harg4 arg5 harg5 hc0 hc1 x0 x1).1 S2048x256.size (by sl_kernel_rfl) y

/-- What the body leaves in the output's staging buffer: its stores read back. -/
def out0_2 (c : Dev nD) (i : grid0.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond0_0 i) (hc1 : cond0_1 i) (x0 : Vec F S2048x256 .f32) (x1 : Vec F S256x256 .f32) : Vec F S2048x256 .f32 :=
  VO0_2.read (Elt F) (VO0_2.writes (Elt F) VO0_2.junk (kernelRun0 c i arg2 harg2 arg3 harg3 arg4 harg4 arg5 harg5 hc0 hc1 x0 x1).1)

/-- The output tile after the body at point `t`. -/
def outAt0 (c : Dev nD) (t : Fin cfg0.N) : Vec F S2048x256 .f32 :=
  out0_2 c (grid0.coords t) (ms0_0 t) (hs0_0 t) (ms0_1 t) (hs0_1 t) (ms0_2 t) (hs0_2 t) scM0_0 (Memref.isWhole_whole _)
    (hcond0_0 t) (hcond0_1 t) (iblk0 V c 0 t) (iblk0 V c 1 t)

/-! ## The proof data -/

/-- The region's proof data on core `c`: the arrays as the region finds them; after the body at point `t` each
    input's buffer at its tile and the output's at `outAt0`; the invariant the kernel's scoped buffers at anything
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The region invariant with the accumulator split off as a memref owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 800000 in
/-- The body at any point: the inputs' memrefs hold their tiles; both conditions hold; the run applies; the
    accumulator is taken out of the invariant at anything and put back at anything; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from rfl,
    show (dat0 V c).leavesExact 1 t = owns (c : Thread nD τ) (ms0_1 t) fullShare ((dat0 V c).after 1 t) from rfl,
    show (dat0 V c).leavesExact 2 t = owns (c : Thread nD τ) (ms0_2 t) fullShare ((dat0 V c).after 2 t) from by
      unfold Dat.leavesExact; rw [liveAt0_2 t],
    after0_0, after0_1, after0_2]
  rw [show (dat0 V c).Φ t.castSucc = Pipeline.ΦA spec0 c from rfl, PhiA0_eq]
  unfold outAt0 out0_2
  iintro ⟨⟨⟨HS0, Hrest⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, and the invariant after the last is
    what the region gives back. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Gen

end
-- ==== Proof.K.R1Runs.lean ====
/- Region 1: the tiled matrix product C = A · B on a 4 × 8 grid — row blocks of 1024, reduction blocks of 512,
   an accumulator carried along the reduction axis, zeroed at its first step and copied to the output block at
   its last. What the three control cases (first / middle / last reduction step) share: the windows' blocks read
   off the entry contents, the two branch conditions in closed form over the 32 points, where the output window
   is idle, the memrefs the body is called with, and the region invariant with the accumulator split off. -/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Ring
import Idealize.ShloMosaic.Lib.Tactic

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its block at every point, fetched there or not, for any proof data whose
    array is the entry contents and whose body leaves the block in place: the window is an input, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right factor's staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the reduction coordinate -/

/-- "This is the first reduction step" (the accumulator is zeroed under it), as the body computes it from the coordinates. -/
abbrev cond1_0 (i : grid1.Coords) : Prop := (Scalar.cmpi .ne (Scalar.extui (Scalar.cmpi .eq (BitVec.ofNat 32 (i 1).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last reduction step" (the output block is stored under it). -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The two factors are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last reduction step it is live. -/
theorem liveAt1_2 : ∀ t : Fin cfg1.N, cond1_1 (grid1.coords t) → cfg1.idle 2 (grid1.coords t) = false := by decide +kernel

/-! ## The memrefs the body is called with -/

/-- One staging buffer of the output window, through which its contents are stated (which one does not matter). -/
abbrev VO1_2 : View sig .tc .vmem S1024x256 .f32 := (Memref.whole cc1_stg2_0 : Memref sig .tc .vmem S1024x256 .f32).view
/-- Each window's current staging memref at point `t`, spelled as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows and carried from point to point. -/
abbrev scM1_0 : Memref sig .tc .vmem S1024x256 .f32 := Memref.whole cc1_scratch0
/-- The accumulator as a view: what it holds is stated through it. -/
abbrev VS1_0 : View sig .tc .vmem S1024x256 .f32 := scM1_0.view

/-- The region's invariant with the accumulator split off as a memref owned at some contents; every other scoped
    buffer stays unopened. This is what the body obligation hands the body at the first point. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

end Cert.Kernel.Gen

end
-- ==== Proof.K.R1RunMid.lean ====
/- Region 1, a middle reduction step: the whole body run on any whole staging memrefs. -/
import proofs.«140739_j42683384987781_2_alg».proof.Proof.K.R1Runs

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A MIDDLE reduction step (neither condition holds): the body reads both factors' blocks and the accumulator and
    stores the accumulator plus the blocks' product back; it stores nothing into the output window, which is handed
    back untouched at the contents `xi2` it came with. The pieces the accumulator ends with are the witness the
    run produces; the output's list of pieces is empty. -/
noncomputable def kernelRun1_mid (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gen

end
-- ==== Proof.K.R1RunFirst.lean ====
/- Region 1, a first reduction step: the whole body run on any whole staging memrefs. -/
import proofs.«140739_j42683384987781_2_alg».proof.Proof.K.R1RunMid

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A FIRST reduction step (the first condition holds, the second does not): the body zeroes the accumulator — whatever
    it held, so it is taken at any contents —, then reads both factors' blocks and stores zero plus their product
    into it; the output window is handed back untouched at the contents `xi2` it came with. The accumulator's pieces
    (last store first) are the witness the run produces; the output's list of pieces is empty. -/
noncomputable def kernelRun1_first (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x512 .f32) (x1 : Vec F S512x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gen

end
-- ==== Proof.K.R1RunLast.lean ====
/- Region 1, a last reduction step: the whole body run on any whole staging memrefs. -/
import proofs.«140739_j42683384987781_2_alg».proof.Proof.K.R1RunFirst

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A LAST reduction step (the second condition holds, the first does not): the body accumulates as at a middle
    step, then copies the accumulator into the output window's staging buffer — whatever that held, so it is taken
    at any contents. Both lists of pieces are witnesses the run produces. -/
noncomputable def kernelRun1_last (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.R1.lean ====
/- Region 1: the frame data of the tiled matrix product on the 4 × 8 grid — what each control case leaves in the
   output window's buffer and in the accumulator, those contents point by point along the reduction axis, the region
   invariant carrying the accumulator, the pipeline's proof data at the entry contents, and the body obligation. -/
import proofs.«140739_j42683384987781_2_alg».proof.Proof.K.R1RunLast

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each control case leaves in the output window's buffer and in the accumulator -/

/-- At a first reduction step nothing is stored into the output window (it is idle there and not written back): no pieces. This
    value is a placeholder that nothing consults, since at such a point the window is neither written back nor read
    at the next point. -/
def out1_first_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i) (x0 : Vec F S1024x512 .f32) (x1 : Vec F S512x256 .f32) : Vec F S1024x256 .f32 :=
  VO1_2.read (Elt F) (VO1_2.writes (Elt F) VO1_2.junk (kernelRun1_first c i arg2 harg2 arg3 harg3 arg4 harg4 arg5 harg5 hc0 hc1 x0 x1).1)

/-- At a first reduction step every store into the accumulator is the whole buffer, so its pieces cover it. -/
theorem scover1_first_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i) (x0 : Vec F S1024x512 .f32) (x1 : Vec F S512x256 .f32) (y : S1024x256.Idx) :
    ∃ pc ∈ (kernelRun1_first c i arg2 harg2 arg3 harg3 arg4 harg4 arg5 harg5 hc0 hc1 x0 x1).2.1, y ∈ pc.1.set :=
  View.cover_of_tiledL (kernelRun1_first c i arg2 harg2 arg3 harg3 arg4 harg4 arg5 harg5 hc0 hc1 x0 x1).2.1 S1024x256.size (by sl_kernel_rfl) y

/-- What a first reduction step leaves in the accumulator: its pieces read back. -/
def sout1_first_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i) (x0 : Vec F S1024x512 .f32) (x1 : Vec F S512x256 .f32) : Vec F S1024x256 .f32 :=
  VS1_0.read (Elt F) (VS1_0.writes (Elt F) VS1_0.junk (kernelRun1_first c i arg2 harg2 arg3 harg3 arg4 harg4 arg5 harg5 hc0 hc1 x0 x1).2.1)

/-- At a middle reduction step nothing is stored into the output window (it is idle there and not written back): no pieces. This
    value is a placeholder that nothing consults, since at such a point the window is neither written back nor read
    at the next point. -/
def out1_mid_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i) (x0 : Vec F S1024x512 .f32) (x1 : Vec F S512x256 .f32) (xs0 : Vec F S1024x256 .f32) : Vec F S1024x256 .f32 :=
  VO1_2.read (Elt F) (VO1_2.writes (Elt F) VO1_2.junk (kernelRun1_mid c i arg2 harg2 arg3 harg3 arg4 harg4 arg5 harg5 hc0 hc1 x0 x1 xs0).1)

/-- At a middle reduction step every store into the accumulator is the whole buffer, so its pieces cover it. -/
theorem scover1_mid_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i) (x0 : Vec F S1024x512 .f32) (x1 : Vec F S512x256 .f32) (xs0 : Vec F S1024x256 .f32) (y : S1024x256.Idx) :
    ∃ pc ∈ (kernelRun1_mid c i arg2 harg2 arg3 harg3 arg4 harg4 arg5 harg5 hc0 hc1 x0 x1 xs0).2.1, y ∈ pc.1.set :=
  View.cover_of_tiledL (kernelRun1_mid c i arg2 harg2 arg3 harg3 arg4 harg4 arg5 harg5 hc0 hc1 x0 x1 xs0).2.1 S1024x256.size (by sl_kernel_rfl) y

/-- What a middle reduction step leaves in the accumulator: its pieces read back. -/
def sout1_mid_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i) (x0 : Vec F S1024x512 .f32) (x1 : Vec F S512x256 .f32) (xs0 : Vec F S1024x256 .f32) : Vec F S1024x256 .f32 :=
  VS1_0.read (Elt F) (VS1_0.writes (Elt F) VS1_0.junk (kernelRun1_mid c i arg2 harg2 arg3 harg3 arg4 harg4 arg5 harg5 hc0 hc1 x0 x1 xs0).2.1)

/-- At a last reduction step the one store into the output window is the whole block, so its pieces cover it. -/
theorem cover1_last_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) (y : S1024x256.Idx) :
    ∃ pc ∈ (kernelRun1_last c i arg2 harg2 arg3 harg3 arg4 harg4 arg5 harg5 hc0 hc1 x0 x1 xs0).1, y ∈ pc.1.set :=
  View.cover_of_tiledL (kernelRun1_last c i arg2 harg2 arg3 harg3 arg4 harg4 arg5 harg5 hc0 hc1 x0 x1 xs0).1 S1024x256.size (by sl_kernel_rfl) y

/-- What a last reduction step leaves in the output window's staging buffer: its pieces read back. -/
def out1_last_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) : Vec F S1024x256 .f32 :=
  VO1_2.read (Elt F) (VO1_2.writes (Elt F) VO1_2.junk (kernelRun1_last c i arg2 harg2 arg3 harg3 arg4 harg4 arg5 harg5 hc0 hc1 x0 x1 xs0).1)

/-- At a last reduction step every store into the accumulator is the whole buffer, so its pieces cover it. -/
theorem scover1_last_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) (y : S1024x256.Idx) :
    ∃ pc ∈ (kernelRun1_last c i arg2 harg2 arg3 harg3 arg4 harg4 arg5 harg5 hc0 hc1 x0 x1 xs0).2.1, y ∈ pc.1.set :=
  View.cover_of_tiledL (kernelRun1_last c i arg2 harg2 arg3 harg3 arg4 harg4 arg5 harg5 hc0 hc1 x0 x1 xs0).2.1 S1024x256.size (by sl_kernel_rfl) y

/-- What a last reduction step leaves in the accumulator: its pieces read back. -/
def sout1_last_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) : Vec F S1024x256 .f32 :=
  VS1_0.read (Elt F) (VS1_0.writes (Elt F) VS1_0.junk (kernelRun1_last c i arg2 harg2 arg3 harg3 arg4 harg4 arg5 harg5 hc0 hc1 x0 x1 xs0).2.1)

/-! ## What the output window's buffer and the accumulator hold after each point -/

/-- THE ACCUMULATION along the reduction axis. After the body at position `n`: (the output window's staging buffer,
    the accumulator). Positions that are multiples of 8 are first steps (the accumulator restarts from zero, whatever
    the row block before left); positions 7 modulo 8 are last steps; the others middle steps, both over what the
    position before left in the accumulator. No position is a first and a last step at once. -/
def outsAt1 (c : Dev nD) : (n : ℕ) → n < cfg1.N → Vec F S1024x256 .f32 × Vec F S1024x256 .f32
  | 0, hn => (out1_first_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_first_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_first_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_first_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_last_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_last_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_mid_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_mid_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first step. -/
theorem outsAt1_first (c : Dev nD) (t : Fin cfg1.N) (h0 : t.val % 8 = 0) (h1 : ¬t.val % 8 = 7) :
    outsAt1 V c t.val t.isLt = (out1_first_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_first_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle step: over what the position before left in the accumulator. -/
theorem outsAt1_mid (c : Dev nD) (t : Fin cfg1.N) (h0 : ¬t.val % 8 = 0) (h1 : ¬t.val % 8 = 7) :
    outsAt1 V c t.val t.isLt = (out1_mid_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_mid_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: over what the position before left in the accumulator. -/
theorem outsAt1_last (c : Dev nD) (t : Fin cfg1.N) (h0 : ¬t.val % 8 = 0) (h1 : t.val % 8 = 7) :
    outsAt1 V c t.val t.isLt = (out1_last_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_last_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator's contents -/

/-- Before position `n`: before the first point the region's plain invariant (every scoped buffer that is no staging
    buffer at anything); afterwards the accumulator at what the position before left in it, every other such buffer
    unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After position `n` (before position `n + 1`). -/
theorem PhiS1_succ (c : Dev nD) (n : ℕ) (hn : n < cfg1.N) :
    PhiS1 V c (n + 1) hn = iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl

/-- Before a position that is not the first. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at point
    `t` each factor's buffer at its block and the output window's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each factor's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The factors' memrefs hold their blocks; the position modulo 8 says which control case the
    point is in, so that case's run applies. The invariant hands the body the accumulator — at what the position
    before left in it, or at anything before the first point; a first step takes it at anything either way — and takes
    it back at this position's contents, the pieces the run wrote covering it; the other scoped buffers and the
    generator register pass through unopened; the core owes nothing throughout. Away from a last step the output
    window's buffer is handed back as found; at a last step it is left at the stored block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [outsAt1_first V c t h0 h1]
      unfold sout1_first_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_first c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_first_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_first c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_first_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_last V c t h0 h1]
      unfold out1_last_2 sout1_last_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_last c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_last_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_last_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_mid V c t h0 h1]
      unfold sout1_mid_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_mid c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_mid_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives the plain one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Gen

end
-- ==== Proof.K.R2Run.lean ====
/-
  Region 2: the tiled product  cur · r_proj_t  (row tiles of 2048, the whole contraction of 256 in one step).
  The grid is 2 × 1, so the contraction coordinate is 0 at both points: each point is at once the first step
  (the accumulator is cleared) and the last (the accumulator is copied to the output tile).  This module holds the
  two branch conditions, decided over the grid, and the run of the kernel body in that one control case.
-/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first contraction step": the condition under which the accumulator is cleared. -/
abbrev cond2_0 (i : grid2.Coords) : Prop :=
  (Scalar.cmpi .ne (Scalar.extui (Scalar.cmpi .eq (BitVec.ofNat 32 (i 1).val) 0#32)) 0#32) = 1#1
/-- It holds at every point: the contraction axis has one step. -/
theorem hcond2_0 : ∀ t : Fin cfg2.N, cond2_0 (grid2.coords t) :=
  (by decide +kernel : ∀ t : Fin grid2.N, cond2_0 (grid2.coords t))

/-- "This is the last contraction step": the condition under which the output tile is written. -/
abbrev cond2_1 (i : grid2.Coords) : Prop := k2_cond2 i = 1#1
/-- It holds at every point as well. -/
theorem hcond2_1 : ∀ t : Fin cfg2.N, cond2_1 (grid2.coords t) :=
  (by decide +kernel : ∀ t : Fin grid2.N, cond2_1 (grid2.coords t))

/-! ## The staging memrefs and the accumulator -/

abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x256 .f32 := Memref.whole cc2_scratch0
/-- One staging buffer of the output window, through which its contents are stated. -/
abbrev VO2_2 : View sig .tc .vmem S2048x256 .f32 := (Memref.whole cc2_stg2_0 : Memref sig .tc .vmem S2048x256 .f32).view

/-! ## The body's run -/

set_option maxHeartbeats 1000000 in
/-- The body on whole memrefs, both conditions holding: from the two input tiles at `x0`, `x1`, the output tile and
    the accumulator at anything, it runs to the continuation with the inputs as they were, the output tile with the
    pieces `L2` written and the accumulator with the pieces `LS0` written.  The piece lists are what the symbolic
    run of the body's loads and stores finds. -/
noncomputable def kernelRun2 (c : Dev nD) (i : grid2.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond2_0 i) (hc1 : cond2_1 i) (x0 : Vec F S2048x256 .f32) (x1 : Vec F S256x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__mm_kernel i arg2 harg2 arg3 harg3 arg4 harg4 arg5 harg5) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.R2.lean ====
/-
  Region 2: the tiled product of a 4096 × 256 matrix with a 256 × 256 matrix, two row tiles of 2048, the whole
  contraction in one step.  The proof data of the region as a pipeline, over any contents `V` of the buffers at the
  region's entry: each input window's staging buffer holds its tile; the output's holds what the body's stores leave
  (the accumulator, cleared and then increased by the tile product, copied out); the accumulator itself is cleared at
  every point before it is read, so the region invariant keeps it at unspecified contents.  Then the body obligation.
-/
import proofs.«140739_j42683384987781_2_alg».proof.Proof.K.R2Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's current staging buffer holds its tile at every point, for any proof data over `V` whose body
    leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's: fetched at the first point only, its tile index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output window is live at every point: every point is a last contraction step. -/
theorem liveAt2_2 : ∀ t : Fin cfg2.N, cfg2.idle 2 (grid2.coords t) = false := by decide +kernel

/-! ## What the body leaves in the output tile -/

/-- The stores into the output's staging buffer tile it. -/
theorem cover2_2 (c : Dev nD) (i : grid2.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond2_0 i) (hc1 : cond2_1 i) (x0 : Vec F S2048x256 .f32) (x1 : Vec F S256x256 .f32) (y : S2048x256.Idx) :
    ∃ pc ∈ (kernelRun2 c i arg2 harg2 arg3 harg3 arg4 harg4 arg5 harg5 hc0 hc1 x0 x1).1, y ∈ pc.1.set :=
  View.cover_of_tiledL (kernelRun2 c i arg2 harg2 arg3 harg3 arg4 harg4 arg5 harg5 hc0 hc1 x0 x1).1 S2048x256.size (by sl_kernel_rfl) y

/-- What the body leaves in the output's staging buffer: its stores read back. -/
def out2_2 (c : Dev nD) (i : grid2.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond2_0 i) (hc1 : cond2_1 i) (x0 : Vec F S2048x256 .f32) (x1 : Vec F S256x256 .f32) : Vec F S2048x256 .f32 :=
  VO2_2.read (Elt F) (VO2_2.writes (Elt F) VO2_2.junk (kernelRun2 c i arg2 harg2 arg3 harg3 arg4 harg4 arg5 harg5 hc0 hc1 x0 x1).1)

/-- The output tile after the body at point `t`. -/
def outAt2 (c : Dev nD) (t : Fin cfg2.N) : Vec F S2048x256 .f32 :=
  out2_2 c (grid2.coords t) (ms2_0 t) (hs2_0 t) (ms2_1 t) (hs2_1 t) (ms2_2 t) (hs2_2 t) scM2_0 (Memref.isWhole_whole _)
    (hcond2_0 t) (hcond2_1 t) (iblk2 V c 0 t) (iblk2 V c 1 t)

/-! ## The proof data -/

/-- The region's proof data on core `c`: the arrays as the region finds them; after the body at point `t` each
    input's buffer at its tile and the output's at `outAt2`; the invariant the kernel's scoped buffers at anything
    and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The region invariant with the accumulator split off as a memref owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 800000 in
/-- The body at any point: the inputs' memrefs hold their tiles; both conditions hold; the run applies; the
    accumulator is taken out of the invariant at anything and put back at anything; the core owes nothing. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (ms2_0 t) fullShare ((dat2 V c).after 0 t) from rfl,
    show (dat2 V c).leavesExact 1 t = owns (c : Thread nD τ) (ms2_1 t) fullShare ((dat2 V c).after 1 t) from rfl,
    show (dat2 V c).leavesExact 2 t = owns (c : Thread nD τ) (ms2_2 t) fullShare ((dat2 V c).after 2 t) from by
      unfold Dat.leavesExact; rw [liveAt2_2 t],
    after2_0, after2_1, after2_2]
  rw [show (dat2 V c).Φ t.castSucc = Pipeline.ΦA spec2 c from rfl, PhiA2_eq]
  unfold outAt2 out2_2
  iintro ⟨⟨⟨HS0, Hrest⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, and the invariant after the last is
    what the region gives back. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Gen

end
-- ==== Proof.K.R3Runs.lean ====
/- Region 3: the tiled matrix product C = A · B on a 4 × 8 grid — row blocks of 1024, reduction blocks of 512,
   an accumulator carried along the reduction axis, zeroed at its first step and copied to the output block at
   its last. What the three control cases (first / middle / last reduction step) share: the windows' blocks read
   off the entry contents, the two branch conditions in closed form over the 32 points, where the output window
   is idle, the memrefs the body is called with, and the region invariant with the accumulator split off. -/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Ring
import Idealize.ShloMosaic.Lib.Tactic

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's staging buffer holds its block at every point, fetched there or not, for any proof data whose
    array is the entry contents and whose body leaves the block in place: the window is an input, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the right factor's staging buffer. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions on the reduction coordinate -/

/-- "This is the first reduction step" (the accumulator is zeroed under it), as the body computes it from the coordinates. -/
abbrev cond3_0 (i : grid3.Coords) : Prop := (Scalar.cmpi .ne (Scalar.extui (Scalar.cmpi .eq (BitVec.ofNat 32 (i 1).val) 0#32)) 0#32) = 1#1
/-- It holds exactly at the points whose position is a multiple of 8. -/
theorem hcond3_0 : ∀ t : Fin cfg3.N, cond3_0 (grid3.coords t) ↔ t.val % 8 = 0 :=
  (by decide +kernel : ∀ t : Fin grid3.N, cond3_0 (grid3.coords t) ↔ t.val % 8 = 0)

/-- "This is the last reduction step" (the output block is stored under it). -/
abbrev cond3_1 (i : grid3.Coords) : Prop := k3_cond2 i = 1#1
/-- It holds exactly at the points whose position is 7 modulo 8. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The two factors are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last reduction step the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- At the last reduction step it is live. -/
theorem liveAt3_2 : ∀ t : Fin cfg3.N, cond3_1 (grid3.coords t) → cfg3.idle 2 (grid3.coords t) = false := by decide +kernel

/-! ## The memrefs the body is called with -/

/-- One staging buffer of the output window, through which its contents are stated (which one does not matter). -/
abbrev VO3_2 : View sig .tc .vmem S1024x256 .f32 := (Memref.whole cc3_stg2_0 : Memref sig .tc .vmem S1024x256 .f32).view
/-- Each window's current staging memref at point `t`, spelled as the pipeline passes it, and its wholeness. -/
abbrev ms3_0 (t : Fin cfg3.N) : Memref sig .tc .vmem S1024x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x256 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows and carried from point to point. -/
abbrev scM3_0 : Memref sig .tc .vmem S1024x256 .f32 := Memref.whole cc3_scratch0
/-- The accumulator as a view: what it holds is stated through it. -/
abbrev VS3_0 : View sig .tc .vmem S1024x256 .f32 := scM3_0.view

/-- The region's invariant with the accumulator split off as a memref owned at some contents; every other scoped
    buffer stays unopened. This is what the body obligation hands the body at the first point. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

end Cert.Kernel.Gen

end
-- ==== Proof.K.R3RunMid.lean ====
/- Region 3, a middle reduction step: the whole body run on any whole staging memrefs. -/
import proofs.«140739_j42683384987781_2_alg».proof.Proof.K.R3Runs

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A MIDDLE reduction step (neither condition holds): the body reads both factors' blocks and the accumulator and
    stores the accumulator plus the blocks' product back; it stores nothing into the output window, which is handed
    back untouched at the contents `xi2` it came with. The pieces the accumulator ends with are the witness the
    run produces; the output's list of pieces is empty. -/
noncomputable def kernelRun3_mid (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__mm_kernel i arg2 harg2 arg3 harg3 arg4 harg4 arg5 harg5) K } := by
  refine ⟨[], ?_, fun xi2 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gen

end
-- ==== Proof.K.R3RunFirst.lean ====
/- Region 3, a first reduction step: the whole body run on any whole staging memrefs. -/
import proofs.«140739_j42683384987781_2_alg».proof.Proof.K.R3RunMid

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A FIRST reduction step (the first condition holds, the second does not): the body zeroes the accumulator — whatever
    it held, so it is taken at any contents —, then reads both factors' blocks and stores zero plus their product
    into it; the output window is handed back untouched at the contents `xi2` it came with. The accumulator's pieces
    (last store first) are the witness the run produces; the output's list of pieces is empty. -/
noncomputable def kernelRun3_first (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x512 .f32) (x1 : Vec F S512x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__mm_kernel i arg2 harg2 arg3 harg3 arg4 harg4 arg5 harg5) K } := by
  refine ⟨[], ?_, fun xi2 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gen

end
-- ==== Proof.K.R3RunLast.lean ====
/- Region 3, a last reduction step: the whole body run on any whole staging memrefs. -/
import proofs.«140739_j42683384987781_2_alg».proof.Proof.K.R3RunFirst

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A LAST reduction step (the second condition holds, the first does not): the body accumulates as at a middle
    step, then copies the accumulator into the output window's staging buffer — whatever that held, so it is taken
    at any contents. Both lists of pieces are witnesses the run produces. -/
noncomputable def kernelRun3_last (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__mm_kernel i arg2 harg2 arg3 harg3 arg4 harg4 arg5 harg5) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.R3.lean ====
/- Region 3: the frame data of the tiled matrix product on the 4 × 8 grid — what each control case leaves in the
   output window's buffer and in the accumulator, those contents point by point along the reduction axis, the region
   invariant carrying the accumulator, the pipeline's proof data at the entry contents, and the body obligation. -/
import proofs.«140739_j42683384987781_2_alg».proof.Proof.K.R3RunLast

-- membership of an index in a rectangle of these extents is checked structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each control case leaves in the output window's buffer and in the accumulator -/

/-- At a first reduction step nothing is stored into the output window (it is idle there and not written back): no pieces. This
    value is a placeholder that nothing consults, since at such a point the window is neither written back nor read
    at the next point. -/
def out3_first_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x512 .f32) (x1 : Vec F S512x256 .f32) : Vec F S1024x256 .f32 :=
  VO3_2.read (Elt F) (VO3_2.writes (Elt F) VO3_2.junk (kernelRun3_first c i arg2 harg2 arg3 harg3 arg4 harg4 arg5 harg5 hc0 hc1 x0 x1).1)

/-- At a first reduction step every store into the accumulator is the whole buffer, so its pieces cover it. -/
theorem scover3_first_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x512 .f32) (x1 : Vec F S512x256 .f32) (y : S1024x256.Idx) :
    ∃ pc ∈ (kernelRun3_first c i arg2 harg2 arg3 harg3 arg4 harg4 arg5 harg5 hc0 hc1 x0 x1).2.1, y ∈ pc.1.set :=
  View.cover_of_tiledL (kernelRun3_first c i arg2 harg2 arg3 harg3 arg4 harg4 arg5 harg5 hc0 hc1 x0 x1).2.1 S1024x256.size (by sl_kernel_rfl) y

/-- What a first reduction step leaves in the accumulator: its pieces read back. -/
def sout3_first_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x512 .f32) (x1 : Vec F S512x256 .f32) : Vec F S1024x256 .f32 :=
  VS3_0.read (Elt F) (VS3_0.writes (Elt F) VS3_0.junk (kernelRun3_first c i arg2 harg2 arg3 harg3 arg4 harg4 arg5 harg5 hc0 hc1 x0 x1).2.1)

/-- At a middle reduction step nothing is stored into the output window (it is idle there and not written back): no pieces. This
    value is a placeholder that nothing consults, since at such a point the window is neither written back nor read
    at the next point. -/
def out3_mid_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x512 .f32) (x1 : Vec F S512x256 .f32) (xs0 : Vec F S1024x256 .f32) : Vec F S1024x256 .f32 :=
  VO3_2.read (Elt F) (VO3_2.writes (Elt F) VO3_2.junk (kernelRun3_mid c i arg2 harg2 arg3 harg3 arg4 harg4 arg5 harg5 hc0 hc1 x0 x1 xs0).1)

/-- At a middle reduction step every store into the accumulator is the whole buffer, so its pieces cover it. -/
theorem scover3_mid_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x512 .f32) (x1 : Vec F S512x256 .f32) (xs0 : Vec F S1024x256 .f32) (y : S1024x256.Idx) :
    ∃ pc ∈ (kernelRun3_mid c i arg2 harg2 arg3 harg3 arg4 harg4 arg5 harg5 hc0 hc1 x0 x1 xs0).2.1, y ∈ pc.1.set :=
  View.cover_of_tiledL (kernelRun3_mid c i arg2 harg2 arg3 harg3 arg4 harg4 arg5 harg5 hc0 hc1 x0 x1 xs0).2.1 S1024x256.size (by sl_kernel_rfl) y

/-- What a middle reduction step leaves in the accumulator: its pieces read back. -/
def sout3_mid_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x512 .f32) (x1 : Vec F S512x256 .f32) (xs0 : Vec F S1024x256 .f32) : Vec F S1024x256 .f32 :=
  VS3_0.read (Elt F) (VS3_0.writes (Elt F) VS3_0.junk (kernelRun3_mid c i arg2 harg2 arg3 harg3 arg4 harg4 arg5 harg5 hc0 hc1 x0 x1 xs0).2.1)

/-- At a last reduction step the one store into the output window is the whole block, so its pieces cover it. -/
theorem cover3_last_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) (y : S1024x256.Idx) :
    ∃ pc ∈ (kernelRun3_last c i arg2 harg2 arg3 harg3 arg4 harg4 arg5 harg5 hc0 hc1 x0 x1 xs0).1, y ∈ pc.1.set :=
  View.cover_of_tiledL (kernelRun3_last c i arg2 harg2 arg3 harg3 arg4 harg4 arg5 harg5 hc0 hc1 x0 x1 xs0).1 S1024x256.size (by sl_kernel_rfl) y

/-- What a last reduction step leaves in the output window's staging buffer: its pieces read back. -/
def out3_last_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) : Vec F S1024x256 .f32 :=
  VO3_2.read (Elt F) (VO3_2.writes (Elt F) VO3_2.junk (kernelRun3_last c i arg2 harg2 arg3 harg3 arg4 harg4 arg5 harg5 hc0 hc1 x0 x1 xs0).1)

/-- At a last reduction step every store into the accumulator is the whole buffer, so its pieces cover it. -/
theorem scover3_last_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) (y : S1024x256.Idx) :
    ∃ pc ∈ (kernelRun3_last c i arg2 harg2 arg3 harg3 arg4 harg4 arg5 harg5 hc0 hc1 x0 x1 xs0).2.1, y ∈ pc.1.set :=
  View.cover_of_tiledL (kernelRun3_last c i arg2 harg2 arg3 harg3 arg4 harg4 arg5 harg5 hc0 hc1 x0 x1 xs0).2.1 S1024x256.size (by sl_kernel_rfl) y

/-- What a last reduction step leaves in the accumulator: its pieces read back. -/
def sout3_last_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) : Vec F S1024x256 .f32 :=
  VS3_0.read (Elt F) (VS3_0.writes (Elt F) VS3_0.junk (kernelRun3_last c i arg2 harg2 arg3 harg3 arg4 harg4 arg5 harg5 hc0 hc1 x0 x1 xs0).2.1)

/-! ## What the output window's buffer and the accumulator hold after each point -/

/-- THE ACCUMULATION along the reduction axis. After the body at position `n`: (the output window's staging buffer,
    the accumulator). Positions that are multiples of 8 are first steps (the accumulator restarts from zero, whatever
    the row block before left); positions 7 modulo 8 are last steps; the others middle steps, both over what the
    position before left in the accumulator. No position is a first and a last step at once. -/
def outsAt3 (c : Dev nD) : (n : ℕ) → n < cfg3.N → Vec F S1024x256 .f32 × Vec F S1024x256 .f32
  | 0, hn => (out3_first_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_first_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (out3_first_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_first_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_last_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_last_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_mid_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_mid_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a first step. -/
theorem outsAt3_first (c : Dev nD) (t : Fin cfg3.N) (h0 : t.val % 8 = 0) (h1 : ¬t.val % 8 = 7) :
    outsAt3 V c t.val t.isLt = (out3_first_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_first_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a middle step: over what the position before left in the accumulator. -/
theorem outsAt3_mid (c : Dev nD) (t : Fin cfg3.N) (h0 : ¬t.val % 8 = 0) (h1 : ¬t.val % 8 = 7) :
    outsAt3 V c t.val t.isLt = (out3_mid_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_mid_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a last step: over what the position before left in the accumulator. -/
theorem outsAt3_last (c : Dev nD) (t : Fin cfg3.N) (h0 : ¬t.val % 8 = 0) (h1 : t.val % 8 = 7) :
    outsAt3 V c t.val t.isLt = (out3_last_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_last_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator's contents -/

/-- Before position `n`: before the first point the region's plain invariant (every scoped buffer that is no staging
    buffer at anything); afterwards the accumulator at what the position before left in it, every other such buffer
    unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After position `n` (before position `n + 1`). -/
theorem PhiS3_succ (c : Dev nD) (n : ℕ) (hn : n < cfg3.N) :
    PhiS3 V c (n + 1) hn = iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r)) := rfl

/-- Before a position that is not the first. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region's pipeline on core `c`: the arrays as the region finds them; after the body at point
    `t` each factor's buffer at its block and the output window's at `outsAt3`'s first component; the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each factor's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The factors' memrefs hold their blocks; the position modulo 8 says which control case the
    point is in, so that case's run applies. The invariant hands the body the accumulator — at what the position
    before left in it, or at anything before the first point; a first step takes it at anything either way — and takes
    it back at this position's contents, the pieces the run wrote covering it; the other scoped buffers and the
    generator register pass through unopened; the core owes nothing throughout. Away from a last step the output
    window's buffer is handed back as found; at a last step it is left at the stored block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 8 = 0
  · by_cases h1 : t.val % 8 = 7
    · exfalso; omega
    · rw [Dat.leavesExact_idle (dat3 V c) 2 t (idleAt3_2 t (fun h => h1 ((hcond3_1 t).mp h))) (noFlush3_2 t (fun h => h1 ((hcond3_1 t).mp h)))]
      rw [outsAt3_first V c t h0 h1]
      unfold sout3_first_0; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩⟩
        iapply ((kernelRun3_first c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_first_0 c _ _ _ _ _ _ _ _ _ _ _ _ _)
            iexact Hrest
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, Hrest⟩, Hg⟩, Ho, ⟨%d0, H0⟩, ⟨%d1, H1⟩, ⟨%d2, H2⟩⟩
        iapply ((kernelRun3_first c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_first_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_last V c t h0 h1]
      unfold out3_last_2 sout3_last_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩⟩
      iapply ((kernelRun3_last c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_last_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_last_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_mid V c t h0 h1]
      unfold sout3_mid_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩⟩
      iapply ((kernelRun3_mid c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_mid_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any position but the first the invariant gives the plain one back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.Kernel.Gen

end
-- ==== Proof.K.R4Runs.lean ====
/- Region 4 of @main (the matrix product that also accumulates the row sums of its left operand):
   what the three control cases of its body share. The body zeroes its two accumulators at the first step of the
   contraction axis (k = 0), adds the step's partial product and partial row sums into them at every step, and copies
   them to the two outputs at the last step (k = 7). Here: the two branch conditions in closed form over the grid,
   where the output windows are idle, the staging and accumulator memrefs, and the region invariant with the two
   accumulators split off the scoped rest. -/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's current staging buffer holds its block at every point, for any proof data whose array is
    `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the right operand. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first branch (k = 0), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8) — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's last branch (k = 7), from the grid coordinates. -/
abbrev cond4_1 (i : grid4.Coords) : Prop := k4_cond2 i = 1#1
/-- It holds at the points ≡ 7 (mod 8) — decided over the grid. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- The operands are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where k ≠ 7 the two outputs are idle and not written back; where k = 7 they are live. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

/-- One staging buffer of each output window, through which its contents are stated (the choice does not matter). -/
abbrev VO4_2 : View sig .tc .vmem S1024x256 .f32 := (Memref.whole cc4_stg2_0 : Memref sig .tc .vmem S1024x256 .f32).view
abbrev VO4_3 : View sig .tc .vmem S1024x128 .f32 := (Memref.whole cc4_stg3_0 : Memref sig .tc .vmem S1024x128 .f32).view
/-- Each window's current staging memref at point `t`, as the pipeline passes it, and its wholeness. -/
abbrev ms4_0 (t : Fin cfg4.N) : Memref sig .tc .vmem S1024x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
/-- The two accumulators: whole scoped buffers of the kernel's own, passed beside the windows. -/
abbrev scM4_0 : Memref sig .tc .vmem S1024x256 .f32 := Memref.whole cc4_scratch0
abbrev scM4_1 : Memref sig .tc .vmem S1024x128 .f32 := Memref.whole cc4_scratch1
/-- The accumulators as views: what they hold is stated through these. -/
abbrev VS4_0 : View sig .tc .vmem S1024x256 .f32 := scM4_0.view
abbrev VS4_1 : View sig .tc .vmem S1024x128 .f32 := scM4_1.view

/-- The scoped buffers that are neither staging buffers of this region nor its accumulators, and the generator
    register: what the body never touches. -/
abbrev Rest4 (c : Dev nD) : sProp 𝕄 :=
  iprop(Pipeline.scopedRestBut (Ix := Unit) (Name := ℕ) (U := UR sig nD τ) (Lvl := ℕ) (Val := Elt F) spec4 c [cc4_scratch0, cc4_scratch1] ∗ (∃ r, prngReg c r))

/-- The region invariant with the two accumulators as memrefs owned at some contents, the rest unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Gen

end
-- ==== Proof.K.R4RunA.lean ====
/- Region 4 of @main: the whole-body run of its kernel at the first step of the contraction axis (k = 0), where the
   body zeroes both accumulators, adds the step's partial product and partial row sums into them, and stores nothing
   into the outputs. The pieces each accumulator ends with are the witness the run finds. -/
import proofs.«140739_j42683384987781_2_alg».proof.Proof.K.R4Runs

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 0 (and k ≠ 7), on whole memrefs — the operands' at their contents `x0`, `x1`, the outputs' at
    contents `xi2`, `xi3` handed back untouched, the accumulators' at anything — the body runs to the continuation
    holding the operands and outputs as they were and each accumulator with its pieces written (last first). -/
noncomputable def kernelRun4_A (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__mm_degree_kernel i arg2 harg2 arg3 harg3 arg4 harg4 arg5 harg5 arg6 harg6 arg7 harg7) K } := by
  refine ⟨?_, ?_, fun xi2 xi3 E K => ?run⟩
  case run =>
    simp only [cc4__mm_degree_kernel_eq_skeleton]; unfold cc4__mm_degree_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Gen

end
-- ==== Proof.K.R4RunB.lean ====
/- Region 4 of @main: the whole-body run of its kernel at a middle step of the contraction axis (k ≠ 0, k ≠ 7), where the
   body adds the step's partial product and partial row sums into the accumulators and stores nothing into the
   outputs. The pieces each accumulator ends with are the witness the run finds. -/
import proofs.«140739_j42683384987781_2_alg».proof.Proof.K.R4RunA

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k ≠ 0 and k ≠ 7, on whole memrefs — the operands' at their contents `x0`, `x1`, the outputs' at
    contents `xi2`, `xi3` handed back untouched, the accumulators' at what the point before left (`xs0`, `xs1`) —
    the body runs to the continuation holding the operands and outputs as they were and each accumulator with its
    pieces written (last first). -/
noncomputable def kernelRun4_B (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__mm_degree_kernel i arg2 harg2 arg3 harg3 arg4 harg4 arg5 harg5 arg6 harg6 arg7 harg7) K } := by
  refine ⟨?_, ?_, fun xi2 xi3 E K => ?run⟩
  case run =>
    simp only [cc4__mm_degree_kernel_eq_skeleton]; unfold cc4__mm_degree_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Gen

end
-- ==== Proof.K.R4RunC.lean ====
/- Region 4 of @main: the whole-body run of its kernel at the last step of the contraction axis (k = 7), where the
   body adds the step's partial product and partial row sums into the accumulators and then copies the accumulators
   to the two outputs. The pieces each output and each accumulator ends with are the witness the run finds. -/
import proofs.«140739_j42683384987781_2_alg».proof.Proof.K.R4RunB

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 7 (and k ≠ 0), on whole memrefs — the operands' at their contents `x0`, `x1`, the outputs' at
    anything, the accumulators' at what the point before left (`xs0`, `xs1`) — the body runs to the continuation
    holding the operands as they were and each output and each accumulator with its pieces written (last first). -/
noncomputable def kernelRun4_C (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) :
    Σ' (L2 : List (View.Piece (Elt F) S1024x256 .f32)) (L3 : List (View.Piece (Elt F) S1024x128 .f32))
       (LS0 : List (View.Piece (Elt F) S1024x256 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__mm_degree_kernel i arg2 harg2 arg3 harg3 arg4 harg4 arg5 harg5 arg6 harg6 arg7 harg7) K } := by
  refine ⟨?_, ?_, ?_, ?_, fun E K => ?run⟩
  case run =>
    simp only [cc4__mm_degree_kernel_eq_skeleton]; unfold cc4__mm_degree_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Gen

end
-- ==== Proof.K.R4.lean ====
/- Region 4 of @main (the matrix product that also accumulates the row sums of its left operand):
   its proof data and body obligation at any entry contents `V`. Per control case, what the body leaves in the two
   accumulators and (at k = 7) in the two outputs, as the run's pieces read back; point by point, what the outputs and
   the accumulators hold (`outsAt4`); the invariant carrying the two accumulators' contents from point to point
   beside the untouched scoped rest; the proof data `dat4`; the body obligation; and the invariant's two ends. -/
import proofs.«140739_j42683384987781_2_alg».proof.Proof.K.R4RunC

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## What each case leaves -/

/-- At k = 0 the pieces written into the product accumulator cover it (whole-buffer stores, checked by evaluation). -/
theorem scover4_A_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) (y : S1024x256.Idx) :
    ∃ pc ∈ (kernelRun4_A c i arg2 harg2 arg3 harg3 arg4 harg4 arg5 harg5 arg6 harg6 arg7 harg7 hc0 hc1 x0 x1).1, y ∈ pc.1.set :=
  View.cover_of_tiledL (kernelRun4_A c i arg2 harg2 arg3 harg3 arg4 harg4 arg5 harg5 arg6 harg6 arg7 harg7 hc0 hc1 x0 x1).1 S1024x256.size (by sl_kernel_rfl) y

/-- What the body leaves in the product accumulator at k = 0: its pieces read back over junk. -/
def sout4_A_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) : Vec F S1024x256 .f32 :=
  VS4_0.read (Elt F) (VS4_0.writes (Elt F) VS4_0.junk (kernelRun4_A c i arg2 harg2 arg3 harg3 arg4 harg4 arg5 harg5 arg6 harg6 arg7 harg7 hc0 hc1 x0 x1).1)

/-- At k = 0 the pieces written into the row-sum accumulator cover it (whole-buffer stores, checked by evaluation). -/
theorem scover4_A_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) (y : S1024x128.Idx) :
    ∃ pc ∈ (kernelRun4_A c i arg2 harg2 arg3 harg3 arg4 harg4 arg5 harg5 arg6 harg6 arg7 harg7 hc0 hc1 x0 x1).2.1, y ∈ pc.1.set :=
  View.cover_of_tiledL (kernelRun4_A c i arg2 harg2 arg3 harg3 arg4 harg4 arg5 harg5 arg6 harg6 arg7 harg7 hc0 hc1 x0 x1).2.1 S1024x128.size (by sl_kernel_rfl) y

/-- What the body leaves in the row-sum accumulator at k = 0: its pieces read back over junk. -/
def sout4_A_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) : Vec F S1024x128 .f32 :=
  VS4_1.read (Elt F) (VS4_1.writes (Elt F) VS4_1.junk (kernelRun4_A c i arg2 harg2 arg3 harg3 arg4 harg4 arg5 harg5 arg6 harg6 arg7 harg7 hc0 hc1 x0 x1).2.1)

/-- At a middle step the pieces written into the product accumulator cover it (whole-buffer stores, checked by evaluation). -/
theorem scover4_B_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) (y : S1024x256.Idx) :
    ∃ pc ∈ (kernelRun4_B c i arg2 harg2 arg3 harg3 arg4 harg4 arg5 harg5 arg6 harg6 arg7 harg7 hc0 hc1 x0 x1 xs0 xs1).1, y ∈ pc.1.set :=
  View.cover_of_tiledL (kernelRun4_B c i arg2 harg2 arg3 harg3 arg4 harg4 arg5 harg5 arg6 harg6 arg7 harg7 hc0 hc1 x0 x1 xs0 xs1).1 S1024x256.size (by sl_kernel_rfl) y

/-- What the body leaves in the product accumulator at a middle step: its pieces read back over junk. -/
def sout4_B_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) : Vec F S1024x256 .f32 :=
  VS4_0.read (Elt F) (VS4_0.writes (Elt F) VS4_0.junk (kernelRun4_B c i arg2 harg2 arg3 harg3 arg4 harg4 arg5 harg5 arg6 harg6 arg7 harg7 hc0 hc1 x0 x1 xs0 xs1).1)

/-- At a middle step the pieces written into the row-sum accumulator cover it (whole-buffer stores, checked by evaluation). -/
theorem scover4_B_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) (y : S1024x128.Idx) :
    ∃ pc ∈ (kernelRun4_B c i arg2 harg2 arg3 harg3 arg4 harg4 arg5 harg5 arg6 harg6 arg7 harg7 hc0 hc1 x0 x1 xs0 xs1).2.1, y ∈ pc.1.set :=
  View.cover_of_tiledL (kernelRun4_B c i arg2 harg2 arg3 harg3 arg4 harg4 arg5 harg5 arg6 harg6 arg7 harg7 hc0 hc1 x0 x1 xs0 xs1).2.1 S1024x128.size (by sl_kernel_rfl) y

/-- What the body leaves in the row-sum accumulator at a middle step: its pieces read back over junk. -/
def sout4_B_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) : Vec F S1024x128 .f32 :=
  VS4_1.read (Elt F) (VS4_1.writes (Elt F) VS4_1.junk (kernelRun4_B c i arg2 harg2 arg3 harg3 arg4 harg4 arg5 harg5 arg6 harg6 arg7 harg7 hc0 hc1 x0 x1 xs0 xs1).2.1)

/-- At k = 7 the pieces written into the product output cover it (whole-buffer stores, checked by evaluation). -/
theorem cover4_C_2 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x256.Idx) :
    ∃ pc ∈ (kernelRun4_C c i arg2 harg2 arg3 harg3 arg4 harg4 arg5 harg5 arg6 harg6 arg7 harg7 hc0 hc1 x0 x1 xs0 xs1).1, y ∈ pc.1.set :=
  View.cover_of_tiledL (kernelRun4_C c i arg2 harg2 arg3 harg3 arg4 harg4 arg5 harg5 arg6 harg6 arg7 harg7 hc0 hc1 x0 x1 xs0 xs1).1 S1024x256.size (by sl_kernel_rfl) y

/-- What the body leaves in the product output at k = 7: its pieces read back over junk. -/
def out4_C_2 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x256 .f32 :=
  VO4_2.read (Elt F) (VO4_2.writes (Elt F) VO4_2.junk (kernelRun4_C c i arg2 harg2 arg3 harg3 arg4 harg4 arg5 harg5 arg6 harg6 arg7 harg7 hc0 hc1 x0 x1 xs0 xs1).1)

/-- At k = 7 the pieces written into the row-sum output cover it (whole-buffer stores, checked by evaluation). -/
theorem cover4_C_3 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x128.Idx) :
    ∃ pc ∈ (kernelRun4_C c i arg2 harg2 arg3 harg3 arg4 harg4 arg5 harg5 arg6 harg6 arg7 harg7 hc0 hc1 x0 x1 xs0 xs1).2.1, y ∈ pc.1.set :=
  View.cover_of_tiledL (kernelRun4_C c i arg2 harg2 arg3 harg3 arg4 harg4 arg5 harg5 arg6 harg6 arg7 harg7 hc0 hc1 x0 x1 xs0 xs1).2.1 S1024x128.size (by sl_kernel_rfl) y

/-- What the body leaves in the row-sum output at k = 7: its pieces read back over junk. -/
def out4_C_3 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x128 .f32 :=
  VO4_3.read (Elt F) (VO4_3.writes (Elt F) VO4_3.junk (kernelRun4_C c i arg2 harg2 arg3 harg3 arg4 harg4 arg5 harg5 arg6 harg6 arg7 harg7 hc0 hc1 x0 x1 xs0 xs1).2.1)

/-- At k = 7 the pieces written into the product accumulator cover it (whole-buffer stores, checked by evaluation). -/
theorem scover4_C_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x256.Idx) :
    ∃ pc ∈ (kernelRun4_C c i arg2 harg2 arg3 harg3 arg4 harg4 arg5 harg5 arg6 harg6 arg7 harg7 hc0 hc1 x0 x1 xs0 xs1).2.2.1, y ∈ pc.1.set :=
  View.cover_of_tiledL (kernelRun4_C c i arg2 harg2 arg3 harg3 arg4 harg4 arg5 harg5 arg6 harg6 arg7 harg7 hc0 hc1 x0 x1 xs0 xs1).2.2.1 S1024x256.size (by sl_kernel_rfl) y

/-- What the body leaves in the product accumulator at k = 7: its pieces read back over junk. -/
def sout4_C_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x256 .f32 :=
  VS4_0.read (Elt F) (VS4_0.writes (Elt F) VS4_0.junk (kernelRun4_C c i arg2 harg2 arg3 harg3 arg4 harg4 arg5 harg5 arg6 harg6 arg7 harg7 hc0 hc1 x0 x1 xs0 xs1).2.2.1)

/-- At k = 7 the pieces written into the row-sum accumulator cover it (whole-buffer stores, checked by evaluation). -/
theorem scover4_C_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x128.Idx) :
    ∃ pc ∈ (kernelRun4_C c i arg2 harg2 arg3 harg3 arg4 harg4 arg5 harg5 arg6 harg6 arg7 harg7 hc0 hc1 x0 x1 xs0 xs1).2.2.2.1, y ∈ pc.1.set :=
  View.cover_of_tiledL (kernelRun4_C c i arg2 harg2 arg3 harg3 arg4 harg4 arg5 harg5 arg6 harg6 arg7 harg7 hc0 hc1 x0 x1 xs0 xs1).2.2.2.1 S1024x128.size (by sl_kernel_rfl) y

/-- What the body leaves in the row-sum accumulator at k = 7: its pieces read back over junk. -/
def sout4_C_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x128 .f32 :=
  VS4_1.read (Elt F) (VS4_1.writes (Elt F) VS4_1.junk (kernelRun4_C c i arg2 harg2 arg3 harg3 arg4 harg4 arg5 harg5 arg6 harg6 arg7 harg7 hc0 hc1 x0 x1 xs0 xs1).2.2.2.1)

/-- What the proof data names for an output's staging buffer at a point that stores nothing into it: nothing consults
    it (the window is idle there and not written back). -/
def hole4_2 : Vec F S1024x256 .f32 := VO4_2.read (Elt F) (VO4_2.writes (Elt F) VO4_2.junk [])
def hole4_3 : Vec F S1024x128 .f32 := VO4_3.read (Elt F) (VO4_3.writes (Elt F) VO4_3.junk [])

/-! ## What the outputs and the accumulators hold after each point -/

/-- After the body at position `n`: (the product output's staging buffer, the row-sum output's, the product
    accumulator, the row-sum accumulator). The case is selected by `n mod 8`; the accumulators a case reads are what
    position `n - 1` left. -/
def outsAt4 (c : Dev nD) : (n : ℕ) → n < cfg4.N → Vec F S1024x256 .f32 × Vec F S1024x128 .f32 × Vec F S1024x256 .f32 × Vec F S1024x128 .f32
  | 0, hn => (hole4_2, hole4_3, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (by decide : ¬(0 % 8 = 7)) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (by decide : ¬(0 % 8 = 7)) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then False.elim (by omega)
      else (hole4_2, hole4_3, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
      else (hole4_2, hole4_3, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at a point with k = 0. -/
theorem outsAt4_A (c : Dev nD) (t : Fin cfg4.N) (h0 : t.val % 8 = 0) (h1 : ¬t.val % 8 = 7) :
    outsAt4 V c t.val t.isLt = (hole4_2, hole4_3, sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point: over what the point before left. -/
theorem outsAt4_B (c : Dev nD) (t : Fin cfg4.N) (h0 : ¬t.val % 8 = 0) (h1 : ¬t.val % 8 = 7) :
    outsAt4 V c t.val t.isLt = (hole4_2, hole4_3, sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point with k = 7: over what the point before left. -/
theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is no
    staging buffer at anything, the generator register at some state); afterwards the two accumulators at what the
    point before left in them, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.1 ∗ owns (c : Thread nD τ) scM4_1 fullShare (outsAt4 V c (n - 1) (by omega)).2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the region on core `c`: the arrays as the region finds them (`V`); after the body at point `t`
    each operand's buffer at its block and each output's at `outsAt4`'s component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

/-- Each operand's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the operands' memrefs hold their blocks; `t mod 8` says which case the point is in; the
    invariant hands the body the accumulators at what the point before left (at anything before the first point) and
    takes them back at this point's contents; where k ≠ 7 the outputs' buffers are handed back as found, at k = 7 with
    the accumulators' copies; the other scoped buffers, the generator register and what the core owes pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 8 = 0
  · by_cases h1 : t.val % 8 = 7
    · exfalso; omega
    · have hc1 : ¬cond4_1 (grid4.coords t) := fun h => h1 ((hcond4_1 t).mp h)
      rw [Dat.leavesExact_idle (dat4 V c) 2 t (idleAt4_2 t hc1) (noFlush4_2 t hc1),
        Dat.leavesExact_idle (dat4 V c) 3 t (idleAt4_3 t hc1) (noFlush4_3 t hc1)]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) hc1 (iblk4 V c 0 t) (iblk4 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) hc1 (iblk4 V c 0 t) (iblk4 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    have hc0 : ¬cond4_0 (grid4.coords t) := fun h => h0 ((hcond4_0 t).mp h)
    by_cases h1 : t.val % 8 = 7
    · have hc1 : cond4_1 (grid4.coords t) := (hcond4_1 t).mpr h1
      rw [show (dat4 V c).leavesExact 2 t = owns (c : Thread nD τ) (ms4_2 t) fullShare ((dat4 V c).after 2 t) from by
        unfold Dat.leavesExact; rw [liveAt4_2 t hc1], after4_2]
      rw [show (dat4 V c).leavesExact 3 t = owns (c : Thread nD τ) (ms4_3 t) fullShare ((dat4 V c).after 3 t) from by
        unfold Dat.leavesExact; rw [liveAt4_3 t hc1], after4_3]
      rw [outsAt4_C V c t h0 h1]
      unfold out4_C_2 out4_C_3 sout4_C_0 sout4_C_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun4_C c (grid4.coords t) _ _ _ _ _ _ _ _ _ _ _ _ hc0 hc1 (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _ _ _)
    · have hc1 : ¬cond4_1 (grid4.coords t) := fun h => h1 ((hcond4_1 t).mp h)
      rw [Dat.leavesExact_idle (dat4 V c) 2 t (idleAt4_2 t hc1) (noFlush4_2 t hc1),
        Dat.leavesExact_idle (dat4 V c) 3 t (idleAt4_3 t hc1) (noFlush4_3 t hc1)]
      rw [outsAt4_B V c t h0 h1]
      unfold sout4_B_0 sout4_B_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun4_B c (grid4.coords t) _ _ _ _ _ _ _ _ _ _ _ _ hc0 hc1 (iblk4 V c 0 t) (iblk4 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the region's own back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.Kernel.Gen

end
-- ==== Proof.K.R5Runs.lean ====
/- Region 5 of @main (the matrix product that also accumulates the row sums of its left operand, clipped below at zero):
   what the three control cases of its body share. The body zeroes its two accumulators at the first step of the
   contraction axis (k = 0), adds the step's partial product and partial row sums into them at every step, and copies
   them to the two outputs at the last step (k = 7). Here: the two branch conditions in closed form over the grid,
   where the output windows are idle, the staging and accumulator memrefs, and the region invariant with the two
   accumulators split off the scoped rest. -/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left operand's current staging buffer holds its block at every point, for any proof data whose array is
    `V`'s and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for the right operand. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's first branch (k = 0), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 8) — decided over the grid. -/
theorem hcond5_0 : ∀ t : Fin cfg5.N, cond5_0 (grid5.coords t) ↔ t.val % 8 = 0 :=
  (by decide +kernel : ∀ t : Fin grid5.N, cond5_0 (grid5.coords t) ↔ t.val % 8 = 0)

/-- The condition of the body's last branch (k = 7), from the grid coordinates. -/
abbrev cond5_1 (i : grid5.Coords) : Prop := k5_cond2 i = 1#1
/-- It holds at the points ≡ 7 (mod 8) — decided over the grid. -/
theorem hcond5_1 : ∀ t : Fin cfg5.N, cond5_1 (grid5.coords t) ↔ t.val % 8 = 7 :=
  (by decide +kernel : ∀ t : Fin grid5.N, cond5_1 (grid5.coords t) ↔ t.val % 8 = 7)

/-! ## Where the windows are idle -/

/-- The operands are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Where k ≠ 7 the two outputs are idle and not written back; where k = 7 they are live. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

/-! ## The memrefs the body is called with -/

/-- One staging buffer of each output window, through which its contents are stated (the choice does not matter). -/
abbrev VO5_2 : View sig .tc .vmem S1024x256 .f32 := (Memref.whole cc5_stg2_0 : Memref sig .tc .vmem S1024x256 .f32).view
abbrev VO5_3 : View sig .tc .vmem S1024x128 .f32 := (Memref.whole cc5_stg3_0 : Memref sig .tc .vmem S1024x128 .f32).view
/-- Each window's current staging memref at point `t`, as the pipeline passes it, and its wholeness. -/
abbrev ms5_0 (t : Fin cfg5.N) : Memref sig .tc .vmem S1024x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x256 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The two accumulators: whole scoped buffers of the kernel's own, passed beside the windows. -/
abbrev scM5_0 : Memref sig .tc .vmem S1024x256 .f32 := Memref.whole cc5_scratch0
abbrev scM5_1 : Memref sig .tc .vmem S1024x128 .f32 := Memref.whole cc5_scratch1
/-- The accumulators as views: what they hold is stated through these. -/
abbrev VS5_0 : View sig .tc .vmem S1024x256 .f32 := scM5_0.view
abbrev VS5_1 : View sig .tc .vmem S1024x128 .f32 := scM5_1.view

/-- The scoped buffers that are neither staging buffers of this region nor its accumulators, and the generator
    register: what the body never touches. -/
abbrev Rest5 (c : Dev nD) : sProp 𝕄 :=
  iprop(Pipeline.scopedRestBut (Ix := Unit) (Name := ℕ) (U := UR sig nD τ) (Lvl := ℕ) (Val := Elt F) spec5 c [cc5_scratch0, cc5_scratch1] ∗ (∃ r, prngReg c r))

/-- The region invariant with the two accumulators as memrefs owned at some contents, the rest unopened. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.Kernel.Gen

end
-- ==== Proof.K.R5RunA.lean ====
/- Region 5 of @main: the whole-body run of its kernel at the first step of the contraction axis (k = 0), where the
   body zeroes both accumulators, adds the step's partial product and partial row sums into them, and stores nothing
   into the outputs. The pieces each accumulator ends with are the witness the run finds. -/
import proofs.«140739_j42683384987781_2_alg».proof.Proof.K.R5Runs

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 0 (and k ≠ 7), on whole memrefs — the operands' at their contents `x0`, `x1`, the outputs' at
    contents `xi2`, `xi3` handed back untouched, the accumulators' at anything — the body runs to the continuation
    holding the operands and outputs as they were and each accumulator with its pieces written (last first). -/
noncomputable def kernelRun5_A (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc5__mm_degree_kernel i arg2 harg2 arg3 harg3 arg4 harg4 arg5 harg5 arg6 harg6 arg7 harg7) K } := by
  refine ⟨?_, ?_, fun xi2 xi3 E K => ?run⟩
  case run =>
    simp only [cc5__mm_degree_kernel_eq_skeleton]; unfold cc5__mm_degree_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Gen

end
-- ==== Proof.K.R5RunB.lean ====
/- Region 5 of @main: the whole-body run of its kernel at a middle step of the contraction axis (k ≠ 0, k ≠ 7), where the
   body adds the step's partial product and partial row sums into the accumulators and stores nothing into the
   outputs. The pieces each accumulator ends with are the witness the run finds. -/
import proofs.«140739_j42683384987781_2_alg».proof.Proof.K.R5RunA

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k ≠ 0 and k ≠ 7, on whole memrefs — the operands' at their contents `x0`, `x1`, the outputs' at
    contents `xi2`, `xi3` handed back untouched, the accumulators' at what the point before left (`xs0`, `xs1`) —
    the body runs to the continuation holding the operands and outputs as they were and each accumulator with its
    pieces written (last first). -/
noncomputable def kernelRun5_B (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc5__mm_degree_kernel i arg2 harg2 arg3 harg3 arg4 harg4 arg5 harg5 arg6 harg6 arg7 harg7) K } := by
  refine ⟨?_, ?_, fun xi2 xi3 E K => ?run⟩
  case run =>
    simp only [cc5__mm_degree_kernel_eq_skeleton]; unfold cc5__mm_degree_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Gen

end
-- ==== Proof.K.R5RunC.lean ====
/- Region 5 of @main: the whole-body run of its kernel at the last step of the contraction axis (k = 7), where the
   body adds the step's partial product and partial row sums into the accumulators and then copies the accumulators
   to the two outputs. The pieces each output and each accumulator ends with are the witness the run finds. -/
import proofs.«140739_j42683384987781_2_alg».proof.Proof.K.R5RunB

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 7 (and k ≠ 0), on whole memrefs — the operands' at their contents `x0`, `x1`, the outputs' at
    anything, the accumulators' at what the point before left (`xs0`, `xs1`) — the body runs to the continuation
    holding the operands as they were and each output and each accumulator with its pieces written (last first). -/
noncomputable def kernelRun5_C (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) :
    Σ' (L2 : List (View.Piece (Elt F) S1024x256 .f32)) (L3 : List (View.Piece (Elt F) S1024x128 .f32))
       (LS0 : List (View.Piece (Elt F) S1024x256 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc5__mm_degree_kernel i arg2 harg2 arg3 harg3 arg4 harg4 arg5 harg5 arg6 harg6 arg7 harg7) K } := by
  refine ⟨?_, ?_, ?_, ?_, fun E K => ?run⟩
  case run =>
    simp only [cc5__mm_degree_kernel_eq_skeleton]; unfold cc5__mm_degree_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Gen

end
-- ==== Proof.K.R5.lean ====
/- Region 5 of @main (the matrix product that also accumulates the row sums of its left operand, clipped below at zero):
   its proof data and body obligation at any entry contents `V`. Per control case, what the body leaves in the two
   accumulators and (at k = 7) in the two outputs, as the run's pieces read back; point by point, what the outputs and
   the accumulators hold (`outsAt5`); the invariant carrying the two accumulators' contents from point to point
   beside the untouched scoped rest; the proof data `dat5`; the body obligation; and the invariant's two ends. -/
import proofs.«140739_j42683384987781_2_alg».proof.Proof.K.R5RunC

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## What each case leaves -/

/-- At k = 0 the pieces written into the product accumulator cover it (whole-buffer stores, checked by evaluation). -/
theorem scover5_A_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) (y : S1024x256.Idx) :
    ∃ pc ∈ (kernelRun5_A c i arg2 harg2 arg3 harg3 arg4 harg4 arg5 harg5 arg6 harg6 arg7 harg7 hc0 hc1 x0 x1).1, y ∈ pc.1.set :=
  View.cover_of_tiledL (kernelRun5_A c i arg2 harg2 arg3 harg3 arg4 harg4 arg5 harg5 arg6 harg6 arg7 harg7 hc0 hc1 x0 x1).1 S1024x256.size (by sl_kernel_rfl) y

/-- What the body leaves in the product accumulator at k = 0: its pieces read back over junk. -/
def sout5_A_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) : Vec F S1024x256 .f32 :=
  VS5_0.read (Elt F) (VS5_0.writes (Elt F) VS5_0.junk (kernelRun5_A c i arg2 harg2 arg3 harg3 arg4 harg4 arg5 harg5 arg6 harg6 arg7 harg7 hc0 hc1 x0 x1).1)

/-- At k = 0 the pieces written into the row-sum accumulator cover it (whole-buffer stores, checked by evaluation). -/
theorem scover5_A_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) (y : S1024x128.Idx) :
    ∃ pc ∈ (kernelRun5_A c i arg2 harg2 arg3 harg3 arg4 harg4 arg5 harg5 arg6 harg6 arg7 harg7 hc0 hc1 x0 x1).2.1, y ∈ pc.1.set :=
  View.cover_of_tiledL (kernelRun5_A c i arg2 harg2 arg3 harg3 arg4 harg4 arg5 harg5 arg6 harg6 arg7 harg7 hc0 hc1 x0 x1).2.1 S1024x128.size (by sl_kernel_rfl) y

/-- What the body leaves in the row-sum accumulator at k = 0: its pieces read back over junk. -/
def sout5_A_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) : Vec F S1024x128 .f32 :=
  VS5_1.read (Elt F) (VS5_1.writes (Elt F) VS5_1.junk (kernelRun5_A c i arg2 harg2 arg3 harg3 arg4 harg4 arg5 harg5 arg6 harg6 arg7 harg7 hc0 hc1 x0 x1).2.1)

/-- At a middle step the pieces written into the product accumulator cover it (whole-buffer stores, checked by evaluation). -/
theorem scover5_B_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) (y : S1024x256.Idx) :
    ∃ pc ∈ (kernelRun5_B c i arg2 harg2 arg3 harg3 arg4 harg4 arg5 harg5 arg6 harg6 arg7 harg7 hc0 hc1 x0 x1 xs0 xs1).1, y ∈ pc.1.set :=
  View.cover_of_tiledL (kernelRun5_B c i arg2 harg2 arg3 harg3 arg4 harg4 arg5 harg5 arg6 harg6 arg7 harg7 hc0 hc1 x0 x1 xs0 xs1).1 S1024x256.size (by sl_kernel_rfl) y

/-- What the body leaves in the product accumulator at a middle step: its pieces read back over junk. -/
def sout5_B_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) : Vec F S1024x256 .f32 :=
  VS5_0.read (Elt F) (VS5_0.writes (Elt F) VS5_0.junk (kernelRun5_B c i arg2 harg2 arg3 harg3 arg4 harg4 arg5 harg5 arg6 harg6 arg7 harg7 hc0 hc1 x0 x1 xs0 xs1).1)

/-- At a middle step the pieces written into the row-sum accumulator cover it (whole-buffer stores, checked by evaluation). -/
theorem scover5_B_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) (y : S1024x128.Idx) :
    ∃ pc ∈ (kernelRun5_B c i arg2 harg2 arg3 harg3 arg4 harg4 arg5 harg5 arg6 harg6 arg7 harg7 hc0 hc1 x0 x1 xs0 xs1).2.1, y ∈ pc.1.set :=
  View.cover_of_tiledL (kernelRun5_B c i arg2 harg2 arg3 harg3 arg4 harg4 arg5 harg5 arg6 harg6 arg7 harg7 hc0 hc1 x0 x1 xs0 xs1).2.1 S1024x128.size (by sl_kernel_rfl) y

/-- What the body leaves in the row-sum accumulator at a middle step: its pieces read back over junk. -/
def sout5_B_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) : Vec F S1024x128 .f32 :=
  VS5_1.read (Elt F) (VS5_1.writes (Elt F) VS5_1.junk (kernelRun5_B c i arg2 harg2 arg3 harg3 arg4 harg4 arg5 harg5 arg6 harg6 arg7 harg7 hc0 hc1 x0 x1 xs0 xs1).2.1)

/-- At k = 7 the pieces written into the product output cover it (whole-buffer stores, checked by evaluation). -/
theorem cover5_C_2 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x256.Idx) :
    ∃ pc ∈ (kernelRun5_C c i arg2 harg2 arg3 harg3 arg4 harg4 arg5 harg5 arg6 harg6 arg7 harg7 hc0 hc1 x0 x1 xs0 xs1).1, y ∈ pc.1.set :=
  View.cover_of_tiledL (kernelRun5_C c i arg2 harg2 arg3 harg3 arg4 harg4 arg5 harg5 arg6 harg6 arg7 harg7 hc0 hc1 x0 x1 xs0 xs1).1 S1024x256.size (by sl_kernel_rfl) y

/-- What the body leaves in the product output at k = 7: its pieces read back over junk. -/
def out5_C_2 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x256 .f32 :=
  VO5_2.read (Elt F) (VO5_2.writes (Elt F) VO5_2.junk (kernelRun5_C c i arg2 harg2 arg3 harg3 arg4 harg4 arg5 harg5 arg6 harg6 arg7 harg7 hc0 hc1 x0 x1 xs0 xs1).1)

/-- At k = 7 the pieces written into the row-sum output cover it (whole-buffer stores, checked by evaluation). -/
theorem cover5_C_3 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x128.Idx) :
    ∃ pc ∈ (kernelRun5_C c i arg2 harg2 arg3 harg3 arg4 harg4 arg5 harg5 arg6 harg6 arg7 harg7 hc0 hc1 x0 x1 xs0 xs1).2.1, y ∈ pc.1.set :=
  View.cover_of_tiledL (kernelRun5_C c i arg2 harg2 arg3 harg3 arg4 harg4 arg5 harg5 arg6 harg6 arg7 harg7 hc0 hc1 x0 x1 xs0 xs1).2.1 S1024x128.size (by sl_kernel_rfl) y

/-- What the body leaves in the row-sum output at k = 7: its pieces read back over junk. -/
def out5_C_3 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x128 .f32 :=
  VO5_3.read (Elt F) (VO5_3.writes (Elt F) VO5_3.junk (kernelRun5_C c i arg2 harg2 arg3 harg3 arg4 harg4 arg5 harg5 arg6 harg6 arg7 harg7 hc0 hc1 x0 x1 xs0 xs1).2.1)

/-- At k = 7 the pieces written into the product accumulator cover it (whole-buffer stores, checked by evaluation). -/
theorem scover5_C_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x256.Idx) :
    ∃ pc ∈ (kernelRun5_C c i arg2 harg2 arg3 harg3 arg4 harg4 arg5 harg5 arg6 harg6 arg7 harg7 hc0 hc1 x0 x1 xs0 xs1).2.2.1, y ∈ pc.1.set :=
  View.cover_of_tiledL (kernelRun5_C c i arg2 harg2 arg3 harg3 arg4 harg4 arg5 harg5 arg6 harg6 arg7 harg7 hc0 hc1 x0 x1 xs0 xs1).2.2.1 S1024x256.size (by sl_kernel_rfl) y

/-- What the body leaves in the product accumulator at k = 7: its pieces read back over junk. -/
def sout5_C_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x256 .f32 :=
  VS5_0.read (Elt F) (VS5_0.writes (Elt F) VS5_0.junk (kernelRun5_C c i arg2 harg2 arg3 harg3 arg4 harg4 arg5 harg5 arg6 harg6 arg7 harg7 hc0 hc1 x0 x1 xs0 xs1).2.2.1)

/-- At k = 7 the pieces written into the row-sum accumulator cover it (whole-buffer stores, checked by evaluation). -/
theorem scover5_C_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x128.Idx) :
    ∃ pc ∈ (kernelRun5_C c i arg2 harg2 arg3 harg3 arg4 harg4 arg5 harg5 arg6 harg6 arg7 harg7 hc0 hc1 x0 x1 xs0 xs1).2.2.2.1, y ∈ pc.1.set :=
  View.cover_of_tiledL (kernelRun5_C c i arg2 harg2 arg3 harg3 arg4 harg4 arg5 harg5 arg6 harg6 arg7 harg7 hc0 hc1 x0 x1 xs0 xs1).2.2.2.1 S1024x128.size (by sl_kernel_rfl) y

/-- What the body leaves in the row-sum accumulator at k = 7: its pieces read back over junk. -/
def sout5_C_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x128 .f32 :=
  VS5_1.read (Elt F) (VS5_1.writes (Elt F) VS5_1.junk (kernelRun5_C c i arg2 harg2 arg3 harg3 arg4 harg4 arg5 harg5 arg6 harg6 arg7 harg7 hc0 hc1 x0 x1 xs0 xs1).2.2.2.1)

/-- What the proof data names for an output's staging buffer at a point that stores nothing into it: nothing consults
    it (the window is idle there and not written back). -/
def hole5_2 : Vec F S1024x256 .f32 := VO5_2.read (Elt F) (VO5_2.writes (Elt F) VO5_2.junk [])
def hole5_3 : Vec F S1024x128 .f32 := VO5_3.read (Elt F) (VO5_3.writes (Elt F) VO5_3.junk [])

/-! ## What the outputs and the accumulators hold after each point -/

/-- After the body at position `n`: (the product output's staging buffer, the row-sum output's, the product
    accumulator, the row-sum accumulator). The case is selected by `n mod 8`; the accumulators a case reads are what
    position `n - 1` left. -/
def outsAt5 (c : Dev nD) : (n : ℕ) → n < cfg5.N → Vec F S1024x256 .f32 × Vec F S1024x128 .f32 × Vec F S1024x256 .f32 × Vec F S1024x128 .f32
  | 0, hn => (hole5_2, hole5_3, sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => (by decide : ¬(0 % 8 = 7)) ((hcond5_1 ⟨0, hn⟩).mp h)) (iblk5 V c 0 ⟨0, hn⟩) (iblk5 V c 1 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => (by decide : ¬(0 % 8 = 7)) ((hcond5_1 ⟨0, hn⟩).mp h)) (iblk5 V c 0 ⟨0, hn⟩) (iblk5 V c 1 ⟨0, hn⟩))
  | n + 1, hn =>
    if h0 : (n + 1) % 8 = 0 then
      if h1 : (n + 1) % 8 = 7 then False.elim (by omega)
      else (hole5_2, hole5_3, sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 8 = 7 then (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2, out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2)
      else (hole5_2, hole5_3, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2)

/-- `outsAt5` at a point with k = 0. -/
theorem outsAt5_A (c : Dev nD) (t : Fin cfg5.N) (h0 : t.val % 8 = 0) (h1 : ¬t.val % 8 = 7) :
    outsAt5 V c t.val t.isLt = (hole5_2, hole5_3, sout5_A_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t), sout5_A_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

/-- `outsAt5` at a middle point: over what the point before left. -/
theorem outsAt5_B (c : Dev nD) (t : Fin cfg5.N) (h0 : ¬t.val % 8 = 0) (h1 : ¬t.val % 8 = 7) :
    outsAt5 V c t.val t.isLt = (hole5_2, hole5_3, sout5_B_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_B_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point with k = 7: over what the point before left. -/
theorem outsAt5_C (c : Dev nD) (t : Fin cfg5.N) (h0 : ¬t.val % 8 = 0) (h1 : t.val % 8 = 7) :
    outsAt5 V c t.val t.isLt = (out5_C_2 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, out5_C_3 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is no
    staging buffer at anything, the generator register at some state); afterwards the two accumulators at what the
    point before left in them, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare (outsAt5 V c n hn).2.2.1 ∗ owns (c : Thread nD τ) scM5_1 fullShare (outsAt5 V c n hn).2.2.2) ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (outsAt5 V c n hn).2.2.1 ∗ owns (c : Thread nD τ) scM5_1 fullShare (outsAt5 V c n hn).2.2.2) ∗ Pipeline.scopedRestBut (Ix := Unit) (Name := ℕ) (U := UR sig nD τ) (Lvl := ℕ) (Val := Elt F) spec5 c [cc5_scratch0, cc5_scratch1]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (outsAt5 V c (n - 1) (by omega)).2.2.1 ∗ owns (c : Thread nD τ) scM5_1 fullShare (outsAt5 V c (n - 1) (by omega)).2.2.2) ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-! ## The proof data -/

/-- The proof data of the region on core `c`: the arrays as the region finds them (`V`); after the body at point `t`
    each operand's buffer at its block and each output's at `outsAt5`'s component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]

/-- Each operand's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the operands' memrefs hold their blocks; `t mod 8` says which case the point is in; the
    invariant hands the body the accumulators at what the point before left (at anything before the first point) and
    takes them back at this point's contents; where k ≠ 7 the outputs' buffers are handed back as found, at k = 7 with
    the accumulators' copies; the other scoped buffers, the generator register and what the core owes pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val % 8 = 0
  · by_cases h1 : t.val % 8 = 7
    · exfalso; omega
    · have hc1 : ¬cond5_1 (grid5.coords t) := fun h => h1 ((hcond5_1 t).mp h)
      rw [Dat.leavesExact_idle (dat5 V c) 2 t (idleAt5_2 t hc1) (noFlush5_2 t hc1),
        Dat.leavesExact_idle (dat5 V c) 3 t (idleAt5_3 t hc1) (noFlush5_3 t hc1)]
      rw [outsAt5_A V c t h0 h1]
      unfold sout5_A_0 sout5_A_1; (try dsimp only)
      by_cases hz : t.val = 0
      · rw [PhiS5_castSucc V c t, PhiS5_zero V c _ _ hz, PhiA5_eq]
        iintro ⟨⟨⟨⟨HS0, HS1⟩, HR⟩, Hg⟩, Ho, ⟨%d0, H0⟩, ⟨%d1, H1⟩, ⟨%d2, H2⟩, ⟨%d3, H3⟩⟩
        iapply ((kernelRun5_A c (grid5.coords t) _ _ _ _ _ _ _ _ _ _ _ _ ((hcond5_0 t).mpr h0) hc1 (iblk5 V c 0 t) (iblk5 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun5_A c (grid5.coords t) _ _ _ _ _ _ _ _ _ _ _ _ ((hcond5_0 t).mpr h0) hc1 (iblk5 V c 0 t) (iblk5 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    have hc0 : ¬cond5_0 (grid5.coords t) := fun h => h0 ((hcond5_0 t).mp h)
    by_cases h1 : t.val % 8 = 7
    · have hc1 : cond5_1 (grid5.coords t) := (hcond5_1 t).mpr h1
      rw [show (dat5 V c).leavesExact 2 t = owns (c : Thread nD τ) (ms5_2 t) fullShare ((dat5 V c).after 2 t) from by
        unfold Dat.leavesExact; rw [liveAt5_2 t hc1], after5_2]
      rw [show (dat5 V c).leavesExact 3 t = owns (c : Thread nD τ) (ms5_3 t) fullShare ((dat5 V c).after 3 t) from by
        unfold Dat.leavesExact; rw [liveAt5_3 t hc1], after5_3]
      rw [outsAt5_C V c t h0 h1]
      unfold out5_C_2 out5_C_3 sout5_C_0 sout5_C_1; (try dsimp only)
      rw [PhiS5_castSucc V c t, PhiS5_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun5_C c (grid5.coords t) _ _ _ _ _ _ _ _ _ _ _ _ hc0 hc1 (iblk5 V c 0 t) (iblk5 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _)
            unfold owns; iexists _; isplitr
            swap; · iexact HS1
            ipureintro; exact View.read_writes_of_cover _ _ _ _ _ (scover5_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_C_2 c _ _ _ _ _ _ _ _ _ _ _ _ _ _ _ _ _ _ _)
      unfold owns; iexists _; isplitr
      swap; · iexact H3
      ipureintro; exact View.read_writes_of_cover _ _ _ _ _ (cover5_C_3 c _ _ _ _ _ _ _ _ _ _ _ _ _ _ _ _ _ _ _)
    · have hc1 : ¬cond5_1 (grid5.coords t) := fun h => h1 ((hcond5_1 t).mp h)
      rw [Dat.leavesExact_idle (dat5 V c) 2 t (idleAt5_2 t hc1) (noFlush5_2 t hc1),
        Dat.leavesExact_idle (dat5 V c) 3 t (idleAt5_3 t hc1) (noFlush5_3 t hc1)]
      rw [outsAt5_B V c t h0 h1]
      unfold sout5_B_0 sout5_B_1; (try dsimp only)
      rw [PhiS5_castSucc V c t, PhiS5_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun5_B c (grid5.coords t) _ _ _ _ _ _ _ _ _ _ _ _ hc0 hc1 (iblk5 V c 0 t) (iblk5 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _)
            unfold owns; iexists _; isplitr
            swap; · iexact HS1
            ipureintro; exact View.read_writes_of_cover _ _ _ _ _ (scover5_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the region's own back: the accumulators' named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.Kernel.Gen

end
-- ==== Proof.K.R6Run.lean ====
/- Region 6, the fused node kernel, on whole staging memrefs: what its single store leaves in the output
   window's buffer as a closed term over the eight input blocks (three row blocks, four square weight
   blocks, one bias row), and the body's triple. The body loads every input whole, forms the three
   projections, the two lane-reduced attention weights, the mixed value, its projection plus bias
   clamped at zero, and stores that over the whole output buffer; what the output buffer held before
   is read once and never used. -/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the store span their whole buffer -/

/-- The whole of a row block (1024 rows of 256 lanes). -/
abbrev r6_row : Rect S1024x256 := Rect.unit (s := S1024x256) ![0, 0] S1024x256.size inb_S1024x256_S1024x256_0_0
/-- The whole of a square weight block. -/
abbrev r6_sq : Rect S256x256 := Rect.unit (s := S256x256) ![0, 0] S256x256.size inb_S256x256_S256x256_0_0
/-- The whole of the bias row. -/
abbrev r6_bias : Rect S1x256 := Rect.unit (s := S1x256) ![0, 0] S1x256.size inb_S1x256_S1x256_0_0

/-! ## What the body leaves in the output window's buffer -/

/-- Window 8's staging buffer after the body, from the input windows' blocks: its one store as a piece
    (`View.canon`); the payload is the skeleton's, the clamp over the part's returned projection. -/
def out6_8 (x0 : Vec F S1024x256 .f32) (x1 : Vec F S1024x256 .f32) (x2 : Vec F S1024x256 .f32) (x3 : Vec F S256x256 .f32) (x4 : Vec F S256x256 .f32) (x5 : Vec F S256x256 .f32) (x6 : Vec F S256x256 .f32) (x7 : Vec F S1x256 .f32) : Vec F S1024x256 .f32 :=
  View.canon [⟨r6_row, k6_pay1 (k6_pay2 (View.ld x0 r6_row) (View.ld x1 r6_row) (View.ld x2 r6_row) (View.ld x3 r6_sq) (View.ld x4 r6_sq) (View.ld x5 r6_sq) (View.ld x6 r6_sq)) (View.ld x7 r6_bias)⟩]

/-- The store spans the buffer (checked by evaluation), so it covers it. -/
theorem cover6_8 (p0 : Vec F S1024x256 .f32) (y : S1024x256.Idx) :
    ∃ pc ∈ ([⟨r6_row, p0⟩] : List (View.Piece (Elt F) S1024x256 .f32)), y ∈ pc.1.set :=
  View.cover_of_tiled [⟨r6_row, p0⟩] S1024x256.size (by rfl) y

/-! ## The body's triple -/

set_option maxHeartbeats 1000000 in
/-- The kernel body on whole staging memrefs, the inputs' at read contents `xW` and the output's at anything, runs to
    the continuation holding the inputs' as they were and the output's at `out6_8` of the inputs'. -/
theorem sound_kernel6 (c : Dev nD) (E : Set ℕ) (i : grid6.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole)
    (x0 : Vec F S1024x256 .f32) (x1 : Vec F S1024x256 .f32) (x2 : Vec F S1024x256 .f32) (x3 : Vec F S256x256 .f32) (x4 : Vec F S256x256 .f32) (x5 : Vec F S256x256 .f32) (x6 : Vec F S256x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out6_8 x0 x1 x2 x3 x4 x5 x6 x7)) -∗ K ⟨⟩))
      ⊢ wp frame (wpE (defs₀ (F := F)) Variants.none c none) E (cc6__hhnode_kernel i arg1 harg1 arg2 harg2 arg3 harg3 arg4 harg4 arg5 harg5 arg6 harg6 arg7 harg7 arg8 harg8 arg9 harg9) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_unfold [cc6__hhnode_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover6_8 _)

end Cert.Kernel.Gen

end
-- ==== Proof.K.R6.lean ====
/- Region 6, the fused node kernel, as a pipeline of nine windows over a grid of four points, at the buffer
   contents `V` the region is entered with: each window's block at a point, what each input window's
   staging buffer holds when the body runs (its block, fetched there or not), the proof data — the arrays
   as found, the inputs' buffers left in place, the output's buffer at the body's closed term over the
   input blocks —, and the body obligation at every point. The kernel keeps nothing from point to point,
   so the invariant is the scoped rest and the generator register, untouched. -/
import proofs.«140739_j42683384987781_2_alg».proof.Proof.Gen.Kernel.Launch
import proofs.«140739_j42683384987781_2_alg».proof.Proof.Gen.Kernel.Skeleton
import proofs.«140739_j42683384987781_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140739_j42683384987781_2_alg».proof.Proof.K.R6Run

-- membership in a rectangle of production extents: the elaborator's structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on the TensorCore when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the body finds in each input window's staging buffer

An input window's current staging buffer holds its block at every point, for ANY proof data whose array is
`V`'s (`hA`) and whose body leaves the block in place (`hafter`): where the pipeline fetched it, what it
fetched; where it did not, the block index has not moved and the buffer still holds that block. The
windows are uncut and never idle. -/

/-- Input window 0 (the current rows; fetched at every point). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the spatial embedding rows; fetched at every point). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the temporal embedding rows; fetched at every point). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3 (the node projection; fetched at the first point only, its block index constant over the grid). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4 (the spatial edge projection; fetched at the first point only, its block index constant over the grid). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5 (the temporal edge projection; fetched at the first point only, its block index constant over the grid). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6 (the transposed output weight; fetched at the first point only, its block index constant over the grid). -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7 (the bias row; fetched at the first point only, its block index constant over the grid). -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The pipeline's proof data -/

/-- The proof data of pipeline 6 on core `c`: the arrays as the region finds them (`V`); after the body at
    point `t` each input's buffer at its block and the output's at `out6_8` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) :
    (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-- The invariant before the first point is the class's, as the launch hands it over, -/
theorem hin6 (c : Dev nD) : Pipeline.ΦA spec6 c ⊢ (dat6 V c).Φ 0 := .rfl
/-- and after the last point it is handed back unchanged. -/
theorem hout6 (c : Dev nD) : (dat6 V c).Φ (Fin.last cfg6.N) ⊢ Pipeline.ΦA spec6 c := .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.K.Run.lean ====
/-
  The whole run of the program: its seven kernel regions and the stretches of array operations between them, in
  order.  Between two items every buffer that outlives a region is held at a named valuation: `U0` is the launch
  memory; a stretch of array operations takes `U` to the operations' fold over it; a region takes `U` to `U` with the
  region's arrays replaced by what its pipeline leaves in them (the inputs as found, each output's tiles written
  back).  Beside the buffers the generator register rides at some state and the core owes nothing.  The conclusion:
  every weakly fair execution terminates, without a fault, with every such buffer at `U17`.
-/
import proofs.«140739_j42683384987781_2_alg».proof.Proof.K.R0
import proofs.«140739_j42683384987781_2_alg».proof.Proof.K.R1
import proofs.«140739_j42683384987781_2_alg».proof.Proof.K.R2
import proofs.«140739_j42683384987781_2_alg».proof.Proof.K.R3
import proofs.«140739_j42683384987781_2_alg».proof.Proof.K.R4
import proofs.«140739_j42683384987781_2_alg».proof.Proof.K.R5
import proofs.«140739_j42683384987781_2_alg».proof.Proof.K.R6
import proofs.«140739_j42683384987781_2_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev U0 : Dev nD → Valuation τ sig (Elt F) := fun c b => m (c, b)
/-- After region 0: its arrays at what the pipeline leaves, every other buffer as entered. -/
def U1 (c : Dev nD) : Valuation τ sig (Elt F) :=
  Pipeline.withArrays spec0 c (U0 m c) fun w => (dat0 (fun c b => U0 m c b) c).arrAt w cfg0.N
theorem U1_arr (c : Dev nD) (w : Fin cfg0.W) :
    U1 m c (Proc.devRef .tc (Pipeline.arrRef spec0 w)) = (dat0 (fun c b => U0 m c b) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
theorem hF0 (c : Dev nD) (w : Fin cfg0.W) : (dat0 (fun c b => U0 m c b) c).arrAt w cfg0.N = U1 m c (Pipeline.arrRef spec0 w) :=
  (U1_arr m c w).symm
theorem hrest0 (c : Dev nD) : ∀ b : Ref sig .tc, b ∉ Finset.univ.image (Pipeline.arrRef spec0) → U1 m c b = U0 m c b :=
  fun b hb => U1_of_ne m c b fun w e => hb (Finset.mem_image.mpr ⟨w, Finset.mem_univ _, e⟩)
/-- After the stretch `hostOps1`. -/
abbrev U2 : Dev nD → Valuation τ sig (Elt F) := fun c => StableHlo.after hostOps1 (U1 m c)
/-- After the stretch `hostOps1_1`. -/
abbrev U3 : Dev nD → Valuation τ sig (Elt F) := fun c => StableHlo.after hostOps1_1 (U2 m c)
/-- After the stretch `hostOps1_2`. -/
abbrev U4 : Dev nD → Valuation τ sig (Elt F) := fun c => StableHlo.after hostOps1_2 (U3 m c)
/-- After region 1: its arrays at what the pipeline leaves, every other buffer as entered. -/
def U5 (c : Dev nD) : Valuation τ sig (Elt F) :=
  Pipeline.withArrays spec1 c (U4 m c) fun w => (dat1 (fun c b => U4 m c b) c).arrAt w cfg1.N
theorem U5_arr (c : Dev nD) (w : Fin cfg1.W) :
    U5 m c (Proc.devRef .tc (Pipeline.arrRef spec1 w)) = (dat1 (fun c b => U4 m c b) c).arrAt w cfg1.N := by
  unfold U5; exact Pipeline.withArrays_arr spec1 launch1.win.arr_inj c _ _ w
theorem U5_of_ne (c : Dev nD) (b : Ref sig .tc) (hb : ∀ w, Pipeline.arrRef spec1 w ≠ b) :
    U5 m c (Proc.devRef .tc b) = U4 m c (Proc.devRef .tc b) := by
  unfold U5; exact Pipeline.withArrays_of_ne spec1 c _ _ b hb
theorem hF1 (c : Dev nD) (w : Fin cfg1.W) : (dat1 (fun c b => U4 m c b) c).arrAt w cfg1.N = U5 m c (Pipeline.arrRef spec1 w) :=
  (U5_arr m c w).symm
theorem hrest1 (c : Dev nD) : ∀ b : Ref sig .tc, b ∉ Finset.univ.image (Pipeline.arrRef spec1) → U5 m c b = U4 m c b :=
  fun b hb => U5_of_ne m c b fun w e => hb (Finset.mem_image.mpr ⟨w, Finset.mem_univ _, e⟩)
/-- After the stretch `hostOps2`. -/
abbrev U6 : Dev nD → Valuation τ sig (Elt F) := fun c => StableHlo.after hostOps2 (U5 m c)
/-- After the stretch `hostOps2_1`. -/
abbrev U7 : Dev nD → Valuation τ sig (Elt F) := fun c => StableHlo.after hostOps2_1 (U6 m c)
/-- After the stretch `hostOps2_2`. -/
abbrev U8 : Dev nD → Valuation τ sig (Elt F) := fun c => StableHlo.after hostOps2_2 (U7 m c)
/-- After region 2: its arrays at what the pipeline leaves, every other buffer as entered. -/
def U9 (c : Dev nD) : Valuation τ sig (Elt F) :=
  Pipeline.withArrays spec2 c (U8 m c) fun w => (dat2 (fun c b => U8 m c b) c).arrAt w cfg2.N
theorem U9_arr (c : Dev nD) (w : Fin cfg2.W) :
    U9 m c (Proc.devRef .tc (Pipeline.arrRef spec2 w)) = (dat2 (fun c b => U8 m c b) c).arrAt w cfg2.N := by
  unfold U9; exact Pipeline.withArrays_arr spec2 launch2.win.arr_inj c _ _ w
theorem U9_of_ne (c : Dev nD) (b : Ref sig .tc) (hb : ∀ w, Pipeline.arrRef spec2 w ≠ b) :
    U9 m c (Proc.devRef .tc b) = U8 m c (Proc.devRef .tc b) := by
  unfold U9; exact Pipeline.withArrays_of_ne spec2 c _ _ b hb
theorem hF2 (c : Dev nD) (w : Fin cfg2.W) : (dat2 (fun c b => U8 m c b) c).arrAt w cfg2.N = U9 m c (Pipeline.arrRef spec2 w) :=
  (U9_arr m c w).symm
theorem hrest2 (c : Dev nD) : ∀ b : Ref sig .tc, b ∉ Finset.univ.image (Pipeline.arrRef spec2) → U9 m c b = U8 m c b :=
  fun b hb => U9_of_ne m c b fun w e => hb (Finset.mem_image.mpr ⟨w, Finset.mem_univ _, e⟩)
/-- After region 3: its arrays at what the pipeline leaves, every other buffer as entered. -/
def U10 (c : Dev nD) : Valuation τ sig (Elt F) :=
  Pipeline.withArrays spec3 c (U9 m c) fun w => (dat3 (fun c b => U9 m c b) c).arrAt w cfg3.N
theorem U10_arr (c : Dev nD) (w : Fin cfg3.W) :
    U10 m c (Proc.devRef .tc (Pipeline.arrRef spec3 w)) = (dat3 (fun c b => U9 m c b) c).arrAt w cfg3.N := by
  unfold U10; exact Pipeline.withArrays_arr spec3 launch3.win.arr_inj c _ _ w
theorem U10_of_ne (c : Dev nD) (b : Ref sig .tc) (hb : ∀ w, Pipeline.arrRef spec3 w ≠ b) :
    U10 m c (Proc.devRef .tc b) = U9 m c (Proc.devRef .tc b) := by
  unfold U10; exact Pipeline.withArrays_of_ne spec3 c _ _ b hb
theorem hF3 (c : Dev nD) (w : Fin cfg3.W) : (dat3 (fun c b => U9 m c b) c).arrAt w cfg3.N = U10 m c (Pipeline.arrRef spec3 w) :=
  (U10_arr m c w).symm
theorem hrest3 (c : Dev nD) : ∀ b : Ref sig .tc, b ∉ Finset.univ.image (Pipeline.arrRef spec3) → U10 m c b = U9 m c b :=
  fun b hb => U10_of_ne m c b fun w e => hb (Finset.mem_image.mpr ⟨w, Finset.mem_univ _, e⟩)
/-- After the stretch `hostOps4`. -/
abbrev U11 : Dev nD → Valuation τ sig (Elt F) := fun c => StableHlo.after hostOps4 (U10 m c)
/-- After region 4: its arrays at what the pipeline leaves, every other buffer as entered. -/
def U12 (c : Dev nD) : Valuation τ sig (Elt F) :=
  Pipeline.withArrays spec4 c (U11 m c) fun w => (dat4 (fun c b => U11 m c b) c).arrAt w cfg4.N
theorem U12_arr (c : Dev nD) (w : Fin cfg4.W) :
    U12 m c (Proc.devRef .tc (Pipeline.arrRef spec4 w)) = (dat4 (fun c b => U11 m c b) c).arrAt w cfg4.N := by
  unfold U12; exact Pipeline.withArrays_arr spec4 launch4.win.arr_inj c _ _ w
theorem U12_of_ne (c : Dev nD) (b : Ref sig .tc) (hb : ∀ w, Pipeline.arrRef spec4 w ≠ b) :
    U12 m c (Proc.devRef .tc b) = U11 m c (Proc.devRef .tc b) := by
  unfold U12; exact Pipeline.withArrays_of_ne spec4 c _ _ b hb
theorem hF4 (c : Dev nD) (w : Fin cfg4.W) : (dat4 (fun c b => U11 m c b) c).arrAt w cfg4.N = U12 m c (Pipeline.arrRef spec4 w) :=
  (U12_arr m c w).symm
theorem hrest4 (c : Dev nD) : ∀ b : Ref sig .tc, b ∉ Finset.univ.image (Pipeline.arrRef spec4) → U12 m c b = U11 m c b :=
  fun b hb => U12_of_ne m c b fun w e => hb (Finset.mem_image.mpr ⟨w, Finset.mem_univ _, e⟩)
/-- After the stretch `hostOps5`. -/
abbrev U13 : Dev nD → Valuation τ sig (Elt F) := fun c => StableHlo.after hostOps5 (U12 m c)
/-- After region 5: its arrays at what the pipeline leaves, every other buffer as entered. -/
def U14 (c : Dev nD) : Valuation τ sig (Elt F) :=
  Pipeline.withArrays spec5 c (U13 m c) fun w => (dat5 (fun c b => U13 m c b) c).arrAt w cfg5.N
theorem U14_arr (c : Dev nD) (w : Fin cfg5.W) :
    U14 m c (Proc.devRef .tc (Pipeline.arrRef spec5 w)) = (dat5 (fun c b => U13 m c b) c).arrAt w cfg5.N := by
  unfold U14; exact Pipeline.withArrays_arr spec5 launch5.win.arr_inj c _ _ w
theorem U14_of_ne (c : Dev nD) (b : Ref sig .tc) (hb : ∀ w, Pipeline.arrRef spec5 w ≠ b) :
    U14 m c (Proc.devRef .tc b) = U13 m c (Proc.devRef .tc b) := by
  unfold U14; exact Pipeline.withArrays_of_ne spec5 c _ _ b hb
theorem hF5 (c : Dev nD) (w : Fin cfg5.W) : (dat5 (fun c b => U13 m c b) c).arrAt w cfg5.N = U14 m c (Pipeline.arrRef spec5 w) :=
  (U14_arr m c w).symm
theorem hrest5 (c : Dev nD) : ∀ b : Ref sig .tc, b ∉ Finset.univ.image (Pipeline.arrRef spec5) → U14 m c b = U13 m c b :=
  fun b hb => U14_of_ne m c b fun w e => hb (Finset.mem_image.mpr ⟨w, Finset.mem_univ _, e⟩)
/-- After the stretch `hostOps6`. -/
abbrev U15 : Dev nD → Valuation τ sig (Elt F) := fun c => StableHlo.after hostOps6 (U14 m c)
/-- After region 6: its arrays at what the pipeline leaves, every other buffer as entered. -/
def U16 (c : Dev nD) : Valuation τ sig (Elt F) :=
  Pipeline.withArrays spec6 c (U15 m c) fun w => (dat6 (fun c b => U15 m c b) c).arrAt w cfg6.N
theorem U16_arr (c : Dev nD) (w : Fin cfg6.W) :
    U16 m c (Proc.devRef .tc (Pipeline.arrRef spec6 w)) = (dat6 (fun c b => U15 m c b) c).arrAt w cfg6.N := by
  unfold U16; exact Pipeline.withArrays_arr spec6 launch6.win.arr_inj c _ _ w
theorem U16_of_ne (c : Dev nD) (b : Ref sig .tc) (hb : ∀ w, Pipeline.arrRef spec6 w ≠ b) :
    U16 m c (Proc.devRef .tc b) = U15 m c (Proc.devRef .tc b) := by
  unfold U16; exact Pipeline.withArrays_of_ne spec6 c _ _ b hb
theorem hF6 (c : Dev nD) (w : Fin cfg6.W) : (dat6 (fun c b => U15 m c b) c).arrAt w cfg6.N = U16 m c (Pipeline.arrRef spec6 w) :=
  (U16_arr m c w).symm
theorem hrest6 (c : Dev nD) : ∀ b : Ref sig .tc, b ∉ Finset.univ.image (Pipeline.arrRef spec6) → U16 m c b = U15 m c b :=
  fun b hb => U16_of_ne m c b fun w e => hb (Finset.mem_image.mpr ⟨w, Finset.mem_univ _, e⟩)
/-- After the stretch `hostOps7`. -/
abbrev U17 : Dev nD → Valuation τ sig (Elt F) := fun c => StableHlo.after hostOps7 (U16 m c)

/-- The same valuations read at the TensorCore's buffer names. -/
abbrev UV0 : (c : Dev nD) → (b : Ref sig .tc) → Buf (Elt F) ((c : Thread nD τ).loc b) := fun c b => U0 m c b
abbrev UV1 : (c : Dev nD) → (b : Ref sig .tc) → Buf (Elt F) ((c : Thread nD τ).loc b) := fun c b => U1 m c b
abbrev UV2 : (c : Dev nD) → (b : Ref sig .tc) → Buf (Elt F) ((c : Thread nD τ).loc b) := fun c b => U2 m c b
abbrev UV3 : (c : Dev nD) → (b : Ref sig .tc) → Buf (Elt F) ((c : Thread nD τ).loc b) := fun c b => U3 m c b
abbrev UV4 : (c : Dev nD) → (b : Ref sig .tc) → Buf (Elt F) ((c : Thread nD τ).loc b) := fun c b => U4 m c b
abbrev UV5 : (c : Dev nD) → (b : Ref sig .tc) → Buf (Elt F) ((c : Thread nD τ).loc b) := fun c b => U5 m c b
abbrev UV6 : (c : Dev nD) → (b : Ref sig .tc) → Buf (Elt F) ((c : Thread nD τ).loc b) := fun c b => U6 m c b
abbrev UV7 : (c : Dev nD) → (b : Ref sig .tc) → Buf (Elt F) ((c : Thread nD τ).loc b) := fun c b => U7 m c b
abbrev UV8 : (c : Dev nD) → (b : Ref sig .tc) → Buf (Elt F) ((c : Thread nD τ).loc b) := fun c b => U8 m c b
abbrev UV9 : (c : Dev nD) → (b : Ref sig .tc) → Buf (Elt F) ((c : Thread nD τ).loc b) := fun c b => U9 m c b
abbrev UV10 : (c : Dev nD) → (b : Ref sig .tc) → Buf (Elt F) ((c : Thread nD τ).loc b) := fun c b => U10 m c b
abbrev UV11 : (c : Dev nD) → (b : Ref sig .tc) → Buf (Elt F) ((c : Thread nD τ).loc b) := fun c b => U11 m c b
abbrev UV12 : (c : Dev nD) → (b : Ref sig .tc) → Buf (Elt F) ((c : Thread nD τ).loc b) := fun c b => U12 m c b
abbrev UV13 : (c : Dev nD) → (b : Ref sig .tc) → Buf (Elt F) ((c : Thread nD τ).loc b) := fun c b => U13 m c b
abbrev UV14 : (c : Dev nD) → (b : Ref sig .tc) → Buf (Elt F) ((c : Thread nD τ).loc b) := fun c b => U14 m c b
abbrev UV15 : (c : Dev nD) → (b : Ref sig .tc) → Buf (Elt F) ((c : Thread nD τ).loc b) := fun c b => U15 m c b
abbrev UV16 : (c : Dev nD) → (b : Ref sig .tc) → Buf (Elt F) ((c : Thread nD τ).loc b) := fun c b => U16 m c b
abbrev UV17 : (c : Dev nD) → (b : Ref sig .tc) → Buf (Elt F) ((c : Thread nD τ).loc b) := fun c b => U17 m c b

/-! ## The proof data family and what rides beside the buffers -/

/-- The prefetched tables' admissible contents: no region has a table. -/
abbrev admR : (p : Fin 7) → (pcfgs (F := F) p).Adm := fun p => (cfgs p).toPCfg_adm
/-- Every region's proof data, each at its region's entry contents. -/
def pdats : (p : Fin 7) → (c : Dev nD) → Dat τ (Elt F) Unit ℕ (UR sig nD τ) ℕ (Pipeline.pin (pcfgs (F := F)) admR p) c
  | ⟨0, _⟩ => fun c => dat0 (fun c b => U0 m c b) c
  | ⟨1, _⟩ => fun c => dat1 (fun c b => U4 m c b) c
  | ⟨2, _⟩ => fun c => dat2 (fun c b => U8 m c b) c
  | ⟨3, _⟩ => fun c => dat3 (fun c b => U9 m c b) c
  | ⟨4, _⟩ => fun c => dat4 (fun c b => U11 m c b) c
  | ⟨5, _⟩ => fun c => dat5 (fun c b => U13 m c b) c
  | ⟨6, _⟩ => fun c => dat6 (fun c b => U15 m c b) c
abbrev 𝒱R : Variants := Variants.none
/-- No core waits for another: no level is assigned. -/
abbrev LR : GSem nD τ sig → Finset Unit := fun _ => ∅
abbrev lvR : GSem nD τ sig → Unit → ℕ := fun _ _ => 0
/-- Beside the buffers: the core's generator register at some state and the core owing nothing. -/
abbrev Rr (c : Dev nD) : sProp 𝕄 := iprop((∃ r, prngReg c r) ∗ ∃ W, owes (c : Thread nD τ) (0 : CellTallies nD τ sig Unit) W)
/-- A stretch of array operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-! ## The regions as segments -/

set_option backward.isDefEq.respectTransparency.types false in
/-- Region 0 over the thread state: entered with every outliving buffer at `U0`, left with them at `U1`.  Its
    arrays are split out of those buffers and put back at the exit contents; the generator register goes into the
    region invariant and comes out; nothing is owed; the kernel has no semaphore of its own. -/
def reg0 : Pipeline.RegionSeg (pcfgs (F := F)) admR (pdats m) () defs₀ 𝒱R LR lvR 0 where
  win := launch0.win.to₀
  block_pos := launch0.block_pos
  stage_whole := launch0.stage_whole
  K := PEmpty
  osem k := k.elim
  ho := Pipeline.OwnSemFacts.none _
  hbody c := (body_obligation0 (fun c b => U0 m c b) c).loose
  hwaits := Pipeline.hwaits_of_owed_zero _ _ _ _ LR lvR 0 fun _ _ => rfl
  pre c := iprop(StableHlo.held (c : Thread nD τ) (Pipeline.ucRefs τ sig) (U0 m c) ∗ Rr c)
  post c := iprop(StableHlo.held (c : Thread nD τ) (Pipeline.ucRefs τ sig) (U1 m c) ∗ Rr c)
  X c := iprop(∃ r, prngReg c r)
  Y c := iprop(∃ r, prngReg c r)
  Z c := Pipeline.unscopedRest (Ix := Unit) (Name := ℕ) (U := UR sig nD τ) (Lvl := ℕ) spec0 c (UV0 m c)
  hentry c := by
    rw [Pipeline.ownSems0_none]
    have hsplit := Pipeline.arrays_of_unscopedBufs (p := 0) (pcfgs (F := F)) admR (pdats m) launch0.win launch0.arr_whole c
      ((pdats m 0 c).share_full fun _ => rfl) (UV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (fun c b => U0 m c b) c
    unfold Pipeline.ΦA at h
    rw [show (pdats m 0 c).Φ 0 = (dat0 (fun c b => U0 m c b) c).Φ 0 from rfl]
    iintro ⟨Hp, -, Hr⟩
    iapply h
    isplitl [Hr]; · iexact Hr
    iexact Hp
  hout c := by
    rw [Pipeline.ownSems0_none]
    have h := hout0 (fun c b => U0 m c b) c
    unfold Pipeline.ΦA at h
    rw [show (pdats m 0 c).Φ (Fin.last _) = (dat0 (fun c b => U0 m c b) c).Φ (Fin.last cfg0.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m) ((pdats m 0 c).share_full fun _ => rfl)
      (UV0 m c) (UV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every outliving buffer at `U4`, left with them at `U5`.  Its
    arrays are split out of those buffers and put back at the exit contents; the generator register goes into the
    region invariant and comes out; nothing is owed; the kernel has no semaphore of its own. -/
def reg1 : Pipeline.RegionSeg (pcfgs (F := F)) admR (pdats m) () defs₀ 𝒱R LR lvR 1 where
  win := launch1.win.to₀
  block_pos := launch1.block_pos
  stage_whole := launch1.stage_whole
  K := PEmpty
  osem k := k.elim
  ho := Pipeline.OwnSemFacts.none _
  hbody c := (body_obligation1 (fun c b => U4 m c b) c).loose
  hwaits := Pipeline.hwaits_of_owed_zero _ _ _ _ LR lvR 1 fun _ _ => rfl
  pre c := iprop(StableHlo.held (c : Thread nD τ) (Pipeline.ucRefs τ sig) (U4 m c) ∗ Rr c)
  post c := iprop(StableHlo.held (c : Thread nD τ) (Pipeline.ucRefs τ sig) (U5 m c) ∗ Rr c)
  X c := iprop(∃ r, prngReg c r)
  Y c := iprop(∃ r, prngReg c r)
  Z c := Pipeline.unscopedRest (Ix := Unit) (Name := ℕ) (U := UR sig nD τ) (Lvl := ℕ) spec1 c (UV4 m c)
  hentry c := by
    rw [Pipeline.ownSems0_none]
    have hsplit := Pipeline.arrays_of_unscopedBufs (p := 1) (pcfgs (F := F)) admR (pdats m) launch1.win launch1.arr_whole c
      ((pdats m 1 c).share_full fun _ => rfl) (UV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (fun c b => U4 m c b) c
    unfold Pipeline.ΦA at h
    rw [show (pdats m 1 c).Φ 0 = (dat1 (fun c b => U4 m c b) c).Φ 0 from rfl]
    iintro ⟨Hp, -, Hr⟩
    iapply h
    isplitl [Hr]; · iexact Hr
    iexact Hp
  hout c := by
    rw [Pipeline.ownSems0_none]
    have h := hout1 (fun c b => U4 m c b) c
    unfold Pipeline.ΦA at h
    rw [show (pdats m 1 c).Φ (Fin.last _) = (dat1 (fun c b => U4 m c b) c).Φ (Fin.last cfg1.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m) ((pdats m 1 c).share_full fun _ => rfl)
      (UV4 m c) (UV5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every outliving buffer at `U8`, left with them at `U9`.  Its
    arrays are split out of those buffers and put back at the exit contents; the generator register goes into the
    region invariant and comes out; nothing is owed; the kernel has no semaphore of its own. -/
def reg2 : Pipeline.RegionSeg (pcfgs (F := F)) admR (pdats m) () defs₀ 𝒱R LR lvR 2 where
  win := launch2.win.to₀
  block_pos := launch2.block_pos
  stage_whole := launch2.stage_whole
  K := PEmpty
  osem k := k.elim
  ho := Pipeline.OwnSemFacts.none _
  hbody c := (body_obligation2 (fun c b => U8 m c b) c).loose
  hwaits := Pipeline.hwaits_of_owed_zero _ _ _ _ LR lvR 2 fun _ _ => rfl
  pre c := iprop(StableHlo.held (c : Thread nD τ) (Pipeline.ucRefs τ sig) (U8 m c) ∗ Rr c)
  post c := iprop(StableHlo.held (c : Thread nD τ) (Pipeline.ucRefs τ sig) (U9 m c) ∗ Rr c)
  X c := iprop(∃ r, prngReg c r)
  Y c := iprop(∃ r, prngReg c r)
  Z c := Pipeline.unscopedRest (Ix := Unit) (Name := ℕ) (U := UR sig nD τ) (Lvl := ℕ) spec2 c (UV8 m c)
  hentry c := by
    rw [Pipeline.ownSems0_none]
    have hsplit := Pipeline.arrays_of_unscopedBufs (p := 2) (pcfgs (F := F)) admR (pdats m) launch2.win launch2.arr_whole c
      ((pdats m 2 c).share_full fun _ => rfl) (UV8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (fun c b => U8 m c b) c
    unfold Pipeline.ΦA at h
    rw [show (pdats m 2 c).Φ 0 = (dat2 (fun c b => U8 m c b) c).Φ 0 from rfl]
    iintro ⟨Hp, -, Hr⟩
    iapply h
    isplitl [Hr]; · iexact Hr
    iexact Hp
  hout c := by
    rw [Pipeline.ownSems0_none]
    have h := hout2 (fun c b => U8 m c b) c
    unfold Pipeline.ΦA at h
    rw [show (pdats m 2 c).Φ (Fin.last _) = (dat2 (fun c b => U8 m c b) c).Φ (Fin.last cfg2.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdats m) ((pdats m 2 c).share_full fun _ => rfl)
      (UV8 m c) (UV9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every outliving buffer at `U9`, left with them at `U10`.  Its
    arrays are split out of those buffers and put back at the exit contents; the generator register goes into the
    region invariant and comes out; nothing is owed; the kernel has no semaphore of its own. -/
def reg3 : Pipeline.RegionSeg (pcfgs (F := F)) admR (pdats m) () defs₀ 𝒱R LR lvR 3 where
  win := launch3.win.to₀
  block_pos := launch3.block_pos
  stage_whole := launch3.stage_whole
  K := PEmpty
  osem k := k.elim
  ho := Pipeline.OwnSemFacts.none _
  hbody c := (body_obligation3 (fun c b => U9 m c b) c).loose
  hwaits := Pipeline.hwaits_of_owed_zero _ _ _ _ LR lvR 3 fun _ _ => rfl
  pre c := iprop(StableHlo.held (c : Thread nD τ) (Pipeline.ucRefs τ sig) (U9 m c) ∗ Rr c)
  post c := iprop(StableHlo.held (c : Thread nD τ) (Pipeline.ucRefs τ sig) (U10 m c) ∗ Rr c)
  X c := iprop(∃ r, prngReg c r)
  Y c := iprop(∃ r, prngReg c r)
  Z c := Pipeline.unscopedRest (Ix := Unit) (Name := ℕ) (U := UR sig nD τ) (Lvl := ℕ) spec3 c (UV9 m c)
  hentry c := by
    rw [Pipeline.ownSems0_none]
    have hsplit := Pipeline.arrays_of_unscopedBufs (p := 3) (pcfgs (F := F)) admR (pdats m) launch3.win launch3.arr_whole c
      ((pdats m 3 c).share_full fun _ => rfl) (UV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (fun c b => U9 m c b) c
    unfold Pipeline.ΦA at h
    rw [show (pdats m 3 c).Φ 0 = (dat3 (fun c b => U9 m c b) c).Φ 0 from rfl]
    iintro ⟨Hp, -, Hr⟩
    iapply h
    isplitl [Hr]; · iexact Hr
    iexact Hp
  hout c := by
    rw [Pipeline.ownSems0_none]
    have h := hout3 (fun c b => U9 m c b) c
    unfold Pipeline.ΦA at h
    rw [show (pdats m 3 c).Φ (Fin.last _) = (dat3 (fun c b => U9 m c b) c).Φ (Fin.last cfg3.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 3) (pcfgs (F := F)) admR (Ix := Unit) (Name := ℕ) (U := UR sig nD τ) (Lvl := ℕ)
      launch3.win launch3.arr_whole c (pdats m) ((pdats m 3 c).share_full fun _ => rfl)
      (UV9 m c) (UV10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every outliving buffer at `U11`, left with them at `U12`.  Its
    arrays are split out of those buffers and put back at the exit contents; the generator register goes into the
    region invariant and comes out; nothing is owed; the kernel has no semaphore of its own. -/
def reg4 : Pipeline.RegionSeg (pcfgs (F := F)) admR (pdats m) () defs₀ 𝒱R LR lvR 4 where
  win := launch4.win.to₀
  block_pos := launch4.block_pos
  stage_whole := launch4.stage_whole
  K := PEmpty
  osem k := k.elim
  ho := Pipeline.OwnSemFacts.none _
  hbody c := (body_obligation4 (fun c b => U11 m c b) c).loose
  hwaits := Pipeline.hwaits_of_owed_zero _ _ _ _ LR lvR 4 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec4 c (UV11 m c)
  hentry c := by
    rw [Pipeline.ownSems0_none]
    have hsplit := Pipeline.arrays_of_unscopedBufs (p := 4) (pcfgs (F := F)) admR (pdats m) launch4.win launch4.arr_whole c
      ((pdats m 4 c).share_full fun _ => rfl) (UV11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (fun c b => U11 m c b) c
    unfold Pipeline.ΦA at h
    rw [show (pdats m 4 c).Φ 0 = (dat4 (fun c b => U11 m c b) c).Φ 0 from rfl]
    iintro ⟨Hp, -, Hr⟩
    iapply h
    isplitl [Hr]; · iexact Hr
    iexact Hp
  hout c := by
    rw [Pipeline.ownSems0_none]
    have h := hout4 (fun c b => U11 m c b) c
    unfold Pipeline.ΦA at h
    rw [show (pdats m 4 c).Φ (Fin.last _) = (dat4 (fun c b => U11 m c b) c).Φ (Fin.last cfg4.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 4) (pcfgs (F := F)) admR (Ix := Unit) (Name := ℕ) (U := UR sig nD τ) (Lvl := ℕ)
      launch4.win launch4.arr_whole c (pdats m) ((pdats m 4 c).share_full fun _ => rfl)
      (UV11 m c) (UV12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every outliving buffer at `U13`, left with them at `U14`.  Its
    arrays are split out of those buffers and put back at the exit contents; the generator register goes into the
    region invariant and comes out; nothing is owed; the kernel has no semaphore of its own. -/
def reg5 : Pipeline.RegionSeg (pcfgs (F := F)) admR (pdats m) () defs₀ 𝒱R LR lvR 5 where
  win := launch5.win.to₀
  block_pos := launch5.block_pos
  stage_whole := launch5.stage_whole
  K := PEmpty
  osem k := k.elim
  ho := Pipeline.OwnSemFacts.none _
  hbody c := (body_obligation5 (fun c b => U13 m c b) c).loose
  hwaits := Pipeline.hwaits_of_owed_zero _ _ _ _ LR lvR 5 fun _ _ => rfl
  pre c := iprop(StableHlo.held (c : Thread nD τ) (Pipeline.ucRefs τ sig) (U13 m c) ∗ Rr c)
  post c := iprop(StableHlo.held (c : Thread nD τ) (Pipeline.ucRefs τ sig) (U14 m c) ∗ Rr c)
  X c := iprop(∃ r, prngReg c r)
  Y c := iprop(∃ r, prngReg c r)
  Z c := Pipeline.unscopedRest (Ix := Unit) (Name := ℕ) (U := UR sig nD τ) (Lvl := ℕ) spec5 c (UV13 m c)
  hentry c := by
    rw [Pipeline.ownSems0_none]
    have hsplit := Pipeline.arrays_of_unscopedBufs (p := 5) (pcfgs (F := F)) admR (pdats m) launch5.win launch5.arr_whole c
      ((pdats m 5 c).share_full fun _ => rfl) (UV13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin5 (fun c b => U13 m c b) c
    unfold Pipeline.ΦA at h
    rw [show (pdats m 5 c).Φ 0 = (dat5 (fun c b => U13 m c b) c).Φ 0 from rfl]
    iintro ⟨Hp, -, Hr⟩
    iapply h
    isplitl [Hr]; · iexact Hr
    iexact Hp
  hout c := by
    rw [Pipeline.ownSems0_none]
    have h := hout5 (fun c b => U13 m c b) c
    unfold Pipeline.ΦA at h
    rw [show (pdats m 5 c).Φ (Fin.last _) = (dat5 (fun c b => U13 m c b) c).Φ (Fin.last cfg5.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 5) (pcfgs (F := F)) admR (Ix := Unit) (Name := ℕ) (U := UR sig nD τ) (Lvl := ℕ)
      launch5.win launch5.arr_whole c (pdats m) ((pdats m 5 c).share_full fun _ => rfl)
      (UV13 m c) (UV14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every outliving buffer at `U15`, left with them at `U16`.  Its
    arrays are split out of those buffers and put back at the exit contents; the generator register goes into the
    region invariant and comes out; nothing is owed; the kernel has no semaphore of its own. -/
def reg6 : Pipeline.RegionSeg (pcfgs (F := F)) admR (pdats m) () defs₀ 𝒱R LR lvR 6 where
  win := launch6.win.to₀
  block_pos := launch6.block_pos
  stage_whole := launch6.stage_whole
  K := PEmpty
  osem k := k.elim
  ho := Pipeline.OwnSemFacts.none _
  hbody c := (body_obligation6 (fun c b => U15 m c b) c).loose
  hwaits := Pipeline.hwaits_of_owed_zero _ _ _ _ LR lvR 6 fun _ _ => rfl
  pre c := iprop(StableHlo.held (c : Thread nD τ) (Pipeline.ucRefs τ sig) (U15 m c) ∗ Rr c)
  post c := iprop(StableHlo.held (c : Thread nD τ) (Pipeline.ucRefs τ sig) (U16 m c) ∗ Rr c)
  X c := iprop(∃ r, prngReg c r)
  Y c := iprop(∃ r, prngReg c r)
  Z c := Pipeline.unscopedRest (Ix := Unit) (Name := ℕ) (U := UR sig nD τ) (Lvl := ℕ) spec6 c (UV15 m c)
  hentry c := by
    rw [Pipeline.ownSems0_none]
    have hsplit := Pipeline.arrays_of_unscopedBufs (p := 6) (pcfgs (F := F)) admR (pdats m) launch6.win launch6.arr_whole c
      ((pdats m 6 c).share_full fun _ => rfl) (UV15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin6 (fun c b => U15 m c b) c
    unfold Pipeline.ΦA at h
    rw [show (pdats m 6 c).Φ 0 = (dat6 (fun c b => U15 m c b) c).Φ 0 from rfl]
    iintro ⟨Hp, -, Hr⟩
    iapply h
    isplitl [Hr]; · iexact Hr
    iexact Hp
  hout c := by
    rw [Pipeline.ownSems0_none]
    have h := hout6 (fun c b => U15 m c b) c
    unfold Pipeline.ΦA at h
    rw [show (pdats m 6 c).Φ (Fin.last _) = (dat6 (fun c b => U15 m c b) c).Φ (Fin.last cfg6.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 6) (pcfgs (F := F)) admR (Ix := Unit) (Name := ℕ) (U := UR sig nD τ) (Lvl := ℕ)
      launch6.win launch6.arr_whole c (pdats m) ((pdats m 6 c).share_full fun _ => rfl)
      (UV15 m c) (UV16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seventeen items in order. -/
abbrev segsR : List (Pipeline.Seg (pcfgs (F := F)) admR (pdats m) () defs₀ 𝒱R LR lvR) :=
  [ .region (reg0 m),
    .host (hseg hostOps1 hostOps1_sub hostOps1_fresh (U1 m)),
    .host (hseg hostOps1_1 hostOps1_1_sub hostOps1_1_fresh (U2 m)),
    .host (hseg hostOps1_2 hostOps1_2_sub hostOps1_2_fresh (U3 m)),
    .region (reg1 m),
    .host (hseg hostOps2 hostOps2_sub hostOps2_fresh (U5 m)),
    .host (hseg hostOps2_1 hostOps2_1_sub hostOps2_1_fresh (U6 m)),
    .host (hseg hostOps2_2 hostOps2_2_sub hostOps2_2_fresh (U7 m)),
    .region (reg2 m),
    .region (reg3 m),
    .host (hseg hostOps4 hostOps4_sub hostOps4_fresh (U10 m)),
    .region (reg4 m),
    .host (hseg hostOps5 hostOps5_sub hostOps5_fresh (U12 m)),
    .region (reg5 m),
    .host (hseg hostOps6 hostOps6_sub hostOps6_fresh (U14 m)),
    .region (reg6 m),
    .host (hseg hostOps7 hostOps7_sub hostOps7_fresh (U16 m)) ]

/-- The program is the run of the segments. -/
theorem main_runR (c : Dev nD) : main (F := F) c = Pipeline.Seg.run (segsR m) := (main_chain c).trans (by chain_rfl)

/-- An outliving TensorCore buffer is among those the thread state holds. -/
theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and every buffer that outlives the regions ends at `U17`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U17 m c b) :=
  Pipeline.θ_run_regions_kit (pcfgs (F := F)) admR (pdats m) () cellOf_inj emb₁ defs₀ 𝒱R LR lvR m ρ main (segsR m)
    (fun c Q => by rw [main_runR m c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rr c))
    (Tₙ := fun c => iprop(StableHlo.held (c : Thread nD τ) (Pipeline.ucRefs τ sig) (U17 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (U17 m c) ∗ Rr c) : sProp 𝕄) ⊢ _
      iintro ⟨Hh, Hp, HO⟩
      isplitl [Hh Hp]
      · isplitl [Hh]; · iexact Hh
        iexact Hp
      iexact HO⟩)
    (hinit := by
      refine Pipeline.initEach LR lvR fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U17 m c b)
    (hfin := fun c s' => by
      iintro ⟨⟨Hh, -⟩, HSI⟩
      unfold StableHlo.held
      imodintro
      iapply (pointsTo_read_all (Pipeline.ucRefs τ sig) (fun b => (((c : Thread nD τ)).1, b)) (U17 m c) s')
      isplitl [Hh] <;> iassumption)
    (hQ := fun s h => h)

end Cert.Kernel.Gen

end
-- ==== Proof.K.Args.lean ====
/-
  The argument arrays at the end of the run: no stretch of array operations writes an argument and no region has
  one as an output, so the last valuation at an argument walks back, item by item, to the launch memory — through a
  stretch because the argument is not among the buffers it writes, through a region either because the argument is
  none of its arrays or because it is an input window's array, which the pipeline leaves as it found it.
-/
import proofs.«140739_j42683384987781_2_alg».proof.Proof.K.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
theorem U17_main_arg0 (c : Dev nD) : U17 m c (Proc.devRef .tc main_arg0) = m ((c : Thread nD τ).loc main_arg0) :=
  (StableHlo.after_of_writes_sub hostOps7 _ hostOps7_writes (by decide : main_arg0 ∉ hostOps7_W)).trans <|
  ((U16_arr m c 0).trans (((dat6 (fun c b => U15 m c b) c).arrAt_in 0 rfl _).trans (A_eq6 (fun c b => U15 m c b) c 0))).trans <|
  (StableHlo.after_of_writes_sub hostOps6 _ hostOps6_writes (by decide : main_arg0 ∉ hostOps6_W)).trans <|
  (U14_of_ne m c main_arg0 (by decide)).trans <|
  (StableHlo.after_of_writes_sub hostOps5 _ hostOps5_writes (by decide : main_arg0 ∉ hostOps5_W)).trans <|
  ((U12_arr m c 1).trans (((dat4 (fun c b => U11 m c b) c).arrAt_in 1 rfl _).trans (A_eq4 (fun c b => U11 m c b) c 1))).trans <|
  (StableHlo.after_of_writes_sub hostOps4 _ hostOps4_writes (by decide : main_arg0 ∉ hostOps4_W)).trans <|
  (U10_of_ne m c main_arg0 (by decide)).trans <|
  ((U9_arr m c 0).trans (((dat2 (fun c b => U8 m c b) c).arrAt_in 0 rfl _).trans (A_eq2 (fun c b => U8 m c b) c 0))).trans <|
  (StableHlo.after_of_writes_sub hostOps2_2 _ hostOps2_2_writes (by decide : main_arg0 ∉ hostOps2_2_W)).trans <|
  (StableHlo.after_of_writes_sub hostOps2_1 _ hostOps2_1_writes (by decide : main_arg0 ∉ hostOps2_1_W)).trans <|
  (StableHlo.after_of_writes_sub hostOps2 _ hostOps2_writes (by decide : main_arg0 ∉ hostOps2_W)).trans <|
  ((U5_arr m c 1).trans (((dat1 (fun c b => U4 m c b) c).arrAt_in 1 rfl _).trans (A_eq1 (fun c b => U4 m c b) c 1))).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  ((U1_arr m c 0).trans (((dat0 (fun c b => U0 m c b) c).arrAt_in 0 rfl _).trans (A_eq0 (fun c b => U0 m c b) c 0))).trans <| rfl
theorem U17_main_arg1 (c : Dev nD) : U17 m c (Proc.devRef .tc main_arg1) = m ((c : Thread nD τ).loc main_arg1) :=
  (StableHlo.after_of_writes_sub hostOps7 _ hostOps7_writes (by decide : main_arg1 ∉ hostOps7_W)).trans <|
  (U16_of_ne m c main_arg1 (by decide)).trans <|
  (StableHlo.after_of_writes_sub hostOps6 _ hostOps6_writes (by decide : main_arg1 ∉ hostOps6_W)).trans <|
  ((U14_arr m c 1).trans (((dat5 (fun c b => U13 m c b) c).arrAt_in 1 rfl _).trans (A_eq5 (fun c b => U13 m c b) c 1))).trans <|
  (StableHlo.after_of_writes_sub hostOps5 _ hostOps5_writes (by decide : main_arg1 ∉ hostOps5_W)).trans <|
  (U12_of_ne m c main_arg1 (by decide)).trans <|
  (StableHlo.after_of_writes_sub hostOps4 _ hostOps4_writes (by decide : main_arg1 ∉ hostOps4_W)).trans <|
  ((U10_arr m c 1).trans (((dat3 (fun c b => U9 m c b) c).arrAt_in 1 rfl _).trans (A_eq3 (fun c b => U9 m c b) c 1))).trans <|
  (U9_of_ne m c main_arg1 (by decide)).trans <|
  (StableHlo.after_of_writes_sub hostOps2_2 _ hostOps2_2_writes (by decide : main_arg1 ∉ hostOps2_2_W)).trans <|
  (StableHlo.after_of_writes_sub hostOps2_1 _ hostOps2_1_writes (by decide : main_arg1 ∉ hostOps2_1_W)).trans <|
  (StableHlo.after_of_writes_sub hostOps2 _ hostOps2_writes (by decide : main_arg1 ∉ hostOps2_W)).trans <|
  (U5_of_ne m c main_arg1 (by decide)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (U1_of_ne m c main_arg1 (by decide)).trans <| rfl
theorem U17_main_arg2 (c : Dev nD) : U17 m c (Proc.devRef .tc main_arg2) = m ((c : Thread nD τ).loc main_arg2) :=
  (StableHlo.after_of_writes_sub hostOps7 _ hostOps7_writes (by decide : main_arg2 ∉ hostOps7_W)).trans <|
  (U16_of_ne m c main_arg2 (by decide)).trans <|
  (StableHlo.after_of_writes_sub hostOps6 _ hostOps6_writes (by decide : main_arg2 ∉ hostOps6_W)).trans <|
  (U14_of_ne m c main_arg2 (by decide)).trans <|
  (StableHlo.after_of_writes_sub hostOps5 _ hostOps5_writes (by decide : main_arg2 ∉ hostOps5_W)).trans <|
  (U12_of_ne m c main_arg2 (by decide)).trans <|
  (StableHlo.after_of_writes_sub hostOps4 _ hostOps4_writes (by decide : main_arg2 ∉ hostOps4_W)).trans <|
  (U10_of_ne m c main_arg2 (by decide)).trans <|
  (U9_of_ne m c main_arg2 (by decide)).trans <|
  (StableHlo.after_of_writes_sub hostOps2_2 _ hostOps2_2_writes (by decide : main_arg2 ∉ hostOps2_2_W)).trans <|
  (StableHlo.after_of_writes_sub hostOps2_1 _ hostOps2_1_writes (by decide : main_arg2 ∉ hostOps2_1_W)).trans <|
  (StableHlo.after_of_writes_sub hostOps2 _ hostOps2_writes (by decide : main_arg2 ∉ hostOps2_W)).trans <|
  (U5_of_ne m c main_arg2 (by decide)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  ((U1_arr m c 1).trans (((dat0 (fun c b => U0 m c b) c).arrAt_in 1 rfl _).trans (A_eq0 (fun c b => U0 m c b) c 1))).trans <| rfl
theorem U17_main_arg3 (c : Dev nD) : U17 m c (Proc.devRef .tc main_arg3) = m ((c : Thread nD τ).loc main_arg3) :=
  (StableHlo.after_of_writes_sub hostOps7 _ hostOps7_writes (by decide : main_arg3 ∉ hostOps7_W)).trans <|
  (U16_of_ne m c main_arg3 (by decide)).trans <|
  (StableHlo.after_of_writes_sub hostOps6 _ hostOps6_writes (by decide : main_arg3 ∉ hostOps6_W)).trans <|
  (U14_of_ne m c main_arg3 (by decide)).trans <|
  (StableHlo.after_of_writes_sub hostOps5 _ hostOps5_writes (by decide : main_arg3 ∉ hostOps5_W)).trans <|
  (U12_of_ne m c main_arg3 (by decide)).trans <|
  (StableHlo.after_of_writes_sub hostOps4 _ hostOps4_writes (by decide : main_arg3 ∉ hostOps4_W)).trans <|
  (U10_of_ne m c main_arg3 (by decide)).trans <|
  (U9_of_ne m c main_arg3 (by decide)).trans <|
  (StableHlo.after_of_writes_sub hostOps2_2 _ hostOps2_2_writes (by decide : main_arg3 ∉ hostOps2_2_W)).trans <|
  (StableHlo.after_of_writes_sub hostOps2_1 _ hostOps2_1_writes (by decide : main_arg3 ∉ hostOps2_1_W)).trans <|
  (StableHlo.after_of_writes_sub hostOps2 _ hostOps2_writes (by decide : main_arg3 ∉ hostOps2_W)).trans <|
  (U5_of_ne m c main_arg3 (by decide)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (U1_of_ne m c main_arg3 (by decide)).trans <| rfl
theorem U17_main_arg4 (c : Dev nD) : U17 m c (Proc.devRef .tc main_arg4) = m ((c : Thread nD τ).loc main_arg4) :=
  (StableHlo.after_of_writes_sub hostOps7 _ hostOps7_writes (by decide : main_arg4 ∉ hostOps7_W)).trans <|
  (U16_of_ne m c main_arg4 (by decide)).trans <|
  (StableHlo.after_of_writes_sub hostOps6 _ hostOps6_writes (by decide : main_arg4 ∉ hostOps6_W)).trans <|
  (U14_of_ne m c main_arg4 (by decide)).trans <|
  (StableHlo.after_of_writes_sub hostOps5 _ hostOps5_writes (by decide : main_arg4 ∉ hostOps5_W)).trans <|
  (U12_of_ne m c main_arg4 (by decide)).trans <|
  (StableHlo.after_of_writes_sub hostOps4 _ hostOps4_writes (by decide : main_arg4 ∉ hostOps4_W)).trans <|
  (U10_of_ne m c main_arg4 (by decide)).trans <|
  ((U9_arr m c 1).trans (((dat2 (fun c b => U8 m c b) c).arrAt_in 1 rfl _).trans (A_eq2 (fun c b => U8 m c b) c 1))).trans <|
  (StableHlo.after_of_writes_sub hostOps2_2 _ hostOps2_2_writes (by decide : main_arg4 ∉ hostOps2_2_W)).trans <|
  (StableHlo.after_of_writes_sub hostOps2_1 _ hostOps2_1_writes (by decide : main_arg4 ∉ hostOps2_1_W)).trans <|
  (StableHlo.after_of_writes_sub hostOps2 _ hostOps2_writes (by decide : main_arg4 ∉ hostOps2_W)).trans <|
  (U5_of_ne m c main_arg4 (by decide)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (U1_of_ne m c main_arg4 (by decide)).trans <| rfl
theorem U17_main_arg5 (c : Dev nD) : U17 m c (Proc.devRef .tc main_arg5) = m ((c : Thread nD τ).loc main_arg5) :=
  (StableHlo.after_of_writes_sub hostOps7 _ hostOps7_writes (by decide : main_arg5 ∉ hostOps7_W)).trans <|
  (U16_of_ne m c main_arg5 (by decide)).trans <|
  (StableHlo.after_of_writes_sub hostOps6 _ hostOps6_writes (by decide : main_arg5 ∉ hostOps6_W)).trans <|
  ((U14_arr m c 0).trans (((dat5 (fun c b => U13 m c b) c).arrAt_in 0 rfl _).trans (A_eq5 (fun c b => U13 m c b) c 0))).trans <|
  (StableHlo.after_of_writes_sub hostOps5 _ hostOps5_writes (by decide : main_arg5 ∉ hostOps5_W)).trans <|
  (U12_of_ne m c main_arg5 (by decide)).trans <|
  (StableHlo.after_of_writes_sub hostOps4 _ hostOps4_writes (by decide : main_arg5 ∉ hostOps4_W)).trans <|
  ((U10_arr m c 0).trans (((dat3 (fun c b => U9 m c b) c).arrAt_in 0 rfl _).trans (A_eq3 (fun c b => U9 m c b) c 0))).trans <|
  (U9_of_ne m c main_arg5 (by decide)).trans <|
  (StableHlo.after_of_writes_sub hostOps2_2 _ hostOps2_2_writes (by decide : main_arg5 ∉ hostOps2_2_W)).trans <|
  (StableHlo.after_of_writes_sub hostOps2_1 _ hostOps2_1_writes (by decide : main_arg5 ∉ hostOps2_1_W)).trans <|
  (StableHlo.after_of_writes_sub hostOps2 _ hostOps2_writes (by decide : main_arg5 ∉ hostOps2_W)).trans <|
  (U5_of_ne m c main_arg5 (by decide)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (U1_of_ne m c main_arg5 (by decide)).trans <| rfl
theorem U17_main_arg6 (c : Dev nD) : U17 m c (Proc.devRef .tc main_arg6) = m ((c : Thread nD τ).loc main_arg6) :=
  (StableHlo.after_of_writes_sub hostOps7 _ hostOps7_writes (by decide : main_arg6 ∉ hostOps7_W)).trans <|
  ((U16_arr m c 3).trans (((dat6 (fun c b => U15 m c b) c).arrAt_in 3 rfl _).trans (A_eq6 (fun c b => U15 m c b) c 3))).trans <|
  (StableHlo.after_of_writes_sub hostOps6 _ hostOps6_writes (by decide : main_arg6 ∉ hostOps6_W)).trans <|
  (U14_of_ne m c main_arg6 (by decide)).trans <|
  (StableHlo.after_of_writes_sub hostOps5 _ hostOps5_writes (by decide : main_arg6 ∉ hostOps5_W)).trans <|
  (U12_of_ne m c main_arg6 (by decide)).trans <|
  (StableHlo.after_of_writes_sub hostOps4 _ hostOps4_writes (by decide : main_arg6 ∉ hostOps4_W)).trans <|
  (U10_of_ne m c main_arg6 (by decide)).trans <|
  (U9_of_ne m c main_arg6 (by decide)).trans <|
  (StableHlo.after_of_writes_sub hostOps2_2 _ hostOps2_2_writes (by decide : main_arg6 ∉ hostOps2_2_W)).trans <|
  (StableHlo.after_of_writes_sub hostOps2_1 _ hostOps2_1_writes (by decide : main_arg6 ∉ hostOps2_1_W)).trans <|
  (StableHlo.after_of_writes_sub hostOps2 _ hostOps2_writes (by decide : main_arg6 ∉ hostOps2_W)).trans <|
  (U5_of_ne m c main_arg6 (by decide)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (U1_of_ne m c main_arg6 (by decide)).trans <| rfl
theorem U17_main_arg7 (c : Dev nD) : U17 m c (Proc.devRef .tc main_arg7) = m ((c : Thread nD τ).loc main_arg7) :=
  (StableHlo.after_of_writes_sub hostOps7 _ hostOps7_writes (by decide : main_arg7 ∉ hostOps7_W)).trans <|
  ((U16_arr m c 4).trans (((dat6 (fun c b => U15 m c b) c).arrAt_in 4 rfl _).trans (A_eq6 (fun c b => U15 m c b) c 4))).trans <|
  (StableHlo.after_of_writes_sub hostOps6 _ hostOps6_writes (by decide : main_arg7 ∉ hostOps6_W)).trans <|
  (U14_of_ne m c main_arg7 (by decide)).trans <|
  (StableHlo.after_of_writes_sub hostOps5 _ hostOps5_writes (by decide : main_arg7 ∉ hostOps5_W)).trans <|
  (U12_of_ne m c main_arg7 (by decide)).trans <|
  (StableHlo.after_of_writes_sub hostOps4 _ hostOps4_writes (by decide : main_arg7 ∉ hostOps4_W)).trans <|
  (U10_of_ne m c main_arg7 (by decide)).trans <|
  (U9_of_ne m c main_arg7 (by decide)).trans <|
  (StableHlo.after_of_writes_sub hostOps2_2 _ hostOps2_2_writes (by decide : main_arg7 ∉ hostOps2_2_W)).trans <|
  (StableHlo.after_of_writes_sub hostOps2_1 _ hostOps2_1_writes (by decide : main_arg7 ∉ hostOps2_1_W)).trans <|
  (StableHlo.after_of_writes_sub hostOps2 _ hostOps2_writes (by decide : main_arg7 ∉ hostOps2_W)).trans <|
  (U5_of_ne m c main_arg7 (by decide)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (U1_of_ne m c main_arg7 (by decide)).trans <| rfl
theorem U17_main_arg8 (c : Dev nD) : U17 m c (Proc.devRef .tc main_arg8) = m ((c : Thread nD τ).loc main_arg8) :=
  (StableHlo.after_of_writes_sub hostOps7 _ hostOps7_writes (by decide : main_arg8 ∉ hostOps7_W)).trans <|
  ((U16_arr m c 5).trans (((dat6 (fun c b => U15 m c b) c).arrAt_in 5 rfl _).trans (A_eq6 (fun c b => U15 m c b) c 5))).trans <|
  (StableHlo.after_of_writes_sub hostOps6 _ hostOps6_writes (by decide : main_arg8 ∉ hostOps6_W)).trans <|
  (U14_of_ne m c main_arg8 (by decide)).trans <|
  (StableHlo.after_of_writes_sub hostOps5 _ hostOps5_writes (by decide : main_arg8 ∉ hostOps5_W)).trans <|
  (U12_of_ne m c main_arg8 (by decide)).trans <|
  (StableHlo.after_of_writes_sub hostOps4 _ hostOps4_writes (by decide : main_arg8 ∉ hostOps4_W)).trans <|
  (U10_of_ne m c main_arg8 (by decide)).trans <|
  (U9_of_ne m c main_arg8 (by decide)).trans <|
  (StableHlo.after_of_writes_sub hostOps2_2 _ hostOps2_2_writes (by decide : main_arg8 ∉ hostOps2_2_W)).trans <|
  (StableHlo.after_of_writes_sub hostOps2_1 _ hostOps2_1_writes (by decide : main_arg8 ∉ hostOps2_1_W)).trans <|
  (StableHlo.after_of_writes_sub hostOps2 _ hostOps2_writes (by decide : main_arg8 ∉ hostOps2_W)).trans <|
  (U5_of_ne m c main_arg8 (by decide)).trans <|
  (StableHlo.after_of_writes_sub hostOps1_2 _ hostOps1_2_writes (by decide : main_arg8 ∉ hostOps1_2_W)).trans <|
  (StableHlo.after_of_writes_sub hostOps1_1 _ hostOps1_1_writes (by decide : main_arg8 ∉ hostOps1_1_W)).trans <|
  (StableHlo.after_of_writes_sub hostOps1 _ hostOps1_writes (by decide : main_arg8 ∉ hostOps1_W)).trans <|
  (U1_of_ne m c main_arg8 (by decide)).trans <| rfl
theorem U17_main_arg9 (c : Dev nD) : U17 m c (Proc.devRef .tc main_arg9) = m ((c : Thread nD τ).loc main_arg9) :=
  (StableHlo.after_of_writes_sub hostOps7 _ hostOps7_writes (by decide : main_arg9 ∉ hostOps7_W)).trans <|
  (U16_of_ne m c main_arg9 (by decide)).trans <|
  (StableHlo.after_of_writes_sub hostOps6 _ hostOps6_writes (by decide : main_arg9 ∉ hostOps6_W)).trans <|
  (U14_of_ne m c main_arg9 (by decide)).trans <|
  (StableHlo.after_of_writes_sub hostOps5 _ hostOps5_writes (by decide : main_arg9 ∉ hostOps5_W)).trans <|
  (U12_of_ne m c main_arg9 (by decide)).trans <|
  (StableHlo.after_of_writes_sub hostOps4 _ hostOps4_writes (by decide : main_arg9 ∉ hostOps4_W)).trans <|
  (U10_of_ne m c main_arg9 (by decide)).trans <|
  (U9_of_ne m c main_arg9 (by decide)).trans <|
  (StableHlo.after_of_writes_sub hostOps2_2 _ hostOps2_2_writes (by decide : main_arg9 ∉ hostOps2_2_W)).trans <|
  (StableHlo.after_of_writes_sub hostOps2_1 _ hostOps2_1_writes (by decide : main_arg9 ∉ hostOps2_1_W)).trans <|
  (StableHlo.after_of_writes_sub hostOps2 _ hostOps2_writes (by decide : main_arg9 ∉ hostOps2_W)).trans <|
  (U5_of_ne m c main_arg9 (by decide)).trans <|
  (StableHlo.after_of_writes_sub hostOps1_2 _ hostOps1_2_writes (by decide : main_arg9 ∉ hostOps1_2_W)).trans <|
  (StableHlo.after_of_writes_sub hostOps1_1 _ hostOps1_1_writes (by decide : main_arg9 ∉ hostOps1_1_W)).trans <|
  (StableHlo.after_of_writes_sub hostOps1 _ hostOps1_writes (by decide : main_arg9 ∉ hostOps1_W)).trans <|
  (U1_of_ne m c main_arg9 (by decide)).trans <| rfl
theorem U17_main_arg10 (c : Dev nD) : U17 m c (Proc.devRef .tc main_arg10) = m ((c : Thread nD τ).loc main_arg10) :=
  (StableHlo.after_of_writes_sub hostOps7 _ hostOps7_writes (by decide : main_arg10 ∉ hostOps7_W)).trans <|
  (U16_of_ne m c main_arg10 (by decide)).trans <|
  (StableHlo.after_of_writes_sub hostOps6 _ hostOps6_writes (by decide : main_arg10 ∉ hostOps6_W)).trans <|
  (U14_of_ne m c main_arg10 (by decide)).trans <|
  (StableHlo.after_of_writes_sub hostOps5 _ hostOps5_writes (by decide : main_arg10 ∉ hostOps5_W)).trans <|
  (U12_of_ne m c main_arg10 (by decide)).trans <|
  (StableHlo.after_of_writes_sub hostOps4 _ hostOps4_writes (by decide : main_arg10 ∉ hostOps4_W)).trans <|
  (U10_of_ne m c main_arg10 (by decide)).trans <|
  (U9_of_ne m c main_arg10 (by decide)).trans <|
  (StableHlo.after_of_writes_sub hostOps2_2 _ hostOps2_2_writes (by decide : main_arg10 ∉ hostOps2_2_W)).trans <|
  (StableHlo.after_of_writes_sub hostOps2_1 _ hostOps2_1_writes (by decide : main_arg10 ∉ hostOps2_1_W)).trans <|
  (StableHlo.after_of_writes_sub hostOps2 _ hostOps2_writes (by decide : main_arg10 ∉ hostOps2_W)).trans <|
  (U5_of_ne m c main_arg10 (by decide)).trans <|
  (StableHlo.after_of_writes_sub hostOps1_2 _ hostOps1_2_writes (by decide : main_arg10 ∉ hostOps1_2_W)).trans <|
  (StableHlo.after_of_writes_sub hostOps1_1 _ hostOps1_1_writes (by decide : main_arg10 ∉ hostOps1_1_W)).trans <|
  (StableHlo.after_of_writes_sub hostOps1 _ hostOps1_writes (by decide : main_arg10 ∉ hostOps1_W)).trans <|
  (U1_of_ne m c main_arg10 (by decide)).trans <| rfl

end Cert.Kernel.Gen

end
-- ==== Proof.KI.R0Run.lean ====
/-
  Region 0: the tiled product  cur · r_proj_s  (row tiles of 2048, the whole contraction of 256 in one step).
  The grid is 2 × 1, so the contraction coordinate is 0 at both points: each point is at once the first step
  (the accumulator is cleared) and the last (the accumulator is copied to the output tile).  This module holds the
  two branch conditions, decided over the grid, and the run of the kernel body in that one control case.
-/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first contraction step": the condition under which the accumulator is cleared. -/
abbrev cond0_0 (i : grid0.Coords) : Prop :=
  (Scalar.cmpi .ne (Scalar.extui (Scalar.cmpi .eq (BitVec.ofNat 32 (i 1).val) 0#32)) 0#32) = 1#1
/-- It holds at every point: the contraction axis has one step. -/
theorem hcond0_0 : ∀ t : Fin cfg0.N, cond0_0 (grid0.coords t) :=
  (by decide +kernel : ∀ t : Fin grid0.N, cond0_0 (grid0.coords t))

/-- "This is the last contraction step": the condition under which the output tile is written. -/
abbrev cond0_1 (i : grid0.Coords) : Prop := k0_cond2 i = 1#1
/-- It holds at every point as well. -/
theorem hcond0_1 : ∀ t : Fin cfg0.N, cond0_1 (grid0.coords t) :=
  (by decide +kernel : ∀ t : Fin grid0.N, cond0_1 (grid0.coords t))

/-! ## The staging memrefs and the accumulator -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S2048x256 .f32 := Memref.whole cc0_scratch0
/-- One staging buffer of the output window, through which its contents are stated. -/
abbrev VO0_2 : View sig .tc .vmem S2048x256 .f32 := (Memref.whole cc0_stg2_0 : Memref sig .tc .vmem S2048x256 .f32).view

/-! ## The body's run -/

set_option maxHeartbeats 1000000 in
/-- The body on whole memrefs, both conditions holding: from the two input tiles at `x0`, `x1`, the output tile and
    the accumulator at anything, it runs to the continuation with the inputs as they were, the output tile with the
    pieces `L2` written and the accumulator with the pieces `LS0` written.  The piece lists are what the symbolic
    run of the body's loads and stores finds. -/
noncomputable def kernelRun0 (c : Dev nD) (i : grid0.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond0_0 i) (hc1 : cond0_1 i) (x0 : Vec F S2048x256 .f32) (x1 : Vec F S256x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.R0.lean ====
/-
  Region 0: the tiled product of a 4096 × 256 matrix with a 256 × 256 matrix, two row tiles of 2048, the whole
  contraction in one step.  The proof data of the region as a pipeline, over any contents `V` of the buffers at the
  region's entry: each input window's staging buffer holds its tile; the output's holds what the body's stores leave
  (the accumulator, cleared and then increased by the tile product, copied out); the accumulator itself is cleared at
  every point before it is read, so the region invariant keeps it at unspecified contents.  Then the body obligation.
-/
import proofs.«140739_j42683384987781_2_alg».proof.Proof.KI.R0Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its tile at every point, for any proof data over `V` whose body
    leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's: fetched at the first point only, its tile index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window is live at every point: every point is a last contraction step. -/
theorem liveAt0_2 : ∀ t : Fin cfg0.N, cfg0.idle 2 (grid0.coords t) = false := by decide +kernel

/-! ## What the body leaves in the output tile -/

/-- The stores into the output's staging buffer tile it. -/
theorem cover0_2 (c : Dev nD) (i : grid0.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond0_0 i) (hc1 : cond0_1 i) (x0 : Vec F S2048x256 .f32) (x1 : Vec F S256x256 .f32) (y : S2048x256.Idx) :
    ∃ pc ∈ (kernelRun0 c i arg2 harg2 arg3 harg3 arg4 harg4 arg5 harg5 hc0 hc1 x0 x1).1, y ∈ pc.1.set :=
  View.cover_of_tiledL (kernelRun0 c i arg2 harg2 arg3 harg3 arg4 harg4 arg5 harg5 hc0 hc1 x0 x1).1 S2048x256.size (by sl_kernel_rfl) y

/-- What the body leaves in the output's staging buffer: its stores read back. -/
def out0_2 (c : Dev nD) (i : grid0.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond0_0 i) (hc1 : cond0_1 i) (x0 : Vec F S2048x256 .f32) (x1 : Vec F S256x256 .f32) : Vec F S2048x256 .f32 :=
  VO0_2.read (Elt F) (VO0_2.writes (Elt F) VO0_2.junk (kernelRun0 c i arg2 harg2 arg3 harg3 arg4 harg4 arg5 harg5 hc0 hc1 x0 x1).1)

/-- The output tile after the body at point `t`. -/
def outAt0 (c : Dev nD) (t : Fin cfg0.N) : Vec F S2048x256 .f32 :=
  out0_2 c (grid0.coords t) (ms0_0 t) (hs0_0 t) (ms0_1 t) (hs0_1 t) (ms0_2 t) (hs0_2 t) scM0_0 (Memref.isWhole_whole _)
    (hcond0_0 t) (hcond0_1 t) (iblk0 V c 0 t) (iblk0 V c 1 t)

/-! ## The proof data -/

/-- The region's proof data on core `c`: the arrays as the region finds them; after the body at point `t` each
    input's buffer at its tile and the output's at `outAt0`; the invariant the kernel's scoped buffers at anything
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The region invariant with the accumulator split off as a memref owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 800000 in
/-- The body at any point: the inputs' memrefs hold their tiles; both conditions hold; the run applies; the
    accumulator is taken out of the invariant at anything and put back at anything; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from rfl,
    show (dat0 V c).leavesExact 1 t = owns (c : Thread nD τ) (ms0_1 t) fullShare ((dat0 V c).after 1 t) from rfl,
    show (dat0 V c).leavesExact 2 t = owns (c : Thread nD τ) (ms0_2 t) fullShare ((dat0 V c).after 2 t) from by
      unfold Dat.leavesExact; rw [liveAt0_2 t],
    after0_0, after0_1, after0_2]
  rw [show (dat0 V c).Φ t.castSucc = Pipeline.ΦA spec0 c from rfl, PhiA0_eq]
  unfold outAt0 out0_2
  iintro ⟨⟨⟨HS0, Hrest⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, and the invariant after the last is
    what the region gives back. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Gen

end
-- ==== Proof.KI.R1Runs.lean ====
/- Region 1: the tiled matrix product C = A · B on a 4 × 8 grid — row blocks of 1024, reduction blocks of 512,
   an accumulator carried along the reduction axis, zeroed at its first step and copied to the output block at
   its last. What the three control cases (first / middle / last reduction step) share: the windows' blocks read
   off the entry contents, the two branch conditions in closed form over the 32 points, where the output window
   is idle, the memrefs the body is called with, and the region invariant with the accumulator split off. -/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Ring
import Idealize.ShloMosaic.Lib.Tactic

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its block at every point, fetched there or not, for any proof data whose
    array is the entry contents and whose body leaves the block in place: the window is an input, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right factor's staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the reduction coordinate -/

/-- "This is the first reduction step" (the accumulator is zeroed under it), as the body computes it from the coordinates. -/
abbrev cond1_0 (i : grid1.Coords) : Prop := (Scalar.cmpi .ne (Scalar.extui (Scalar.cmpi .eq (BitVec.ofNat 32 (i 1).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last reduction step" (the output block is stored under it). -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The two factors are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last reduction step it is live. -/
theorem liveAt1_2 : ∀ t : Fin cfg1.N, cond1_1 (grid1.coords t) → cfg1.idle 2 (grid1.coords t) = false := by decide +kernel

/-! ## The memrefs the body is called with -/

/-- One staging buffer of the output window, through which its contents are stated (which one does not matter). -/
abbrev VO1_2 : View sig .tc .vmem S1024x256 .f32 := (Memref.whole cc1_stg2_0 : Memref sig .tc .vmem S1024x256 .f32).view
/-- Each window's current staging memref at point `t`, spelled as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows and carried from point to point. -/
abbrev scM1_0 : Memref sig .tc .vmem S1024x256 .f32 := Memref.whole cc1_scratch0
/-- The accumulator as a view: what it holds is stated through it. -/
abbrev VS1_0 : View sig .tc .vmem S1024x256 .f32 := scM1_0.view

/-- The region's invariant with the accumulator split off as a memref owned at some contents; every other scoped
    buffer stays unopened. This is what the body obligation hands the body at the first point. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

end Cert.KernelIdeal.Gen

end
-- ==== Proof.KI.R1RunMid.lean ====
/- Region 1, a middle reduction step: the whole body run on any whole staging memrefs. -/
import proofs.«140739_j42683384987781_2_alg».proof.Proof.KI.R1Runs

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A MIDDLE reduction step (neither condition holds): the body reads both factors' blocks and the accumulator and
    stores the accumulator plus the blocks' product back; it stores nothing into the output window, which is handed
    back untouched at the contents `xi2` it came with. The pieces the accumulator ends with are the witness the
    run produces; the output's list of pieces is empty. -/
noncomputable def kernelRun1_mid (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.R1RunFirst.lean ====
/- Region 1, a first reduction step: the whole body run on any whole staging memrefs. -/
import proofs.«140739_j42683384987781_2_alg».proof.Proof.KI.R1RunMid

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A FIRST reduction step (the first condition holds, the second does not): the body zeroes the accumulator — whatever
    it held, so it is taken at any contents —, then reads both factors' blocks and stores zero plus their product
    into it; the output window is handed back untouched at the contents `xi2` it came with. The accumulator's pieces
    (last store first) are the witness the run produces; the output's list of pieces is empty. -/
noncomputable def kernelRun1_first (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x512 .f32) (x1 : Vec F S512x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.R1RunLast.lean ====
/- Region 1, a last reduction step: the whole body run on any whole staging memrefs. -/
import proofs.«140739_j42683384987781_2_alg».proof.Proof.KI.R1RunFirst

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A LAST reduction step (the second condition holds, the first does not): the body accumulates as at a middle
    step, then copies the accumulator into the output window's staging buffer — whatever that held, so it is taken
    at any contents. Both lists of pieces are witnesses the run produces. -/
noncomputable def kernelRun1_last (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.R1.lean ====
/- Region 1: the frame data of the tiled matrix product on the 4 × 8 grid — what each control case leaves in the
   output window's buffer and in the accumulator, those contents point by point along the reduction axis, the region
   invariant carrying the accumulator, the pipeline's proof data at the entry contents, and the body obligation. -/
import proofs.«140739_j42683384987781_2_alg».proof.Proof.KI.R1RunLast

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each control case leaves in the output window's buffer and in the accumulator -/

/-- At a first reduction step nothing is stored into the output window (it is idle there and not written back): no pieces. This
    value is a placeholder that nothing consults, since at such a point the window is neither written back nor read
    at the next point. -/
def out1_first_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i) (x0 : Vec F S1024x512 .f32) (x1 : Vec F S512x256 .f32) : Vec F S1024x256 .f32 :=
  VO1_2.read (Elt F) (VO1_2.writes (Elt F) VO1_2.junk (kernelRun1_first c i arg2 harg2 arg3 harg3 arg4 harg4 arg5 harg5 hc0 hc1 x0 x1).1)

/-- At a first reduction step every store into the accumulator is the whole buffer, so its pieces cover it. -/
theorem scover1_first_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i) (x0 : Vec F S1024x512 .f32) (x1 : Vec F S512x256 .f32) (y : S1024x256.Idx) :
    ∃ pc ∈ (kernelRun1_first c i arg2 harg2 arg3 harg3 arg4 harg4 arg5 harg5 hc0 hc1 x0 x1).2.1, y ∈ pc.1.set :=
  View.cover_of_tiledL (kernelRun1_first c i arg2 harg2 arg3 harg3 arg4 harg4 arg5 harg5 hc0 hc1 x0 x1).2.1 S1024x256.size (by sl_kernel_rfl) y

/-- What a first reduction step leaves in the accumulator: its pieces read back. -/
def sout1_first_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i) (x0 : Vec F S1024x512 .f32) (x1 : Vec F S512x256 .f32) : Vec F S1024x256 .f32 :=
  VS1_0.read (Elt F) (VS1_0.writes (Elt F) VS1_0.junk (kernelRun1_first c i arg2 harg2 arg3 harg3 arg4 harg4 arg5 harg5 hc0 hc1 x0 x1).2.1)

/-- At a middle reduction step nothing is stored into the output window (it is idle there and not written back): no pieces. This
    value is a placeholder that nothing consults, since at such a point the window is neither written back nor read
    at the next point. -/
def out1_mid_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i) (x0 : Vec F S1024x512 .f32) (x1 : Vec F S512x256 .f32) (xs0 : Vec F S1024x256 .f32) : Vec F S1024x256 .f32 :=
  VO1_2.read (Elt F) (VO1_2.writes (Elt F) VO1_2.junk (kernelRun1_mid c i arg2 harg2 arg3 harg3 arg4 harg4 arg5 harg5 hc0 hc1 x0 x1 xs0).1)

/-- At a middle reduction step every store into the accumulator is the whole buffer, so its pieces cover it. -/
theorem scover1_mid_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i) (x0 : Vec F S1024x512 .f32) (x1 : Vec F S512x256 .f32) (xs0 : Vec F S1024x256 .f32) (y : S1024x256.Idx) :
    ∃ pc ∈ (kernelRun1_mid c i arg2 harg2 arg3 harg3 arg4 harg4 arg5 harg5 hc0 hc1 x0 x1 xs0).2.1, y ∈ pc.1.set :=
  View.cover_of_tiledL (kernelRun1_mid c i arg2 harg2 arg3 harg3 arg4 harg4 arg5 harg5 hc0 hc1 x0 x1 xs0).2.1 S1024x256.size (by sl_kernel_rfl) y

/-- What a middle reduction step leaves in the accumulator: its pieces read back. -/
def sout1_mid_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i) (x0 : Vec F S1024x512 .f32) (x1 : Vec F S512x256 .f32) (xs0 : Vec F S1024x256 .f32) : Vec F S1024x256 .f32 :=
  VS1_0.read (Elt F) (VS1_0.writes (Elt F) VS1_0.junk (kernelRun1_mid c i arg2 harg2 arg3 harg3 arg4 harg4 arg5 harg5 hc0 hc1 x0 x1 xs0).2.1)

/-- At a last reduction step the one store into the output window is the whole block, so its pieces cover it. -/
theorem cover1_last_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) (y : S1024x256.Idx) :
    ∃ pc ∈ (kernelRun1_last c i arg2 harg2 arg3 harg3 arg4 harg4 arg5 harg5 hc0 hc1 x0 x1 xs0).1, y ∈ pc.1.set :=
  View.cover_of_tiledL (kernelRun1_last c i arg2 harg2 arg3 harg3 arg4 harg4 arg5 harg5 hc0 hc1 x0 x1 xs0).1 S1024x256.size (by sl_kernel_rfl) y

/-- What a last reduction step leaves in the output window's staging buffer: its pieces read back. -/
def out1_last_2 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) : Vec F S1024x256 .f32 :=
  VO1_2.read (Elt F) (VO1_2.writes (Elt F) VO1_2.junk (kernelRun1_last c i arg2 harg2 arg3 harg3 arg4 harg4 arg5 harg5 hc0 hc1 x0 x1 xs0).1)

/-- At a last reduction step every store into the accumulator is the whole buffer, so its pieces cover it. -/
theorem scover1_last_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) (y : S1024x256.Idx) :
    ∃ pc ∈ (kernelRun1_last c i arg2 harg2 arg3 harg3 arg4 harg4 arg5 harg5 hc0 hc1 x0 x1 xs0).2.1, y ∈ pc.1.set :=
  View.cover_of_tiledL (kernelRun1_last c i arg2 harg2 arg3 harg3 arg4 harg4 arg5 harg5 hc0 hc1 x0 x1 xs0).2.1 S1024x256.size (by sl_kernel_rfl) y

/-- What a last reduction step leaves in the accumulator: its pieces read back. -/
def sout1_last_0 (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) : Vec F S1024x256 .f32 :=
  VS1_0.read (Elt F) (VS1_0.writes (Elt F) VS1_0.junk (kernelRun1_last c i arg2 harg2 arg3 harg3 arg4 harg4 arg5 harg5 hc0 hc1 x0 x1 xs0).2.1)

/-! ## What the output window's buffer and the accumulator hold after each point -/

/-- THE ACCUMULATION along the reduction axis. After the body at position `n`: (the output window's staging buffer,
    the accumulator). Positions that are multiples of 8 are first steps (the accumulator restarts from zero, whatever
    the row block before left); positions 7 modulo 8 are last steps; the others middle steps, both over what the
    position before left in the accumulator. No position is a first and a last step at once. -/
def outsAt1 (c : Dev nD) : (n : ℕ) → n < cfg1.N → Vec F S1024x256 .f32 × Vec F S1024x256 .f32
  | 0, hn => (out1_first_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_first_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_first_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_first_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_last_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_last_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_mid_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_mid_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first step. -/
theorem outsAt1_first (c : Dev nD) (t : Fin cfg1.N) (h0 : t.val % 8 = 0) (h1 : ¬t.val % 8 = 7) :
    outsAt1 V c t.val t.isLt = (out1_first_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_first_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle step: over what the position before left in the accumulator. -/
theorem outsAt1_mid (c : Dev nD) (t : Fin cfg1.N) (h0 : ¬t.val % 8 = 0) (h1 : ¬t.val % 8 = 7) :
    outsAt1 V c t.val t.isLt = (out1_mid_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_mid_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: over what the position before left in the accumulator. -/
theorem outsAt1_last (c : Dev nD) (t : Fin cfg1.N) (h0 : ¬t.val % 8 = 0) (h1 : t.val % 8 = 7) :
    outsAt1 V c t.val t.isLt = (out1_last_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_last_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator's contents -/

/-- Before position `n`: before the first point the region's plain invariant (every scoped buffer that is no staging
    buffer at anything); afterwards the accumulator at what the position before left in it, every other such buffer
    unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After position `n` (before position `n + 1`). -/
theorem PhiS1_succ (c : Dev nD) (n : ℕ) (hn : n < cfg1.N) :
    PhiS1 V c (n + 1) hn = iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl

/-- Before a position that is not the first. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at point
    `t` each factor's buffer at its block and the output window's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each factor's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The factors' memrefs hold their blocks; the position modulo 8 says which control case the
    point is in, so that case's run applies. The invariant hands the body the accumulator — at what the position
    before left in it, or at anything before the first point; a first step takes it at anything either way — and takes
    it back at this position's contents, the pieces the run wrote covering it; the other scoped buffers and the
    generator register pass through unopened; the core owes nothing throughout. Away from a last step the output
    window's buffer is handed back as found; at a last step it is left at the stored block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [outsAt1_first V c t h0 h1]
      unfold sout1_first_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_first c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_first_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_first c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_first_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_last V c t h0 h1]
      unfold out1_last_2 sout1_last_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_last c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_last_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_last_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_mid V c t h0 h1]
      unfold sout1_mid_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_mid c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_mid_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives the plain one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Gen

end
-- ==== Proof.KI.R2Run.lean ====
/-
  Region 2: the tiled product  cur · r_proj_t  (row tiles of 2048, the whole contraction of 256 in one step).
  The grid is 2 × 1, so the contraction coordinate is 0 at both points: each point is at once the first step
  (the accumulator is cleared) and the last (the accumulator is copied to the output tile).  This module holds the
  two branch conditions, decided over the grid, and the run of the kernel body in that one control case.
-/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first contraction step": the condition under which the accumulator is cleared. -/
abbrev cond2_0 (i : grid2.Coords) : Prop :=
  (Scalar.cmpi .ne (Scalar.extui (Scalar.cmpi .eq (BitVec.ofNat 32 (i 1).val) 0#32)) 0#32) = 1#1
/-- It holds at every point: the contraction axis has one step. -/
theorem hcond2_0 : ∀ t : Fin cfg2.N, cond2_0 (grid2.coords t) :=
  (by decide +kernel : ∀ t : Fin grid2.N, cond2_0 (grid2.coords t))

/-- "This is the last contraction step": the condition under which the output tile is written. -/
abbrev cond2_1 (i : grid2.Coords) : Prop := k2_cond2 i = 1#1
/-- It holds at every point as well. -/
theorem hcond2_1 : ∀ t : Fin cfg2.N, cond2_1 (grid2.coords t) :=
  (by decide +kernel : ∀ t : Fin grid2.N, cond2_1 (grid2.coords t))

/-! ## The staging memrefs and the accumulator -/

abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x256 .f32 := Memref.whole cc2_scratch0
/-- One staging buffer of the output window, through which its contents are stated. -/
abbrev VO2_2 : View sig .tc .vmem S2048x256 .f32 := (Memref.whole cc2_stg2_0 : Memref sig .tc .vmem S2048x256 .f32).view

/-! ## The body's run -/

set_option maxHeartbeats 1000000 in
/-- The body on whole memrefs, both conditions holding: from the two input tiles at `x0`, `x1`, the output tile and
    the accumulator at anything, it runs to the continuation with the inputs as they were, the output tile with the
    pieces `L2` written and the accumulator with the pieces `LS0` written.  The piece lists are what the symbolic
    run of the body's loads and stores finds. -/
noncomputable def kernelRun2 (c : Dev nD) (i : grid2.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond2_0 i) (hc1 : cond2_1 i) (x0 : Vec F S2048x256 .f32) (x1 : Vec F S256x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__mm_kernel i arg2 harg2 arg3 harg3 arg4 harg4 arg5 harg5) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.R2.lean ====
/-
  Region 2: the tiled product of a 4096 × 256 matrix with a 256 × 256 matrix, two row tiles of 2048, the whole
  contraction in one step.  The proof data of the region as a pipeline, over any contents `V` of the buffers at the
  region's entry: each input window's staging buffer holds its tile; the output's holds what the body's stores leave
  (the accumulator, cleared and then increased by the tile product, copied out); the accumulator itself is cleared at
  every point before it is read, so the region invariant keeps it at unspecified contents.  Then the body obligation.
-/
import proofs.«140739_j42683384987781_2_alg».proof.Proof.KI.R2Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's current staging buffer holds its tile at every point, for any proof data over `V` whose body
    leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's: fetched at the first point only, its tile index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output window is live at every point: every point is a last contraction step. -/
theorem liveAt2_2 : ∀ t : Fin cfg2.N, cfg2.idle 2 (grid2.coords t) = false := by decide +kernel

/-! ## What the body leaves in the output tile -/

/-- The stores into the output's staging buffer tile it. -/
theorem cover2_2 (c : Dev nD) (i : grid2.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond2_0 i) (hc1 : cond2_1 i) (x0 : Vec F S2048x256 .f32) (x1 : Vec F S256x256 .f32) (y : S2048x256.Idx) :
    ∃ pc ∈ (kernelRun2 c i arg2 harg2 arg3 harg3 arg4 harg4 arg5 harg5 hc0 hc1 x0 x1).1, y ∈ pc.1.set :=
  View.cover_of_tiledL (kernelRun2 c i arg2 harg2 arg3 harg3 arg4 harg4 arg5 harg5 hc0 hc1 x0 x1).1 S2048x256.size (by sl_kernel_rfl) y

/-- What the body leaves in the output's staging buffer: its stores read back. -/
def out2_2 (c : Dev nD) (i : grid2.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond2_0 i) (hc1 : cond2_1 i) (x0 : Vec F S2048x256 .f32) (x1 : Vec F S256x256 .f32) : Vec F S2048x256 .f32 :=
  VO2_2.read (Elt F) (VO2_2.writes (Elt F) VO2_2.junk (kernelRun2 c i arg2 harg2 arg3 harg3 arg4 harg4 arg5 harg5 hc0 hc1 x0 x1).1)

/-- The output tile after the body at point `t`. -/
def outAt2 (c : Dev nD) (t : Fin cfg2.N) : Vec F S2048x256 .f32 :=
  out2_2 c (grid2.coords t) (ms2_0 t) (hs2_0 t) (ms2_1 t) (hs2_1 t) (ms2_2 t) (hs2_2 t) scM2_0 (Memref.isWhole_whole _)
    (hcond2_0 t) (hcond2_1 t) (iblk2 V c 0 t) (iblk2 V c 1 t)

/-! ## The proof data -/

/-- The region's proof data on core `c`: the arrays as the region finds them; after the body at point `t` each
    input's buffer at its tile and the output's at `outAt2`; the invariant the kernel's scoped buffers at anything
    and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The region invariant with the accumulator split off as a memref owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 800000 in
/-- The body at any point: the inputs' memrefs hold their tiles; both conditions hold; the run applies; the
    accumulator is taken out of the invariant at anything and put back at anything; the core owes nothing. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (ms2_0 t) fullShare ((dat2 V c).after 0 t) from rfl,
    show (dat2 V c).leavesExact 1 t = owns (c : Thread nD τ) (ms2_1 t) fullShare ((dat2 V c).after 1 t) from rfl,
    show (dat2 V c).leavesExact 2 t = owns (c : Thread nD τ) (ms2_2 t) fullShare ((dat2 V c).after 2 t) from by
      unfold Dat.leavesExact; rw [liveAt2_2 t],
    after2_0, after2_1, after2_2]
  rw [show (dat2 V c).Φ t.castSucc = Pipeline.ΦA spec2 c from rfl, PhiA2_eq]
  unfold outAt2 out2_2
  iintro ⟨⟨⟨HS0, Hrest⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, and the invariant after the last is
    what the region gives back. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Gen

end
-- ==== Proof.KI.R3Runs.lean ====
/- Region 3: the tiled matrix product C = A · B on a 4 × 8 grid — row blocks of 1024, reduction blocks of 512,
   an accumulator carried along the reduction axis, zeroed at its first step and copied to the output block at
   its last. What the three control cases (first / middle / last reduction step) share: the windows' blocks read
   off the entry contents, the two branch conditions in closed form over the 32 points, where the output window
   is idle, the memrefs the body is called with, and the region invariant with the accumulator split off. -/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Ring
import Idealize.ShloMosaic.Lib.Tactic

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's staging buffer holds its block at every point, fetched there or not, for any proof data whose
    array is the entry contents and whose body leaves the block in place: the window is an input, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the right factor's staging buffer. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions on the reduction coordinate -/

/-- "This is the first reduction step" (the accumulator is zeroed under it), as the body computes it from the coordinates. -/
abbrev cond3_0 (i : grid3.Coords) : Prop := (Scalar.cmpi .ne (Scalar.extui (Scalar.cmpi .eq (BitVec.ofNat 32 (i 1).val) 0#32)) 0#32) = 1#1
/-- It holds exactly at the points whose position is a multiple of 8. -/
theorem hcond3_0 : ∀ t : Fin cfg3.N, cond3_0 (grid3.coords t) ↔ t.val % 8 = 0 :=
  (by decide +kernel : ∀ t : Fin grid3.N, cond3_0 (grid3.coords t) ↔ t.val % 8 = 0)

/-- "This is the last reduction step" (the output block is stored under it). -/
abbrev cond3_1 (i : grid3.Coords) : Prop := k3_cond2 i = 1#1
/-- It holds exactly at the points whose position is 7 modulo 8. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The two factors are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last reduction step the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- At the last reduction step it is live. -/
theorem liveAt3_2 : ∀ t : Fin cfg3.N, cond3_1 (grid3.coords t) → cfg3.idle 2 (grid3.coords t) = false := by decide +kernel

/-! ## The memrefs the body is called with -/

/-- One staging buffer of the output window, through which its contents are stated (which one does not matter). -/
abbrev VO3_2 : View sig .tc .vmem S1024x256 .f32 := (Memref.whole cc3_stg2_0 : Memref sig .tc .vmem S1024x256 .f32).view
/-- Each window's current staging memref at point `t`, spelled as the pipeline passes it, and its wholeness. -/
abbrev ms3_0 (t : Fin cfg3.N) : Memref sig .tc .vmem S1024x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x256 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows and carried from point to point. -/
abbrev scM3_0 : Memref sig .tc .vmem S1024x256 .f32 := Memref.whole cc3_scratch0
/-- The accumulator as a view: what it holds is stated through it. -/
abbrev VS3_0 : View sig .tc .vmem S1024x256 .f32 := scM3_0.view

/-- The region's invariant with the accumulator split off as a memref owned at some contents; every other scoped
    buffer stays unopened. This is what the body obligation hands the body at the first point. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

end Cert.KernelIdeal.Gen

end
-- ==== Proof.KI.R3RunMid.lean ====
/- Region 3, a middle reduction step: the whole body run on any whole staging memrefs. -/
import proofs.«140739_j42683384987781_2_alg».proof.Proof.KI.R3Runs

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A MIDDLE reduction step (neither condition holds): the body reads both factors' blocks and the accumulator and
    stores the accumulator plus the blocks' product back; it stores nothing into the output window, which is handed
    back untouched at the contents `xi2` it came with. The pieces the accumulator ends with are the witness the
    run produces; the output's list of pieces is empty. -/
noncomputable def kernelRun3_mid (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__mm_kernel i arg2 harg2 arg3 harg3 arg4 harg4 arg5 harg5) K } := by
  refine ⟨[], ?_, fun xi2 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.R3RunFirst.lean ====
/- Region 3, a first reduction step: the whole body run on any whole staging memrefs. -/
import proofs.«140739_j42683384987781_2_alg».proof.Proof.KI.R3RunMid

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A FIRST reduction step (the first condition holds, the second does not): the body zeroes the accumulator — whatever
    it held, so it is taken at any contents —, then reads both factors' blocks and stores zero plus their product
    into it; the output window is handed back untouched at the contents `xi2` it came with. The accumulator's pieces
    (last store first) are the witness the run produces; the output's list of pieces is empty. -/
noncomputable def kernelRun3_first (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x512 .f32) (x1 : Vec F S512x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__mm_kernel i arg2 harg2 arg3 harg3 arg4 harg4 arg5 harg5) K } := by
  refine ⟨[], ?_, fun xi2 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.R3RunLast.lean ====
/- Region 3, a last reduction step: the whole body run on any whole staging memrefs. -/
import proofs.«140739_j42683384987781_2_alg».proof.Proof.KI.R3RunFirst

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- A LAST reduction step (the second condition holds, the first does not): the body accumulates as at a middle
    step, then copies the accumulator into the output window's staging buffer — whatever that held, so it is taken
    at any contents. Both lists of pieces are witnesses the run produces. -/
noncomputable def kernelRun3_last (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x512 .f32) (x1 : Vec F S512x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__mm_kernel i arg2 harg2 arg3 harg3 arg4 harg4 arg5 harg5) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.R3.lean ====
/- Region 3: the frame data of the tiled matrix product on the 4 × 8 grid — what each control case leaves in the
   output window's buffer and in the accumulator, those contents point by point along the reduction axis, the region
   invariant carrying the accumulator, the pipeline's proof data at the entry contents, and the body obligation. -/
import proofs.«140739_j42683384987781_2_alg».proof.Proof.KI.R3RunLast

-- membership of an index in a rectangle of these extents is checked structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each control case leaves in the output window's buffer and in the accumulator -/

/-- At a first reduction step nothing is stored into the output window (it is idle there and not written back): no pieces. This
    value is a placeholder that nothing consults, since at such a point the window is neither written back nor read
    at the next point. -/
def out3_first_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x512 .f32) (x1 : Vec F S512x256 .f32) : Vec F S1024x256 .f32 :=
  VO3_2.read (Elt F) (VO3_2.writes (Elt F) VO3_2.junk (kernelRun3_first c i arg2 harg2 arg3 harg3 arg4 harg4 arg5 harg5 hc0 hc1 x0 x1).1)

/-- At a first reduction step every store into the accumulator is the whole buffer, so its pieces cover it. -/
theorem scover3_first_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x512 .f32) (x1 : Vec F S512x256 .f32) (y : S1024x256.Idx) :
    ∃ pc ∈ (kernelRun3_first c i arg2 harg2 arg3 harg3 arg4 harg4 arg5 harg5 hc0 hc1 x0 x1).2.1, y ∈ pc.1.set :=
  View.cover_of_tiledL (kernelRun3_first c i arg2 harg2 arg3 harg3 arg4 harg4 arg5 harg5 hc0 hc1 x0 x1).2.1 S1024x256.size (by sl_kernel_rfl) y

/-- What a first reduction step leaves in the accumulator: its pieces read back. -/
def sout3_first_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x512 .f32) (x1 : Vec F S512x256 .f32) : Vec F S1024x256 .f32 :=
  VS3_0.read (Elt F) (VS3_0.writes (Elt F) VS3_0.junk (kernelRun3_first c i arg2 harg2 arg3 harg3 arg4 harg4 arg5 harg5 hc0 hc1 x0 x1).2.1)

/-- At a middle reduction step nothing is stored into the output window (it is idle there and not written back): no pieces. This
    value is a placeholder that nothing consults, since at such a point the window is neither written back nor read
    at the next point. -/
def out3_mid_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x512 .f32) (x1 : Vec F S512x256 .f32) (xs0 : Vec F S1024x256 .f32) : Vec F S1024x256 .f32 :=
  VO3_2.read (Elt F) (VO3_2.writes (Elt F) VO3_2.junk (kernelRun3_mid c i arg2 harg2 arg3 harg3 arg4 harg4 arg5 harg5 hc0 hc1 x0 x1 xs0).1)

/-- At a middle reduction step every store into the accumulator is the whole buffer, so its pieces cover it. -/
theorem scover3_mid_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x512 .f32) (x1 : Vec F S512x256 .f32) (xs0 : Vec F S1024x256 .f32) (y : S1024x256.Idx) :
    ∃ pc ∈ (kernelRun3_mid c i arg2 harg2 arg3 harg3 arg4 harg4 arg5 harg5 hc0 hc1 x0 x1 xs0).2.1, y ∈ pc.1.set :=
  View.cover_of_tiledL (kernelRun3_mid c i arg2 harg2 arg3 harg3 arg4 harg4 arg5 harg5 hc0 hc1 x0 x1 xs0).2.1 S1024x256.size (by sl_kernel_rfl) y

/-- What a middle reduction step leaves in the accumulator: its pieces read back. -/
def sout3_mid_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x512 .f32) (x1 : Vec F S512x256 .f32) (xs0 : Vec F S1024x256 .f32) : Vec F S1024x256 .f32 :=
  VS3_0.read (Elt F) (VS3_0.writes (Elt F) VS3_0.junk (kernelRun3_mid c i arg2 harg2 arg3 harg3 arg4 harg4 arg5 harg5 hc0 hc1 x0 x1 xs0).2.1)

/-- At a last reduction step the one store into the output window is the whole block, so its pieces cover it. -/
theorem cover3_last_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) (y : S1024x256.Idx) :
    ∃ pc ∈ (kernelRun3_last c i arg2 harg2 arg3 harg3 arg4 harg4 arg5 harg5 hc0 hc1 x0 x1 xs0).1, y ∈ pc.1.set :=
  View.cover_of_tiledL (kernelRun3_last c i arg2 harg2 arg3 harg3 arg4 harg4 arg5 harg5 hc0 hc1 x0 x1 xs0).1 S1024x256.size (by sl_kernel_rfl) y

/-- What a last reduction step leaves in the output window's staging buffer: its pieces read back. -/
def out3_last_2 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) : Vec F S1024x256 .f32 :=
  VO3_2.read (Elt F) (VO3_2.writes (Elt F) VO3_2.junk (kernelRun3_last c i arg2 harg2 arg3 harg3 arg4 harg4 arg5 harg5 hc0 hc1 x0 x1 xs0).1)

/-- At a last reduction step every store into the accumulator is the whole buffer, so its pieces cover it. -/
theorem scover3_last_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) (y : S1024x256.Idx) :
    ∃ pc ∈ (kernelRun3_last c i arg2 harg2 arg3 harg3 arg4 harg4 arg5 harg5 hc0 hc1 x0 x1 xs0).2.1, y ∈ pc.1.set :=
  View.cover_of_tiledL (kernelRun3_last c i arg2 harg2 arg3 harg3 arg4 harg4 arg5 harg5 hc0 hc1 x0 x1 xs0).2.1 S1024x256.size (by sl_kernel_rfl) y

/-- What a last reduction step leaves in the accumulator: its pieces read back. -/
def sout3_last_0 (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) : Vec F S1024x256 .f32 :=
  VS3_0.read (Elt F) (VS3_0.writes (Elt F) VS3_0.junk (kernelRun3_last c i arg2 harg2 arg3 harg3 arg4 harg4 arg5 harg5 hc0 hc1 x0 x1 xs0).2.1)

/-! ## What the output window's buffer and the accumulator hold after each point -/

/-- THE ACCUMULATION along the reduction axis. After the body at position `n`: (the output window's staging buffer,
    the accumulator). Positions that are multiples of 8 are first steps (the accumulator restarts from zero, whatever
    the row block before left); positions 7 modulo 8 are last steps; the others middle steps, both over what the
    position before left in the accumulator. No position is a first and a last step at once. -/
def outsAt3 (c : Dev nD) : (n : ℕ) → n < cfg3.N → Vec F S1024x256 .f32 × Vec F S1024x256 .f32
  | 0, hn => (out3_first_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_first_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (out3_first_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_first_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_last_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_last_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_mid_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_mid_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a first step. -/
theorem outsAt3_first (c : Dev nD) (t : Fin cfg3.N) (h0 : t.val % 8 = 0) (h1 : ¬t.val % 8 = 7) :
    outsAt3 V c t.val t.isLt = (out3_first_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_first_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a middle step: over what the position before left in the accumulator. -/
theorem outsAt3_mid (c : Dev nD) (t : Fin cfg3.N) (h0 : ¬t.val % 8 = 0) (h1 : ¬t.val % 8 = 7) :
    outsAt3 V c t.val t.isLt = (out3_mid_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_mid_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a last step: over what the position before left in the accumulator. -/
theorem outsAt3_last (c : Dev nD) (t : Fin cfg3.N) (h0 : ¬t.val % 8 = 0) (h1 : t.val % 8 = 7) :
    outsAt3 V c t.val t.isLt = (out3_last_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_last_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator's contents -/

/-- Before position `n`: before the first point the region's plain invariant (every scoped buffer that is no staging
    buffer at anything); afterwards the accumulator at what the position before left in it, every other such buffer
    unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After position `n` (before position `n + 1`). -/
theorem PhiS3_succ (c : Dev nD) (n : ℕ) (hn : n < cfg3.N) :
    PhiS3 V c (n + 1) hn = iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r)) := rfl

/-- Before a position that is not the first. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region's pipeline on core `c`: the arrays as the region finds them; after the body at point
    `t` each factor's buffer at its block and the output window's at `outsAt3`'s first component; the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each factor's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The factors' memrefs hold their blocks; the position modulo 8 says which control case the
    point is in, so that case's run applies. The invariant hands the body the accumulator — at what the position
    before left in it, or at anything before the first point; a first step takes it at anything either way — and takes
    it back at this position's contents, the pieces the run wrote covering it; the other scoped buffers and the
    generator register pass through unopened; the core owes nothing throughout. Away from a last step the output
    window's buffer is handed back as found; at a last step it is left at the stored block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 8 = 0
  · by_cases h1 : t.val % 8 = 7
    · exfalso; omega
    · rw [Dat.leavesExact_idle (dat3 V c) 2 t (idleAt3_2 t (fun h => h1 ((hcond3_1 t).mp h))) (noFlush3_2 t (fun h => h1 ((hcond3_1 t).mp h)))]
      rw [outsAt3_first V c t h0 h1]
      unfold sout3_first_0; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩⟩
        iapply ((kernelRun3_first c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_first_0 c _ _ _ _ _ _ _ _ _ _ _ _ _)
            iexact Hrest
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, Hrest⟩, Hg⟩, Ho, ⟨%d0, H0⟩, ⟨%d1, H1⟩, ⟨%d2, H2⟩⟩
        iapply ((kernelRun3_first c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_first_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_last V c t h0 h1]
      unfold out3_last_2 sout3_last_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩⟩
      iapply ((kernelRun3_last c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_last_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_last_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_mid V c t h0 h1]
      unfold sout3_mid_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩⟩
      iapply ((kernelRun3_mid c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_mid_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any position but the first the invariant gives the plain one back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Gen

end
-- ==== Proof.KI.R4Runs.lean ====
/- Region 4 of @main (the matrix product that also accumulates the row sums of its left operand):
   what the three control cases of its body share. The body zeroes its two accumulators at the first step of the
   contraction axis (k = 0), adds the step's partial product and partial row sums into them at every step, and copies
   them to the two outputs at the last step (k = 7). Here: the two branch conditions in closed form over the grid,
   where the output windows are idle, the staging and accumulator memrefs, and the region invariant with the two
   accumulators split off the scoped rest. -/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's current staging buffer holds its block at every point, for any proof data whose array is
    `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the right operand. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first branch (k = 0), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8) — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's last branch (k = 7), from the grid coordinates. -/
abbrev cond4_1 (i : grid4.Coords) : Prop := k4_cond2 i = 1#1
/-- It holds at the points ≡ 7 (mod 8) — decided over the grid. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- The operands are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where k ≠ 7 the two outputs are idle and not written back; where k = 7 they are live. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

/-- One staging buffer of each output window, through which its contents are stated (the choice does not matter). -/
abbrev VO4_2 : View sig .tc .vmem S1024x256 .f32 := (Memref.whole cc4_stg2_0 : Memref sig .tc .vmem S1024x256 .f32).view
abbrev VO4_3 : View sig .tc .vmem S1024x128 .f32 := (Memref.whole cc4_stg3_0 : Memref sig .tc .vmem S1024x128 .f32).view
/-- Each window's current staging memref at point `t`, as the pipeline passes it, and its wholeness. -/
abbrev ms4_0 (t : Fin cfg4.N) : Memref sig .tc .vmem S1024x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
/-- The two accumulators: whole scoped buffers of the kernel's own, passed beside the windows. -/
abbrev scM4_0 : Memref sig .tc .vmem S1024x256 .f32 := Memref.whole cc4_scratch0
abbrev scM4_1 : Memref sig .tc .vmem S1024x128 .f32 := Memref.whole cc4_scratch1
/-- The accumulators as views: what they hold is stated through these. -/
abbrev VS4_0 : View sig .tc .vmem S1024x256 .f32 := scM4_0.view
abbrev VS4_1 : View sig .tc .vmem S1024x128 .f32 := scM4_1.view

/-- The scoped buffers that are neither staging buffers of this region nor its accumulators, and the generator
    register: what the body never touches. -/
abbrev Rest4 (c : Dev nD) : sProp 𝕄 :=
  iprop(Pipeline.scopedRestBut (Ix := Unit) (Name := ℕ) (U := UR sig nD τ) (Lvl := ℕ) (Val := Elt F) spec4 c [cc4_scratch0, cc4_scratch1] ∗ (∃ r, prngReg c r))

/-- The region invariant with the two accumulators as memrefs owned at some contents, the rest unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Gen

end
-- ==== Proof.KI.R4RunA.lean ====
/- Region 4 of @main: the whole-body run of its kernel at the first step of the contraction axis (k = 0), where the
   body zeroes both accumulators, adds the step's partial product and partial row sums into them, and stores nothing
   into the outputs. The pieces each accumulator ends with are the witness the run finds. -/
import proofs.«140739_j42683384987781_2_alg».proof.Proof.KI.R4Runs

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 0 (and k ≠ 7), on whole memrefs — the operands' at their contents `x0`, `x1`, the outputs' at
    contents `xi2`, `xi3` handed back untouched, the accumulators' at anything — the body runs to the continuation
    holding the operands and outputs as they were and each accumulator with its pieces written (last first). -/
noncomputable def kernelRun4_A (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__mm_degree_kernel i arg2 harg2 arg3 harg3 arg4 harg4 arg5 harg5 arg6 harg6 arg7 harg7) K } := by
  refine ⟨?_, ?_, fun xi2 xi3 E K => ?run⟩
  case run =>
    simp only [cc4__mm_degree_kernel_eq_skeleton]; unfold cc4__mm_degree_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Gen

end
-- ==== Proof.KI.R4RunB.lean ====
/- Region 4 of @main: the whole-body run of its kernel at a middle step of the contraction axis (k ≠ 0, k ≠ 7), where the
   body adds the step's partial product and partial row sums into the accumulators and stores nothing into the
   outputs. The pieces each accumulator ends with are the witness the run finds. -/
import proofs.«140739_j42683384987781_2_alg».proof.Proof.KI.R4RunA

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k ≠ 0 and k ≠ 7, on whole memrefs — the operands' at their contents `x0`, `x1`, the outputs' at
    contents `xi2`, `xi3` handed back untouched, the accumulators' at what the point before left (`xs0`, `xs1`) —
    the body runs to the continuation holding the operands and outputs as they were and each accumulator with its
    pieces written (last first). -/
noncomputable def kernelRun4_B (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__mm_degree_kernel i arg2 harg2 arg3 harg3 arg4 harg4 arg5 harg5 arg6 harg6 arg7 harg7) K } := by
  refine ⟨?_, ?_, fun xi2 xi3 E K => ?run⟩
  case run =>
    simp only [cc4__mm_degree_kernel_eq_skeleton]; unfold cc4__mm_degree_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Gen

end
-- ==== Proof.KI.R4RunC.lean ====
/- Region 4 of @main: the whole-body run of its kernel at the last step of the contraction axis (k = 7), where the
   body adds the step's partial product and partial row sums into the accumulators and then copies the accumulators
   to the two outputs. The pieces each output and each accumulator ends with are the witness the run finds. -/
import proofs.«140739_j42683384987781_2_alg».proof.Proof.KI.R4RunB

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 7 (and k ≠ 0), on whole memrefs — the operands' at their contents `x0`, `x1`, the outputs' at
    anything, the accumulators' at what the point before left (`xs0`, `xs1`) — the body runs to the continuation
    holding the operands as they were and each output and each accumulator with its pieces written (last first). -/
noncomputable def kernelRun4_C (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) :
    Σ' (L2 : List (View.Piece (Elt F) S1024x256 .f32)) (L3 : List (View.Piece (Elt F) S1024x128 .f32))
       (LS0 : List (View.Piece (Elt F) S1024x256 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__mm_degree_kernel i arg2 harg2 arg3 harg3 arg4 harg4 arg5 harg5 arg6 harg6 arg7 harg7) K } := by
  refine ⟨?_, ?_, ?_, ?_, fun E K => ?run⟩
  case run =>
    simp only [cc4__mm_degree_kernel_eq_skeleton]; unfold cc4__mm_degree_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Gen

end
-- ==== Proof.KI.R4.lean ====
/- Region 4 of @main (the matrix product that also accumulates the row sums of its left operand):
   its proof data and body obligation at any entry contents `V`. Per control case, what the body leaves in the two
   accumulators and (at k = 7) in the two outputs, as the run's pieces read back; point by point, what the outputs and
   the accumulators hold (`outsAt4`); the invariant carrying the two accumulators' contents from point to point
   beside the untouched scoped rest; the proof data `dat4`; the body obligation; and the invariant's two ends. -/
import proofs.«140739_j42683384987781_2_alg».proof.Proof.KI.R4RunC

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## What each case leaves -/

/-- At k = 0 the pieces written into the product accumulator cover it (whole-buffer stores, checked by evaluation). -/
theorem scover4_A_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) (y : S1024x256.Idx) :
    ∃ pc ∈ (kernelRun4_A c i arg2 harg2 arg3 harg3 arg4 harg4 arg5 harg5 arg6 harg6 arg7 harg7 hc0 hc1 x0 x1).1, y ∈ pc.1.set :=
  View.cover_of_tiledL (kernelRun4_A c i arg2 harg2 arg3 harg3 arg4 harg4 arg5 harg5 arg6 harg6 arg7 harg7 hc0 hc1 x0 x1).1 S1024x256.size (by sl_kernel_rfl) y

/-- What the body leaves in the product accumulator at k = 0: its pieces read back over junk. -/
def sout4_A_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) : Vec F S1024x256 .f32 :=
  VS4_0.read (Elt F) (VS4_0.writes (Elt F) VS4_0.junk (kernelRun4_A c i arg2 harg2 arg3 harg3 arg4 harg4 arg5 harg5 arg6 harg6 arg7 harg7 hc0 hc1 x0 x1).1)

/-- At k = 0 the pieces written into the row-sum accumulator cover it (whole-buffer stores, checked by evaluation). -/
theorem scover4_A_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) (y : S1024x128.Idx) :
    ∃ pc ∈ (kernelRun4_A c i arg2 harg2 arg3 harg3 arg4 harg4 arg5 harg5 arg6 harg6 arg7 harg7 hc0 hc1 x0 x1).2.1, y ∈ pc.1.set :=
  View.cover_of_tiledL (kernelRun4_A c i arg2 harg2 arg3 harg3 arg4 harg4 arg5 harg5 arg6 harg6 arg7 harg7 hc0 hc1 x0 x1).2.1 S1024x128.size (by sl_kernel_rfl) y

/-- What the body leaves in the row-sum accumulator at k = 0: its pieces read back over junk. -/
def sout4_A_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) : Vec F S1024x128 .f32 :=
  VS4_1.read (Elt F) (VS4_1.writes (Elt F) VS4_1.junk (kernelRun4_A c i arg2 harg2 arg3 harg3 arg4 harg4 arg5 harg5 arg6 harg6 arg7 harg7 hc0 hc1 x0 x1).2.1)

/-- At a middle step the pieces written into the product accumulator cover it (whole-buffer stores, checked by evaluation). -/
theorem scover4_B_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) (y : S1024x256.Idx) :
    ∃ pc ∈ (kernelRun4_B c i arg2 harg2 arg3 harg3 arg4 harg4 arg5 harg5 arg6 harg6 arg7 harg7 hc0 hc1 x0 x1 xs0 xs1).1, y ∈ pc.1.set :=
  View.cover_of_tiledL (kernelRun4_B c i arg2 harg2 arg3 harg3 arg4 harg4 arg5 harg5 arg6 harg6 arg7 harg7 hc0 hc1 x0 x1 xs0 xs1).1 S1024x256.size (by sl_kernel_rfl) y

/-- What the body leaves in the product accumulator at a middle step: its pieces read back over junk. -/
def sout4_B_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) : Vec F S1024x256 .f32 :=
  VS4_0.read (Elt F) (VS4_0.writes (Elt F) VS4_0.junk (kernelRun4_B c i arg2 harg2 arg3 harg3 arg4 harg4 arg5 harg5 arg6 harg6 arg7 harg7 hc0 hc1 x0 x1 xs0 xs1).1)

/-- At a middle step the pieces written into the row-sum accumulator cover it (whole-buffer stores, checked by evaluation). -/
theorem scover4_B_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) (y : S1024x128.Idx) :
    ∃ pc ∈ (kernelRun4_B c i arg2 harg2 arg3 harg3 arg4 harg4 arg5 harg5 arg6 harg6 arg7 harg7 hc0 hc1 x0 x1 xs0 xs1).2.1, y ∈ pc.1.set :=
  View.cover_of_tiledL (kernelRun4_B c i arg2 harg2 arg3 harg3 arg4 harg4 arg5 harg5 arg6 harg6 arg7 harg7 hc0 hc1 x0 x1 xs0 xs1).2.1 S1024x128.size (by sl_kernel_rfl) y

/-- What the body leaves in the row-sum accumulator at a middle step: its pieces read back over junk. -/
def sout4_B_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) : Vec F S1024x128 .f32 :=
  VS4_1.read (Elt F) (VS4_1.writes (Elt F) VS4_1.junk (kernelRun4_B c i arg2 harg2 arg3 harg3 arg4 harg4 arg5 harg5 arg6 harg6 arg7 harg7 hc0 hc1 x0 x1 xs0 xs1).2.1)

/-- At k = 7 the pieces written into the product output cover it (whole-buffer stores, checked by evaluation). -/
theorem cover4_C_2 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x256.Idx) :
    ∃ pc ∈ (kernelRun4_C c i arg2 harg2 arg3 harg3 arg4 harg4 arg5 harg5 arg6 harg6 arg7 harg7 hc0 hc1 x0 x1 xs0 xs1).1, y ∈ pc.1.set :=
  View.cover_of_tiledL (kernelRun4_C c i arg2 harg2 arg3 harg3 arg4 harg4 arg5 harg5 arg6 harg6 arg7 harg7 hc0 hc1 x0 x1 xs0 xs1).1 S1024x256.size (by sl_kernel_rfl) y

/-- What the body leaves in the product output at k = 7: its pieces read back over junk. -/
def out4_C_2 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x256 .f32 :=
  VO4_2.read (Elt F) (VO4_2.writes (Elt F) VO4_2.junk (kernelRun4_C c i arg2 harg2 arg3 harg3 arg4 harg4 arg5 harg5 arg6 harg6 arg7 harg7 hc0 hc1 x0 x1 xs0 xs1).1)

/-- At k = 7 the pieces written into the row-sum output cover it (whole-buffer stores, checked by evaluation). -/
theorem cover4_C_3 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x128.Idx) :
    ∃ pc ∈ (kernelRun4_C c i arg2 harg2 arg3 harg3 arg4 harg4 arg5 harg5 arg6 harg6 arg7 harg7 hc0 hc1 x0 x1 xs0 xs1).2.1, y ∈ pc.1.set :=
  View.cover_of_tiledL (kernelRun4_C c i arg2 harg2 arg3 harg3 arg4 harg4 arg5 harg5 arg6 harg6 arg7 harg7 hc0 hc1 x0 x1 xs0 xs1).2.1 S1024x128.size (by sl_kernel_rfl) y

/-- What the body leaves in the row-sum output at k = 7: its pieces read back over junk. -/
def out4_C_3 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x128 .f32 :=
  VO4_3.read (Elt F) (VO4_3.writes (Elt F) VO4_3.junk (kernelRun4_C c i arg2 harg2 arg3 harg3 arg4 harg4 arg5 harg5 arg6 harg6 arg7 harg7 hc0 hc1 x0 x1 xs0 xs1).2.1)

/-- At k = 7 the pieces written into the product accumulator cover it (whole-buffer stores, checked by evaluation). -/
theorem scover4_C_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x256.Idx) :
    ∃ pc ∈ (kernelRun4_C c i arg2 harg2 arg3 harg3 arg4 harg4 arg5 harg5 arg6 harg6 arg7 harg7 hc0 hc1 x0 x1 xs0 xs1).2.2.1, y ∈ pc.1.set :=
  View.cover_of_tiledL (kernelRun4_C c i arg2 harg2 arg3 harg3 arg4 harg4 arg5 harg5 arg6 harg6 arg7 harg7 hc0 hc1 x0 x1 xs0 xs1).2.2.1 S1024x256.size (by sl_kernel_rfl) y

/-- What the body leaves in the product accumulator at k = 7: its pieces read back over junk. -/
def sout4_C_0 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x256 .f32 :=
  VS4_0.read (Elt F) (VS4_0.writes (Elt F) VS4_0.junk (kernelRun4_C c i arg2 harg2 arg3 harg3 arg4 harg4 arg5 harg5 arg6 harg6 arg7 harg7 hc0 hc1 x0 x1 xs0 xs1).2.2.1)

/-- At k = 7 the pieces written into the row-sum accumulator cover it (whole-buffer stores, checked by evaluation). -/
theorem scover4_C_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) (y : S1024x128.Idx) :
    ∃ pc ∈ (kernelRun4_C c i arg2 harg2 arg3 harg3 arg4 harg4 arg5 harg5 arg6 harg6 arg7 harg7 hc0 hc1 x0 x1 xs0 xs1).2.2.2.1, y ∈ pc.1.set :=
  View.cover_of_tiledL (kernelRun4_C c i arg2 harg2 arg3 harg3 arg4 harg4 arg5 harg5 arg6 harg6 arg7 harg7 hc0 hc1 x0 x1 xs0 xs1).2.2.2.1 S1024x128.size (by sl_kernel_rfl) y

/-- What the body leaves in the row-sum accumulator at k = 7: its pieces read back over junk. -/
def sout4_C_1 (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) : Vec F S1024x128 .f32 :=
  VS4_1.read (Elt F) (VS4_1.writes (Elt F) VS4_1.junk (kernelRun4_C c i arg2 harg2 arg3 harg3 arg4 harg4 arg5 harg5 arg6 harg6 arg7 harg7 hc0 hc1 x0 x1 xs0 xs1).2.2.2.1)

/-- What the proof data names for an output's staging buffer at a point that stores nothing into it: nothing consults
    it (the window is idle there and not written back). -/
def hole4_2 : Vec F S1024x256 .f32 := VO4_2.read (Elt F) (VO4_2.writes (Elt F) VO4_2.junk [])
def hole4_3 : Vec F S1024x128 .f32 := VO4_3.read (Elt F) (VO4_3.writes (Elt F) VO4_3.junk [])

/-! ## What the outputs and the accumulators hold after each point -/

/-- After the body at position `n`: (the product output's staging buffer, the row-sum output's, the product
    accumulator, the row-sum accumulator). The case is selected by `n mod 8`; the accumulators a case reads are what
    position `n - 1` left. -/
def outsAt4 (c : Dev nD) : (n : ℕ) → n < cfg4.N → Vec F S1024x256 .f32 × Vec F S1024x128 .f32 × Vec F S1024x256 .f32 × Vec F S1024x128 .f32
  | 0, hn => (hole4_2, hole4_3, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (by decide : ¬(0 % 8 = 7)) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (by decide : ¬(0 % 8 = 7)) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then False.elim (by omega)
      else (hole4_2, hole4_3, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
      else (hole4_2, hole4_3, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at a point with k = 0. -/
theorem outsAt4_A (c : Dev nD) (t : Fin cfg4.N) (h0 : t.val % 8 = 0) (h1 : ¬t.val % 8 = 7) :
    outsAt4 V c t.val t.isLt = (hole4_2, hole4_3, sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point: over what the point before left. -/
theorem outsAt4_B (c : Dev nD) (t : Fin cfg4.N) (h0 : ¬t.val % 8 = 0) (h1 : ¬t.val % 8 = 7) :
    outsAt4 V c t.val t.isLt = (hole4_2, hole4_3, sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point with k = 7: over what the point before left. -/
theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is no
    staging buffer at anything, the generator register at some state); afterwards the two accumulators at what the
    point before left in them, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.1 ∗ owns (c : Thread nD τ) scM4_1 fullShare (outsAt4 V c (n - 1) (by omega)).2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the region on core `c`: the arrays as the region finds them (`V`); after the body at point `t`
    each operand's buffer at its block and each output's at `outsAt4`'s component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

/-- Each operand's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the operands' memrefs hold their blocks; `t mod 8` says which case the point is in; the
    invariant hands the body the accumulators at what the point before left (at anything before the first point) and
    takes them back at this point's contents; where k ≠ 7 the outputs' buffers are handed back as found, at k = 7 with
    the accumulators' copies; the other scoped buffers, the generator register and what the core owes pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 8 = 0
  · by_cases h1 : t.val % 8 = 7
    · exfalso; omega
    · have hc1 : ¬cond4_1 (grid4.coords t) := fun h => h1 ((hcond4_1 t).mp h)
      rw [Dat.leavesExact_idle (dat4 V c) 2 t (idleAt4_2 t hc1) (noFlush4_2 t hc1),
        Dat.leavesExact_idle (dat4 V c) 3 t (idleAt4_3 t hc1) (noFlush4_3 t hc1)]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) hc1 (iblk4 V c 0 t) (iblk4 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) hc1 (iblk4 V c 0 t) (iblk4 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    have hc0 : ¬cond4_0 (grid4.coords t) := fun h => h0 ((hcond4_0 t).mp h)
    by_cases h1 : t.val % 8 = 7
    · have hc1 : cond4_1 (grid4.coords t) := (hcond4_1 t).mpr h1
      rw [show (dat4 V c).leavesExact 2 t = owns (c : Thread nD τ) (ms4_2 t) fullShare ((dat4 V c).after 2 t) from by
        unfold Dat.leavesExact; rw [liveAt4_2 t hc1], after4_2]
      rw [show (dat4 V c).leavesExact 3 t = owns (c : Thread nD τ) (ms4_3 t) fullShare ((dat4 V c).after 3 t) from by
        unfold Dat.leavesExact; rw [liveAt4_3 t hc1], after4_3]
      rw [outsAt4_C V c t h0 h1]
      unfold out4_C_2 out4_C_3 sout4_C_0 sout4_C_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun4_C c (grid4.coords t) _ _ _ _ _ _ _ _ _ _ _ _ hc0 hc1 (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _ _ _)
    · have hc1 : ¬cond4_1 (grid4.coords t) := fun h => h1 ((hcond4_1 t).mp h)
      rw [Dat.leavesExact_idle (dat4 V c) 2 t (idleAt4_2 t hc1) (noFlush4_2 t hc1),
        Dat.leavesExact_idle (dat4 V c) 3 t (idleAt4_3 t hc1) (noFlush4_3 t hc1)]
      rw [outsAt4_B V c t h0 h1]
      unfold sout4_B_0 sout4_B_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun4_B c (grid4.coords t) _ _ _ _ _ _ _ _ _ _ _ _ hc0 hc1 (iblk4 V c 0 t) (iblk4 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the region's own back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.KernelIdeal.Gen

end
-- ==== Proof.KI.R5Runs.lean ====
/- Region 5 of @main (the matrix product that also accumulates the row sums of its left operand, clipped below at zero):
   what the three control cases of its body share. The body zeroes its two accumulators at the first step of the
   contraction axis (k = 0), adds the step's partial product and partial row sums into them at every step, and copies
   them to the two outputs at the last step (k = 7). Here: the two branch conditions in closed form over the grid,
   where the output windows are idle, the staging and accumulator memrefs, and the region invariant with the two
   accumulators split off the scoped rest. -/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left operand's current staging buffer holds its block at every point, for any proof data whose array is
    `V`'s and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for the right operand. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's first branch (k = 0), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 8) — decided over the grid. -/
theorem hcond5_0 : ∀ t : Fin cfg5.N, cond5_0 (grid5.coords t) ↔ t.val % 8 = 0 :=
  (by decide +kernel : ∀ t : Fin grid5.N, cond5_0 (grid5.coords t) ↔ t.val % 8 = 0)

/-- The condition of the body's last branch (k = 7), from the grid coordinates. -/
abbrev cond5_1 (i : grid5.Coords) : Prop := k5_cond2 i = 1#1
/-- It holds at the points ≡ 7 (mod 8) — decided over the grid. -/
theorem hcond5_1 : ∀ t : Fin cfg5.N, cond5_1 (grid5.coords t) ↔ t.val % 8 = 7 :=
  (by decide +kernel : ∀ t : Fin grid5.N, cond5_1 (grid5.coords t) ↔ t.val % 8 = 7)

/-! ## Where the windows are idle -/

/-- The operands are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Where k ≠ 7 the two outputs are idle and not written back; where k = 7 they are live. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

/-! ## The memrefs the body is called with -/

/-- One staging buffer of each output window, through which its contents are stated (the choice does not matter). -/
abbrev VO5_2 : View sig .tc .vmem S1024x256 .f32 := (Memref.whole cc5_stg2_0 : Memref sig .tc .vmem S1024x256 .f32).view
abbrev VO5_3 : View sig .tc .vmem S1024x128 .f32 := (Memref.whole cc5_stg3_0 : Memref sig .tc .vmem S1024x128 .f32).view
/-- Each window's current staging memref at point `t`, as the pipeline passes it, and its wholeness. -/
abbrev ms5_0 (t : Fin cfg5.N) : Memref sig .tc .vmem S1024x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x256 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The two accumulators: whole scoped buffers of the kernel's own, passed beside the windows. -/
abbrev scM5_0 : Memref sig .tc .vmem S1024x256 .f32 := Memref.whole cc5_scratch0
abbrev scM5_1 : Memref sig .tc .vmem S1024x128 .f32 := Memref.whole cc5_scratch1
/-- The accumulators as views: what they hold is stated through these. -/
abbrev VS5_0 : View sig .tc .vmem S1024x256 .f32 := scM5_0.view
abbrev VS5_1 : View sig .tc .vmem S1024x128 .f32 := scM5_1.view

/-- The scoped buffers that are neither staging buffers of this region nor its accumulators, and the generator
    register: what the body never touches. -/
abbrev Rest5 (c : Dev nD) : sProp 𝕄 :=
  iprop(Pipeline.scopedRestBut (Ix := Unit) (Name := ℕ) (U := UR sig nD τ) (Lvl := ℕ) (Val := Elt F) spec5 c [cc5_scratch0, cc5_scratch1] ∗ (∃ r, prngReg c r))

/-- The region invariant with the two accumulators as memrefs owned at some contents, the rest unopened. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.KernelIdeal.Gen

end
-- ==== Proof.KI.R5RunA.lean ====
/- Region 5 of @main: the whole-body run of its kernel at the first step of the contraction axis (k = 0), where the
   body zeroes both accumulators, adds the step's partial product and partial row sums into them, and stores nothing
   into the outputs. The pieces each accumulator ends with are the witness the run finds. -/
import proofs.«140739_j42683384987781_2_alg».proof.Proof.KI.R5Runs

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 0 (and k ≠ 7), on whole memrefs — the operands' at their contents `x0`, `x1`, the outputs' at
    contents `xi2`, `xi3` handed back untouched, the accumulators' at anything — the body runs to the continuation
    holding the operands and outputs as they were and each accumulator with its pieces written (last first). -/
noncomputable def kernelRun5_A (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc5__mm_degree_kernel i arg2 harg2 arg3 harg3 arg4 harg4 arg5 harg5 arg6 harg6 arg7 harg7) K } := by
  refine ⟨?_, ?_, fun xi2 xi3 E K => ?run⟩
  case run =>
    simp only [cc5__mm_degree_kernel_eq_skeleton]; unfold cc5__mm_degree_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Gen

end
-- ==== Proof.KI.R5RunB.lean ====
/- Region 5 of @main: the whole-body run of its kernel at a middle step of the contraction axis (k ≠ 0, k ≠ 7), where the
   body adds the step's partial product and partial row sums into the accumulators and stores nothing into the
   outputs. The pieces each accumulator ends with are the witness the run finds. -/
import proofs.«140739_j42683384987781_2_alg».proof.Proof.KI.R5RunA

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k ≠ 0 and k ≠ 7, on whole memrefs — the operands' at their contents `x0`, `x1`, the outputs' at
    contents `xi2`, `xi3` handed back untouched, the accumulators' at what the point before left (`xs0`, `xs1`) —
    the body runs to the continuation holding the operands and outputs as they were and each accumulator with its
    pieces written (last first). -/
noncomputable def kernelRun5_B (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) :
    Σ' (LS0 : List (View.Piece (Elt F) S1024x256 .f32)), { LS1 : List (View.Piece (Elt F) S1024x128 .f32) //
      ∀ (xi2 : Vec F S1024x256 .f32) (xi3 : Vec F S1024x128 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc5__mm_degree_kernel i arg2 harg2 arg3 harg3 arg4 harg4 arg5 harg5 arg6 harg6 arg7 harg7) K } := by
  refine ⟨?_, ?_, fun xi2 xi3 E K => ?run⟩
  case run =>
    simp only [cc5__mm_degree_kernel_eq_skeleton]; unfold cc5__mm_degree_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Gen

end
-- ==== Proof.KI.R5RunC.lean ====
/- Region 5 of @main: the whole-body run of its kernel at the last step of the contraction axis (k = 7), where the
   body adds the step's partial product and partial row sums into the accumulators and then copies the accumulators
   to the two outputs. The pieces each output and each accumulator ends with are the witness the run finds. -/
import proofs.«140739_j42683384987781_2_alg».proof.Proof.KI.R5RunB

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with k = 7 (and k ≠ 0), on whole memrefs — the operands' at their contents `x0`, `x1`, the outputs' at
    anything, the accumulators' at what the point before left (`xs0`, `xs1`) — the body runs to the continuation
    holding the operands as they were and each output and each accumulator with its pieces written (last first). -/
noncomputable def kernelRun5_C (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) :
    Σ' (L2 : List (View.Piece (Elt F) S1024x256 .f32)) (L3 : List (View.Piece (Elt F) S1024x128 .f32))
       (LS0 : List (View.Piece (Elt F) S1024x256 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc5__mm_degree_kernel i arg2 harg2 arg3 harg3 arg4 harg4 arg5 harg5 arg6 harg6 arg7 harg7) K } := by
  refine ⟨?_, ?_, ?_, ?_, fun E K => ?run⟩
  case run =>
    simp only [cc5__mm_degree_kernel_eq_skeleton]; unfold cc5__mm_degree_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Gen

end
-- ==== Proof.KI.R5.lean ====
/- Region 5 of @main (the matrix product that also accumulates the row sums of its left operand, clipped below at zero):
   its proof data and body obligation at any entry contents `V`. Per control case, what the body leaves in the two
   accumulators and (at k = 7) in the two outputs, as the run's pieces read back; point by point, what the outputs and
   the accumulators hold (`outsAt5`); the invariant carrying the two accumulators' contents from point to point
   beside the untouched scoped rest; the proof data `dat5`; the body obligation; and the invariant's two ends. -/
import proofs.«140739_j42683384987781_2_alg».proof.Proof.KI.R5RunC

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## What each case leaves -/

/-- At k = 0 the pieces written into the product accumulator cover it (whole-buffer stores, checked by evaluation). -/
theorem scover5_A_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) (y : S1024x256.Idx) :
    ∃ pc ∈ (kernelRun5_A c i arg2 harg2 arg3 harg3 arg4 harg4 arg5 harg5 arg6 harg6 arg7 harg7 hc0 hc1 x0 x1).1, y ∈ pc.1.set :=
  View.cover_of_tiledL (kernelRun5_A c i arg2 harg2 arg3 harg3 arg4 harg4 arg5 harg5 arg6 harg6 arg7 harg7 hc0 hc1 x0 x1).1 S1024x256.size (by sl_kernel_rfl) y

/-- What the body leaves in the product accumulator at k = 0: its pieces read back over junk. -/
def sout5_A_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) : Vec F S1024x256 .f32 :=
  VS5_0.read (Elt F) (VS5_0.writes (Elt F) VS5_0.junk (kernelRun5_A c i arg2 harg2 arg3 harg3 arg4 harg4 arg5 harg5 arg6 harg6 arg7 harg7 hc0 hc1 x0 x1).1)

/-- At k = 0 the pieces written into the row-sum accumulator cover it (whole-buffer stores, checked by evaluation). -/
theorem scover5_A_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) (y : S1024x128.Idx) :
    ∃ pc ∈ (kernelRun5_A c i arg2 harg2 arg3 harg3 arg4 harg4 arg5 harg5 arg6 harg6 arg7 harg7 hc0 hc1 x0 x1).2.1, y ∈ pc.1.set :=
  View.cover_of_tiledL (kernelRun5_A c i arg2 harg2 arg3 harg3 arg4 harg4 arg5 harg5 arg6 harg6 arg7 harg7 hc0 hc1 x0 x1).2.1 S1024x128.size (by sl_kernel_rfl) y

/-- What the body leaves in the row-sum accumulator at k = 0: its pieces read back over junk. -/
def sout5_A_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) : Vec F S1024x128 .f32 :=
  VS5_1.read (Elt F) (VS5_1.writes (Elt F) VS5_1.junk (kernelRun5_A c i arg2 harg2 arg3 harg3 arg4 harg4 arg5 harg5 arg6 harg6 arg7 harg7 hc0 hc1 x0 x1).2.1)

/-- At a middle step the pieces written into the product accumulator cover it (whole-buffer stores, checked by evaluation). -/
theorem scover5_B_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) (y : S1024x256.Idx) :
    ∃ pc ∈ (kernelRun5_B c i arg2 harg2 arg3 harg3 arg4 harg4 arg5 harg5 arg6 harg6 arg7 harg7 hc0 hc1 x0 x1 xs0 xs1).1, y ∈ pc.1.set :=
  View.cover_of_tiledL (kernelRun5_B c i arg2 harg2 arg3 harg3 arg4 harg4 arg5 harg5 arg6 harg6 arg7 harg7 hc0 hc1 x0 x1 xs0 xs1).1 S1024x256.size (by sl_kernel_rfl) y

/-- What the body leaves in the product accumulator at a middle step: its pieces read back over junk. -/
def sout5_B_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) : Vec F S1024x256 .f32 :=
  VS5_0.read (Elt F) (VS5_0.writes (Elt F) VS5_0.junk (kernelRun5_B c i arg2 harg2 arg3 harg3 arg4 harg4 arg5 harg5 arg6 harg6 arg7 harg7 hc0 hc1 x0 x1 xs0 xs1).1)

/-- At a middle step the pieces written into the row-sum accumulator cover it (whole-buffer stores, checked by evaluation). -/
theorem scover5_B_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) (y : S1024x128.Idx) :
    ∃ pc ∈ (kernelRun5_B c i arg2 harg2 arg3 harg3 arg4 harg4 arg5 harg5 arg6 harg6 arg7 harg7 hc0 hc1 x0 x1 xs0 xs1).2.1, y ∈ pc.1.set :=
  View.cover_of_tiledL (kernelRun5_B c i arg2 harg2 arg3 harg3 arg4 harg4 arg5 harg5 arg6 harg6 arg7 harg7 hc0 hc1 x0 x1 xs0 xs1).2.1 S1024x128.size (by sl_kernel_rfl) y

/-- What the body leaves in the row-sum accumulator at a middle step: its pieces read back over junk. -/
def sout5_B_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) : Vec F S1024x128 .f32 :=
  VS5_1.read (Elt F) (VS5_1.writes (Elt F) VS5_1.junk (kernelRun5_B c i arg2 harg2 arg3 harg3 arg4 harg4 arg5 harg5 arg6 harg6 arg7 harg7 hc0 hc1 x0 x1 xs0 xs1).2.1)

/-- At k = 7 the pieces written into the product output cover it (whole-buffer stores, checked by evaluation). -/
theorem cover5_C_2 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x256.Idx) :
    ∃ pc ∈ (kernelRun5_C c i arg2 harg2 arg3 harg3 arg4 harg4 arg5 harg5 arg6 harg6 arg7 harg7 hc0 hc1 x0 x1 xs0 xs1).1, y ∈ pc.1.set :=
  View.cover_of_tiledL (kernelRun5_C c i arg2 harg2 arg3 harg3 arg4 harg4 arg5 harg5 arg6 harg6 arg7 harg7 hc0 hc1 x0 x1 xs0 xs1).1 S1024x256.size (by sl_kernel_rfl) y

/-- What the body leaves in the product output at k = 7: its pieces read back over junk. -/
def out5_C_2 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x256 .f32 :=
  VO5_2.read (Elt F) (VO5_2.writes (Elt F) VO5_2.junk (kernelRun5_C c i arg2 harg2 arg3 harg3 arg4 harg4 arg5 harg5 arg6 harg6 arg7 harg7 hc0 hc1 x0 x1 xs0 xs1).1)

/-- At k = 7 the pieces written into the row-sum output cover it (whole-buffer stores, checked by evaluation). -/
theorem cover5_C_3 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x128.Idx) :
    ∃ pc ∈ (kernelRun5_C c i arg2 harg2 arg3 harg3 arg4 harg4 arg5 harg5 arg6 harg6 arg7 harg7 hc0 hc1 x0 x1 xs0 xs1).2.1, y ∈ pc.1.set :=
  View.cover_of_tiledL (kernelRun5_C c i arg2 harg2 arg3 harg3 arg4 harg4 arg5 harg5 arg6 harg6 arg7 harg7 hc0 hc1 x0 x1 xs0 xs1).2.1 S1024x128.size (by sl_kernel_rfl) y

/-- What the body leaves in the row-sum output at k = 7: its pieces read back over junk. -/
def out5_C_3 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x128 .f32 :=
  VO5_3.read (Elt F) (VO5_3.writes (Elt F) VO5_3.junk (kernelRun5_C c i arg2 harg2 arg3 harg3 arg4 harg4 arg5 harg5 arg6 harg6 arg7 harg7 hc0 hc1 x0 x1 xs0 xs1).2.1)

/-- At k = 7 the pieces written into the product accumulator cover it (whole-buffer stores, checked by evaluation). -/
theorem scover5_C_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x256.Idx) :
    ∃ pc ∈ (kernelRun5_C c i arg2 harg2 arg3 harg3 arg4 harg4 arg5 harg5 arg6 harg6 arg7 harg7 hc0 hc1 x0 x1 xs0 xs1).2.2.1, y ∈ pc.1.set :=
  View.cover_of_tiledL (kernelRun5_C c i arg2 harg2 arg3 harg3 arg4 harg4 arg5 harg5 arg6 harg6 arg7 harg7 hc0 hc1 x0 x1 xs0 xs1).2.2.1 S1024x256.size (by sl_kernel_rfl) y

/-- What the body leaves in the product accumulator at k = 7: its pieces read back over junk. -/
def sout5_C_0 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x256 .f32 :=
  VS5_0.read (Elt F) (VS5_0.writes (Elt F) VS5_0.junk (kernelRun5_C c i arg2 harg2 arg3 harg3 arg4 harg4 arg5 harg5 arg6 harg6 arg7 harg7 hc0 hc1 x0 x1 xs0 xs1).2.2.1)

/-- At k = 7 the pieces written into the row-sum accumulator cover it (whole-buffer stores, checked by evaluation). -/
theorem scover5_C_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) (y : S1024x128.Idx) :
    ∃ pc ∈ (kernelRun5_C c i arg2 harg2 arg3 harg3 arg4 harg4 arg5 harg5 arg6 harg6 arg7 harg7 hc0 hc1 x0 x1 xs0 xs1).2.2.2.1, y ∈ pc.1.set :=
  View.cover_of_tiledL (kernelRun5_C c i arg2 harg2 arg3 harg3 arg4 harg4 arg5 harg5 arg6 harg6 arg7 harg7 hc0 hc1 x0 x1 xs0 xs1).2.2.2.1 S1024x128.size (by sl_kernel_rfl) y

/-- What the body leaves in the row-sum accumulator at k = 7: its pieces read back over junk. -/
def sout5_C_1 (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) : Vec F S1024x128 .f32 :=
  VS5_1.read (Elt F) (VS5_1.writes (Elt F) VS5_1.junk (kernelRun5_C c i arg2 harg2 arg3 harg3 arg4 harg4 arg5 harg5 arg6 harg6 arg7 harg7 hc0 hc1 x0 x1 xs0 xs1).2.2.2.1)

/-- What the proof data names for an output's staging buffer at a point that stores nothing into it: nothing consults
    it (the window is idle there and not written back). -/
def hole5_2 : Vec F S1024x256 .f32 := VO5_2.read (Elt F) (VO5_2.writes (Elt F) VO5_2.junk [])
def hole5_3 : Vec F S1024x128 .f32 := VO5_3.read (Elt F) (VO5_3.writes (Elt F) VO5_3.junk [])

/-! ## What the outputs and the accumulators hold after each point -/

/-- After the body at position `n`: (the product output's staging buffer, the row-sum output's, the product
    accumulator, the row-sum accumulator). The case is selected by `n mod 8`; the accumulators a case reads are what
    position `n - 1` left. -/
def outsAt5 (c : Dev nD) : (n : ℕ) → n < cfg5.N → Vec F S1024x256 .f32 × Vec F S1024x128 .f32 × Vec F S1024x256 .f32 × Vec F S1024x128 .f32
  | 0, hn => (hole5_2, hole5_3, sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => (by decide : ¬(0 % 8 = 7)) ((hcond5_1 ⟨0, hn⟩).mp h)) (iblk5 V c 0 ⟨0, hn⟩) (iblk5 V c 1 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => (by decide : ¬(0 % 8 = 7)) ((hcond5_1 ⟨0, hn⟩).mp h)) (iblk5 V c 0 ⟨0, hn⟩) (iblk5 V c 1 ⟨0, hn⟩))
  | n + 1, hn =>
    if h0 : (n + 1) % 8 = 0 then
      if h1 : (n + 1) % 8 = 7 then False.elim (by omega)
      else (hole5_2, hole5_3, sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 8 = 7 then (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2, out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2)
      else (hole5_2, hole5_3, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2)

/-- `outsAt5` at a point with k = 0. -/
theorem outsAt5_A (c : Dev nD) (t : Fin cfg5.N) (h0 : t.val % 8 = 0) (h1 : ¬t.val % 8 = 7) :
    outsAt5 V c t.val t.isLt = (hole5_2, hole5_3, sout5_A_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t), sout5_A_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

/-- `outsAt5` at a middle point: over what the point before left. -/
theorem outsAt5_B (c : Dev nD) (t : Fin cfg5.N) (h0 : ¬t.val % 8 = 0) (h1 : ¬t.val % 8 = 7) :
    outsAt5 V c t.val t.isLt = (hole5_2, hole5_3, sout5_B_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_B_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point with k = 7: over what the point before left. -/
theorem outsAt5_C (c : Dev nD) (t : Fin cfg5.N) (h0 : ¬t.val % 8 = 0) (h1 : t.val % 8 = 7) :
    outsAt5 V c t.val t.isLt = (out5_C_2 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, out5_C_3 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is no
    staging buffer at anything, the generator register at some state); afterwards the two accumulators at what the
    point before left in them, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare (outsAt5 V c n hn).2.2.1 ∗ owns (c : Thread nD τ) scM5_1 fullShare (outsAt5 V c n hn).2.2.2) ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (outsAt5 V c n hn).2.2.1 ∗ owns (c : Thread nD τ) scM5_1 fullShare (outsAt5 V c n hn).2.2.2) ∗ Pipeline.scopedRestBut (Ix := Unit) (Name := ℕ) (U := UR sig nD τ) (Lvl := ℕ) (Val := Elt F) spec5 c [cc5_scratch0, cc5_scratch1]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (outsAt5 V c (n - 1) (by omega)).2.2.1 ∗ owns (c : Thread nD τ) scM5_1 fullShare (outsAt5 V c (n - 1) (by omega)).2.2.2) ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-! ## The proof data -/

/-- The proof data of the region on core `c`: the arrays as the region finds them (`V`); after the body at point `t`
    each operand's buffer at its block and each output's at `outsAt5`'s component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]

/-- Each operand's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the operands' memrefs hold their blocks; `t mod 8` says which case the point is in; the
    invariant hands the body the accumulators at what the point before left (at anything before the first point) and
    takes them back at this point's contents; where k ≠ 7 the outputs' buffers are handed back as found, at k = 7 with
    the accumulators' copies; the other scoped buffers, the generator register and what the core owes pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val % 8 = 0
  · by_cases h1 : t.val % 8 = 7
    · exfalso; omega
    · have hc1 : ¬cond5_1 (grid5.coords t) := fun h => h1 ((hcond5_1 t).mp h)
      rw [Dat.leavesExact_idle (dat5 V c) 2 t (idleAt5_2 t hc1) (noFlush5_2 t hc1),
        Dat.leavesExact_idle (dat5 V c) 3 t (idleAt5_3 t hc1) (noFlush5_3 t hc1)]
      rw [outsAt5_A V c t h0 h1]
      unfold sout5_A_0 sout5_A_1; (try dsimp only)
      by_cases hz : t.val = 0
      · rw [PhiS5_castSucc V c t, PhiS5_zero V c _ _ hz, PhiA5_eq]
        iintro ⟨⟨⟨⟨HS0, HS1⟩, HR⟩, Hg⟩, Ho, ⟨%d0, H0⟩, ⟨%d1, H1⟩, ⟨%d2, H2⟩, ⟨%d3, H3⟩⟩
        iapply ((kernelRun5_A c (grid5.coords t) _ _ _ _ _ _ _ _ _ _ _ _ ((hcond5_0 t).mpr h0) hc1 (iblk5 V c 0 t) (iblk5 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩⟩
        iapply ((kernelRun5_A c (grid5.coords t) _ _ _ _ _ _ _ _ _ _ _ _ ((hcond5_0 t).mpr h0) hc1 (iblk5 V c 0 t) (iblk5 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    have hc0 : ¬cond5_0 (grid5.coords t) := fun h => h0 ((hcond5_0 t).mp h)
    by_cases h1 : t.val % 8 = 7
    · have hc1 : cond5_1 (grid5.coords t) := (hcond5_1 t).mpr h1
      rw [show (dat5 V c).leavesExact 2 t = owns (c : Thread nD τ) (ms5_2 t) fullShare ((dat5 V c).after 2 t) from by
        unfold Dat.leavesExact; rw [liveAt5_2 t hc1], after5_2]
      rw [show (dat5 V c).leavesExact 3 t = owns (c : Thread nD τ) (ms5_3 t) fullShare ((dat5 V c).after 3 t) from by
        unfold Dat.leavesExact; rw [liveAt5_3 t hc1], after5_3]
      rw [outsAt5_C V c t h0 h1]
      unfold out5_C_2 out5_C_3 sout5_C_0 sout5_C_1; (try dsimp only)
      rw [PhiS5_castSucc V c t, PhiS5_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun5_C c (grid5.coords t) _ _ _ _ _ _ _ _ _ _ _ _ hc0 hc1 (iblk5 V c 0 t) (iblk5 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _)
            unfold owns; iexists _; isplitr
            swap; · iexact HS1
            ipureintro; exact View.read_writes_of_cover _ _ _ _ _ (scover5_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_C_2 c _ _ _ _ _ _ _ _ _ _ _ _ _ _ _ _ _ _ _)
      unfold owns; iexists _; isplitr
      swap; · iexact H3
      ipureintro; exact View.read_writes_of_cover _ _ _ _ _ (cover5_C_3 c _ _ _ _ _ _ _ _ _ _ _ _ _ _ _ _ _ _ _)
    · have hc1 : ¬cond5_1 (grid5.coords t) := fun h => h1 ((hcond5_1 t).mp h)
      rw [Dat.leavesExact_idle (dat5 V c) 2 t (idleAt5_2 t hc1) (noFlush5_2 t hc1),
        Dat.leavesExact_idle (dat5 V c) 3 t (idleAt5_3 t hc1) (noFlush5_3 t hc1)]
      rw [outsAt5_B V c t h0 h1]
      unfold sout5_B_0 sout5_B_1; (try dsimp only)
      rw [PhiS5_castSucc V c t, PhiS5_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun5_B c (grid5.coords t) _ _ _ _ _ _ _ _ _ _ _ _ hc0 hc1 (iblk5 V c 0 t) (iblk5 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _)
            unfold owns; iexists _; isplitr
            swap; · iexact HS1
            ipureintro; exact View.read_writes_of_cover _ _ _ _ _ (scover5_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the region's own back: the accumulators' named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.KernelIdeal.Gen

end
-- ==== Proof.KI.R6Run.lean ====
/- Region 6, the fused node kernel, on whole staging memrefs: what its single store leaves in the output
   window's buffer as a closed term over the eight input blocks (three row blocks, four square weight
   blocks, one bias row), and the body's triple. The body loads every input whole, forms the three
   projections, the two lane-reduced attention weights, the mixed value, its projection plus bias
   clamped at zero, and stores that over the whole output buffer; what the output buffer held before
   is read once and never used. -/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the store span their whole buffer -/

/-- The whole of a row block (1024 rows of 256 lanes). -/
abbrev r6_row : Rect S1024x256 := Rect.unit (s := S1024x256) ![0, 0] S1024x256.size inb_S1024x256_S1024x256_0_0
/-- The whole of a square weight block. -/
abbrev r6_sq : Rect S256x256 := Rect.unit (s := S256x256) ![0, 0] S256x256.size inb_S256x256_S256x256_0_0
/-- The whole of the bias row. -/
abbrev r6_bias : Rect S1x256 := Rect.unit (s := S1x256) ![0, 0] S1x256.size inb_S1x256_S1x256_0_0

/-! ## What the body leaves in the output window's buffer -/

/-- Window 8's staging buffer after the body, from the input windows' blocks: its one store as a piece
    (`View.canon`); the payload is the skeleton's, the clamp over the part's returned projection. -/
def out6_8 (x0 : Vec F S1024x256 .f32) (x1 : Vec F S1024x256 .f32) (x2 : Vec F S1024x256 .f32) (x3 : Vec F S256x256 .f32) (x4 : Vec F S256x256 .f32) (x5 : Vec F S256x256 .f32) (x6 : Vec F S256x256 .f32) (x7 : Vec F S1x256 .f32) : Vec F S1024x256 .f32 :=
  View.canon [⟨r6_row, k6_pay1 (k6_pay2 (View.ld x0 r6_row) (View.ld x1 r6_row) (View.ld x2 r6_row) (View.ld x3 r6_sq) (View.ld x4 r6_sq) (View.ld x5 r6_sq) (View.ld x6 r6_sq)) (View.ld x7 r6_bias)⟩]

/-- The store spans the buffer (checked by evaluation), so it covers it. -/
theorem cover6_8 (p0 : Vec F S1024x256 .f32) (y : S1024x256.Idx) :
    ∃ pc ∈ ([⟨r6_row, p0⟩] : List (View.Piece (Elt F) S1024x256 .f32)), y ∈ pc.1.set :=
  View.cover_of_tiled [⟨r6_row, p0⟩] S1024x256.size (by rfl) y

/-! ## The body's triple -/

set_option maxHeartbeats 1000000 in
/-- The kernel body on whole staging memrefs, the inputs' at read contents `xW` and the output's at anything, runs to
    the continuation holding the inputs' as they were and the output's at `out6_8` of the inputs'. -/
theorem sound_kernel6 (c : Dev nD) (E : Set ℕ) (i : grid6.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole)
    (x0 : Vec F S1024x256 .f32) (x1 : Vec F S1024x256 .f32) (x2 : Vec F S1024x256 .f32) (x3 : Vec F S256x256 .f32) (x4 : Vec F S256x256 .f32) (x5 : Vec F S256x256 .f32) (x6 : Vec F S256x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out6_8 x0 x1 x2 x3 x4 x5 x6 x7)) -∗ K ⟨⟩))
      ⊢ wp frame (wpE (defs₀ (F := F)) Variants.none c none) E (cc6__hhnode_kernel i arg1 harg1 arg2 harg2 arg3 harg3 arg4 harg4 arg5 harg5 arg6 harg6 arg7 harg7 arg8 harg8 arg9 harg9) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_unfold [cc6__hhnode_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover6_8 _)

end Cert.KernelIdeal.Gen

end
-- ==== Proof.KI.R6.lean ====
/- Region 6, the fused node kernel, as a pipeline of nine windows over a grid of four points, at the buffer
   contents `V` the region is entered with: each window's block at a point, what each input window's
   staging buffer holds when the body runs (its block, fetched there or not), the proof data — the arrays
   as found, the inputs' buffers left in place, the output's buffer at the body's closed term over the
   input blocks —, and the body obligation at every point. The kernel keeps nothing from point to point,
   so the invariant is the scoped rest and the generator register, untouched. -/
import proofs.«140739_j42683384987781_2_alg».proof.Proof.Gen.KernelIdeal.Launch
import proofs.«140739_j42683384987781_2_alg».proof.Proof.Gen.KernelIdeal.Skeleton
import proofs.«140739_j42683384987781_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140739_j42683384987781_2_alg».proof.Proof.KI.R6Run

-- membership in a rectangle of production extents: the elaborator's structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on the TensorCore when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the body finds in each input window's staging buffer

An input window's current staging buffer holds its block at every point, for ANY proof data whose array is
`V`'s (`hA`) and whose body leaves the block in place (`hafter`): where the pipeline fetched it, what it
fetched; where it did not, the block index has not moved and the buffer still holds that block. The
windows are uncut and never idle. -/

/-- Input window 0 (the current rows; fetched at every point). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the spatial embedding rows; fetched at every point). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the temporal embedding rows; fetched at every point). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3 (the node projection; fetched at the first point only, its block index constant over the grid). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4 (the spatial edge projection; fetched at the first point only, its block index constant over the grid). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5 (the temporal edge projection; fetched at the first point only, its block index constant over the grid). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6 (the transposed output weight; fetched at the first point only, its block index constant over the grid). -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7 (the bias row; fetched at the first point only, its block index constant over the grid). -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The pipeline's proof data -/

/-- The proof data of pipeline 6 on core `c`: the arrays as the region finds them (`V`); after the body at
    point `t` each input's buffer at its block and the output's at `out6_8` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) :
    (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-- The invariant before the first point is the class's, as the launch hands it over, -/
theorem hin6 (c : Dev nD) : Pipeline.ΦA spec6 c ⊢ (dat6 V c).Φ 0 := .rfl
/-- and after the last point it is handed back unchanged. -/
theorem hout6 (c : Dev nD) : (dat6 V c).Φ (Fin.last cfg6.N) ⊢ Pipeline.ΦA spec6 c := .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.Run.lean ====
/-
  The whole run of the program: its seven kernel regions and the stretches of array operations between them, in
  order.  Between two items every buffer that outlives a region is held at a named valuation: `U0` is the launch
  memory; a stretch of array operations takes `U` to the operations' fold over it; a region takes `U` to `U` with the
  region's arrays replaced by what its pipeline leaves in them (the inputs as found, each output's tiles written
  back).  Beside the buffers the generator register rides at some state and the core owes nothing.  The conclusion:
  every weakly fair execution terminates, without a fault, with every such buffer at `U17`.
-/
import proofs.«140739_j42683384987781_2_alg».proof.Proof.KI.R0
import proofs.«140739_j42683384987781_2_alg».proof.Proof.KI.R1
import proofs.«140739_j42683384987781_2_alg».proof.Proof.KI.R2
import proofs.«140739_j42683384987781_2_alg».proof.Proof.KI.R3
import proofs.«140739_j42683384987781_2_alg».proof.Proof.KI.R4
import proofs.«140739_j42683384987781_2_alg».proof.Proof.KI.R5
import proofs.«140739_j42683384987781_2_alg».proof.Proof.KI.R6
import proofs.«140739_j42683384987781_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev U0 : Dev nD → Valuation τ sig (Elt F) := fun c b => m (c, b)
/-- After region 0: its arrays at what the pipeline leaves, every other buffer as entered. -/
def U1 (c : Dev nD) : Valuation τ sig (Elt F) :=
  Pipeline.withArrays spec0 c (U0 m c) fun w => (dat0 (fun c b => U0 m c b) c).arrAt w cfg0.N
theorem U1_arr (c : Dev nD) (w : Fin cfg0.W) :
    U1 m c (Proc.devRef .tc (Pipeline.arrRef spec0 w)) = (dat0 (fun c b => U0 m c b) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
theorem hF0 (c : Dev nD) (w : Fin cfg0.W) : (dat0 (fun c b => U0 m c b) c).arrAt w cfg0.N = U1 m c (Pipeline.arrRef spec0 w) :=
  (U1_arr m c w).symm
theorem hrest0 (c : Dev nD) : ∀ b : Ref sig .tc, b ∉ Finset.univ.image (Pipeline.arrRef spec0) → U1 m c b = U0 m c b :=
  fun b hb => U1_of_ne m c b fun w e => hb (Finset.mem_image.mpr ⟨w, Finset.mem_univ _, e⟩)
/-- After the stretch `hostOps1`. -/
abbrev U2 : Dev nD → Valuation τ sig (Elt F) := fun c => StableHlo.after hostOps1 (U1 m c)
/-- After the stretch `hostOps1_1`. -/
abbrev U3 : Dev nD → Valuation τ sig (Elt F) := fun c => StableHlo.after hostOps1_1 (U2 m c)
/-- After the stretch `hostOps1_2`. -/
abbrev U4 : Dev nD → Valuation τ sig (Elt F) := fun c => StableHlo.after hostOps1_2 (U3 m c)
/-- After region 1: its arrays at what the pipeline leaves, every other buffer as entered. -/
def U5 (c : Dev nD) : Valuation τ sig (Elt F) :=
  Pipeline.withArrays spec1 c (U4 m c) fun w => (dat1 (fun c b => U4 m c b) c).arrAt w cfg1.N
theorem U5_arr (c : Dev nD) (w : Fin cfg1.W) :
    U5 m c (Proc.devRef .tc (Pipeline.arrRef spec1 w)) = (dat1 (fun c b => U4 m c b) c).arrAt w cfg1.N := by
  unfold U5; exact Pipeline.withArrays_arr spec1 launch1.win.arr_inj c _ _ w
theorem U5_of_ne (c : Dev nD) (b : Ref sig .tc) (hb : ∀ w, Pipeline.arrRef spec1 w ≠ b) :
    U5 m c (Proc.devRef .tc b) = U4 m c (Proc.devRef .tc b) := by
  unfold U5; exact Pipeline.withArrays_of_ne spec1 c _ _ b hb
theorem hF1 (c : Dev nD) (w : Fin cfg1.W) : (dat1 (fun c b => U4 m c b) c).arrAt w cfg1.N = U5 m c (Pipeline.arrRef spec1 w) :=
  (U5_arr m c w).symm
theorem hrest1 (c : Dev nD) : ∀ b : Ref sig .tc, b ∉ Finset.univ.image (Pipeline.arrRef spec1) → U5 m c b = U4 m c b :=
  fun b hb => U5_of_ne m c b fun w e => hb (Finset.mem_image.mpr ⟨w, Finset.mem_univ _, e⟩)
/-- After the stretch `hostOps2`. -/
abbrev U6 : Dev nD → Valuation τ sig (Elt F) := fun c => StableHlo.after hostOps2 (U5 m c)
/-- After the stretch `hostOps2_1`. -/
abbrev U7 : Dev nD → Valuation τ sig (Elt F) := fun c => StableHlo.after hostOps2_1 (U6 m c)
/-- After the stretch `hostOps2_2`. -/
abbrev U8 : Dev nD → Valuation τ sig (Elt F) := fun c => StableHlo.after hostOps2_2 (U7 m c)
/-- After region 2: its arrays at what the pipeline leaves, every other buffer as entered. -/
def U9 (c : Dev nD) : Valuation τ sig (Elt F) :=
  Pipeline.withArrays spec2 c (U8 m c) fun w => (dat2 (fun c b => U8 m c b) c).arrAt w cfg2.N
theorem U9_arr (c : Dev nD) (w : Fin cfg2.W) :
    U9 m c (Proc.devRef .tc (Pipeline.arrRef spec2 w)) = (dat2 (fun c b => U8 m c b) c).arrAt w cfg2.N := by
  unfold U9; exact Pipeline.withArrays_arr spec2 launch2.win.arr_inj c _ _ w
theorem U9_of_ne (c : Dev nD) (b : Ref sig .tc) (hb : ∀ w, Pipeline.arrRef spec2 w ≠ b) :
    U9 m c (Proc.devRef .tc b) = U8 m c (Proc.devRef .tc b) := by
  unfold U9; exact Pipeline.withArrays_of_ne spec2 c _ _ b hb
theorem hF2 (c : Dev nD) (w : Fin cfg2.W) : (dat2 (fun c b => U8 m c b) c).arrAt w cfg2.N = U9 m c (Pipeline.arrRef spec2 w) :=
  (U9_arr m c w).symm
theorem hrest2 (c : Dev nD) : ∀ b : Ref sig .tc, b ∉ Finset.univ.image (Pipeline.arrRef spec2) → U9 m c b = U8 m c b :=
  fun b hb => U9_of_ne m c b fun w e => hb (Finset.mem_image.mpr ⟨w, Finset.mem_univ _, e⟩)
/-- After region 3: its arrays at what the pipeline leaves, every other buffer as entered. -/
def U10 (c : Dev nD) : Valuation τ sig (Elt F) :=
  Pipeline.withArrays spec3 c (U9 m c) fun w => (dat3 (fun c b => U9 m c b) c).arrAt w cfg3.N
theorem U10_arr (c : Dev nD) (w : Fin cfg3.W) :
    U10 m c (Proc.devRef .tc (Pipeline.arrRef spec3 w)) = (dat3 (fun c b => U9 m c b) c).arrAt w cfg3.N := by
  unfold U10; exact Pipeline.withArrays_arr spec3 launch3.win.arr_inj c _ _ w
theorem U10_of_ne (c : Dev nD) (b : Ref sig .tc) (hb : ∀ w, Pipeline.arrRef spec3 w ≠ b) :
    U10 m c (Proc.devRef .tc b) = U9 m c (Proc.devRef .tc b) := by
  unfold U10; exact Pipeline.withArrays_of_ne spec3 c _ _ b hb
theorem hF3 (c : Dev nD) (w : Fin cfg3.W) : (dat3 (fun c b => U9 m c b) c).arrAt w cfg3.N = U10 m c (Pipeline.arrRef spec3 w) :=
  (U10_arr m c w).symm
theorem hrest3 (c : Dev nD) : ∀ b : Ref sig .tc, b ∉ Finset.univ.image (Pipeline.arrRef spec3) → U10 m c b = U9 m c b :=
  fun b hb => U10_of_ne m c b fun w e => hb (Finset.mem_image.mpr ⟨w, Finset.mem_univ _, e⟩)
/-- After the stretch `hostOps4`. -/
abbrev U11 : Dev nD → Valuation τ sig (Elt F) := fun c => StableHlo.after hostOps4 (U10 m c)
/-- After region 4: its arrays at what the pipeline leaves, every other buffer as entered. -/
def U12 (c : Dev nD) : Valuation τ sig (Elt F) :=
  Pipeline.withArrays spec4 c (U11 m c) fun w => (dat4 (fun c b => U11 m c b) c).arrAt w cfg4.N
theorem U12_arr (c : Dev nD) (w : Fin cfg4.W) :
    U12 m c (Proc.devRef .tc (Pipeline.arrRef spec4 w)) = (dat4 (fun c b => U11 m c b) c).arrAt w cfg4.N := by
  unfold U12; exact Pipeline.withArrays_arr spec4 launch4.win.arr_inj c _ _ w
theorem U12_of_ne (c : Dev nD) (b : Ref sig .tc) (hb : ∀ w, Pipeline.arrRef spec4 w ≠ b) :
    U12 m c (Proc.devRef .tc b) = U11 m c (Proc.devRef .tc b) := by
  unfold U12; exact Pipeline.withArrays_of_ne spec4 c _ _ b hb
theorem hF4 (c : Dev nD) (w : Fin cfg4.W) : (dat4 (fun c b => U11 m c b) c).arrAt w cfg4.N = U12 m c (Pipeline.arrRef spec4 w) :=
  (U12_arr m c w).symm
theorem hrest4 (c : Dev nD) : ∀ b : Ref sig .tc, b ∉ Finset.univ.image (Pipeline.arrRef spec4) → U12 m c b = U11 m c b :=
  fun b hb => U12_of_ne m c b fun w e => hb (Finset.mem_image.mpr ⟨w, Finset.mem_univ _, e⟩)
/-- After the stretch `hostOps5`. -/
abbrev U13 : Dev nD → Valuation τ sig (Elt F) := fun c => StableHlo.after hostOps5 (U12 m c)
/-- After region 5: its arrays at what the pipeline leaves, every other buffer as entered. -/
def U14 (c : Dev nD) : Valuation τ sig (Elt F) :=
  Pipeline.withArrays spec5 c (U13 m c) fun w => (dat5 (fun c b => U13 m c b) c).arrAt w cfg5.N
theorem U14_arr (c : Dev nD) (w : Fin cfg5.W) :
    U14 m c (Proc.devRef .tc (Pipeline.arrRef spec5 w)) = (dat5 (fun c b => U13 m c b) c).arrAt w cfg5.N := by
  unfold U14; exact Pipeline.withArrays_arr spec5 launch5.win.arr_inj c _ _ w
theorem U14_of_ne (c : Dev nD) (b : Ref sig .tc) (hb : ∀ w, Pipeline.arrRef spec5 w ≠ b) :
    U14 m c (Proc.devRef .tc b) = U13 m c (Proc.devRef .tc b) := by
  unfold U14; exact Pipeline.withArrays_of_ne spec5 c _ _ b hb
theorem hF5 (c : Dev nD) (w : Fin cfg5.W) : (dat5 (fun c b => U13 m c b) c).arrAt w cfg5.N = U14 m c (Pipeline.arrRef spec5 w) :=
  (U14_arr m c w).symm
theorem hrest5 (c : Dev nD) : ∀ b : Ref sig .tc, b ∉ Finset.univ.image (Pipeline.arrRef spec5) → U14 m c b = U13 m c b :=
  fun b hb => U14_of_ne m c b fun w e => hb (Finset.mem_image.mpr ⟨w, Finset.mem_univ _, e⟩)
/-- After the stretch `hostOps6`. -/
abbrev U15 : Dev nD → Valuation τ sig (Elt F) := fun c => StableHlo.after hostOps6 (U14 m c)
/-- After region 6: its arrays at what the pipeline leaves, every other buffer as entered. -/
def U16 (c : Dev nD) : Valuation τ sig (Elt F) :=
  Pipeline.withArrays spec6 c (U15 m c) fun w => (dat6 (fun c b => U15 m c b) c).arrAt w cfg6.N
theorem U16_arr (c : Dev nD) (w : Fin cfg6.W) :
    U16 m c (Proc.devRef .tc (Pipeline.arrRef spec6 w)) = (dat6 (fun c b => U15 m c b) c).arrAt w cfg6.N := by
  unfold U16; exact Pipeline.withArrays_arr spec6 launch6.win.arr_inj c _ _ w
theorem U16_of_ne (c : Dev nD) (b : Ref sig .tc) (hb : ∀ w, Pipeline.arrRef spec6 w ≠ b) :
    U16 m c (Proc.devRef .tc b) = U15 m c (Proc.devRef .tc b) := by
  unfold U16; exact Pipeline.withArrays_of_ne spec6 c _ _ b hb
theorem hF6 (c : Dev nD) (w : Fin cfg6.W) : (dat6 (fun c b => U15 m c b) c).arrAt w cfg6.N = U16 m c (Pipeline.arrRef spec6 w) :=
  (U16_arr m c w).symm
theorem hrest6 (c : Dev nD) : ∀ b : Ref sig .tc, b ∉ Finset.univ.image (Pipeline.arrRef spec6) → U16 m c b = U15 m c b :=
  fun b hb => U16_of_ne m c b fun w e => hb (Finset.mem_image.mpr ⟨w, Finset.mem_univ _, e⟩)
/-- After the stretch `hostOps7`. -/
abbrev U17 : Dev nD → Valuation τ sig (Elt F) := fun c => StableHlo.after hostOps7 (U16 m c)

/-- The same valuations read at the TensorCore's buffer names. -/
abbrev UV0 : (c : Dev nD) → (b : Ref sig .tc) → Buf (Elt F) ((c : Thread nD τ).loc b) := fun c b => U0 m c b
abbrev UV1 : (c : Dev nD) → (b : Ref sig .tc) → Buf (Elt F) ((c : Thread nD τ).loc b) := fun c b => U1 m c b
abbrev UV2 : (c : Dev nD) → (b : Ref sig .tc) → Buf (Elt F) ((c : Thread nD τ).loc b) := fun c b => U2 m c b
abbrev UV3 : (c : Dev nD) → (b : Ref sig .tc) → Buf (Elt F) ((c : Thread nD τ).loc b) := fun c b => U3 m c b
abbrev UV4 : (c : Dev nD) → (b : Ref sig .tc) → Buf (Elt F) ((c : Thread nD τ).loc b) := fun c b => U4 m c b
abbrev UV5 : (c : Dev nD) → (b : Ref sig .tc) → Buf (Elt F) ((c : Thread nD τ).loc b) := fun c b => U5 m c b
abbrev UV6 : (c : Dev nD) → (b : Ref sig .tc) → Buf (Elt F) ((c : Thread nD τ).loc b) := fun c b => U6 m c b
abbrev UV7 : (c : Dev nD) → (b : Ref sig .tc) → Buf (Elt F) ((c : Thread nD τ).loc b) := fun c b => U7 m c b
abbrev UV8 : (c : Dev nD) → (b : Ref sig .tc) → Buf (Elt F) ((c : Thread nD τ).loc b) := fun c b => U8 m c b
abbrev UV9 : (c : Dev nD) → (b : Ref sig .tc) → Buf (Elt F) ((c : Thread nD τ).loc b) := fun c b => U9 m c b
abbrev UV10 : (c : Dev nD) → (b : Ref sig .tc) → Buf (Elt F) ((c : Thread nD τ).loc b) := fun c b => U10 m c b
abbrev UV11 : (c : Dev nD) → (b : Ref sig .tc) → Buf (Elt F) ((c : Thread nD τ).loc b) := fun c b => U11 m c b
abbrev UV12 : (c : Dev nD) → (b : Ref sig .tc) → Buf (Elt F) ((c : Thread nD τ).loc b) := fun c b => U12 m c b
abbrev UV13 : (c : Dev nD) → (b : Ref sig .tc) → Buf (Elt F) ((c : Thread nD τ).loc b) := fun c b => U13 m c b
abbrev UV14 : (c : Dev nD) → (b : Ref sig .tc) → Buf (Elt F) ((c : Thread nD τ).loc b) := fun c b => U14 m c b
abbrev UV15 : (c : Dev nD) → (b : Ref sig .tc) → Buf (Elt F) ((c : Thread nD τ).loc b) := fun c b => U15 m c b
abbrev UV16 : (c : Dev nD) → (b : Ref sig .tc) → Buf (Elt F) ((c : Thread nD τ).loc b) := fun c b => U16 m c b
abbrev UV17 : (c : Dev nD) → (b : Ref sig .tc) → Buf (Elt F) ((c : Thread nD τ).loc b) := fun c b => U17 m c b

/-! ## The proof data family and what rides beside the buffers -/

/-- The prefetched tables' admissible contents: no region has a table. -/
abbrev admR : (p : Fin 7) → (pcfgs (F := F) p).Adm := fun p => (cfgs p).toPCfg_adm
/-- Every region's proof data, each at its region's entry contents. -/
def pdats : (p : Fin 7) → (c : Dev nD) → Dat τ (Elt F) Unit ℕ (UR sig nD τ) ℕ (Pipeline.pin (pcfgs (F := F)) admR p) c
  | ⟨0, _⟩ => fun c => dat0 (fun c b => U0 m c b) c
  | ⟨1, _⟩ => fun c => dat1 (fun c b => U4 m c b) c
  | ⟨2, _⟩ => fun c => dat2 (fun c b => U8 m c b) c
  | ⟨3, _⟩ => fun c => dat3 (fun c b => U9 m c b) c
  | ⟨4, _⟩ => fun c => dat4 (fun c b => U11 m c b) c
  | ⟨5, _⟩ => fun c => dat5 (fun c b => U13 m c b) c
  | ⟨6, _⟩ => fun c => dat6 (fun c b => U15 m c b) c
abbrev 𝒱R : Variants := Variants.none
/-- No core waits for another: no level is assigned. -/
abbrev LR : GSem nD τ sig → Finset Unit := fun _ => ∅
abbrev lvR : GSem nD τ sig → Unit → ℕ := fun _ _ => 0
/-- Beside the buffers: the core's generator register at some state and the core owing nothing. -/
abbrev Rr (c : Dev nD) : sProp 𝕄 := iprop((∃ r, prngReg c r) ∗ ∃ W, owes (c : Thread nD τ) (0 : CellTallies nD τ sig Unit) W)
/-- A stretch of array operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-! ## The regions as segments -/

set_option backward.isDefEq.respectTransparency.types false in
/-- Region 0 over the thread state: entered with every outliving buffer at `U0`, left with them at `U1`.  Its
    arrays are split out of those buffers and put back at the exit contents; the generator register goes into the
    region invariant and comes out; nothing is owed; the kernel has no semaphore of its own. -/
def reg0 : Pipeline.RegionSeg (pcfgs (F := F)) admR (pdats m) () defs₀ 𝒱R LR lvR 0 where
  win := launch0.win.to₀
  block_pos := launch0.block_pos
  stage_whole := launch0.stage_whole
  K := PEmpty
  osem k := k.elim
  ho := Pipeline.OwnSemFacts.none _
  hbody c := (body_obligation0 (fun c b => U0 m c b) c).loose
  hwaits := Pipeline.hwaits_of_owed_zero _ _ _ _ LR lvR 0 fun _ _ => rfl
  pre c := iprop(StableHlo.held (c : Thread nD τ) (Pipeline.ucRefs τ sig) (U0 m c) ∗ Rr c)
  post c := iprop(StableHlo.held (c : Thread nD τ) (Pipeline.ucRefs τ sig) (U1 m c) ∗ Rr c)
  X c := iprop(∃ r, prngReg c r)
  Y c := iprop(∃ r, prngReg c r)
  Z c := Pipeline.unscopedRest (Ix := Unit) (Name := ℕ) (U := UR sig nD τ) (Lvl := ℕ) spec0 c (UV0 m c)
  hentry c := by
    rw [Pipeline.ownSems0_none]
    have hsplit := Pipeline.arrays_of_unscopedBufs (p := 0) (pcfgs (F := F)) admR (pdats m) launch0.win launch0.arr_whole c
      ((pdats m 0 c).share_full fun _ => rfl) (UV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (fun c b => U0 m c b) c
    unfold Pipeline.ΦA at h
    rw [show (pdats m 0 c).Φ 0 = (dat0 (fun c b => U0 m c b) c).Φ 0 from rfl]
    iintro ⟨Hp, -, Hr⟩
    iapply h
    isplitl [Hr]; · iexact Hr
    iexact Hp
  hout c := by
    rw [Pipeline.ownSems0_none]
    have h := hout0 (fun c b => U0 m c b) c
    unfold Pipeline.ΦA at h
    rw [show (pdats m 0 c).Φ (Fin.last _) = (dat0 (fun c b => U0 m c b) c).Φ (Fin.last cfg0.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m) ((pdats m 0 c).share_full fun _ => rfl)
      (UV0 m c) (UV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every outliving buffer at `U4`, left with them at `U5`.  Its
    arrays are split out of those buffers and put back at the exit contents; the generator register goes into the
    region invariant and comes out; nothing is owed; the kernel has no semaphore of its own. -/
def reg1 : Pipeline.RegionSeg (pcfgs (F := F)) admR (pdats m) () defs₀ 𝒱R LR lvR 1 where
  win := launch1.win.to₀
  block_pos := launch1.block_pos
  stage_whole := launch1.stage_whole
  K := PEmpty
  osem k := k.elim
  ho := Pipeline.OwnSemFacts.none _
  hbody c := (body_obligation1 (fun c b => U4 m c b) c).loose
  hwaits := Pipeline.hwaits_of_owed_zero _ _ _ _ LR lvR 1 fun _ _ => rfl
  pre c := iprop(StableHlo.held (c : Thread nD τ) (Pipeline.ucRefs τ sig) (U4 m c) ∗ Rr c)
  post c := iprop(StableHlo.held (c : Thread nD τ) (Pipeline.ucRefs τ sig) (U5 m c) ∗ Rr c)
  X c := iprop(∃ r, prngReg c r)
  Y c := iprop(∃ r, prngReg c r)
  Z c := Pipeline.unscopedRest (Ix := Unit) (Name := ℕ) (U := UR sig nD τ) (Lvl := ℕ) spec1 c (UV4 m c)
  hentry c := by
    rw [Pipeline.ownSems0_none]
    have hsplit := Pipeline.arrays_of_unscopedBufs (p := 1) (pcfgs (F := F)) admR (pdats m) launch1.win launch1.arr_whole c
      ((pdats m 1 c).share_full fun _ => rfl) (UV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (fun c b => U4 m c b) c
    unfold Pipeline.ΦA at h
    rw [show (pdats m 1 c).Φ 0 = (dat1 (fun c b => U4 m c b) c).Φ 0 from rfl]
    iintro ⟨Hp, -, Hr⟩
    iapply h
    isplitl [Hr]; · iexact Hr
    iexact Hp
  hout c := by
    rw [Pipeline.ownSems0_none]
    have h := hout1 (fun c b => U4 m c b) c
    unfold Pipeline.ΦA at h
    rw [show (pdats m 1 c).Φ (Fin.last _) = (dat1 (fun c b => U4 m c b) c).Φ (Fin.last cfg1.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m) ((pdats m 1 c).share_full fun _ => rfl)
      (UV4 m c) (UV5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every outliving buffer at `U8`, left with them at `U9`.  Its
    arrays are split out of those buffers and put back at the exit contents; the generator register goes into the
    region invariant and comes out; nothing is owed; the kernel has no semaphore of its own. -/
def reg2 : Pipeline.RegionSeg (pcfgs (F := F)) admR (pdats m) () defs₀ 𝒱R LR lvR 2 where
  win := launch2.win.to₀
  block_pos := launch2.block_pos
  stage_whole := launch2.stage_whole
  K := PEmpty
  osem k := k.elim
  ho := Pipeline.OwnSemFacts.none _
  hbody c := (body_obligation2 (fun c b => U8 m c b) c).loose
  hwaits := Pipeline.hwaits_of_owed_zero _ _ _ _ LR lvR 2 fun _ _ => rfl
  pre c := iprop(StableHlo.held (c : Thread nD τ) (Pipeline.ucRefs τ sig) (U8 m c) ∗ Rr c)
  post c := iprop(StableHlo.held (c : Thread nD τ) (Pipeline.ucRefs τ sig) (U9 m c) ∗ Rr c)
  X c := iprop(∃ r, prngReg c r)
  Y c := iprop(∃ r, prngReg c r)
  Z c := Pipeline.unscopedRest (Ix := Unit) (Name := ℕ) (U := UR sig nD τ) (Lvl := ℕ) spec2 c (UV8 m c)
  hentry c := by
    rw [Pipeline.ownSems0_none]
    have hsplit := Pipeline.arrays_of_unscopedBufs (p := 2) (pcfgs (F := F)) admR (pdats m) launch2.win launch2.arr_whole c
      ((pdats m 2 c).share_full fun _ => rfl) (UV8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (fun c b => U8 m c b) c
    unfold Pipeline.ΦA at h
    rw [show (pdats m 2 c).Φ 0 = (dat2 (fun c b => U8 m c b) c).Φ 0 from rfl]
    iintro ⟨Hp, -, Hr⟩
    iapply h
    isplitl [Hr]; · iexact Hr
    iexact Hp
  hout c := by
    rw [Pipeline.ownSems0_none]
    have h := hout2 (fun c b => U8 m c b) c
    unfold Pipeline.ΦA at h
    rw [show (pdats m 2 c).Φ (Fin.last _) = (dat2 (fun c b => U8 m c b) c).Φ (Fin.last cfg2.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdats m) ((pdats m 2 c).share_full fun _ => rfl)
      (UV8 m c) (UV9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every outliving buffer at `U9`, left with them at `U10`.  Its
    arrays are split out of those buffers and put back at the exit contents; the generator register goes into the
    region invariant and comes out; nothing is owed; the kernel has no semaphore of its own. -/
def reg3 : Pipeline.RegionSeg (pcfgs (F := F)) admR (pdats m) () defs₀ 𝒱R LR lvR 3 where
  win := launch3.win.to₀
  block_pos := launch3.block_pos
  stage_whole := launch3.stage_whole
  K := PEmpty
  osem k := k.elim
  ho := Pipeline.OwnSemFacts.none _
  hbody c := (body_obligation3 (fun c b => U9 m c b) c).loose
  hwaits := Pipeline.hwaits_of_owed_zero _ _ _ _ LR lvR 3 fun _ _ => rfl
  pre c := iprop(StableHlo.held (c : Thread nD τ) (Pipeline.ucRefs τ sig) (U9 m c) ∗ Rr c)
  post c := iprop(StableHlo.held (c : Thread nD τ) (Pipeline.ucRefs τ sig) (U10 m c) ∗ Rr c)
  X c := iprop(∃ r, prngReg c r)
  Y c := iprop(∃ r, prngReg c r)
  Z c := Pipeline.unscopedRest (Ix := Unit) (Name := ℕ) (U := UR sig nD τ) (Lvl := ℕ) spec3 c (UV9 m c)
  hentry c := by
    rw [Pipeline.ownSems0_none]
    have hsplit := Pipeline.arrays_of_unscopedBufs (p := 3) (pcfgs (F := F)) admR (pdats m) launch3.win launch3.arr_whole c
      ((pdats m 3 c).share_full fun _ => rfl) (UV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (fun c b => U9 m c b) c
    unfold Pipeline.ΦA at h
    rw [show (pdats m 3 c).Φ 0 = (dat3 (fun c b => U9 m c b) c).Φ 0 from rfl]
    iintro ⟨Hp, -, Hr⟩
    iapply h
    isplitl [Hr]; · iexact Hr
    iexact Hp
  hout c := by
    rw [Pipeline.ownSems0_none]
    have h := hout3 (fun c b => U9 m c b) c
    unfold Pipeline.ΦA at h
    rw [show (pdats m 3 c).Φ (Fin.last _) = (dat3 (fun c b => U9 m c b) c).Φ (Fin.last cfg3.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 3) (pcfgs (F := F)) admR (Ix := Unit) (Name := ℕ) (U := UR sig nD τ) (Lvl := ℕ)
      launch3.win launch3.arr_whole c (pdats m) ((pdats m 3 c).share_full fun _ => rfl)
      (UV9 m c) (UV10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every outliving buffer at `U11`, left with them at `U12`.  Its
    arrays are split out of those buffers and put back at the exit contents; the generator register goes into the
    region invariant and comes out; nothing is owed; the kernel has no semaphore of its own. -/
def reg4 : Pipeline.RegionSeg (pcfgs (F := F)) admR (pdats m) () defs₀ 𝒱R LR lvR 4 where
  win := launch4.win.to₀
  block_pos := launch4.block_pos
  stage_whole := launch4.stage_whole
  K := PEmpty
  osem k := k.elim
  ho := Pipeline.OwnSemFacts.none _
  hbody c := (body_obligation4 (fun c b => U11 m c b) c).loose
  hwaits := Pipeline.hwaits_of_owed_zero _ _ _ _ LR lvR 4 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec4 c (UV11 m c)
  hentry c := by
    rw [Pipeline.ownSems0_none]
    have hsplit := Pipeline.arrays_of_unscopedBufs (p := 4) (pcfgs (F := F)) admR (pdats m) launch4.win launch4.arr_whole c
      ((pdats m 4 c).share_full fun _ => rfl) (UV11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (fun c b => U11 m c b) c
    unfold Pipeline.ΦA at h
    rw [show (pdats m 4 c).Φ 0 = (dat4 (fun c b => U11 m c b) c).Φ 0 from rfl]
    iintro ⟨Hp, -, Hr⟩
    iapply h
    isplitl [Hr]; · iexact Hr
    iexact Hp
  hout c := by
    rw [Pipeline.ownSems0_none]
    have h := hout4 (fun c b => U11 m c b) c
    unfold Pipeline.ΦA at h
    rw [show (pdats m 4 c).Φ (Fin.last _) = (dat4 (fun c b => U11 m c b) c).Φ (Fin.last cfg4.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 4) (pcfgs (F := F)) admR (Ix := Unit) (Name := ℕ) (U := UR sig nD τ) (Lvl := ℕ)
      launch4.win launch4.arr_whole c (pdats m) ((pdats m 4 c).share_full fun _ => rfl)
      (UV11 m c) (UV12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every outliving buffer at `U13`, left with them at `U14`.  Its
    arrays are split out of those buffers and put back at the exit contents; the generator register goes into the
    region invariant and comes out; nothing is owed; the kernel has no semaphore of its own. -/
def reg5 : Pipeline.RegionSeg (pcfgs (F := F)) admR (pdats m) () defs₀ 𝒱R LR lvR 5 where
  win := launch5.win.to₀
  block_pos := launch5.block_pos
  stage_whole := launch5.stage_whole
  K := PEmpty
  osem k := k.elim
  ho := Pipeline.OwnSemFacts.none _
  hbody c := (body_obligation5 (fun c b => U13 m c b) c).loose
  hwaits := Pipeline.hwaits_of_owed_zero _ _ _ _ LR lvR 5 fun _ _ => rfl
  pre c := iprop(StableHlo.held (c : Thread nD τ) (Pipeline.ucRefs τ sig) (U13 m c) ∗ Rr c)
  post c := iprop(StableHlo.held (c : Thread nD τ) (Pipeline.ucRefs τ sig) (U14 m c) ∗ Rr c)
  X c := iprop(∃ r, prngReg c r)
  Y c := iprop(∃ r, prngReg c r)
  Z c := Pipeline.unscopedRest (Ix := Unit) (Name := ℕ) (U := UR sig nD τ) (Lvl := ℕ) spec5 c (UV13 m c)
  hentry c := by
    rw [Pipeline.ownSems0_none]
    have hsplit := Pipeline.arrays_of_unscopedBufs (p := 5) (pcfgs (F := F)) admR (pdats m) launch5.win launch5.arr_whole c
      ((pdats m 5 c).share_full fun _ => rfl) (UV13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin5 (fun c b => U13 m c b) c
    unfold Pipeline.ΦA at h
    rw [show (pdats m 5 c).Φ 0 = (dat5 (fun c b => U13 m c b) c).Φ 0 from rfl]
    iintro ⟨Hp, -, Hr⟩
    iapply h
    isplitl [Hr]; · iexact Hr
    iexact Hp
  hout c := by
    rw [Pipeline.ownSems0_none]
    have h := hout5 (fun c b => U13 m c b) c
    unfold Pipeline.ΦA at h
    rw [show (pdats m 5 c).Φ (Fin.last _) = (dat5 (fun c b => U13 m c b) c).Φ (Fin.last cfg5.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 5) (pcfgs (F := F)) admR (Ix := Unit) (Name := ℕ) (U := UR sig nD τ) (Lvl := ℕ)
      launch5.win launch5.arr_whole c (pdats m) ((pdats m 5 c).share_full fun _ => rfl)
      (UV13 m c) (UV14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every outliving buffer at `U15`, left with them at `U16`.  Its
    arrays are split out of those buffers and put back at the exit contents; the generator register goes into the
    region invariant and comes out; nothing is owed; the kernel has no semaphore of its own. -/
def reg6 : Pipeline.RegionSeg (pcfgs (F := F)) admR (pdats m) () defs₀ 𝒱R LR lvR 6 where
  win := launch6.win.to₀
  block_pos := launch6.block_pos
  stage_whole := launch6.stage_whole
  K := PEmpty
  osem k := k.elim
  ho := Pipeline.OwnSemFacts.none _
  hbody c := (body_obligation6 (fun c b => U15 m c b) c).loose
  hwaits := Pipeline.hwaits_of_owed_zero _ _ _ _ LR lvR 6 fun _ _ => rfl
  pre c := iprop(StableHlo.held (c : Thread nD τ) (Pipeline.ucRefs τ sig) (U15 m c) ∗ Rr c)
  post c := iprop(StableHlo.held (c : Thread nD τ) (Pipeline.ucRefs τ sig) (U16 m c) ∗ Rr c)
  X c := iprop(∃ r, prngReg c r)
  Y c := iprop(∃ r, prngReg c r)
  Z c := Pipeline.unscopedRest (Ix := Unit) (Name := ℕ) (U := UR sig nD τ) (Lvl := ℕ) spec6 c (UV15 m c)
  hentry c := by
    rw [Pipeline.ownSems0_none]
    have hsplit := Pipeline.arrays_of_unscopedBufs (p := 6) (pcfgs (F := F)) admR (pdats m) launch6.win launch6.arr_whole c
      ((pdats m 6 c).share_full fun _ => rfl) (UV15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin6 (fun c b => U15 m c b) c
    unfold Pipeline.ΦA at h
    rw [show (pdats m 6 c).Φ 0 = (dat6 (fun c b => U15 m c b) c).Φ 0 from rfl]
    iintro ⟨Hp, -, Hr⟩
    iapply h
    isplitl [Hr]; · iexact Hr
    iexact Hp
  hout c := by
    rw [Pipeline.ownSems0_none]
    have h := hout6 (fun c b => U15 m c b) c
    unfold Pipeline.ΦA at h
    rw [show (pdats m 6 c).Φ (Fin.last _) = (dat6 (fun c b => U15 m c b) c).Φ (Fin.last cfg6.N) from rfl]
    iintro H1
    ihave H := h $$ H1
    icases H with ⟨Hr, Hp⟩
    isplitl [Hp]; · iexact Hp
    isplitr; · iempintro
    iexact Hr
  hexit c := by
    have hjoin := Pipeline.unscopedBufs_of_arrays (p := 6) (pcfgs (F := F)) admR (Ix := Unit) (Name := ℕ) (U := UR sig nD τ) (Lvl := ℕ)
      launch6.win launch6.arr_whole c (pdats m) ((pdats m 6 c).share_full fun _ => rfl)
      (UV15 m c) (UV16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seventeen items in order. -/
abbrev segsR : List (Pipeline.Seg (pcfgs (F := F)) admR (pdats m) () defs₀ 𝒱R LR lvR) :=
  [ .region (reg0 m),
    .host (hseg hostOps1 hostOps1_sub hostOps1_fresh (U1 m)),
    .host (hseg hostOps1_1 hostOps1_1_sub hostOps1_1_fresh (U2 m)),
    .host (hseg hostOps1_2 hostOps1_2_sub hostOps1_2_fresh (U3 m)),
    .region (reg1 m),
    .host (hseg hostOps2 hostOps2_sub hostOps2_fresh (U5 m)),
    .host (hseg hostOps2_1 hostOps2_1_sub hostOps2_1_fresh (U6 m)),
    .host (hseg hostOps2_2 hostOps2_2_sub hostOps2_2_fresh (U7 m)),
    .region (reg2 m),
    .region (reg3 m),
    .host (hseg hostOps4 hostOps4_sub hostOps4_fresh (U10 m)),
    .region (reg4 m),
    .host (hseg hostOps5 hostOps5_sub hostOps5_fresh (U12 m)),
    .region (reg5 m),
    .host (hseg hostOps6 hostOps6_sub hostOps6_fresh (U14 m)),
    .region (reg6 m),
    .host (hseg hostOps7 hostOps7_sub hostOps7_fresh (U16 m)) ]

/-- The program is the run of the segments. -/
theorem main_runR (c : Dev nD) : main (F := F) c = Pipeline.Seg.run (segsR m) := (main_chain c).trans (by chain_rfl)

/-- An outliving TensorCore buffer is among those the thread state holds. -/
theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and every buffer that outlives the regions ends at `U17`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U17 m c b) :=
  Pipeline.θ_run_regions_kit (pcfgs (F := F)) admR (pdats m) () cellOf_inj emb₁ defs₀ 𝒱R LR lvR m ρ main (segsR m)
    (fun c Q => by rw [main_runR m c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rr c))
    (Tₙ := fun c => iprop(StableHlo.held (c : Thread nD τ) (Pipeline.ucRefs τ sig) (U17 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (U17 m c) ∗ Rr c) : sProp 𝕄) ⊢ _
      iintro ⟨Hh, Hp, HO⟩
      isplitl [Hh Hp]
      · isplitl [Hh]; · iexact Hh
        iexact Hp
      iexact HO⟩)
    (hinit := by
      refine Pipeline.initEach LR lvR fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U17 m c b)
    (hfin := fun c s' => by
      iintro ⟨⟨Hh, -⟩, HSI⟩
      unfold StableHlo.held
      imodintro
      iapply (pointsTo_read_all (Pipeline.ucRefs τ sig) (fun b => (((c : Thread nD τ)).1, b)) (U17 m c) s')
      isplitl [Hh] <;> iassumption)
    (hQ := fun s h => h)

end Cert.KernelIdeal.Gen

end
-- ==== Proof.KI.Args.lean ====
/-
  The argument arrays at the end of the run: no stretch of array operations writes an argument and no region has
  one as an output, so the last valuation at an argument walks back, item by item, to the launch memory — through a
  stretch because the argument is not among the buffers it writes, through a region either because the argument is
  none of its arrays or because it is an input window's array, which the pipeline leaves as it found it.
-/
import proofs.«140739_j42683384987781_2_alg».proof.Proof.KI.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
theorem U17_main_arg0 (c : Dev nD) : U17 m c (Proc.devRef .tc main_arg0) = m ((c : Thread nD τ).loc main_arg0) :=
  (StableHlo.after_of_writes_sub hostOps7 _ hostOps7_writes (by decide : main_arg0 ∉ hostOps7_W)).trans <|
  ((U16_arr m c 0).trans (((dat6 (fun c b => U15 m c b) c).arrAt_in 0 rfl _).trans (A_eq6 (fun c b => U15 m c b) c 0))).trans <|
  (StableHlo.after_of_writes_sub hostOps6 _ hostOps6_writes (by decide : main_arg0 ∉ hostOps6_W)).trans <|
  (U14_of_ne m c main_arg0 (by decide)).trans <|
  (StableHlo.after_of_writes_sub hostOps5 _ hostOps5_writes (by decide : main_arg0 ∉ hostOps5_W)).trans <|
  ((U12_arr m c 1).trans (((dat4 (fun c b => U11 m c b) c).arrAt_in 1 rfl _).trans (A_eq4 (fun c b => U11 m c b) c 1))).trans <|
  (StableHlo.after_of_writes_sub hostOps4 _ hostOps4_writes (by decide : main_arg0 ∉ hostOps4_W)).trans <|
  (U10_of_ne m c main_arg0 (by decide)).trans <|
  ((U9_arr m c 0).trans (((dat2 (fun c b => U8 m c b) c).arrAt_in 0 rfl _).trans (A_eq2 (fun c b => U8 m c b) c 0))).trans <|
  (StableHlo.after_of_writes_sub hostOps2_2 _ hostOps2_2_writes (by decide : main_arg0 ∉ hostOps2_2_W)).trans <|
  (StableHlo.after_of_writes_sub hostOps2_1 _ hostOps2_1_writes (by decide : main_arg0 ∉ hostOps2_1_W)).trans <|
  (StableHlo.after_of_writes_sub hostOps2 _ hostOps2_writes (by decide : main_arg0 ∉ hostOps2_W)).trans <|
  ((U5_arr m c 1).trans (((dat1 (fun c b => U4 m c b) c).arrAt_in 1 rfl _).trans (A_eq1 (fun c b => U4 m c b) c 1))).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  ((U1_arr m c 0).trans (((dat0 (fun c b => U0 m c b) c).arrAt_in 0 rfl _).trans (A_eq0 (fun c b => U0 m c b) c 0))).trans <| rfl
theorem U17_main_arg1 (c : Dev nD) : U17 m c (Proc.devRef .tc main_arg1) = m ((c : Thread nD τ).loc main_arg1) :=
  (StableHlo.after_of_writes_sub hostOps7 _ hostOps7_writes (by decide : main_arg1 ∉ hostOps7_W)).trans <|
  (U16_of_ne m c main_arg1 (by decide)).trans <|
  (StableHlo.after_of_writes_sub hostOps6 _ hostOps6_writes (by decide : main_arg1 ∉ hostOps6_W)).trans <|
  ((U14_arr m c 1).trans (((dat5 (fun c b => U13 m c b) c).arrAt_in 1 rfl _).trans (A_eq5 (fun c b => U13 m c b) c 1))).trans <|
  (StableHlo.after_of_writes_sub hostOps5 _ hostOps5_writes (by decide : main_arg1 ∉ hostOps5_W)).trans <|
  (U12_of_ne m c main_arg1 (by decide)).trans <|
  (StableHlo.after_of_writes_sub hostOps4 _ hostOps4_writes (by decide : main_arg1 ∉ hostOps4_W)).trans <|
  ((U10_arr m c 1).trans (((dat3 (fun c b => U9 m c b) c).arrAt_in 1 rfl _).trans (A_eq3 (fun c b => U9 m c b) c 1))).trans <|
  (U9_of_ne m c main_arg1 (by decide)).trans <|
  (StableHlo.after_of_writes_sub hostOps2_2 _ hostOps2_2_writes (by decide : main_arg1 ∉ hostOps2_2_W)).trans <|
  (StableHlo.after_of_writes_sub hostOps2_1 _ hostOps2_1_writes (by decide : main_arg1 ∉ hostOps2_1_W)).trans <|
  (StableHlo.after_of_writes_sub hostOps2 _ hostOps2_writes (by decide : main_arg1 ∉ hostOps2_W)).trans <|
  (U5_of_ne m c main_arg1 (by decide)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (U1_of_ne m c main_arg1 (by decide)).trans <| rfl
theorem U17_main_arg2 (c : Dev nD) : U17 m c (Proc.devRef .tc main_arg2) = m ((c : Thread nD τ).loc main_arg2) :=
  (StableHlo.after_of_writes_sub hostOps7 _ hostOps7_writes (by decide : main_arg2 ∉ hostOps7_W)).trans <|
  (U16_of_ne m c main_arg2 (by decide)).trans <|
  (StableHlo.after_of_writes_sub hostOps6 _ hostOps6_writes (by decide : main_arg2 ∉ hostOps6_W)).trans <|
  (U14_of_ne m c main_arg2 (by decide)).trans <|
  (StableHlo.after_of_writes_sub hostOps5 _ hostOps5_writes (by decide : main_arg2 ∉ hostOps5_W)).trans <|
  (U12_of_ne m c main_arg2 (by decide)).trans <|
  (StableHlo.after_of_writes_sub hostOps4 _ hostOps4_writes (by decide : main_arg2 ∉ hostOps4_W)).trans <|
  (U10_of_ne m c main_arg2 (by decide)).trans <|
  (U9_of_ne m c main_arg2 (by decide)).trans <|
  (StableHlo.after_of_writes_sub hostOps2_2 _ hostOps2_2_writes (by decide : main_arg2 ∉ hostOps2_2_W)).trans <|
  (StableHlo.after_of_writes_sub hostOps2_1 _ hostOps2_1_writes (by decide : main_arg2 ∉ hostOps2_1_W)).trans <|
  (StableHlo.after_of_writes_sub hostOps2 _ hostOps2_writes (by decide : main_arg2 ∉ hostOps2_W)).trans <|
  (U5_of_ne m c main_arg2 (by decide)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  ((U1_arr m c 1).trans (((dat0 (fun c b => U0 m c b) c).arrAt_in 1 rfl _).trans (A_eq0 (fun c b => U0 m c b) c 1))).trans <| rfl
theorem U17_main_arg3 (c : Dev nD) : U17 m c (Proc.devRef .tc main_arg3) = m ((c : Thread nD τ).loc main_arg3) :=
  (StableHlo.after_of_writes_sub hostOps7 _ hostOps7_writes (by decide : main_arg3 ∉ hostOps7_W)).trans <|
  (U16_of_ne m c main_arg3 (by decide)).trans <|
  (StableHlo.after_of_writes_sub hostOps6 _ hostOps6_writes (by decide : main_arg3 ∉ hostOps6_W)).trans <|
  (U14_of_ne m c main_arg3 (by decide)).trans <|
  (StableHlo.after_of_writes_sub hostOps5 _ hostOps5_writes (by decide : main_arg3 ∉ hostOps5_W)).trans <|
  (U12_of_ne m c main_arg3 (by decide)).trans <|
  (StableHlo.after_of_writes_sub hostOps4 _ hostOps4_writes (by decide : main_arg3 ∉ hostOps4_W)).trans <|
  (U10_of_ne m c main_arg3 (by decide)).trans <|
  (U9_of_ne m c main_arg3 (by decide)).trans <|
  (StableHlo.after_of_writes_sub hostOps2_2 _ hostOps2_2_writes (by decide : main_arg3 ∉ hostOps2_2_W)).trans <|
  (StableHlo.after_of_writes_sub hostOps2_1 _ hostOps2_1_writes (by decide : main_arg3 ∉ hostOps2_1_W)).trans <|
  (StableHlo.after_of_writes_sub hostOps2 _ hostOps2_writes (by decide : main_arg3 ∉ hostOps2_W)).trans <|
  (U5_of_ne m c main_arg3 (by decide)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (U1_of_ne m c main_arg3 (by decide)).trans <| rfl
theorem U17_main_arg4 (c : Dev nD) : U17 m c (Proc.devRef .tc main_arg4) = m ((c : Thread nD τ).loc main_arg4) :=
  (StableHlo.after_of_writes_sub hostOps7 _ hostOps7_writes (by decide : main_arg4 ∉ hostOps7_W)).trans <|
  (U16_of_ne m c main_arg4 (by decide)).trans <|
  (StableHlo.after_of_writes_sub hostOps6 _ hostOps6_writes (by decide : main_arg4 ∉ hostOps6_W)).trans <|
  (U14_of_ne m c main_arg4 (by decide)).trans <|
  (StableHlo.after_of_writes_sub hostOps5 _ hostOps5_writes (by decide : main_arg4 ∉ hostOps5_W)).trans <|
  (U12_of_ne m c main_arg4 (by decide)).trans <|
  (StableHlo.after_of_writes_sub hostOps4 _ hostOps4_writes (by decide : main_arg4 ∉ hostOps4_W)).trans <|
  (U10_of_ne m c main_arg4 (by decide)).trans <|
  ((U9_arr m c 1).trans (((dat2 (fun c b => U8 m c b) c).arrAt_in 1 rfl _).trans (A_eq2 (fun c b => U8 m c b) c 1))).trans <|
  (StableHlo.after_of_writes_sub hostOps2_2 _ hostOps2_2_writes (by decide : main_arg4 ∉ hostOps2_2_W)).trans <|
  (StableHlo.after_of_writes_sub hostOps2_1 _ hostOps2_1_writes (by decide : main_arg4 ∉ hostOps2_1_W)).trans <|
  (StableHlo.after_of_writes_sub hostOps2 _ hostOps2_writes (by decide : main_arg4 ∉ hostOps2_W)).trans <|
  (U5_of_ne m c main_arg4 (by decide)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (U1_of_ne m c main_arg4 (by decide)).trans <| rfl
theorem U17_main_arg5 (c : Dev nD) : U17 m c (Proc.devRef .tc main_arg5) = m ((c : Thread nD τ).loc main_arg5) :=
  (StableHlo.after_of_writes_sub hostOps7 _ hostOps7_writes (by decide : main_arg5 ∉ hostOps7_W)).trans <|
  (U16_of_ne m c main_arg5 (by decide)).trans <|
  (StableHlo.after_of_writes_sub hostOps6 _ hostOps6_writes (by decide : main_arg5 ∉ hostOps6_W)).trans <|
  ((U14_arr m c 0).trans (((dat5 (fun c b => U13 m c b) c).arrAt_in 0 rfl _).trans (A_eq5 (fun c b => U13 m c b) c 0))).trans <|
  (StableHlo.after_of_writes_sub hostOps5 _ hostOps5_writes (by decide : main_arg5 ∉ hostOps5_W)).trans <|
  (U12_of_ne m c main_arg5 (by decide)).trans <|
  (StableHlo.after_of_writes_sub hostOps4 _ hostOps4_writes (by decide : main_arg5 ∉ hostOps4_W)).trans <|
  ((U10_arr m c 0).trans (((dat3 (fun c b => U9 m c b) c).arrAt_in 0 rfl _).trans (A_eq3 (fun c b => U9 m c b) c 0))).trans <|
  (U9_of_ne m c main_arg5 (by decide)).trans <|
  (StableHlo.after_of_writes_sub hostOps2_2 _ hostOps2_2_writes (by decide : main_arg5 ∉ hostOps2_2_W)).trans <|
  (StableHlo.after_of_writes_sub hostOps2_1 _ hostOps2_1_writes (by decide : main_arg5 ∉ hostOps2_1_W)).trans <|
  (StableHlo.after_of_writes_sub hostOps2 _ hostOps2_writes (by decide : main_arg5 ∉ hostOps2_W)).trans <|
  (U5_of_ne m c main_arg5 (by decide)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (U1_of_ne m c main_arg5 (by decide)).trans <| rfl
theorem U17_main_arg6 (c : Dev nD) : U17 m c (Proc.devRef .tc main_arg6) = m ((c : Thread nD τ).loc main_arg6) :=
  (StableHlo.after_of_writes_sub hostOps7 _ hostOps7_writes (by decide : main_arg6 ∉ hostOps7_W)).trans <|
  ((U16_arr m c 3).trans (((dat6 (fun c b => U15 m c b) c).arrAt_in 3 rfl _).trans (A_eq6 (fun c b => U15 m c b) c 3))).trans <|
  (StableHlo.after_of_writes_sub hostOps6 _ hostOps6_writes (by decide : main_arg6 ∉ hostOps6_W)).trans <|
  (U14_of_ne m c main_arg6 (by decide)).trans <|
  (StableHlo.after_of_writes_sub hostOps5 _ hostOps5_writes (by decide : main_arg6 ∉ hostOps5_W)).trans <|
  (U12_of_ne m c main_arg6 (by decide)).trans <|
  (StableHlo.after_of_writes_sub hostOps4 _ hostOps4_writes (by decide : main_arg6 ∉ hostOps4_W)).trans <|
  (U10_of_ne m c main_arg6 (by decide)).trans <|
  (U9_of_ne m c main_arg6 (by decide)).trans <|
  (StableHlo.after_of_writes_sub hostOps2_2 _ hostOps2_2_writes (by decide : main_arg6 ∉ hostOps2_2_W)).trans <|
  (StableHlo.after_of_writes_sub hostOps2_1 _ hostOps2_1_writes (by decide : main_arg6 ∉ hostOps2_1_W)).trans <|
  (StableHlo.after_of_writes_sub hostOps2 _ hostOps2_writes (by decide : main_arg6 ∉ hostOps2_W)).trans <|
  (U5_of_ne m c main_arg6 (by decide)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (U1_of_ne m c main_arg6 (by decide)).trans <| rfl
theorem U17_main_arg7 (c : Dev nD) : U17 m c (Proc.devRef .tc main_arg7) = m ((c : Thread nD τ).loc main_arg7) :=
  (StableHlo.after_of_writes_sub hostOps7 _ hostOps7_writes (by decide : main_arg7 ∉ hostOps7_W)).trans <|
  ((U16_arr m c 4).trans (((dat6 (fun c b => U15 m c b) c).arrAt_in 4 rfl _).trans (A_eq6 (fun c b => U15 m c b) c 4))).trans <|
  (StableHlo.after_of_writes_sub hostOps6 _ hostOps6_writes (by decide : main_arg7 ∉ hostOps6_W)).trans <|
  (U14_of_ne m c main_arg7 (by decide)).trans <|
  (StableHlo.after_of_writes_sub hostOps5 _ hostOps5_writes (by decide : main_arg7 ∉ hostOps5_W)).trans <|
  (U12_of_ne m c main_arg7 (by decide)).trans <|
  (StableHlo.after_of_writes_sub hostOps4 _ hostOps4_writes (by decide : main_arg7 ∉ hostOps4_W)).trans <|
  (U10_of_ne m c main_arg7 (by decide)).trans <|
  (U9_of_ne m c main_arg7 (by decide)).trans <|
  (StableHlo.after_of_writes_sub hostOps2_2 _ hostOps2_2_writes (by decide : main_arg7 ∉ hostOps2_2_W)).trans <|
  (StableHlo.after_of_writes_sub hostOps2_1 _ hostOps2_1_writes (by decide : main_arg7 ∉ hostOps2_1_W)).trans <|
  (StableHlo.after_of_writes_sub hostOps2 _ hostOps2_writes (by decide : main_arg7 ∉ hostOps2_W)).trans <|
  (U5_of_ne m c main_arg7 (by decide)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (U1_of_ne m c main_arg7 (by decide)).trans <| rfl
theorem U17_main_arg8 (c : Dev nD) : U17 m c (Proc.devRef .tc main_arg8) = m ((c : Thread nD τ).loc main_arg8) :=
  (StableHlo.after_of_writes_sub hostOps7 _ hostOps7_writes (by decide : main_arg8 ∉ hostOps7_W)).trans <|
  ((U16_arr m c 5).trans (((dat6 (fun c b => U15 m c b) c).arrAt_in 5 rfl _).trans (A_eq6 (fun c b => U15 m c b) c 5))).trans <|
  (StableHlo.after_of_writes_sub hostOps6 _ hostOps6_writes (by decide : main_arg8 ∉ hostOps6_W)).trans <|
  (U14_of_ne m c main_arg8 (by decide)).trans <|
  (StableHlo.after_of_writes_sub hostOps5 _ hostOps5_writes (by decide : main_arg8 ∉ hostOps5_W)).trans <|
  (U12_of_ne m c main_arg8 (by decide)).trans <|
  (StableHlo.after_of_writes_sub hostOps4 _ hostOps4_writes (by decide : main_arg8 ∉ hostOps4_W)).trans <|
  (U10_of_ne m c main_arg8 (by decide)).trans <|
  (U9_of_ne m c main_arg8 (by decide)).trans <|
  (StableHlo.after_of_writes_sub hostOps2_2 _ hostOps2_2_writes (by decide : main_arg8 ∉ hostOps2_2_W)).trans <|
  (StableHlo.after_of_writes_sub hostOps2_1 _ hostOps2_1_writes (by decide : main_arg8 ∉ hostOps2_1_W)).trans <|
  (StableHlo.after_of_writes_sub hostOps2 _ hostOps2_writes (by decide : main_arg8 ∉ hostOps2_W)).trans <|
  (U5_of_ne m c main_arg8 (by decide)).trans <|
  (StableHlo.after_of_writes_sub hostOps1_2 _ hostOps1_2_writes (by decide : main_arg8 ∉ hostOps1_2_W)).trans <|
  (StableHlo.after_of_writes_sub hostOps1_1 _ hostOps1_1_writes (by decide : main_arg8 ∉ hostOps1_1_W)).trans <|
  (StableHlo.after_of_writes_sub hostOps1 _ hostOps1_writes (by decide : main_arg8 ∉ hostOps1_W)).trans <|
  (U1_of_ne m c main_arg8 (by decide)).trans <| rfl
theorem U17_main_arg9 (c : Dev nD) : U17 m c (Proc.devRef .tc main_arg9) = m ((c : Thread nD τ).loc main_arg9) :=
  (StableHlo.after_of_writes_sub hostOps7 _ hostOps7_writes (by decide : main_arg9 ∉ hostOps7_W)).trans <|
  (U16_of_ne m c main_arg9 (by decide)).trans <|
  (StableHlo.after_of_writes_sub hostOps6 _ hostOps6_writes (by decide : main_arg9 ∉ hostOps6_W)).trans <|
  (U14_of_ne m c main_arg9 (by decide)).trans <|
  (StableHlo.after_of_writes_sub hostOps5 _ hostOps5_writes (by decide : main_arg9 ∉ hostOps5_W)).trans <|
  (U12_of_ne m c main_arg9 (by decide)).trans <|
  (StableHlo.after_of_writes_sub hostOps4 _ hostOps4_writes (by decide : main_arg9 ∉ hostOps4_W)).trans <|
  (U10_of_ne m c main_arg9 (by decide)).trans <|
  (U9_of_ne m c main_arg9 (by decide)).trans <|
  (StableHlo.after_of_writes_sub hostOps2_2 _ hostOps2_2_writes (by decide : main_arg9 ∉ hostOps2_2_W)).trans <|
  (StableHlo.after_of_writes_sub hostOps2_1 _ hostOps2_1_writes (by decide : main_arg9 ∉ hostOps2_1_W)).trans <|
  (StableHlo.after_of_writes_sub hostOps2 _ hostOps2_writes (by decide : main_arg9 ∉ hostOps2_W)).trans <|
  (U5_of_ne m c main_arg9 (by decide)).trans <|
  (StableHlo.after_of_writes_sub hostOps1_2 _ hostOps1_2_writes (by decide : main_arg9 ∉ hostOps1_2_W)).trans <|
  (StableHlo.after_of_writes_sub hostOps1_1 _ hostOps1_1_writes (by decide : main_arg9 ∉ hostOps1_1_W)).trans <|
  (StableHlo.after_of_writes_sub hostOps1 _ hostOps1_writes (by decide : main_arg9 ∉ hostOps1_W)).trans <|
  (U1_of_ne m c main_arg9 (by decide)).trans <| rfl
theorem U17_main_arg10 (c : Dev nD) : U17 m c (Proc.devRef .tc main_arg10) = m ((c : Thread nD τ).loc main_arg10) :=
  (StableHlo.after_of_writes_sub hostOps7 _ hostOps7_writes (by decide : main_arg10 ∉ hostOps7_W)).trans <|
  (U16_of_ne m c main_arg10 (by decide)).trans <|
  (StableHlo.after_of_writes_sub hostOps6 _ hostOps6_writes (by decide : main_arg10 ∉ hostOps6_W)).trans <|
  (U14_of_ne m c main_arg10 (by decide)).trans <|
  (StableHlo.after_of_writes_sub hostOps5 _ hostOps5_writes (by decide : main_arg10 ∉ hostOps5_W)).trans <|
  (U12_of_ne m c main_arg10 (by decide)).trans <|
  (StableHlo.after_of_writes_sub hostOps4 _ hostOps4_writes (by decide : main_arg10 ∉ hostOps4_W)).trans <|
  (U10_of_ne m c main_arg10 (by decide)).trans <|
  (U9_of_ne m c main_arg10 (by decide)).trans <|
  (StableHlo.after_of_writes_sub hostOps2_2 _ hostOps2_2_writes (by decide : main_arg10 ∉ hostOps2_2_W)).trans <|
  (StableHlo.after_of_writes_sub hostOps2_1 _ hostOps2_1_writes (by decide : main_arg10 ∉ hostOps2_1_W)).trans <|
  (StableHlo.after_of_writes_sub hostOps2 _ hostOps2_writes (by decide : main_arg10 ∉ hostOps2_W)).trans <|
  (U5_of_ne m c main_arg10 (by decide)).trans <|
  (StableHlo.after_of_writes_sub hostOps1_2 _ hostOps1_2_writes (by decide : main_arg10 ∉ hostOps1_2_W)).trans <|
  (StableHlo.after_of_writes_sub hostOps1_1 _ hostOps1_1_writes (by decide : main_arg10 ∉ hostOps1_1_W)).trans <|
  (StableHlo.after_of_writes_sub hostOps1 _ hostOps1_writes (by decide : main_arg10 ∉ hostOps1_W)).trans <|
  (U1_of_ne m c main_arg10 (by decide)).trans <| rfl

end Cert.KernelIdeal.Gen

end
-- ==== Proof.KI.ArgsAt.lean ====
/-
  The argument arrays part-way through the run: at the entry of regions 1, 2 and 3 every argument still holds its
  launch contents, by the same walk back as at the end of the run.
-/
import proofs.«140739_j42683384987781_2_alg».proof.Proof.KI.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
theorem U4_main_arg0 (c : Dev nD) : U4 m c (Proc.devRef .tc main_arg0) = m ((c : Thread nD τ).loc main_arg0) :=
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  ((U1_arr m c 0).trans (((dat0 (fun c b => U0 m c b) c).arrAt_in 0 rfl _).trans (A_eq0 (fun c b => U0 m c b) c 0))).trans <| rfl
theorem U4_main_arg1 (c : Dev nD) : U4 m c (Proc.devRef .tc main_arg1) = m ((c : Thread nD τ).loc main_arg1) :=
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (U1_of_ne m c main_arg1 (by decide)).trans <| rfl
theorem U4_main_arg2 (c : Dev nD) : U4 m c (Proc.devRef .tc main_arg2) = m ((c : Thread nD τ).loc main_arg2) :=
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  ((U1_arr m c 1).trans (((dat0 (fun c b => U0 m c b) c).arrAt_in 1 rfl _).trans (A_eq0 (fun c b => U0 m c b) c 1))).trans <| rfl
theorem U4_main_arg3 (c : Dev nD) : U4 m c (Proc.devRef .tc main_arg3) = m ((c : Thread nD τ).loc main_arg3) :=
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (U1_of_ne m c main_arg3 (by decide)).trans <| rfl
theorem U4_main_arg4 (c : Dev nD) : U4 m c (Proc.devRef .tc main_arg4) = m ((c : Thread nD τ).loc main_arg4) :=
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (U1_of_ne m c main_arg4 (by decide)).trans <| rfl
theorem U4_main_arg5 (c : Dev nD) : U4 m c (Proc.devRef .tc main_arg5) = m ((c : Thread nD τ).loc main_arg5) :=
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (U1_of_ne m c main_arg5 (by decide)).trans <| rfl
theorem U4_main_arg6 (c : Dev nD) : U4 m c (Proc.devRef .tc main_arg6) = m ((c : Thread nD τ).loc main_arg6) :=
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (U1_of_ne m c main_arg6 (by decide)).trans <| rfl
theorem U4_main_arg7 (c : Dev nD) : U4 m c (Proc.devRef .tc main_arg7) = m ((c : Thread nD τ).loc main_arg7) :=
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (U1_of_ne m c main_arg7 (by decide)).trans <| rfl
theorem U4_main_arg8 (c : Dev nD) : U4 m c (Proc.devRef .tc main_arg8) = m ((c : Thread nD τ).loc main_arg8) :=
  (StableHlo.after_of_writes_sub hostOps1_2 _ hostOps1_2_writes (by decide : main_arg8 ∉ hostOps1_2_W)).trans <|
  (StableHlo.after_of_writes_sub hostOps1_1 _ hostOps1_1_writes (by decide : main_arg8 ∉ hostOps1_1_W)).trans <|
  (StableHlo.after_of_writes_sub hostOps1 _ hostOps1_writes (by decide : main_arg8 ∉ hostOps1_W)).trans <|
  (U1_of_ne m c main_arg8 (by decide)).trans <| rfl
theorem U4_main_arg9 (c : Dev nD) : U4 m c (Proc.devRef .tc main_arg9) = m ((c : Thread nD τ).loc main_arg9) :=
  (StableHlo.after_of_writes_sub hostOps1_2 _ hostOps1_2_writes (by decide : main_arg9 ∉ hostOps1_2_W)).trans <|
  (StableHlo.after_of_writes_sub hostOps1_1 _ hostOps1_1_writes (by decide : main_arg9 ∉ hostOps1_1_W)).trans <|
  (StableHlo.after_of_writes_sub hostOps1 _ hostOps1_writes (by decide : main_arg9 ∉ hostOps1_W)).trans <|
  (U1_of_ne m c main_arg9 (by decide)).trans <| rfl
theorem U4_main_arg10 (c : Dev nD) : U4 m c (Proc.devRef .tc main_arg10) = m ((c : Thread nD τ).loc main_arg10) :=
  (StableHlo.after_of_writes_sub hostOps1_2 _ hostOps1_2_writes (by decide : main_arg10 ∉ hostOps1_2_W)).trans <|
  (StableHlo.after_of_writes_sub hostOps1_1 _ hostOps1_1_writes (by decide : main_arg10 ∉ hostOps1_1_W)).trans <|
  (StableHlo.after_of_writes_sub hostOps1 _ hostOps1_writes (by decide : main_arg10 ∉ hostOps1_W)).trans <|
  (U1_of_ne m c main_arg10 (by decide)).trans <| rfl
theorem U8_main_arg0 (c : Dev nD) : U8 m c (Proc.devRef .tc main_arg0) = m ((c : Thread nD τ).loc main_arg0) :=
  (StableHlo.after_of_writes_sub hostOps2_2 _ hostOps2_2_writes (by decide : main_arg0 ∉ hostOps2_2_W)).trans <|
  (StableHlo.after_of_writes_sub hostOps2_1 _ hostOps2_1_writes (by decide : main_arg0 ∉ hostOps2_1_W)).trans <|
  (StableHlo.after_of_writes_sub hostOps2 _ hostOps2_writes (by decide : main_arg0 ∉ hostOps2_W)).trans <|
  ((U5_arr m c 1).trans (((dat1 (fun c b => U4 m c b) c).arrAt_in 1 rfl _).trans (A_eq1 (fun c b => U4 m c b) c 1))).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  ((U1_arr m c 0).trans (((dat0 (fun c b => U0 m c b) c).arrAt_in 0 rfl _).trans (A_eq0 (fun c b => U0 m c b) c 0))).trans <| rfl
theorem U8_main_arg1 (c : Dev nD) : U8 m c (Proc.devRef .tc main_arg1) = m ((c : Thread nD τ).loc main_arg1) :=
  (StableHlo.after_of_writes_sub hostOps2_2 _ hostOps2_2_writes (by decide : main_arg1 ∉ hostOps2_2_W)).trans <|
  (StableHlo.after_of_writes_sub hostOps2_1 _ hostOps2_1_writes (by decide : main_arg1 ∉ hostOps2_1_W)).trans <|
  (StableHlo.after_of_writes_sub hostOps2 _ hostOps2_writes (by decide : main_arg1 ∉ hostOps2_W)).trans <|
  (U5_of_ne m c main_arg1 (by decide)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (U1_of_ne m c main_arg1 (by decide)).trans <| rfl
theorem U8_main_arg2 (c : Dev nD) : U8 m c (Proc.devRef .tc main_arg2) = m ((c : Thread nD τ).loc main_arg2) :=
  (StableHlo.after_of_writes_sub hostOps2_2 _ hostOps2_2_writes (by decide : main_arg2 ∉ hostOps2_2_W)).trans <|
  (StableHlo.after_of_writes_sub hostOps2_1 _ hostOps2_1_writes (by decide : main_arg2 ∉ hostOps2_1_W)).trans <|
  (StableHlo.after_of_writes_sub hostOps2 _ hostOps2_writes (by decide : main_arg2 ∉ hostOps2_W)).trans <|
  (U5_of_ne m c main_arg2 (by decide)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  ((U1_arr m c 1).trans (((dat0 (fun c b => U0 m c b) c).arrAt_in 1 rfl _).trans (A_eq0 (fun c b => U0 m c b) c 1))).trans <| rfl
theorem U8_main_arg3 (c : Dev nD) : U8 m c (Proc.devRef .tc main_arg3) = m ((c : Thread nD τ).loc main_arg3) :=
  (StableHlo.after_of_writes_sub hostOps2_2 _ hostOps2_2_writes (by decide : main_arg3 ∉ hostOps2_2_W)).trans <|
  (StableHlo.after_of_writes_sub hostOps2_1 _ hostOps2_1_writes (by decide : main_arg3 ∉ hostOps2_1_W)).trans <|
  (StableHlo.after_of_writes_sub hostOps2 _ hostOps2_writes (by decide : main_arg3 ∉ hostOps2_W)).trans <|
  (U5_of_ne m c main_arg3 (by decide)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (U1_of_ne m c main_arg3 (by decide)).trans <| rfl
theorem U8_main_arg4 (c : Dev nD) : U8 m c (Proc.devRef .tc main_arg4) = m ((c : Thread nD τ).loc main_arg4) :=
  (StableHlo.after_of_writes_sub hostOps2_2 _ hostOps2_2_writes (by decide : main_arg4 ∉ hostOps2_2_W)).trans <|
  (StableHlo.after_of_writes_sub hostOps2_1 _ hostOps2_1_writes (by decide : main_arg4 ∉ hostOps2_1_W)).trans <|
  (StableHlo.after_of_writes_sub hostOps2 _ hostOps2_writes (by decide : main_arg4 ∉ hostOps2_W)).trans <|
  (U5_of_ne m c main_arg4 (by decide)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (U1_of_ne m c main_arg4 (by decide)).trans <| rfl
theorem U8_main_arg5 (c : Dev nD) : U8 m c (Proc.devRef .tc main_arg5) = m ((c : Thread nD τ).loc main_arg5) :=
  (StableHlo.after_of_writes_sub hostOps2_2 _ hostOps2_2_writes (by decide : main_arg5 ∉ hostOps2_2_W)).trans <|
  (StableHlo.after_of_writes_sub hostOps2_1 _ hostOps2_1_writes (by decide : main_arg5 ∉ hostOps2_1_W)).trans <|
  (StableHlo.after_of_writes_sub hostOps2 _ hostOps2_writes (by decide : main_arg5 ∉ hostOps2_W)).trans <|
  (U5_of_ne m c main_arg5 (by decide)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (U1_of_ne m c main_arg5 (by decide)).trans <| rfl
theorem U8_main_arg6 (c : Dev nD) : U8 m c (Proc.devRef .tc main_arg6) = m ((c : Thread nD τ).loc main_arg6) :=
  (StableHlo.after_of_writes_sub hostOps2_2 _ hostOps2_2_writes (by decide : main_arg6 ∉ hostOps2_2_W)).trans <|
  (StableHlo.after_of_writes_sub hostOps2_1 _ hostOps2_1_writes (by decide : main_arg6 ∉ hostOps2_1_W)).trans <|
  (StableHlo.after_of_writes_sub hostOps2 _ hostOps2_writes (by decide : main_arg6 ∉ hostOps2_W)).trans <|
  (U5_of_ne m c main_arg6 (by decide)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (U1_of_ne m c main_arg6 (by decide)).trans <| rfl
theorem U8_main_arg7 (c : Dev nD) : U8 m c (Proc.devRef .tc main_arg7) = m ((c : Thread nD τ).loc main_arg7) :=
  (StableHlo.after_of_writes_sub hostOps2_2 _ hostOps2_2_writes (by decide : main_arg7 ∉ hostOps2_2_W)).trans <|
  (StableHlo.after_of_writes_sub hostOps2_1 _ hostOps2_1_writes (by decide : main_arg7 ∉ hostOps2_1_W)).trans <|
  (StableHlo.after_of_writes_sub hostOps2 _ hostOps2_writes (by decide : main_arg7 ∉ hostOps2_W)).trans <|
  (U5_of_ne m c main_arg7 (by decide)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (U1_of_ne m c main_arg7 (by decide)).trans <| rfl
theorem U8_main_arg8 (c : Dev nD) : U8 m c (Proc.devRef .tc main_arg8) = m ((c : Thread nD τ).loc main_arg8) :=
  (StableHlo.after_of_writes_sub hostOps2_2 _ hostOps2_2_writes (by decide : main_arg8 ∉ hostOps2_2_W)).trans <|
  (StableHlo.after_of_writes_sub hostOps2_1 _ hostOps2_1_writes (by decide : main_arg8 ∉ hostOps2_1_W)).trans <|
  (StableHlo.after_of_writes_sub hostOps2 _ hostOps2_writes (by decide : main_arg8 ∉ hostOps2_W)).trans <|
  (U5_of_ne m c main_arg8 (by decide)).trans <|
  (StableHlo.after_of_writes_sub hostOps1_2 _ hostOps1_2_writes (by decide : main_arg8 ∉ hostOps1_2_W)).trans <|
  (StableHlo.after_of_writes_sub hostOps1_1 _ hostOps1_1_writes (by decide : main_arg8 ∉ hostOps1_1_W)).trans <|
  (StableHlo.after_of_writes_sub hostOps1 _ hostOps1_writes (by decide : main_arg8 ∉ hostOps1_W)).trans <|
  (U1_of_ne m c main_arg8 (by decide)).trans <| rfl
theorem U8_main_arg9 (c : Dev nD) : U8 m c (Proc.devRef .tc main_arg9) = m ((c : Thread nD τ).loc main_arg9) :=
  (StableHlo.after_of_writes_sub hostOps2_2 _ hostOps2_2_writes (by decide : main_arg9 ∉ hostOps2_2_W)).trans <|
  (StableHlo.after_of_writes_sub hostOps2_1 _ hostOps2_1_writes (by decide : main_arg9 ∉ hostOps2_1_W)).trans <|
  (StableHlo.after_of_writes_sub hostOps2 _ hostOps2_writes (by decide : main_arg9 ∉ hostOps2_W)).trans <|
  (U5_of_ne m c main_arg9 (by decide)).trans <|
  (StableHlo.after_of_writes_sub hostOps1_2 _ hostOps1_2_writes (by decide : main_arg9 ∉ hostOps1_2_W)).trans <|
  (StableHlo.after_of_writes_sub hostOps1_1 _ hostOps1_1_writes (by decide : main_arg9 ∉ hostOps1_1_W)).trans <|
  (StableHlo.after_of_writes_sub hostOps1 _ hostOps1_writes (by decide : main_arg9 ∉ hostOps1_W)).trans <|
  (U1_of_ne m c main_arg9 (by decide)).trans <| rfl
theorem U8_main_arg10 (c : Dev nD) : U8 m c (Proc.devRef .tc main_arg10) = m ((c : Thread nD τ).loc main_arg10) :=
  (StableHlo.after_of_writes_sub hostOps2_2 _ hostOps2_2_writes (by decide : main_arg10 ∉ hostOps2_2_W)).trans <|
  (StableHlo.after_of_writes_sub hostOps2_1 _ hostOps2_1_writes (by decide : main_arg10 ∉ hostOps2_1_W)).trans <|
  (StableHlo.after_of_writes_sub hostOps2 _ hostOps2_writes (by decide : main_arg10 ∉ hostOps2_W)).trans <|
  (U5_of_ne m c main_arg10 (by decide)).trans <|
  (StableHlo.after_of_writes_sub hostOps1_2 _ hostOps1_2_writes (by decide : main_arg10 ∉ hostOps1_2_W)).trans <|
  (StableHlo.after_of_writes_sub hostOps1_1 _ hostOps1_1_writes (by decide : main_arg10 ∉ hostOps1_1_W)).trans <|
  (StableHlo.after_of_writes_sub hostOps1 _ hostOps1_writes (by decide : main_arg10 ∉ hostOps1_W)).trans <|
  (U1_of_ne m c main_arg10 (by decide)).trans <| rfl
theorem U9_main_arg0 (c : Dev nD) : U9 m c (Proc.devRef .tc main_arg0) = m ((c : Thread nD τ).loc main_arg0) :=
  ((U9_arr m c 0).trans (((dat2 (fun c b => U8 m c b) c).arrAt_in 0 rfl _).trans (A_eq2 (fun c b => U8 m c b) c 0))).trans <|
  (StableHlo.after_of_writes_sub hostOps2_2 _ hostOps2_2_writes (by decide : main_arg0 ∉ hostOps2_2_W)).trans <|
  (StableHlo.after_of_writes_sub hostOps2_1 _ hostOps2_1_writes (by decide : main_arg0 ∉ hostOps2_1_W)).trans <|
  (StableHlo.after_of_writes_sub hostOps2 _ hostOps2_writes (by decide : main_arg0 ∉ hostOps2_W)).trans <|
  ((U5_arr m c 1).trans (((dat1 (fun c b => U4 m c b) c).arrAt_in 1 rfl _).trans (A_eq1 (fun c b => U4 m c b) c 1))).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  ((U1_arr m c 0).trans (((dat0 (fun c b => U0 m c b) c).arrAt_in 0 rfl _).trans (A_eq0 (fun c b => U0 m c b) c 0))).trans <| rfl
theorem U9_main_arg1 (c : Dev nD) : U9 m c (Proc.devRef .tc main_arg1) = m ((c : Thread nD τ).loc main_arg1) :=
  (U9_of_ne m c main_arg1 (by decide)).trans <|
  (StableHlo.after_of_writes_sub hostOps2_2 _ hostOps2_2_writes (by decide : main_arg1 ∉ hostOps2_2_W)).trans <|
  (StableHlo.after_of_writes_sub hostOps2_1 _ hostOps2_1_writes (by decide : main_arg1 ∉ hostOps2_1_W)).trans <|
  (StableHlo.after_of_writes_sub hostOps2 _ hostOps2_writes (by decide : main_arg1 ∉ hostOps2_W)).trans <|
  (U5_of_ne m c main_arg1 (by decide)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (U1_of_ne m c main_arg1 (by decide)).trans <| rfl
theorem U9_main_arg2 (c : Dev nD) : U9 m c (Proc.devRef .tc main_arg2) = m ((c : Thread nD τ).loc main_arg2) :=
  (U9_of_ne m c main_arg2 (by decide)).trans <|
  (StableHlo.after_of_writes_sub hostOps2_2 _ hostOps2_2_writes (by decide : main_arg2 ∉ hostOps2_2_W)).trans <|
  (StableHlo.after_of_writes_sub hostOps2_1 _ hostOps2_1_writes (by decide : main_arg2 ∉ hostOps2_1_W)).trans <|
  (StableHlo.after_of_writes_sub hostOps2 _ hostOps2_writes (by decide : main_arg2 ∉ hostOps2_W)).trans <|
  (U5_of_ne m c main_arg2 (by decide)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  ((U1_arr m c 1).trans (((dat0 (fun c b => U0 m c b) c).arrAt_in 1 rfl _).trans (A_eq0 (fun c b => U0 m c b) c 1))).trans <| rfl
theorem U9_main_arg3 (c : Dev nD) : U9 m c (Proc.devRef .tc main_arg3) = m ((c : Thread nD τ).loc main_arg3) :=
  (U9_of_ne m c main_arg3 (by decide)).trans <|
  (StableHlo.after_of_writes_sub hostOps2_2 _ hostOps2_2_writes (by decide : main_arg3 ∉ hostOps2_2_W)).trans <|
  (StableHlo.after_of_writes_sub hostOps2_1 _ hostOps2_1_writes (by decide : main_arg3 ∉ hostOps2_1_W)).trans <|
  (StableHlo.after_of_writes_sub hostOps2 _ hostOps2_writes (by decide : main_arg3 ∉ hostOps2_W)).trans <|
  (U5_of_ne m c main_arg3 (by decide)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (U1_of_ne m c main_arg3 (by decide)).trans <| rfl
theorem U9_main_arg4 (c : Dev nD) : U9 m c (Proc.devRef .tc main_arg4) = m ((c : Thread nD τ).loc main_arg4) :=
  ((U9_arr m c 1).trans (((dat2 (fun c b => U8 m c b) c).arrAt_in 1 rfl _).trans (A_eq2 (fun c b => U8 m c b) c 1))).trans <|
  (StableHlo.after_of_writes_sub hostOps2_2 _ hostOps2_2_writes (by decide : main_arg4 ∉ hostOps2_2_W)).trans <|
  (StableHlo.after_of_writes_sub hostOps2_1 _ hostOps2_1_writes (by decide : main_arg4 ∉ hostOps2_1_W)).trans <|
  (StableHlo.after_of_writes_sub hostOps2 _ hostOps2_writes (by decide : main_arg4 ∉ hostOps2_W)).trans <|
  (U5_of_ne m c main_arg4 (by decide)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (U1_of_ne m c main_arg4 (by decide)).trans <| rfl
theorem U9_main_arg5 (c : Dev nD) : U9 m c (Proc.devRef .tc main_arg5) = m ((c : Thread nD τ).loc main_arg5) :=
  (U9_of_ne m c main_arg5 (by decide)).trans <|
  (StableHlo.after_of_writes_sub hostOps2_2 _ hostOps2_2_writes (by decide : main_arg5 ∉ hostOps2_2_W)).trans <|
  (StableHlo.after_of_writes_sub hostOps2_1 _ hostOps2_1_writes (by decide : main_arg5 ∉ hostOps2_1_W)).trans <|
  (StableHlo.after_of_writes_sub hostOps2 _ hostOps2_writes (by decide : main_arg5 ∉ hostOps2_W)).trans <|
  (U5_of_ne m c main_arg5 (by decide)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (U1_of_ne m c main_arg5 (by decide)).trans <| rfl
theorem U9_main_arg6 (c : Dev nD) : U9 m c (Proc.devRef .tc main_arg6) = m ((c : Thread nD τ).loc main_arg6) :=
  (U9_of_ne m c main_arg6 (by decide)).trans <|
  (StableHlo.after_of_writes_sub hostOps2_2 _ hostOps2_2_writes (by decide : main_arg6 ∉ hostOps2_2_W)).trans <|
  (StableHlo.after_of_writes_sub hostOps2_1 _ hostOps2_1_writes (by decide : main_arg6 ∉ hostOps2_1_W)).trans <|
  (StableHlo.after_of_writes_sub hostOps2 _ hostOps2_writes (by decide : main_arg6 ∉ hostOps2_W)).trans <|
  (U5_of_ne m c main_arg6 (by decide)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (U1_of_ne m c main_arg6 (by decide)).trans <| rfl
theorem U9_main_arg7 (c : Dev nD) : U9 m c (Proc.devRef .tc main_arg7) = m ((c : Thread nD τ).loc main_arg7) :=
  (U9_of_ne m c main_arg7 (by decide)).trans <|
  (StableHlo.after_of_writes_sub hostOps2_2 _ hostOps2_2_writes (by decide : main_arg7 ∉ hostOps2_2_W)).trans <|
  (StableHlo.after_of_writes_sub hostOps2_1 _ hostOps2_1_writes (by decide : main_arg7 ∉ hostOps2_1_W)).trans <|
  (StableHlo.after_of_writes_sub hostOps2 _ hostOps2_writes (by decide : main_arg7 ∉ hostOps2_W)).trans <|
  (U5_of_ne m c main_arg7 (by decide)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (U1_of_ne m c main_arg7 (by decide)).trans <| rfl
theorem U9_main_arg8 (c : Dev nD) : U9 m c (Proc.devRef .tc main_arg8) = m ((c : Thread nD τ).loc main_arg8) :=
  (U9_of_ne m c main_arg8 (by decide)).trans <|
  (StableHlo.after_of_writes_sub hostOps2_2 _ hostOps2_2_writes (by decide : main_arg8 ∉ hostOps2_2_W)).trans <|
  (StableHlo.after_of_writes_sub hostOps2_1 _ hostOps2_1_writes (by decide : main_arg8 ∉ hostOps2_1_W)).trans <|
  (StableHlo.after_of_writes_sub hostOps2 _ hostOps2_writes (by decide : main_arg8 ∉ hostOps2_W)).trans <|
  (U5_of_ne m c main_arg8 (by decide)).trans <|
  (StableHlo.after_of_writes_sub hostOps1_2 _ hostOps1_2_writes (by decide : main_arg8 ∉ hostOps1_2_W)).trans <|
  (StableHlo.after_of_writes_sub hostOps1_1 _ hostOps1_1_writes (by decide : main_arg8 ∉ hostOps1_1_W)).trans <|
  (StableHlo.after_of_writes_sub hostOps1 _ hostOps1_writes (by decide : main_arg8 ∉ hostOps1_W)).trans <|
  (U1_of_ne m c main_arg8 (by decide)).trans <| rfl
theorem U9_main_arg9 (c : Dev nD) : U9 m c (Proc.devRef .tc main_arg9) = m ((c : Thread nD τ).loc main_arg9) :=
  (U9_of_ne m c main_arg9 (by decide)).trans <|
  (StableHlo.after_of_writes_sub hostOps2_2 _ hostOps2_2_writes (by decide : main_arg9 ∉ hostOps2_2_W)).trans <|
  (StableHlo.after_of_writes_sub hostOps2_1 _ hostOps2_1_writes (by decide : main_arg9 ∉ hostOps2_1_W)).trans <|
  (StableHlo.after_of_writes_sub hostOps2 _ hostOps2_writes (by decide : main_arg9 ∉ hostOps2_W)).trans <|
  (U5_of_ne m c main_arg9 (by decide)).trans <|
  (StableHlo.after_of_writes_sub hostOps1_2 _ hostOps1_2_writes (by decide : main_arg9 ∉ hostOps1_2_W)).trans <|
  (StableHlo.after_of_writes_sub hostOps1_1 _ hostOps1_1_writes (by decide : main_arg9 ∉ hostOps1_1_W)).trans <|
  (StableHlo.after_of_writes_sub hostOps1 _ hostOps1_writes (by decide : main_arg9 ∉ hostOps1_W)).trans <|
  (U1_of_ne m c main_arg9 (by decide)).trans <| rfl
theorem U9_main_arg10 (c : Dev nD) : U9 m c (Proc.devRef .tc main_arg10) = m ((c : Thread nD τ).loc main_arg10) :=
  (U9_of_ne m c main_arg10 (by decide)).trans <|
  (StableHlo.after_of_writes_sub hostOps2_2 _ hostOps2_2_writes (by decide : main_arg10 ∉ hostOps2_2_W)).trans <|
  (StableHlo.after_of_writes_sub hostOps2_1 _ hostOps2_1_writes (by decide : main_arg10 ∉ hostOps2_1_W)).trans <|
  (StableHlo.after_of_writes_sub hostOps2 _ hostOps2_writes (by decide : main_arg10 ∉ hostOps2_W)).trans <|
  (U5_of_ne m c main_arg10 (by decide)).trans <|
  (StableHlo.after_of_writes_sub hostOps1_2 _ hostOps1_2_writes (by decide : main_arg10 ∉ hostOps1_2_W)).trans <|
  (StableHlo.after_of_writes_sub hostOps1_1 _ hostOps1_1_writes (by decide : main_arg10 ∉ hostOps1_1_W)).trans <|
  (StableHlo.after_of_writes_sub hostOps1 _ hostOps1_writes (by decide : main_arg10 ∉ hostOps1_W)).trans <|
  (U1_of_ne m c main_arg10 (by decide)).trans <| rfl

end Cert.KernelIdeal.Gen

end
-- ==== Proof.LibWholeStores.lean ====
/-
  Stores of a whole buffer, read back.

  A kernel that keeps an accumulator in a scratch buffer clears it, adds to it and copies it out with loads and
  stores of the WHOLE buffer.  The symbolic run of such a body records each buffer's stores as a list of pieces,
  the last store first, and a later load as the read of that list through the loaded box.  When the last store
  wrote the whole buffer, a load of the whole buffer reads that store's payload, whatever was stored before.
-/
import Idealize.ShloMosaic.Lib.Pipeline.Value
import Idealize.ShloMosaic.Lib.Pipeline.FrameBody

namespace Idealize.ShloMosaic.LibWholeStores

open Idealize.ShloMosaic

/-- The zero offset of a rank-2 buffer, as the function the whole-rectangle lemmas ask for. -/
theorem zero_off2 : (![0, 0] : Fin 2 → Nat) = fun _ => 0 := funext fun a => by fin_cases a <;> rfl

/-- A load of the whole buffer after a list of stores whose LAST store (the head of the list) wrote the whole
    buffer reads that store's payload, whatever the earlier stores were. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Idealize.ShloMosaic.LibWholeStores
-- ==== Proof.KI.R0Value.lean ====
/-
  Region 0, what the output tile holds: at every point the accumulator is cleared, the product of the two input
  tiles is added to it, and it is copied to the output tile.  So the output tile after the body is the body's
  accumulate payload of the two tiles and the cleared accumulator.
-/
import proofs.«140739_j42683384987781_2_alg».proof.Proof.KI.R0
import proofs.«140739_j42683384987781_2_alg».proof.Proof.LibWholeStores

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.LibWholeStores

/-- The output tile after the body: the accumulate payload of the two input tiles over the cleared accumulator. -/
theorem out0_2_eq (c : Dev nD) (i : grid0.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond0_0 i) (hc1 : cond0_1 i) (x0 : Vec F S2048x256 .f32) (x1 : Vec F S256x256 .f32) :
    out0_2 c i arg2 harg2 arg3 harg3 arg4 harg4 arg5 harg5 hc0 hc1 x0 x1 = k0_pay2 x0 x1 (k0_pay1 (F := F)) := by
  unfold out0_2
  rw [View.read_writes_eq_canon _ _ _ (cover0_2 c i arg2 harg2 arg3 harg3 arg4 harg4 arg5 harg5 hc0 hc1 x0 x1)]
  unfold kernelRun0
  dsimp only
  sl_unfold_words
  rw [View.canon_unit_zero zero_off2, readCov_cons_whole _ zero_off2, View.readCov_unit_zero _ zero_off2]
  simp only [View.readAt_eq_ld, harg2.read_unread, harg3.read_unread, View.ld_unit_zero (S := S2048x256) zero_off2, View.ld_unit_zero (S := S256x256) zero_off2]

variable (V : (c : Dev nD) → (b : Ref sig .tc) → Buf (Elt F) ((c : Thread nD τ).loc b))

/-- At point `t`: the payload of the point's two tiles. -/
theorem outAt0_eq (c : Dev nD) (t : Fin cfg0.N) :
    outAt0 V c t = k0_pay2 (iblk0 V c 0 t) (iblk0 V c 1 t) (k0_pay1 (F := F)) := by
  unfold outAt0; exact out0_2_eq c _ _ _ _ _ _ _ _ _ _ _ _ _

end Cert.KernelIdeal.Gen

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.KI.R0Final.lean ====
/-
  Region 0, the output array: every entry is the whole contraction of a row of the left array with a column of
  the right array, both as the region finds them.  Each grid point owns a row tile of 2048 rows; its output tile is
  the product of the point's left tile (those rows, all 256 contraction columns) and the right array, added to a
  cleared accumulator; the two row tiles cover the array.
-/
import proofs.«140739_j42683384987781_2_alg».proof.Proof.KI.R0Value
import proofs.«140739_j42683384987781_2_alg».proof.Proof.LibPlainProduct
import Idealize.ShloMosaic.Lib.ValueIdx
import Idealize.ShloMosaic.Lib.Pipeline.Value
import Idealize.ShloMosaic.PureOps.Ideal.Laws

set_option maxRecDepth 16384

noncomputable section

namespace Cert.KernelIdeal.RegionValue0

open Cert.KernelIdeal Cert.KernelIdeal.Gen Idealize.ShloMosaic Idealize.ShloMosaic.TcCoe Idealize.ShloMosaic.ValueIdx Idealize.SL.Sem
open Idealize.ShloMosaic.Pipeline (Dat)

/-- The tile product's dimension record is the plain product of a 2048 × 256 by a 256 × 256 matrix. -/
theorem dims_plain : dot_S2048x256_S256x256_S2048x256_1_0_0_1_n_n = DotDims.plain 2048 256 256 := rfl

/-- The body's payload at an entry: the cleared accumulator's zero plus the contraction of the tiles' row and
    column; narrowing to the shorter format changes nothing over the extended reals. -/
theorem pay0_at (x0 : Vec Ideal S2048x256 .f32) (x1 : Vec Ideal S256x256 .f32) (p : Fin 2048) (q : Fin 256) :
    k0_pay2 x0 x1 (k0_pay1 (F := Ideal)) (ix2 p q) = ∑ k : Fin 256, x0 (ix2 p k) * x1 (ix2 k q) := by
  unfold k0_pay2 k0_pay1
  dsimp only
  rw [shapeCast_self, shapeCast_self]
  rw [addf_apply]
  rw [PlainProduct.matmul_at _ dims_plain]
  simp only [broadcast_apply, constant_apply, truncf_apply, Scalar.ofBits, Ideal.ofBits_def, Ideal.ofBits_zero_f32, zero_add]

variable (V : (c : Dev nD) → (b : Ref sig .tc) → Buf (Elt Ideal) ((c : Thread nD τ).loc b))

/-- The printed index maps over the two grid points: the left tile moves with the output tile down the rows, the
    right array is one tile, and point `t` owns row tile `t`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array and the right array as the region finds them. -/
abbrev lhs0 (c : Dev nD) : S4096x256.Idx → EReal := V c (Pipeline.arrRef spec0 0)
abbrev rhs0 (c : Dev nD) : S256x256.Idx → EReal := V c (Pipeline.arrRef spec0 1)

/-- The left tile at point `t` is rows `2048 t … 2048 t + 2047` of the left array. -/
theorem iblk0_0_apply (c : Dev nD) (t : Fin cfg0.N) (x : S2048x256.Idx) (i : S4096x256.Idx)
    (h0 : (i 0).val = 2048 * t.val + (x 0).val) (h1 : (i 1).val = (x 1).val) :
    (iblk0 V c 0 t : Vec Ideal S2048x256 .f32) x = lhs0 V c i := by
  obtain ⟨e0, e1, e2, e3, e4, e5⟩ := idx_facts0 t
  unfold iblk0
  rw [View.read_apply]
  show V c (Pipeline.arrRef spec0 0) _ = V c (Pipeline.arrRef spec0 0) _
  refine congrArg (V c (Pipeline.arrRef spec0 0)) ?_
  funext a
  apply Fin.ext
  match a with
  | ⟨0, _⟩ => show win0_0.index t 0 * 2048 + 1 * (x 0).val = (i 0).val; rw [e0, h0]; omega
  | ⟨1, _⟩ => show win0_0.index t 1 * 256 + 1 * (x 1).val = (i 1).val; rw [e1, h1]; omega

/-- The right tile at every point is the whole right array. -/
theorem iblk0_1_apply (c : Dev nD) (t : Fin cfg0.N) (x : S256x256.Idx) :
    (iblk0 V c 1 t : Vec Ideal S256x256 .f32) x = rhs0 V c x := by
  obtain ⟨e0, e1, e2, e3, e4, e5⟩ := idx_facts0 t
  unfold iblk0
  rw [View.read_apply]
  show V c (Pipeline.arrRef spec0 1) _ = V c (Pipeline.arrRef spec0 1) _
  refine congrArg (V c (Pipeline.arrRef spec0 1)) ?_
  funext a
  apply Fin.ext
  match a with
  | ⟨0, _⟩ => show win0_1.index t 0 * 256 + 1 * (x 0).val = (x 0).val; rw [e2]; omega
  | ⟨1, _⟩ => show win0_1.index t 1 * 256 + 1 * (x 1).val = (x 1).val; rw [e3]; omega

/-- The product, entry by entry, as one function of the two arrays. -/
def prod0 (A : S4096x256.Idx → EReal) (B : S256x256.Idx → EReal) : S4096x256.Idx → EReal :=
  fun i => ∑ k : Fin 256, A (ix2 ⟨(i 0).val, (i 0).isLt⟩ k) * B (ix2 k ⟨(i 1).val, (i 1).isLt⟩)

/-- What point `t` writes back is tile `t` of the product. -/
theorem flushed0_eq (c : Dev nD) (t : Fin cfg0.N) :
    (dat0 V c).flushed 2 t = ((cfg0.win 2).blk t).view.read (Elt Ideal) (prod0 (lhs0 V c) (rhs0 V c)) := by
  obtain ⟨e0, e1, e2, e3, e4, e5⟩ := idx_facts0 t
  show (cfg0.win 2).cut (grid0.coords t) ((dat0 V c).after 2 t) = _
  rw [after0_2, outAt0_eq]
  funext j
  obtain ⟨p, q, rfl⟩ : ∃ (p : Fin 2048) (q : Fin 256), j = ix2 p q := ⟨j 0, j 1, eq_ix2 j⟩
  show k0_pay2 (iblk0 V c 0 t) (iblk0 V c 1 t) (k0_pay1 (F := Ideal)) (ix2 p q) = prod0 (lhs0 V c) (rhs0 V c) (((cfg0.win 2).blk t).view.emb (ix2 p q))
  rw [pay0_at]
  unfold prod0
  refine Finset.sum_congr rfl fun k _ => ?_
  have hr : ((((cfg0.win 2).blk t).view.emb (ix2 p q)) 0).val = 2048 * t.val + p.val := by
    show win0_2.index t 0 * 2048 + 1 * p.val = _; rw [e4]; omega
  have hc : ((((cfg0.win 2).blk t).view.emb (ix2 p q)) 1).val = q.val := by
    show win0_2.index t 1 * 256 + 1 * q.val = _; rw [e5]; omega
  rw [iblk0_0_apply V c t (ix2 p k) (ix2 ⟨_, (((cfg0.win 2).blk t).view.emb (ix2 p q) 0).isLt⟩ k) hr rfl, iblk0_1_apply V c t (ix2 k q)]
  refine congrArg (lhs0 V c _ * rhs0 V c ·) ?_
  funext a
  apply Fin.ext
  match a with
  | ⟨0, _⟩ => rfl
  | ⟨1, _⟩ => exact hc.symm

/-- An entry of the array is in point `t`'s tile iff its row is among the tile's rows. -/
theorem mem_blk0 (t : Fin cfg0.N) (i : S4096x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- THE OUTPUT ARRAY after the region: the product of the two arrays as the region finds them. -/
theorem final0 (c : Dev nD) : (dat0 V c).arrAt 2 cfg0.N = prod0 (lhs0 V c) (rhs0 V c) :=
  (dat0 V c).arrAt_eq_of_cover 2 (prod0 (lhs0 V c) (rhs0 V c)) (fun t _ => flushed0_eq V c t) fun i => by
    have hi0 : (i 0).val < 4096 := (i 0).isLt
    have hi1 : (i 1).val < 256 := (i 1).isLt
    have hN : cfg0.N = 2 := N_0
    refine ⟨⟨(i 0).val / 2048, by rw [hN]; omega⟩, flush0_2 _, ?_⟩
    rw [mem_blk0]
    obtain ⟨e0, e1, e2, e3, e4, e5⟩ := idx_facts0 ⟨(i 0).val / 2048, by rw [hN]; omega⟩
    intro a
    match a with
    | ⟨0, _⟩ => show win0_2.index _ 0 * 2048 ≤ (i 0).val ∧ (i 0).val < win0_2.index _ 0 * 2048 + 2048; rw [e4]; dsimp only; omega
    | ⟨1, _⟩ => show win0_2.index _ 1 * 256 ≤ (i 1).val ∧ (i 1).val < win0_2.index _ 1 * 256 + 256; rw [e5]; omega

/-- The same at a row and a column. -/
theorem final0_at (c : Dev nD) (a : Fin 4096) (b : Fin 256) :
    (dat0 V c).arrAt 2 cfg0.N (ix2 a b) = ∑ k : Fin 256, lhs0 V c (ix2 a k) * rhs0 V c (ix2 k b) := by
  rw [final0]; rfl

end Cert.KernelIdeal.RegionValue0

end
-- ==== Proof.KI.R2Value.lean ====
/-
  Region 2, what the output tile holds: at every point the accumulator is cleared, the product of the two input
  tiles is added to it, and it is copied to the output tile.  So the output tile after the body is the body's
  accumulate payload of the two tiles and the cleared accumulator.
-/
import proofs.«140739_j42683384987781_2_alg».proof.Proof.KI.R2
import proofs.«140739_j42683384987781_2_alg».proof.Proof.LibWholeStores

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.LibWholeStores

/-- The output tile after the body: the accumulate payload of the two input tiles over the cleared accumulator. -/
theorem out2_2_eq (c : Dev nD) (i : grid2.Coords)
    (arg2 : Memref sig .tc .vmem S2048x256 .f32) (harg2 : arg2.IsWhole) (arg3 : Memref sig .tc .vmem S256x256 .f32) (harg3 : arg3.IsWhole)
    (arg4 : Memref sig .tc .vmem S2048x256 .f32) (harg4 : arg4.IsWhole) (arg5 : Memref sig .tc .vmem S2048x256 .f32) (harg5 : arg5.IsWhole)
    (hc0 : cond2_0 i) (hc1 : cond2_1 i) (x0 : Vec F S2048x256 .f32) (x1 : Vec F S256x256 .f32) :
    out2_2 c i arg2 harg2 arg3 harg3 arg4 harg4 arg5 harg5 hc0 hc1 x0 x1 = k2_pay2 x0 x1 (k2_pay1 (F := F)) := by
  unfold out2_2
  rw [View.read_writes_eq_canon _ _ _ (cover2_2 c i arg2 harg2 arg3 harg3 arg4 harg4 arg5 harg5 hc0 hc1 x0 x1)]
  unfold kernelRun2
  dsimp only
  sl_unfold_words
  rw [View.canon_unit_zero zero_off2, readCov_cons_whole _ zero_off2, View.readCov_unit_zero _ zero_off2]
  simp only [View.readAt_eq_ld, harg2.read_unread, harg3.read_unread, View.ld_unit_zero (S := S2048x256) zero_off2, View.ld_unit_zero (S := S256x256) zero_off2]

variable (V : (c : Dev nD) → (b : Ref sig .tc) → Buf (Elt F) ((c : Thread nD τ).loc b))

/-- At point `t`: the payload of the point's two tiles. -/
theorem outAt2_eq (c : Dev nD) (t : Fin cfg2.N) :
    outAt2 V c t = k2_pay2 (iblk2 V c 0 t) (iblk2 V c 1 t) (k2_pay1 (F := F)) := by
  unfold outAt2; exact out2_2_eq c _ _ _ _ _ _ _ _ _ _ _ _ _

end Cert.KernelIdeal.Gen

end
-- ==== Proof.KI.R2Final.lean ====
/-
  Region 2, the output array: every entry is the whole contraction of a row of the left array with a column of
  the right array, both as the region finds them.  Each grid point owns a row tile of 2048 rows; its output tile is
  the product of the point's left tile (those rows, all 256 contraction columns) and the right array, added to a
  cleared accumulator; the two row tiles cover the array.
-/
import proofs.«140739_j42683384987781_2_alg».proof.Proof.KI.R2Value
import proofs.«140739_j42683384987781_2_alg».proof.Proof.LibPlainProduct
import Idealize.ShloMosaic.Lib.ValueIdx
import Idealize.ShloMosaic.Lib.Pipeline.Value
import Idealize.ShloMosaic.PureOps.Ideal.Laws

set_option maxRecDepth 16384

noncomputable section

namespace Cert.KernelIdeal.RegionValue2

open Cert.KernelIdeal Cert.KernelIdeal.Gen Idealize.ShloMosaic Idealize.ShloMosaic.TcCoe Idealize.ShloMosaic.ValueIdx Idealize.SL.Sem
open Idealize.ShloMosaic.Pipeline (Dat)

/-- The tile product's dimension record is the plain product of a 2048 × 256 by a 256 × 256 matrix. -/
theorem dims_plain : dot_S2048x256_S256x256_S2048x256_1_0_0_1_n_n = DotDims.plain 2048 256 256 := rfl

/-- The body's payload at an entry: the cleared accumulator's zero plus the contraction of the tiles' row and
    column; narrowing to the shorter format changes nothing over the extended reals. -/
theorem pay2_at (x0 : Vec Ideal S2048x256 .f32) (x1 : Vec Ideal S256x256 .f32) (p : Fin 2048) (q : Fin 256) :
    k2_pay2 x0 x1 (k2_pay1 (F := Ideal)) (ix2 p q) = ∑ k : Fin 256, x0 (ix2 p k) * x1 (ix2 k q) := by
  unfold k2_pay2 k2_pay1
  dsimp only
  rw [shapeCast_self, shapeCast_self]
  rw [addf_apply]
  rw [PlainProduct.matmul_at _ dims_plain]
  simp only [broadcast_apply, constant_apply, truncf_apply, Scalar.ofBits, Ideal.ofBits_def, Ideal.ofBits_zero_f32, zero_add]

variable (V : (c : Dev nD) → (b : Ref sig .tc) → Buf (Elt Ideal) ((c : Thread nD τ).loc b))

/-- The printed index maps over the two grid points: the left tile moves with the output tile down the rows, the
    right array is one tile, and point `t` owns row tile `t`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left array and the right array as the region finds them. -/
abbrev lhs2 (c : Dev nD) : S4096x256.Idx → EReal := V c (Pipeline.arrRef spec2 0)
abbrev rhs2 (c : Dev nD) : S256x256.Idx → EReal := V c (Pipeline.arrRef spec2 1)

/-- The left tile at point `t` is rows `2048 t … 2048 t + 2047` of the left array. -/
theorem iblk2_0_apply (c : Dev nD) (t : Fin cfg2.N) (x : S2048x256.Idx) (i : S4096x256.Idx)
    (h0 : (i 0).val = 2048 * t.val + (x 0).val) (h1 : (i 1).val = (x 1).val) :
    (iblk2 V c 0 t : Vec Ideal S2048x256 .f32) x = lhs2 V c i := by
  obtain ⟨e0, e1, e2, e3, e4, e5⟩ := idx_facts2 t
  unfold iblk2
  rw [View.read_apply]
  show V c (Pipeline.arrRef spec2 0) _ = V c (Pipeline.arrRef spec2 0) _
  refine congrArg (V c (Pipeline.arrRef spec2 0)) ?_
  funext a
  apply Fin.ext
  match a with
  | ⟨0, _⟩ => show win2_0.index t 0 * 2048 + 1 * (x 0).val = (i 0).val; rw [e0, h0]; omega
  | ⟨1, _⟩ => show win2_0.index t 1 * 256 + 1 * (x 1).val = (i 1).val; rw [e1, h1]; omega

/-- The right tile at every point is the whole right array. -/
theorem iblk2_1_apply (c : Dev nD) (t : Fin cfg2.N) (x : S256x256.Idx) :
    (iblk2 V c 1 t : Vec Ideal S256x256 .f32) x = rhs2 V c x := by
  obtain ⟨e0, e1, e2, e3, e4, e5⟩ := idx_facts2 t
  unfold iblk2
  rw [View.read_apply]
  show V c (Pipeline.arrRef spec2 1) _ = V c (Pipeline.arrRef spec2 1) _
  refine congrArg (V c (Pipeline.arrRef spec2 1)) ?_
  funext a
  apply Fin.ext
  match a with
  | ⟨0, _⟩ => show win2_1.index t 0 * 256 + 1 * (x 0).val = (x 0).val; rw [e2]; omega
  | ⟨1, _⟩ => show win2_1.index t 1 * 256 + 1 * (x 1).val = (x 1).val; rw [e3]; omega

/-- The product, entry by entry, as one function of the two arrays. -/
def prod2 (A : S4096x256.Idx → EReal) (B : S256x256.Idx → EReal) : S4096x256.Idx → EReal :=
  fun i => ∑ k : Fin 256, A (ix2 ⟨(i 0).val, (i 0).isLt⟩ k) * B (ix2 k ⟨(i 1).val, (i 1).isLt⟩)

/-- What point `t` writes back is tile `t` of the product. -/
theorem flushed2_eq (c : Dev nD) (t : Fin cfg2.N) :
    (dat2 V c).flushed 2 t = ((cfg2.win 2).blk t).view.read (Elt Ideal) (prod2 (lhs2 V c) (rhs2 V c)) := by
  obtain ⟨e0, e1, e2, e3, e4, e5⟩ := idx_facts2 t
  show (cfg2.win 2).cut (grid2.coords t) ((dat2 V c).after 2 t) = _
  rw [after2_2, outAt2_eq]
  funext j
  obtain ⟨p, q, rfl⟩ : ∃ (p : Fin 2048) (q : Fin 256), j = ix2 p q := ⟨j 0, j 1, eq_ix2 j⟩
  show k2_pay2 (iblk2 V c 0 t) (iblk2 V c 1 t) (k2_pay1 (F := Ideal)) (ix2 p q) = prod2 (lhs2 V c) (rhs2 V c) (((cfg2.win 2).blk t).view.emb (ix2 p q))
  rw [pay2_at]
  unfold prod2
  refine Finset.sum_congr rfl fun k _ => ?_
  have hr : ((((cfg2.win 2).blk t).view.emb (ix2 p q)) 0).val = 2048 * t.val + p.val := by
    show win2_2.index t 0 * 2048 + 1 * p.val = _; rw [e4]; omega
  have hc : ((((cfg2.win 2).blk t).view.emb (ix2 p q)) 1).val = q.val := by
    show win2_2.index t 1 * 256 + 1 * q.val = _; rw [e5]; omega
  rw [iblk2_0_apply V c t (ix2 p k) (ix2 ⟨_, (((cfg2.win 2).blk t).view.emb (ix2 p q) 0).isLt⟩ k) hr rfl, iblk2_1_apply V c t (ix2 k q)]
  refine congrArg (lhs2 V c _ * rhs2 V c ·) ?_
  funext a
  apply Fin.ext
  match a with
  | ⟨0, _⟩ => rfl
  | ⟨1, _⟩ => exact hc.symm

/-- An entry of the array is in point `t`'s tile iff its row is among the tile's rows. -/
theorem mem_blk2 (t : Fin cfg2.N) (i : S4096x256.Idx) :
    i ∈ ((cfg2.win 2).blk t).view.set ↔ ∀ a : Fin 2, win2_2.index t a * S2048x256.size a ≤ (i a).val ∧ (i a).val < win2_2.index t a * S2048x256.size a + S2048x256.size a := by
  show i ∈ ((View.whole main_v35).slice (win2_2.rect t)).set ↔ _
  rw [View.set_slice_whole, Rect.mem_set_unit]
  exact Iff.rfl

/-- THE OUTPUT ARRAY after the region: the product of the two arrays as the region finds them. -/
theorem final2 (c : Dev nD) : (dat2 V c).arrAt 2 cfg2.N = prod2 (lhs2 V c) (rhs2 V c) :=
  (dat2 V c).arrAt_eq_of_cover 2 (prod2 (lhs2 V c) (rhs2 V c)) (fun t _ => flushed2_eq V c t) fun i => by
    have hi0 : (i 0).val < 4096 := (i 0).isLt
    have hi1 : (i 1).val < 256 := (i 1).isLt
    have hN : cfg2.N = 2 := N_2
    refine ⟨⟨(i 0).val / 2048, by rw [hN]; omega⟩, flush2_2 _, ?_⟩
    rw [mem_blk2]
    obtain ⟨e0, e1, e2, e3, e4, e5⟩ := idx_facts2 ⟨(i 0).val / 2048, by rw [hN]; omega⟩
    intro a
    match a with
    | ⟨0, _⟩ => show win2_2.index _ 0 * 2048 ≤ (i 0).val ∧ (i 0).val < win2_2.index _ 0 * 2048 + 2048; rw [e4]; dsimp only; omega
    | ⟨1, _⟩ => show win2_2.index _ 1 * 256 ≤ (i 1).val ∧ (i 1).val < win2_2.index _ 1 * 256 + 256; rw [e5]; omega

/-- The same at a row and a column. -/
theorem final2_at (c : Dev nD) (a : Fin 4096) (b : Fin 256) :
    (dat2 V c).arrAt 2 cfg2.N (ix2 a b) = ∑ k : Fin 256, lhs2 V c (ix2 a k) * rhs2 V c (ix2 k b) := by
  rw [final2]; rfl

end Cert.KernelIdeal.RegionValue2

end
-- ==== Proof.JoinLossA.lean ====
/-
  Two of the four matrix products that enter the loss: what regions 0 and 2 leave in their output arrays is what
  the reference's dot products of the same two arguments compute, entry by entry — both are the sum over the 256
  contraction indices of the same products, the kernel side read off the regions' final arrays at the launch values of
  their input windows.
-/
import proofs.«140739_j42683384987781_2_alg».proof.Proof.KI.ArgsAt
import proofs.«140739_j42683384987781_2_alg».proof.Proof.KI.R0Final
import proofs.«140739_j42683384987781_2_alg».proof.Proof.KI.R2Final
import proofs.«140739_j42683384987781_2_alg».proof.Proof.Gen.ReferenceIdeal.Read

set_option maxRecDepth 16384

noncomputable section

namespace Cert.Proof.JoinLoss

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The launch contents of the argument arrays, typed as arrays over the extended reals. -/
abbrev a0 (c : Dev nD) : S4096x256.Idx → EReal := m ((c : Thread nD τ).loc main_arg0)
abbrev a1 (c : Dev nD) : S4096x256.Idx → EReal := m ((c : Thread nD τ).loc main_arg1)
abbrev a2 (c : Dev nD) : S256x256.Idx → EReal := m ((c : Thread nD τ).loc main_arg2)
abbrev a3 (c : Dev nD) : S4096x4095.Idx → EReal := m ((c : Thread nD τ).loc main_arg3)
abbrev a4 (c : Dev nD) : S256x256.Idx → EReal := m ((c : Thread nD τ).loc main_arg4)
abbrev a5 (c : Dev nD) : S4096x4096.Idx → EReal := m ((c : Thread nD τ).loc main_arg5)

/-- The four products as the kernel program's run leaves them, typed as arrays over the extended reals. -/
abbrev kv0 (c : Dev nD) : S4096x256.Idx → EReal := U1 m c (Proc.devRef .tc main_v0)
abbrev kv10 (c : Dev nD) : S4096x256.Idx → EReal := U5 m c (Proc.devRef .tc main_v10)
abbrev kv35 (c : Dev nD) : S4096x256.Idx → EReal := U9 m c (Proc.devRef .tc main_v35)
abbrev kv36 (c : Dev nD) : S4096x256.Idx → EReal := U10 m c (Proc.devRef .tc main_v36)

/-- Region 0's product is the reference's first product. -/
theorem join_v0 (c : Dev nD) :
    kv0 m c = Cert.ReferenceIdeal.Read.val_main_v0 (F := Ideal) (a0 m c) (a2 m c) := by
  funext i
  obtain ⟨a, b, rfl⟩ : ∃ (a : Fin 4096) (b : Fin 256), i = ix2 a b := ⟨i 0, i 1, eq_ix2 i⟩
  rw [Cert.ReferenceIdeal.Read.val_main_v0_apply]
  have e1 : kv0 m c (ix2 a b)
      = ∑ k : Fin 256, RegionValue0.lhs0 (fun c b => U0 m c b) c (ix2 a k) * RegionValue0.rhs0 (fun c b => U0 m c b) c (ix2 k b) :=
    (congrFun (U1_arr m c 2) (ix2 a b)).trans (RegionValue0.final0_at (fun c b => U0 m c b) c a b)
  rw [e1]
  refine Finset.sum_congr rfl fun k _ => ?_
  have hl : Cert.ReferenceIdeal.Read.lidx_main_v0 (ix2 a b) k = (ix2 a k : Cert.ReferenceIdeal.S4096x256.Idx) :=
    funext fun q => Fin.ext (by match q with | ⟨0, _⟩ => rfl | ⟨1, _⟩ => rfl)
  have hr : Cert.ReferenceIdeal.Read.ridx_main_v0 (ix2 a b) k = (ix2 k b : Cert.ReferenceIdeal.S256x256.Idx) :=
    funext fun q => Fin.ext (by match q with | ⟨0, _⟩ => rfl | ⟨1, _⟩ => rfl)
  rw [hl, hr]

/-- Region 2's product is the reference's product of the same two arguments. -/
theorem join_v35 (c : Dev nD) :
    kv35 m c = Cert.ReferenceIdeal.Read.val_main_v87 (F := Ideal) (a0 m c) (a4 m c) := by
  funext i
  obtain ⟨a, b, rfl⟩ : ∃ (a : Fin 4096) (b : Fin 256), i = ix2 a b := ⟨i 0, i 1, eq_ix2 i⟩
  rw [Cert.ReferenceIdeal.Read.val_main_v87_apply]
  have e1 : kv35 m c (ix2 a b)
      = ∑ k : Fin 256, RegionValue2.lhs2 (fun c b => U8 m c b) c (ix2 a k) * RegionValue2.rhs2 (fun c b => U8 m c b) c (ix2 k b) :=
    (congrFun (U9_arr m c 2) (ix2 a b)).trans (RegionValue2.final2_at (fun c b => U8 m c b) c a b)
  have hA : RegionValue2.lhs2 (fun c b => U8 m c b) c = a0 m c := U8_main_arg0 m c
  have hB : RegionValue2.rhs2 (fun c b => U8 m c b) c = a4 m c := U8_main_arg4 m c
  rw [e1, hA, hB]
  refine Finset.sum_congr rfl fun k _ => ?_
  have hl : Cert.ReferenceIdeal.Read.lidx_main_v87 (ix2 a b) k = (ix2 a k : Cert.ReferenceIdeal.S4096x256.Idx) :=
    funext fun q => Fin.ext (by match q with | ⟨0, _⟩ => rfl | ⟨1, _⟩ => rfl)
  have hr : Cert.ReferenceIdeal.Read.ridx_main_v87 (ix2 a b) k = (ix2 k b : Cert.ReferenceIdeal.S256x256.Idx) :=
    funext fun q => Fin.ext (by match q with | ⟨0, _⟩ => rfl | ⟨1, _⟩ => rfl)
  rw [hl, hr]

end Cert.Proof.JoinLoss

end
-- ==== Proof.KI.R1Pieces.lean ====
/- Region 1, read for its value (any float instance): what each control case leaves in the accumulator and in the
   output window, as the body's arithmetic applied to the blocks it loaded; and where those blocks sit in the
   factors' arrays. -/
import proofs.«140739_j42683384987781_2_alg».proof.Proof.KI.R1
import Idealize.ShloMosaic.Lib.ValueIdx
import Idealize.ShloMosaic.Lib.Pipeline.Value
import Idealize.ShloMosaic.Lib.Tactic

set_option maxRecDepth 16384

noncomputable section

open scoped BigOperators

namespace Cert.KernelIdeal.RegionValue1

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]

/-- The zero offset of a rank-2 buffer, as a function. -/
theorem zeroOff : (![0, 0] : Fin 2 → Nat) = fun _ => 0 := funext fun a => by fin_cases a <;> rfl

/-! ## What each control case leaves, as the body's arithmetic on its loaded blocks -/

/-- A first reduction step leaves in the accumulator the accumulate step of the two blocks over the zeroed accumulator. -/
theorem acc_first (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i) (x0 : Vec F S1024x512 .f32) (x1 : Vec F S512x256 .f32) :
    sout1_first_0 c i arg2 harg2 arg3 harg3 arg4 harg4 arg5 harg5 hc0 hc1 x0 x1 = k1_pay2 x0 x1 (k1_pay1 (F := F)) := by
  unfold sout1_first_0
  rw [View.read_writes_eq_canon _ _ _ (scover1_first_0 c i arg2 harg2 arg3 harg3 arg4 harg4 arg5 harg5 hc0 hc1 x0 x1)]
  unfold kernelRun1_first
  dsimp only
  try sl_unfold_words
  rw [View.canon_cons_unit_zero zeroOff, View.readCov_unit_zero _ zeroOff]
  simp only [View.readAt_eq_ld, harg2.read_unread, harg3.read_unread, View.ld_unit_zero (S := S1024x512) zeroOff, View.ld_unit_zero (S := S512x256) zeroOff, View.ld_unit_zero (S := S1024x256) zeroOff]

/-- A middle reduction step leaves in the accumulator the accumulate step of the two blocks over what it held. -/
theorem acc_mid (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i) (x0 : Vec F S1024x512 .f32) (x1 : Vec F S512x256 .f32) (xs0 : Vec F S1024x256 .f32) :
    sout1_mid_0 c i arg2 harg2 arg3 harg3 arg4 harg4 arg5 harg5 hc0 hc1 x0 x1 xs0 = k1_pay2 x0 x1 xs0 := by
  unfold sout1_mid_0
  rw [View.read_writes_eq_canon _ _ _ (scover1_mid_0 c i arg2 harg2 arg3 harg3 arg4 harg4 arg5 harg5 hc0 hc1 x0 x1 xs0)]
  unfold kernelRun1_mid
  dsimp only
  try sl_unfold_words
  rw [View.canon_unit_zero zeroOff]
  simp only [View.readAt_eq_ld, harg2.read_unread, harg3.read_unread, harg5.read_unread, View.ld_unit_zero (S := S1024x512) zeroOff, View.ld_unit_zero (S := S512x256) zeroOff, View.ld_unit_zero (S := S1024x256) zeroOff]

/-- A last reduction step leaves the same in the accumulator, -/
theorem acc_last (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) :
    sout1_last_0 c i arg2 harg2 arg3 harg3 arg4 harg4 arg5 harg5 hc0 hc1 x0 x1 xs0 = k1_pay2 x0 x1 xs0 := by
  unfold sout1_last_0
  rw [View.read_writes_eq_canon _ _ _ (scover1_last_0 c i arg2 harg2 arg3 harg3 arg4 harg4 arg5 harg5 hc0 hc1 x0 x1 xs0)]
  unfold kernelRun1_last
  dsimp only
  try sl_unfold_words
  rw [View.canon_unit_zero zeroOff]
  simp only [View.readAt_eq_ld, harg2.read_unread, harg3.read_unread, harg5.read_unread, View.ld_unit_zero (S := S1024x512) zeroOff, View.ld_unit_zero (S := S512x256) zeroOff, View.ld_unit_zero (S := S1024x256) zeroOff]

/-- and copies it into the output window's buffer. -/
theorem out_last (c : Dev nD) (i : grid1.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i) (x0 : Vec F S1024x512 .f32) (x1 : Vec F S512x256 .f32) (xs0 : Vec F S1024x256 .f32) :
    out1_last_2 c i arg2 harg2 arg3 harg3 arg4 harg4 arg5 harg5 hc0 hc1 x0 x1 xs0 = k1_pay2 x0 x1 xs0 := by
  unfold out1_last_2
  rw [View.read_writes_eq_canon _ _ _ (cover1_last_2 c i arg2 harg2 arg3 harg3 arg4 harg4 arg5 harg5 hc0 hc1 x0 x1 xs0)]
  unfold kernelRun1_last
  dsimp only
  try sl_unfold_words
  rw [View.canon_unit_zero zeroOff, View.readCov_unit_zero _ zeroOff]
  simp only [View.readAt_eq_ld, harg2.read_unread, harg3.read_unread, harg5.read_unread, View.ld_unit_zero (S := S1024x512) zeroOff, View.ld_unit_zero (S := S512x256) zeroOff, View.ld_unit_zero (S := S1024x256) zeroOff]

/-! ## Where each window's block sits in its array -/

/-- The printed index maps in closed form, decided over the 32 points: position `t` works on row block `t / 8` and
    reduction block `t % 8`. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

variable (V : (c : Dev nD) → (b : Ref sig .tc) → Buf (Elt F) ((c : Thread nD τ).loc b))

/-- The left factor's block at position `t` is rows `1024 (t / 8) …`, columns `512 (t % 8) …` of its array. -/
theorem lhs_block_apply (c : Dev nD) (t : Fin cfg1.N) (x : S1024x512.Idx) (k : S4096x4096.Idx)
    (hk0 : (k 0).val = 1024 * (t.val / 8) + (x 0).val) (hk1 : (k 1).val = 512 * (t.val % 8) + (x 1).val) :
    (iblk1 V c 0 t : Vec F S1024x512 .f32) x = (V c main_v9 : S4096x4096.Idx → Elt F .f32) k := by
  obtain ⟨e0, e1, -, -, -, -⟩ := idx_facts t
  unfold iblk1
  rw [View.read_apply]
  show V c main_v9 _ = V c main_v9 _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 512 + 1 * (x 1).val = (k 1).val; rw [e1, hk1]; omega

/-- The right factor's block at position `t` is rows `512 (t % 8) …`, all columns, of its array. -/
theorem rhs_block_apply (c : Dev nD) (t : Fin cfg1.N) (x : S512x256.Idx) (k : S4096x256.Idx)
    (hk0 : (k 0).val = 512 * (t.val % 8) + (x 0).val) (hk1 : (k 1).val = (x 1).val) :
    (iblk1 V c 1 t : Vec F S512x256 .f32) x = (V c main_arg0 : S4096x256.Idx → Elt F .f32) k := by
  obtain ⟨-, -, e0, e1, -, -⟩ := idx_facts t
  unfold iblk1
  rw [View.read_apply]
  show V c main_arg0 _ = V c main_arg0 _
  congr 1
  funext a
  apply Fin.ext
  match a with
  | ⟨0, _⟩ => show win1_1.index t (0 : Fin 2) * 512 + 1 * (x 0).val = (k 0).val; rw [e0, hk0]; omega
  | ⟨1, _⟩ => show win1_1.index t (1 : Fin 2) * 256 + 1 * (x 1).val = (k 1).val; rw [e1, hk1]; omega

/-! ## The accumulation, one position at a time -/

/-- At a first reduction step the accumulator restarts: the accumulate step of the position's two blocks over zero. -/
theorem acc_at_first (c : Dev nD) (t : Fin cfg1.N) (h0 : t.val % 8 = 0) (h1 : ¬t.val % 8 = 7) :
    (outsAt1 V c t.val t.isLt).2 = k1_pay2 (iblk1 V c 0 t) (iblk1 V c 1 t) (k1_pay1 (F := F)) := by
  rw [outsAt1_first V c t h0 h1]
  dsimp only
  exact acc_first (F := F) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)

/-- At a middle reduction step: the accumulate step over what the position before left. -/
theorem acc_at_mid (c : Dev nD) (t : Fin cfg1.N) (h0 : ¬t.val % 8 = 0) (h1 : ¬t.val % 8 = 7) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_mid V c t h0 h1]
  dsimp only
  exact acc_mid (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- At a last reduction step: the same in the accumulator, -/
theorem acc_at_last (c : Dev nD) (t : Fin cfg1.N) (h0 : ¬t.val % 8 = 0) (h1 : t.val % 8 = 7) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_last V c t h0 h1]
  dsimp only
  exact acc_last (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2

/-- and the same in the output window's buffer. -/
theorem out_at_last (c : Dev nD) (t : Fin cfg1.N) (h0 : ¬t.val % 8 = 0) (h1 : t.val % 8 = 7) :
    (outsAt1 V c t.val t.isLt).1 = k1_pay2 (iblk1 V c 0 t) (iblk1 V c 1 t) (outsAt1 V c (t.val - 1) (Nat.lt_of_le_of_lt (Nat.sub_le _ _) t.isLt)).2 := by
  rw [outsAt1_last V c t h0 h1]
  dsimp only
  exact out_last (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2

end Cert.KernelIdeal.RegionValue1

end
-- ==== Proof.LibBlockRange.lean ====
import Mathlib.Algebra.BigOperators.Group.Finset.Basic
import Mathlib.Algebra.BigOperators.Fin

/-!
# A sum over a range, taken in consecutive blocks

A contraction of length `tk * nb` accumulated tile by tile — `nb` tiles of `tk` terms, in order — is the whole
contraction: in any commutative additive monoid the sum over the first `tk * nb` naturals is the sum over the blocks
of the blocks' sums, and a running total over the first `m + 1` blocks is the total over the first `m` plus block
`m`. No subtraction and no finiteness is used, so the laws hold over the extended reals.
-/

namespace BlockRange

open Finset

variable {M : Type*} [AddCommMonoid M]

/-- The first `tk * nb` terms, as `nb` consecutive blocks of `tk` terms. -/
theorem sum_range_blocks (g : ℕ → M) (tk : ℕ) : ∀ nb : ℕ,
    ∑ q ∈ range (tk * nb), g q = ∑ j ∈ range nb, ∑ l ∈ range tk, g (tk * j + l)
  | 0 => by rw [Nat.mul_zero, sum_range_zero, sum_range_zero]
  | nb + 1 => by rw [Nat.mul_succ, sum_range_add, sum_range_succ, sum_range_blocks g tk nb]

/-- The same with the whole sum and each block's sum indexed by `Fin`; the length is given up to an equation so
    that a literal length (`4096`) can be matched with its factorisation (`512 * 8`). -/
theorem sum_fin_blocks (g : ℕ → M) (tk nb n : ℕ) (hn : n = tk * nb) :
    ∑ k : Fin n, g k.val = ∑ j ∈ range nb, ∑ l : Fin tk, g (tk * j + l.val) := by
  subst hn
  rw [← Finset.sum_range (fun q => g q), sum_range_blocks]
  exact Finset.sum_congr rfl fun j _ => Finset.sum_range (fun l => g (tk * j + l))

end BlockRange
-- ==== Proof.KI.R1Value.lean ====
/- Region 1, its value over the extended reals: the output array after the region is the product of the two factor
   arrays as the region finds them. The accumulator is followed position by position — after the step on reduction
   block k of a row block it holds zero plus the sum over the first (k + 1) · 512 contraction indices, taken block by
   block; addition on the extended reals is commutative and associative and 0 + x = x, so no finiteness is needed;
   narrowing to the sixteen-bit format is the identity there — and a row block's last step copies it to the output. -/
import proofs.«140739_j42683384987781_2_alg».proof.Proof.KI.R1Pieces
import proofs.«140739_j42683384987781_2_alg».proof.Proof.LibBlockRange
import proofs.«140739_j42683384987781_2_alg».proof.Proof.LibPlainProduct

set_option maxRecDepth 16384

noncomputable section

open scoped BigOperators

namespace Cert.KernelIdeal.RegionValue1

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

/-! ## Total index functions

Rows and contraction indices as functions of plain naturals, reduced modulo 4096 so that they are total; on the
positions the grid visits the reduction never bites. -/

/-- Row `a` of row block `r`. -/
def rowOf (r : ℕ) (a : Fin 1024) : Fin 4096 := ⟨(1024 * r + a.val) % 4096, Nat.mod_lt _ (by decide)⟩
/-- Contraction index `q`. -/
def colOf (q : ℕ) : Fin 4096 := ⟨q % 4096, Nat.mod_lt _ (by decide)⟩

theorem colOf_val (k : Fin 4096) : colOf k.val = k := Fin.ext (Nat.mod_eq_of_lt k.isLt)

/-- One product term of the contraction, at row `R`, column `b` and contraction index `q`. -/
def term (A : FVec Ideal S4096x4096 .f32) (B : FVec Ideal S4096x256 .f32) (R : Fin 4096) (b : Fin 256) (q : ℕ) : Ideal .f32 :=
  A (ix2 R (colOf q)) * B (ix2 (colOf q) b)

/-- The whole contraction is the eight reduction blocks' sums, in order. -/
theorem contraction_blocks (A : FVec Ideal S4096x4096 .f32) (B : FVec Ideal S4096x256 .f32) (R : Fin 4096) (b : Fin 256) :
    ∑ j ∈ Finset.range 8, ∑ l : Fin 512, term A B R b (512 * j + l.val) = ∑ k : Fin 4096, A (ix2 R k) * B (ix2 k b) := by
  rw [← BlockRange.sum_fin_blocks (term A B R b) 512 8 4096 rfl]
  exact Finset.sum_congr rfl fun k _ => by unfold term; rw [colOf_val]

/-! ## The body's arithmetic at an index -/

/-- One accumulate step: the accumulator plus the product, on the matrix unit, of the two blocks narrowed to the
    sixteen-bit format and accumulated into zero. -/
def accStep (X : FVec Ideal S1024x512 .f32) (W : FVec Ideal S512x256 .f32) (acc : FVec Ideal S1024x256 .f32) : FVec Ideal S1024x256 .f32 :=
  addf acc (matmul dot_S1024x512_S512x256_S1024x256_1_0_0_1_n_n none (truncf .bf16 X bitsLt_bf16_f32) (truncf .bf16 W bitsLt_bf16_f32)
    (constant S1024x256 .f32 0x00000000#32))

/-- Over the extended reals narrowing is the identity and the zero accumulator adds nothing: entry `(a, b)` of a step
    is the accumulator's entry plus the sum over the block's 512 contraction indices. -/
theorem accStep_at (X : FVec Ideal S1024x512 .f32) (W : FVec Ideal S512x256 .f32) (acc : FVec Ideal S1024x256 .f32) (a : Fin 1024) (b : Fin 256) :
    accStep X W acc (ix2 a b) = acc (ix2 a b) + ∑ l : Fin 512, X (ix2 a l) * W (ix2 l b) := by
  unfold accStep
  rw [addf_apply]
  refine congrArg (acc (ix2 a b) + ·) ?_
  refine (PlainProduct.matmul_at _ rfl none _ _ _ a b).trans ?_
  rw [constant_apply, Ideal.ofBits_zero_f32, zero_add]
  rfl

/-- The stored accumulate payload is one such step (casts between equal shapes apart). -/
theorem pay2_at (x0 : Vec Ideal S1024x512 .f32) (x1 : Vec Ideal S512x256 .f32) (acc : Vec Ideal S1024x256 .f32) (a : Fin 1024) (b : Fin 256) :
    k1_pay2 x0 x1 acc (ix2 a b) = acc (ix2 a b) + ∑ l : Fin 512, x0 (ix2 a l) * x1 (ix2 l b) := by
  unfold k1_pay2
  simp only [shapeCast_self]
  exact accStep_at x0 x1 acc a b

/-- The stored clearing payload is zero everywhere. -/
theorem pay1_at (a : Fin 1024) (b : Fin 256) : k1_pay1 (F := Ideal) (ix2 a b) = 0 := by
  unfold k1_pay1
  simp only [shapeCast_self]
  exact Ideal.ofBits_zero_f32

/-! ## The accumulator and the output, position by position -/

variable (V : (c : Dev nD) → (b : Ref sig .tc) → Buf (Elt Ideal) ((c : Thread nD τ).loc b))

/-- The two factors as the region finds them. -/
abbrev lhs (c : Dev nD) : FVec Ideal S4096x4096 .f32 := V c main_v9
abbrev rhs (c : Dev nD) : FVec Ideal S4096x256 .f32 := V c main_arg0

/-- The products of the position's two blocks at `(a, b)` are the terms of reduction block `t % 8` in row block `t / 8`. -/
theorem block_terms (c : Dev nD) (t : Fin cfg1.N) (x0 : Vec Ideal S1024x512 .f32) (x1 : Vec Ideal S512x256 .f32)
    (hx0 : x0 = iblk1 V c 0 t) (hx1 : x1 = iblk1 V c 1 t) (a : Fin 1024) (b : Fin 256) :
    ∑ l : Fin 512, x0 (ix2 a l) * x1 (ix2 l b)
      = ∑ l : Fin 512, term (lhs V c) (rhs V c) (rowOf (t.val / 8) a) b (512 * (t.val % 8) + l.val) := by
  subst hx0 hx1
  have hN : t.val < 32 := lt_of_lt_of_eq t.isLt (show cfg1.N = 32 from N_1)
  refine Finset.sum_congr rfl fun l _ => ?_
  unfold term
  have hl : l.val < 512 := l.isLt
  have ha : a.val < 1024 := a.isLt
  refine congrArg₂ (· * ·)
    (lhs_block_apply (F := Ideal) V c t (ix2 a l) (ix2 (rowOf (t.val / 8) a) (colOf (512 * (t.val % 8) + l.val))) ?_ ?_)
    (rhs_block_apply (F := Ideal) V c t (ix2 l b) (ix2 (colOf (512 * (t.val % 8) + l.val)) b) ?_ ?_)
  · show (1024 * (t.val / 8) + a.val) % 4096 = 1024 * (t.val / 8) + a.val; omega
  · show (512 * (t.val % 8) + l.val) % 4096 = 512 * (t.val % 8) + l.val; omega
  · show (512 * (t.val % 8) + l.val) % 4096 = 512 * (t.val % 8) + l.val; omega
  · rfl

/-- One accumulate step at position `t`, at an index: what the accumulator held plus the terms of the position's
    reduction block. -/
theorem step_at (c : Dev nD) (t : Fin cfg1.N) (acc : Vec Ideal S1024x256 .f32) (a : Fin 1024) (b : Fin 256) :
    k1_pay2 (iblk1 V c 0 t) (iblk1 V c 1 t) acc (ix2 a b)
      = acc (ix2 a b) + ∑ l : Fin 512, term (lhs V c) (rhs V c) (rowOf (t.val / 8) a) b (512 * (t.val % 8) + l.val) :=
  (pay2_at (iblk1 V c 0 t) (iblk1 V c 1 t) acc a b).trans
    (congrArg (acc (ix2 a b) + ·) (block_terms V c t (iblk1 V c 0 t) (iblk1 V c 1 t) rfl rfl a b))

/-- THE INVARIANT of the accumulation: after position `n` the accumulator's entry `(a, b)` is the sum of the first
    `n % 8 + 1` reduction blocks of row block `n / 8` — by induction on the position: a first step restarts from
    zero, every other step adds its block to what the position before left in the same row block. -/
theorem acc_inv (c : Dev nD) : ∀ (n : ℕ) (hn : n < cfg1.N) (a : Fin 1024) (b : Fin 256),
    ((outsAt1 V c n hn).2 : Vec Ideal S1024x256 .f32) (ix2 a b)
      = ∑ j ∈ Finset.range (n % 8 + 1), ∑ l : Fin 512, term (lhs V c) (rhs V c) (rowOf (n / 8) a) b (512 * j + l.val)
  | 0, hn, a, b => by
    have e := acc_at_first (F := Ideal) V c ⟨0, hn⟩ (Nat.zero_mod _) (by show ¬(0 % 8 = 7); decide)
    refine (congrFun e (ix2 a b)).trans ?_
    refine (step_at V c ⟨0, hn⟩ _ a b).trans ?_
    rw [pay1_at, zero_add]
    exact (Finset.sum_range_one (fun j => ∑ l : Fin 512, term (lhs V c) (rhs V c) (rowOf (0 / 8) a) b (512 * j + l.val))).symm
  | n + 1, hn, a, b => by
    have hN : n + 1 < 32 := lt_of_lt_of_eq hn (show cfg1.N = 32 from N_1)
    by_cases h0 : (n + 1) % 8 = 0
    · have h1 : ¬(n + 1) % 8 = 7 := by omega
      have e := acc_at_first (F := Ideal) V c ⟨n + 1, hn⟩ h0 h1
      refine (congrFun e (ix2 a b)).trans ?_
      refine (step_at V c ⟨n + 1, hn⟩ _ a b).trans ?_
      rw [pay1_at, zero_add]
      show _ = ∑ j ∈ Finset.range ((n + 1) % 8 + 1), _
      rw [h0]
      exact (Finset.sum_range_one (fun j => ∑ l : Fin 512, term (lhs V c) (rhs V c) (rowOf ((n + 1) / 8) a) b (512 * j + l.val))).symm
    · have e8 : (n + 1) % 8 = n % 8 + 1 := by omega
      have ed : (n + 1) / 8 = n / 8 := by omega
      have step : ((outsAt1 V c (n + 1) hn).2 : Vec Ideal S1024x256 .f32)
          = k1_pay2 (iblk1 V c 0 ⟨n + 1, hn⟩) (iblk1 V c 1 ⟨n + 1, hn⟩) (outsAt1 V c n (Nat.lt_of_succ_lt hn)).2 := by
        by_cases h1 : (n + 1) % 8 = 7
        · exact acc_at_last (F := Ideal) V c ⟨n + 1, hn⟩ h0 h1
        · exact acc_at_mid (F := Ideal) V c ⟨n + 1, hn⟩ h0 h1
      refine (congrFun step (ix2 a b)).trans ?_
      refine (step_at V c ⟨n + 1, hn⟩ _ a b).trans ?_
      rw [acc_inv c n (Nat.lt_of_succ_lt hn) a b]
      show _ + ∑ l : Fin 512, term (lhs V c) (rhs V c) (rowOf ((n + 1) / 8) a) b (512 * ((n + 1) % 8) + l.val) = _
      rw [e8, ed]
      exact (Finset.sum_range_succ (fun j => ∑ l : Fin 512, term (lhs V c) (rhs V c) (rowOf (n / 8) a) b (512 * j + l.val)) (n % 8 + 1)).symm

/-- After a last reduction step the output window's buffer holds, at `(a, b)`, the whole contraction of row
    `1024 (t / 8) + a` of the left factor with column `b` of the right factor. -/
theorem out_value (c : Dev nD) (t : Fin cfg1.N) (h7 : t.val % 8 = 7) (a : Fin 1024) (b : Fin 256) :
    ((outsAt1 V c t.val t.isLt).1 : Vec Ideal S1024x256 .f32) (ix2 a b)
      = ∑ k : Fin 4096, lhs V c (ix2 (rowOf (t.val / 8) a) k) * rhs V c (ix2 k b) := by
  have h0 : ¬t.val % 8 = 0 := by omega
  have e : ((outsAt1 V c t.val t.isLt).1 : Vec Ideal S1024x256 .f32) = (outsAt1 V c t.val t.isLt).2 :=
    (out_at_last (F := Ideal) V c t h0 h7).trans (acc_at_last (F := Ideal) V c t h0 h7).symm
  rw [e, acc_inv V c t.val t.isLt a b, h7]
  exact contraction_blocks (lhs V c) (rhs V c) (rowOf (t.val / 8) a) b

/-! ## From blocks to the array -/

/-- The product of the two factors as the region finds them, as one function of the output array's index. -/
def product (c : Dev nD) : FVec Ideal S4096x256 .f32 := fun i => ∑ k : Fin 4096, lhs V c (ix2 (i 0) k) * rhs V c (ix2 k (i 1))

/-- What a last reduction step's position writes back is its row block of the product. -/
theorem flushed_eq (c : Dev nD) (t : Fin cfg1.N) (hf : (cfg1.win 2).flush t = true) :
    (dat1 (F := Ideal) V c).flushed 2 t = ((cfg1.win 2).blk t).view.read (Elt Ideal) (product V c) := by
  have hN : t.val < 32 := lt_of_lt_of_eq t.isLt (show cfg1.N = 32 from N_1)
  have h7 : t.val % 8 = 7 := (flush1_2 t).mp hf
  obtain ⟨-, -, -, -, e0, e1⟩ := idx_facts t
  show (cfg1.win 2).cut (grid1.coords t) ((dat1 (F := Ideal) V c).after 2 t) = _
  rw [after1_2]
  have key : ((outsAt1 V c t.val t.isLt).1 : Vec Ideal S1024x256 .f32)
      = fun y : S1024x256.Idx => product V c (ix2 (rowOf (t.val / 8) (y 0)) (y 1)) := funext fun y => by
    obtain ⟨a, b, rfl⟩ : ∃ (a : Fin 1024) (b : Fin 256), y = ix2 a b := ⟨y 0, y 1, eq_ix2 y⟩
    exact out_value V c t h7 a b
  rw [key]
  funext j
  rw [View.read_apply]
  show product V c (ix2 (rowOf (t.val / 8) (j 0)) (j 1)) = product V c _
  congr 1
  funext d
  apply Fin.ext
  match d with
  | ⟨0, _⟩ =>
    have hj : (j 0).val < 1024 := (j 0).isLt
    show (1024 * (t.val / 8) + (j 0).val) % 4096 = win1_2.index t (0 : Fin 2) * 1024 + 1 * (j 0).val
    rw [e0]; omega
  | ⟨1, _⟩ =>
    show (j 1).val = win1_2.index t (1 : Fin 2) * 256 + 1 * (j 1).val
    rw [e1]; omega

/-- An index of the output array is in position `t`'s block iff each coordinate is in the block's range. -/
theorem mem_blk (t : Fin cfg1.N) (i : S4096x256.Idx) :
    i ∈ ((cfg1.win 2).blk t).view.set ↔ ∀ d : Fin 2, win1_2.index t d * S1024x256.size d ≤ (i d).val ∧ (i d).val < win1_2.index t d * S1024x256.size d + S1024x256.size d := by
  show i ∈ ((View.whole main_v10).slice (win1_2.rect t)).set ↔ _
  rw [View.set_slice_whole, Rect.mem_set_unit]
  exact Iff.rfl

/-- THE OUTPUT ARRAY after the region is the product: row `r` is written back by the last reduction step of row block
    `r / 1024`, position `8 (r / 1024) + 7`. -/
theorem final1 (c : Dev nD) : (dat1 (F := Ideal) V c).arrAt 2 cfg1.N = product V c :=
  (dat1 (F := Ideal) V c).arrAt_eq_of_cover 2 (product V c) (flushed_eq V c) fun i => by
    have hi0 : (i 0).val < 4096 := (i 0).isLt
    have hi1 : (i 1).val < 256 := (i 1).isLt
    have hN : cfg1.N = 32 := N_1
    let t : Fin cfg1.N := ⟨8 * ((i 0).val / 1024) + 7, by rw [hN]; omega⟩
    have ht : t.val = 8 * ((i 0).val / 1024) + 7 := rfl
    obtain ⟨-, -, -, -, e0, e1⟩ := idx_facts t
    refine ⟨t, (flush1_2 t).mpr (by rw [ht]; omega), ?_⟩
    rw [mem_blk]
    intro d
    match d with
    | ⟨0, _⟩ =>
      show win1_2.index t (0 : Fin 2) * 1024 ≤ (i 0).val ∧ (i 0).val < win1_2.index t (0 : Fin 2) * 1024 + 1024
      rw [e0, ht]; omega
    | ⟨1, _⟩ =>
      show win1_2.index t (1 : Fin 2) * 256 ≤ (i 1).val ∧ (i 1).val < win1_2.index t (1 : Fin 2) * 256 + 256
      rw [e1]; omega

/-- The output array after the region. -/
abbrev outArr (c : Dev nD) : FVec Ideal S4096x256 .f32 := (dat1 (F := Ideal) V c).arrAt 2 cfg1.N

/-- Entry `(a, b)` of the output array after the region: the whole 4096-term contraction of row `a` of the left factor
    with column `b` of the right factor, both as the region finds them (`lhs V c` is `V c main_v9`, `rhs V c` is
    `V c main_arg0`, `outArr V c` is the proof data's `arrAt 2 cfg1.N`: all three by definition). -/
theorem final1_at (c : Dev nD) (a : Fin 4096) (b : Fin 256) :
    outArr V c (ix2 a b) = ∑ k : Fin 4096, lhs V c (ix2 a k) * rhs V c (ix2 k b) :=
  congrFun (final1 V c) (ix2 a b)

end Cert.KernelIdeal.RegionValue1

end
-- ==== Proof.KI.R3Pieces.lean ====
/- Region 3, read for its value (any float instance): what each control case leaves in the accumulator and in the
   output window, as the body's arithmetic applied to the blocks it loaded; and where those blocks sit in the
   factors' arrays. -/
import proofs.«140739_j42683384987781_2_alg».proof.Proof.KI.R3
import Idealize.ShloMosaic.Lib.ValueIdx
import Idealize.ShloMosaic.Lib.Pipeline.Value
import Idealize.ShloMosaic.Lib.Tactic

set_option maxRecDepth 16384

noncomputable section

open scoped BigOperators

namespace Cert.KernelIdeal.RegionValue3

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]

/-- The zero offset of a rank-2 buffer, as a function. -/
theorem zeroOff : (![0, 0] : Fin 2 → Nat) = fun _ => 0 := funext fun a => by fin_cases a <;> rfl

/-! ## What each control case leaves, as the body's arithmetic on its loaded blocks -/

/-- A first reduction step leaves in the accumulator the accumulate step of the two blocks over the zeroed accumulator. -/
theorem acc_first (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x512 .f32) (x1 : Vec F S512x256 .f32) :
    sout3_first_0 c i arg2 harg2 arg3 harg3 arg4 harg4 arg5 harg5 hc0 hc1 x0 x1 = k3_pay2 x0 x1 (k3_pay1 (F := F)) := by
  unfold sout3_first_0
  rw [View.read_writes_eq_canon _ _ _ (scover3_first_0 c i arg2 harg2 arg3 harg3 arg4 harg4 arg5 harg5 hc0 hc1 x0 x1)]
  unfold kernelRun3_first
  dsimp only
  try sl_unfold_words
  rw [View.canon_cons_unit_zero zeroOff, View.readCov_unit_zero _ zeroOff]
  simp only [View.readAt_eq_ld, harg2.read_unread, harg3.read_unread, View.ld_unit_zero (S := S1024x512) zeroOff, View.ld_unit_zero (S := S512x256) zeroOff, View.ld_unit_zero (S := S1024x256) zeroOff]

/-- A middle reduction step leaves in the accumulator the accumulate step of the two blocks over what it held. -/
theorem acc_mid (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x512 .f32) (x1 : Vec F S512x256 .f32) (xs0 : Vec F S1024x256 .f32) :
    sout3_mid_0 c i arg2 harg2 arg3 harg3 arg4 harg4 arg5 harg5 hc0 hc1 x0 x1 xs0 = k3_pay2 x0 x1 xs0 := by
  unfold sout3_mid_0
  rw [View.read_writes_eq_canon _ _ _ (scover3_mid_0 c i arg2 harg2 arg3 harg3 arg4 harg4 arg5 harg5 hc0 hc1 x0 x1 xs0)]
  unfold kernelRun3_mid
  dsimp only
  try sl_unfold_words
  rw [View.canon_unit_zero zeroOff]
  simp only [View.readAt_eq_ld, harg2.read_unread, harg3.read_unread, harg5.read_unread, View.ld_unit_zero (S := S1024x512) zeroOff, View.ld_unit_zero (S := S512x256) zeroOff, View.ld_unit_zero (S := S1024x256) zeroOff]

/-- A last reduction step leaves the same in the accumulator, -/
theorem acc_last (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) :
    sout3_last_0 c i arg2 harg2 arg3 harg3 arg4 harg4 arg5 harg5 hc0 hc1 x0 x1 xs0 = k3_pay2 x0 x1 xs0 := by
  unfold sout3_last_0
  rw [View.read_writes_eq_canon _ _ _ (scover3_last_0 c i arg2 harg2 arg3 harg3 arg4 harg4 arg5 harg5 hc0 hc1 x0 x1 xs0)]
  unfold kernelRun3_last
  dsimp only
  try sl_unfold_words
  rw [View.canon_unit_zero zeroOff]
  simp only [View.readAt_eq_ld, harg2.read_unread, harg3.read_unread, harg5.read_unread, View.ld_unit_zero (S := S1024x512) zeroOff, View.ld_unit_zero (S := S512x256) zeroOff, View.ld_unit_zero (S := S1024x256) zeroOff]

/-- and copies it into the output window's buffer. -/
theorem out_last (c : Dev nD) (i : grid3.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x512 .f32) (x1 : Vec F S512x256 .f32) (xs0 : Vec F S1024x256 .f32) :
    out3_last_2 c i arg2 harg2 arg3 harg3 arg4 harg4 arg5 harg5 hc0 hc1 x0 x1 xs0 = k3_pay2 x0 x1 xs0 := by
  unfold out3_last_2
  rw [View.read_writes_eq_canon _ _ _ (cover3_last_2 c i arg2 harg2 arg3 harg3 arg4 harg4 arg5 harg5 hc0 hc1 x0 x1 xs0)]
  unfold kernelRun3_last
  dsimp only
  try sl_unfold_words
  rw [View.canon_unit_zero zeroOff, View.readCov_unit_zero _ zeroOff]
  simp only [View.readAt_eq_ld, harg2.read_unread, harg3.read_unread, harg5.read_unread, View.ld_unit_zero (S := S1024x512) zeroOff, View.ld_unit_zero (S := S512x256) zeroOff, View.ld_unit_zero (S := S1024x256) zeroOff]

/-! ## Where each window's block sits in its array -/

/-- The printed index maps in closed form, decided over the 32 points: position `t` works on row block `t / 8` and
    reduction block `t % 8`. -/
theorem idx_facts : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0 :=
  (by decide +kernel : ∀ t : Fin grid3.N, _)

variable (V : (c : Dev nD) → (b : Ref sig .tc) → Buf (Elt F) ((c : Thread nD τ).loc b))

/-- The left factor's block at position `t` is rows `1024 (t / 8) …`, columns `512 (t % 8) …` of its array. -/
theorem lhs_block_apply (c : Dev nD) (t : Fin cfg3.N) (x : S1024x512.Idx) (k : S4096x4096.Idx)
    (hk0 : (k 0).val = 1024 * (t.val / 8) + (x 0).val) (hk1 : (k 1).val = 512 * (t.val % 8) + (x 1).val) :
    (iblk3 V c 0 t : Vec F S1024x512 .f32) x = (V c main_arg5 : S4096x4096.Idx → Elt F .f32) k := by
  obtain ⟨e0, e1, -, -, -, -⟩ := idx_facts t
  unfold iblk3
  rw [View.read_apply]
  show V c main_arg5 _ = V c main_arg5 _
  congr 1
  funext a
  apply Fin.ext
  match a with
  | ⟨0, _⟩ => show win3_0.index t (0 : Fin 2) * 1024 + 1 * (x 0).val = (k 0).val; rw [e0, hk0]; omega
  | ⟨1, _⟩ => show win3_0.index t (1 : Fin 2) * 512 + 1 * (x 1).val = (k 1).val; rw [e1, hk1]; omega

/-- The right factor's block at position `t` is rows `512 (t % 8) …`, all columns, of its array. -/
theorem rhs_block_apply (c : Dev nD) (t : Fin cfg3.N) (x : S512x256.Idx) (k : S4096x256.Idx)
    (hk0 : (k 0).val = 512 * (t.val % 8) + (x 0).val) (hk1 : (k 1).val = (x 1).val) :
    (iblk3 V c 1 t : Vec F S512x256 .f32) x = (V c main_arg1 : S4096x256.Idx → Elt F .f32) k := by
  obtain ⟨-, -, e0, e1, -, -⟩ := idx_facts t
  unfold iblk3
  rw [View.read_apply]
  show V c main_arg1 _ = V c main_arg1 _
  congr 1
  funext a
  apply Fin.ext
  match a with
  | ⟨0, _⟩ => show win3_1.index t (0 : Fin 2) * 512 + 1 * (x 0).val = (k 0).val; rw [e0, hk0]; omega
  | ⟨1, _⟩ => show win3_1.index t (1 : Fin 2) * 256 + 1 * (x 1).val = (k 1).val; rw [e1, hk1]; omega

/-! ## The accumulation, one position at a time -/

/-- At a first reduction step the accumulator restarts: the accumulate step of the position's two blocks over zero. -/
theorem acc_at_first (c : Dev nD) (t : Fin cfg3.N) (h0 : t.val % 8 = 0) (h1 : ¬t.val % 8 = 7) :
    (outsAt3 V c t.val t.isLt).2 = k3_pay2 (iblk3 V c 0 t) (iblk3 V c 1 t) (k3_pay1 (F := F)) := by
  rw [outsAt3_first V c t h0 h1]
  dsimp only
  exact acc_first (F := F) c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)

/-- At a middle reduction step: the accumulate step over what the position before left. -/
theorem acc_at_mid (c : Dev nD) (t : Fin cfg3.N) (h0 : ¬t.val % 8 = 0) (h1 : ¬t.val % 8 = 7) :
    (outsAt3 V c t.val t.isLt).2 = k3_pay2 (iblk3 V c 0 t) (iblk3 V c 1 t) (outsAt3 V c (t.val - 1) (Nat.lt_of_le_of_lt (Nat.sub_le _ _) t.isLt)).2 := by
  rw [outsAt3_mid V c t h0 h1]
  dsimp only
  exact acc_mid (F := F) c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2

/-- At a last reduction step: the same in the accumulator, -/
theorem acc_at_last (c : Dev nD) (t : Fin cfg3.N) (h0 : ¬t.val % 8 = 0) (h1 : t.val % 8 = 7) :
    (outsAt3 V c t.val t.isLt).2 = k3_pay2 (iblk3 V c 0 t) (iblk3 V c 1 t) (outsAt3 V c (t.val - 1) (Nat.lt_of_le_of_lt (Nat.sub_le _ _) t.isLt)).2 := by
  rw [outsAt3_last V c t h0 h1]
  dsimp only
  exact acc_last (F := F) c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2

/-- and the same in the output window's buffer. -/
theorem out_at_last (c : Dev nD) (t : Fin cfg3.N) (h0 : ¬t.val % 8 = 0) (h1 : t.val % 8 = 7) :
    (outsAt3 V c t.val t.isLt).1 = k3_pay2 (iblk3 V c 0 t) (iblk3 V c 1 t) (outsAt3 V c (t.val - 1) (Nat.lt_of_le_of_lt (Nat.sub_le _ _) t.isLt)).2 := by
  rw [outsAt3_last V c t h0 h1]
  dsimp only
  exact out_last (F := F) c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2

end Cert.KernelIdeal.RegionValue3

end
-- ==== Proof.KI.R3Value.lean ====
/- Region 3, its value over the extended reals: the output array after the region is the product of the two factor
   arrays as the region finds them. The accumulator is followed position by position — after the step on reduction
   block k of a row block it holds zero plus the sum over the first (k + 1) · 512 contraction indices, taken block by
   block; addition on the extended reals is commutative and associative and 0 + x = x, so no finiteness is needed;
   narrowing to the sixteen-bit format is the identity there — and a row block's last step copies it to the output. -/
import proofs.«140739_j42683384987781_2_alg».proof.Proof.KI.R3Pieces
import proofs.«140739_j42683384987781_2_alg».proof.Proof.LibBlockRange
import proofs.«140739_j42683384987781_2_alg».proof.Proof.LibPlainProduct

set_option maxRecDepth 16384

noncomputable section

open scoped BigOperators

namespace Cert.KernelIdeal.RegionValue3

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

/-! ## Total index functions

Rows and contraction indices as functions of plain naturals, reduced modulo 4096 so that they are total; on the
positions the grid visits the reduction never bites. -/

/-- Row `a` of row block `r`. -/
def rowOf (r : ℕ) (a : Fin 1024) : Fin 4096 := ⟨(1024 * r + a.val) % 4096, Nat.mod_lt _ (by decide)⟩
/-- Contraction index `q`. -/
def colOf (q : ℕ) : Fin 4096 := ⟨q % 4096, Nat.mod_lt _ (by decide)⟩

theorem colOf_val (k : Fin 4096) : colOf k.val = k := Fin.ext (Nat.mod_eq_of_lt k.isLt)

/-- One product term of the contraction, at row `R`, column `b` and contraction index `q`. -/
def term (A : FVec Ideal S4096x4096 .f32) (B : FVec Ideal S4096x256 .f32) (R : Fin 4096) (b : Fin 256) (q : ℕ) : Ideal .f32 :=
  A (ix2 R (colOf q)) * B (ix2 (colOf q) b)

/-- The whole contraction is the eight reduction blocks' sums, in order. -/
theorem contraction_blocks (A : FVec Ideal S4096x4096 .f32) (B : FVec Ideal S4096x256 .f32) (R : Fin 4096) (b : Fin 256) :
    ∑ j ∈ Finset.range 8, ∑ l : Fin 512, term A B R b (512 * j + l.val) = ∑ k : Fin 4096, A (ix2 R k) * B (ix2 k b) := by
  rw [← BlockRange.sum_fin_blocks (term A B R b) 512 8 4096 rfl]
  exact Finset.sum_congr rfl fun k _ => by unfold term; rw [colOf_val]

/-! ## The body's arithmetic at an index -/

/-- One accumulate step: the accumulator plus the product, on the matrix unit, of the two blocks narrowed to the
    sixteen-bit format and accumulated into zero. -/
def accStep (X : FVec Ideal S1024x512 .f32) (W : FVec Ideal S512x256 .f32) (acc : FVec Ideal S1024x256 .f32) : FVec Ideal S1024x256 .f32 :=
  addf acc (matmul dot_S1024x512_S512x256_S1024x256_1_0_0_1_n_n none (truncf .bf16 X bitsLt_bf16_f32) (truncf .bf16 W bitsLt_bf16_f32)
    (constant S1024x256 .f32 0x00000000#32))

/-- Over the extended reals narrowing is the identity and the zero accumulator adds nothing: entry `(a, b)` of a step
    is the accumulator's entry plus the sum over the block's 512 contraction indices. -/
theorem accStep_at (X : FVec Ideal S1024x512 .f32) (W : FVec Ideal S512x256 .f32) (acc : FVec Ideal S1024x256 .f32) (a : Fin 1024) (b : Fin 256) :
    accStep X W acc (ix2 a b) = acc (ix2 a b) + ∑ l : Fin 512, X (ix2 a l) * W (ix2 l b) := by
  unfold accStep
  rw [addf_apply]
  refine congrArg (acc (ix2 a b) + ·) ?_
  refine (PlainProduct.matmul_at _ rfl none _ _ _ a b).trans ?_
  rw [constant_apply, Ideal.ofBits_zero_f32, zero_add]
  rfl

/-- The stored accumulate payload is one such step (casts between equal shapes apart). -/
theorem pay2_at (x0 : Vec Ideal S1024x512 .f32) (x1 : Vec Ideal S512x256 .f32) (acc : Vec Ideal S1024x256 .f32) (a : Fin 1024) (b : Fin 256) :
    k3_pay2 x0 x1 acc (ix2 a b) = acc (ix2 a b) + ∑ l : Fin 512, x0 (ix2 a l) * x1 (ix2 l b) := by
  unfold k3_pay2
  simp only [shapeCast_self]
  exact accStep_at x0 x1 acc a b

/-- The stored clearing payload is zero everywhere. -/
theorem pay1_at (a : Fin 1024) (b : Fin 256) : k3_pay1 (F := Ideal) (ix2 a b) = 0 := by
  unfold k3_pay1
  simp only [shapeCast_self]
  exact Ideal.ofBits_zero_f32

/-! ## The accumulator and the output, position by position -/

variable (V : (c : Dev nD) → (b : Ref sig .tc) → Buf (Elt Ideal) ((c : Thread nD τ).loc b))

/-- The two factors as the region finds them. -/
abbrev lhs (c : Dev nD) : FVec Ideal S4096x4096 .f32 := V c main_arg5
abbrev rhs (c : Dev nD) : FVec Ideal S4096x256 .f32 := V c main_arg1

/-- The products of the position's two blocks at `(a, b)` are the terms of reduction block `t % 8` in row block `t / 8`. -/
theorem block_terms (c : Dev nD) (t : Fin cfg3.N) (x0 : Vec Ideal S1024x512 .f32) (x1 : Vec Ideal S512x256 .f32)
    (hx0 : x0 = iblk3 V c 0 t) (hx1 : x1 = iblk3 V c 1 t) (a : Fin 1024) (b : Fin 256) :
    ∑ l : Fin 512, x0 (ix2 a l) * x1 (ix2 l b)
      = ∑ l : Fin 512, term (lhs V c) (rhs V c) (rowOf (t.val / 8) a) b (512 * (t.val % 8) + l.val) := by
  subst hx0 hx1
  have hN : t.val < 32 := lt_of_lt_of_eq t.isLt (show cfg3.N = 32 from N_3)
  refine Finset.sum_congr rfl fun l _ => ?_
  unfold term
  have hl : l.val < 512 := l.isLt
  have ha : a.val < 1024 := a.isLt
  refine congrArg₂ (· * ·)
    (lhs_block_apply (F := Ideal) V c t (ix2 a l) (ix2 (rowOf (t.val / 8) a) (colOf (512 * (t.val % 8) + l.val))) ?_ ?_)
    (rhs_block_apply (F := Ideal) V c t (ix2 l b) (ix2 (colOf (512 * (t.val % 8) + l.val)) b) ?_ ?_)
  · show (1024 * (t.val / 8) + a.val) % 4096 = 1024 * (t.val / 8) + a.val; omega
  · show (512 * (t.val % 8) + l.val) % 4096 = 512 * (t.val % 8) + l.val; omega
  · show (512 * (t.val % 8) + l.val) % 4096 = 512 * (t.val % 8) + l.val; omega
  · rfl

/-- One accumulate step at position `t`, at an index: what the accumulator held plus the terms of the position's
    reduction block. -/
theorem step_at (c : Dev nD) (t : Fin cfg3.N) (acc : Vec Ideal S1024x256 .f32) (a : Fin 1024) (b : Fin 256) :
    k3_pay2 (iblk3 V c 0 t) (iblk3 V c 1 t) acc (ix2 a b)
      = acc (ix2 a b) + ∑ l : Fin 512, term (lhs V c) (rhs V c) (rowOf (t.val / 8) a) b (512 * (t.val % 8) + l.val) :=
  (pay2_at (iblk3 V c 0 t) (iblk3 V c 1 t) acc a b).trans
    (congrArg (acc (ix2 a b) + ·) (block_terms V c t (iblk3 V c 0 t) (iblk3 V c 1 t) rfl rfl a b))

/-- THE INVARIANT of the accumulation: after position `n` the accumulator's entry `(a, b)` is the sum of the first
    `n % 8 + 1` reduction blocks of row block `n / 8` — by induction on the position: a first step restarts from
    zero, every other step adds its block to what the position before left in the same row block. -/
theorem acc_inv (c : Dev nD) : ∀ (n : ℕ) (hn : n < cfg3.N) (a : Fin 1024) (b : Fin 256),
    ((outsAt3 V c n hn).2 : Vec Ideal S1024x256 .f32) (ix2 a b)
      = ∑ j ∈ Finset.range (n % 8 + 1), ∑ l : Fin 512, term (lhs V c) (rhs V c) (rowOf (n / 8) a) b (512 * j + l.val)
  | 0, hn, a, b => by
    have e := acc_at_first (F := Ideal) V c ⟨0, hn⟩ (Nat.zero_mod _) (by show ¬(0 % 8 = 7); decide)
    refine (congrFun e (ix2 a b)).trans ?_
    refine (step_at V c ⟨0, hn⟩ _ a b).trans ?_
    rw [pay1_at, zero_add]
    exact (Finset.sum_range_one (fun j => ∑ l : Fin 512, term (lhs V c) (rhs V c) (rowOf (0 / 8) a) b (512 * j + l.val))).symm
  | n + 1, hn, a, b => by
    have hN : n + 1 < 32 := lt_of_lt_of_eq hn (show cfg3.N = 32 from N_3)
    by_cases h0 : (n + 1) % 8 = 0
    · have h1 : ¬(n + 1) % 8 = 7 := by omega
      have e := acc_at_first (F := Ideal) V c ⟨n + 1, hn⟩ h0 h1
      refine (congrFun e (ix2 a b)).trans ?_
      refine (step_at V c ⟨n + 1, hn⟩ _ a b).trans ?_
      rw [pay1_at, zero_add]
      show _ = ∑ j ∈ Finset.range ((n + 1) % 8 + 1), _
      rw [h0]
      exact (Finset.sum_range_one (fun j => ∑ l : Fin 512, term (lhs V c) (rhs V c) (rowOf ((n + 1) / 8) a) b (512 * j + l.val))).symm
    · have e8 : (n + 1) % 8 = n % 8 + 1 := by omega
      have ed : (n + 1) / 8 = n / 8 := by omega
      have step : ((outsAt3 V c (n + 1) hn).2 : Vec Ideal S1024x256 .f32)
          = k3_pay2 (iblk3 V c 0 ⟨n + 1, hn⟩) (iblk3 V c 1 ⟨n + 1, hn⟩) (outsAt3 V c n (Nat.lt_of_succ_lt hn)).2 := by
        by_cases h1 : (n + 1) % 8 = 7
        · exact acc_at_last (F := Ideal) V c ⟨n + 1, hn⟩ h0 h1
        · exact acc_at_mid (F := Ideal) V c ⟨n + 1, hn⟩ h0 h1
      refine (congrFun step (ix2 a b)).trans ?_
      refine (step_at V c ⟨n + 1, hn⟩ _ a b).trans ?_
      rw [acc_inv c n (Nat.lt_of_succ_lt hn) a b]
      show _ + ∑ l : Fin 512, term (lhs V c) (rhs V c) (rowOf ((n + 1) / 8) a) b (512 * ((n + 1) % 8) + l.val) = _
      rw [e8, ed]
      exact (Finset.sum_range_succ (fun j => ∑ l : Fin 512, term (lhs V c) (rhs V c) (rowOf (n / 8) a) b (512 * j + l.val)) (n % 8 + 1)).symm

/-- After a last reduction step the output window's buffer holds, at `(a, b)`, the whole contraction of row
    `1024 (t / 8) + a` of the left factor with column `b` of the right factor. -/
theorem out_value (c : Dev nD) (t : Fin cfg3.N) (h7 : t.val % 8 = 7) (a : Fin 1024) (b : Fin 256) :
    ((outsAt3 V c t.val t.isLt).1 : Vec Ideal S1024x256 .f32) (ix2 a b)
      = ∑ k : Fin 4096, lhs V c (ix2 (rowOf (t.val / 8) a) k) * rhs V c (ix2 k b) := by
  have h0 : ¬t.val % 8 = 0 := by omega
  have e : ((outsAt3 V c t.val t.isLt).1 : Vec Ideal S1024x256 .f32) = (outsAt3 V c t.val t.isLt).2 :=
    (out_at_last (F := Ideal) V c t h0 h7).trans (acc_at_last (F := Ideal) V c t h0 h7).symm
  rw [e, acc_inv V c t.val t.isLt a b, h7]
  exact contraction_blocks (lhs V c) (rhs V c) (rowOf (t.val / 8) a) b

/-! ## From blocks to the array -/

/-- The product of the two factors as the region finds them, as one function of the output array's index. -/
def product (c : Dev nD) : FVec Ideal S4096x256 .f32 := fun i => ∑ k : Fin 4096, lhs V c (ix2 (i 0) k) * rhs V c (ix2 k (i 1))

/-- What a last reduction step's position writes back is its row block of the product. -/
theorem flushed_eq (c : Dev nD) (t : Fin cfg3.N) (hf : (cfg3.win 2).flush t = true) :
    (dat3 (F := Ideal) V c).flushed 2 t = ((cfg3.win 2).blk t).view.read (Elt Ideal) (product V c) := by
  have hN : t.val < 32 := lt_of_lt_of_eq t.isLt (show cfg3.N = 32 from N_3)
  have h7 : t.val % 8 = 7 := (flush3_2 t).mp hf
  obtain ⟨-, -, -, -, e0, e1⟩ := idx_facts t
  show (cfg3.win 2).cut (grid3.coords t) ((dat3 (F := Ideal) V c).after 2 t) = _
  rw [after3_2]
  have key : ((outsAt3 V c t.val t.isLt).1 : Vec Ideal S1024x256 .f32)
      = fun y : S1024x256.Idx => product V c (ix2 (rowOf (t.val / 8) (y 0)) (y 1)) := funext fun y => by
    obtain ⟨a, b, rfl⟩ : ∃ (a : Fin 1024) (b : Fin 256), y = ix2 a b := ⟨y 0, y 1, eq_ix2 y⟩
    exact out_value V c t h7 a b
  rw [key]
  funext j
  rw [View.read_apply]
  show product V c (ix2 (rowOf (t.val / 8) (j 0)) (j 1)) = product V c _
  congr 1
  funext d
  apply Fin.ext
  match d with
  | ⟨0, _⟩ =>
    have hj : (j 0).val < 1024 := (j 0).isLt
    show (1024 * (t.val / 8) + (j 0).val) % 4096 = win3_2.index t (0 : Fin 2) * 1024 + 1 * (j 0).val
    rw [e0]; omega
  | ⟨1, _⟩ =>
    show (j 1).val = win3_2.index t (1 : Fin 2) * 256 + 1 * (j 1).val
    rw [e1]; omega

/-- An index of the output array is in position `t`'s block iff each coordinate is in the block's range. -/
theorem mem_blk (t : Fin cfg3.N) (i : S4096x256.Idx) :
    i ∈ ((cfg3.win 2).blk t).view.set ↔ ∀ d : Fin 2, win3_2.index t d * S1024x256.size d ≤ (i d).val ∧ (i d).val < win3_2.index t d * S1024x256.size d + S1024x256.size d := by
  show i ∈ ((View.whole main_v36).slice (win3_2.rect t)).set ↔ _
  rw [View.set_slice_whole, Rect.mem_set_unit]
  exact Iff.rfl

/-- THE OUTPUT ARRAY after the region is the product: row `r` is written back by the last reduction step of row block
    `r / 1024`, position `8 (r / 1024) + 7`. -/
theorem final3 (c : Dev nD) : (dat3 (F := Ideal) V c).arrAt 2 cfg3.N = product V c :=
  (dat3 (F := Ideal) V c).arrAt_eq_of_cover 2 (product V c) (flushed_eq V c) fun i => by
    have hi0 : (i 0).val < 4096 := (i 0).isLt
    have hi1 : (i 1).val < 256 := (i 1).isLt
    have hN : cfg3.N = 32 := N_3
    let t : Fin cfg3.N := ⟨8 * ((i 0).val / 1024) + 7, by rw [hN]; omega⟩
    have ht : t.val = 8 * ((i 0).val / 1024) + 7 := rfl
    obtain ⟨-, -, -, -, e0, e1⟩ := idx_facts t
    refine ⟨t, (flush3_2 t).mpr (by rw [ht]; omega), ?_⟩
    rw [mem_blk]
    intro d
    match d with
    | ⟨0, _⟩ =>
      show win3_2.index t (0 : Fin 2) * 1024 ≤ (i 0).val ∧ (i 0).val < win3_2.index t (0 : Fin 2) * 1024 + 1024
      rw [e0, ht]; omega
    | ⟨1, _⟩ =>
      show win3_2.index t (1 : Fin 2) * 256 ≤ (i 1).val ∧ (i 1).val < win3_2.index t (1 : Fin 2) * 256 + 256
      rw [e1]; omega

/-- The output array after the region. -/
abbrev outArr (c : Dev nD) : FVec Ideal S4096x256 .f32 := (dat3 (F := Ideal) V c).arrAt 2 cfg3.N

/-- Entry `(a, b)` of the output array after the region: the whole 4096-term contraction of row `a` of the left factor
    with column `b` of the right factor, both as the region finds them (`lhs V c` is `V c main_arg5`, `rhs V c` is
    `V c main_arg1`, `outArr V c` is the proof data's `arrAt 2 cfg3.N`: all three by definition). -/
theorem final3_at (c : Dev nD) (a : Fin 4096) (b : Fin 256) :
    outArr V c (ix2 a b) = ∑ k : Fin 4096, lhs V c (ix2 a k) * rhs V c (ix2 k b) :=
  congrFun (final3 V c) (ix2 a b)

end Cert.KernelIdeal.RegionValue3

end
-- ==== Proof.LibIndexMasks.lean ====
import Idealize.ShloMosaic.Lib.WordArith
import Idealize.ShloMosaic.Lib.ValueIdx
import Idealize.ShloMosaic.Lib.IdealHost

/-!
# Masks from two index counters, and a choice by a mask, read at an entry

Host code that builds a matrix by position — below the diagonal one source, on it a constant, above it another —
compares a column counter with a row counter, both 32-bit words counting from zero, with a signed "less than" and
with "equal", and chooses by the resulting one-bit masks. For counters below `2 ^ 31` the signed comparison of the
words is the comparison of the numbers, and distinct numbers are distinct words; so at entry `(i, j)` the two masks
are the truth values of `j < i` and of `j = i`, and a choice by a mask is an `if`.
-/

namespace IndexMasks

open Idealize.ShloMosaic Idealize.ShloMosaic.ValueIdx

/-- Signed "less than" on two small counters is "less than" on the numbers. -/
theorem slt_small (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  by_cases h : a < b
  · have e : (BitVec.ofNat 32 a).slt (BitVec.ofNat 32 b) = true := by
      rw [BitVec.slt_iff_toInt_lt, WordArith.toInt_ofNat_small a ha, WordArith.toInt_ofNat_small b hb]
      exact_mod_cast h
    rw [e, if_pos h]; rfl
  · have e : (BitVec.ofNat 32 a).slt (BitVec.ofNat 32 b) = false := by
      rw [Bool.eq_false_iff]
      intro hh
      rw [BitVec.slt_iff_toInt_lt, WordArith.toInt_ofNat_small a ha, WordArith.toInt_ofNat_small b hb] at hh
      exact h (by exact_mod_cast hh)
    rw [e, if_neg h]; rfl

/-- Equality of two small counters' words is equality of the numbers. -/
theorem eq_small (a b : ℕ) (ha : a < 2 ^ 31) (hb : b < 2 ^ 31) :
    IntOp.cmpi .eq (BitVec.ofNat 32 a) (BitVec.ofNat 32 b) = if a = b then 1#1 else 0#1 := by
  show BitVec.ofBool (BitVec.ofNat 32 a == BitVec.ofNat 32 b) = _
  have ha' : a < 2147483648 := ha
  have hb' : b < 2147483648 := hb
  by_cases h : a = b
  · subst h
    rw [if_pos rfl, beq_self_eq_true]; rfl
  · have e : (BitVec.ofNat 32 a == BitVec.ofNat 32 b) = false := by
      rw [beq_eq_false_iff_ne]
      intro hw
      have hn := congrArg BitVec.toNat hw
      rw [BitVec.toNat_ofNat, BitVec.toNat_ofNat] at hn
      have e32 : (2 : ℕ) ^ 32 = 4294967296 := by norm_num
      rw [e32] at hn
      omega
    rw [e, if_neg h]; rfl

/-- A choice by a mask that is the truth value of `P` is an `if` on `P`. -/
theorem select_ite {α : Type} (P : Prop) [Decidable P] (x y : α) :
    Scalar.select (if P then 1#1 else 0#1) x y = if P then x else y := by
  by_cases h : P
  · rw [if_pos h, if_pos h]; exact select_one x y
  · rw [if_neg h, if_neg h]; exact select_zero x y

end IndexMasks
-- ==== Proof.KI.GlueSquare.lean ====
/- The array operations between the kernel regions that rebuild a square matrix from a matrix with one column fewer,
   read at an entry over the extended reals. Row i of the source lists the row's off-diagonal entries in order; the
   square matrix has, in row i, the source's entries at the columns before i, a chosen value on the diagonal, and the
   source's entries shifted right by one after it. The program builds it without a scatter: the source padded with a
   zero column on the right serves the columns before the diagonal, the source padded with a zero column on the left
   serves the columns after it, and two masks from a column counter and a row counter choose between them. The second
   matrix is built the same way from the source clamped below at zero, with one on the diagonal. -/
import proofs.«140739_j42683384987781_2_alg».proof.Proof.KI.Run
import proofs.«140739_j42683384987781_2_alg».proof.Proof.LibIndexMasks
import Idealize.ShloMosaic.Lib.ValueIdx
import Idealize.ShloMosaic.Lib.IdealHost
import Idealize.ShloMosaic.Lib.Pipeline.Value

set_option maxRecDepth 16384

noncomputable section

namespace Cert.KernelIdeal.Glue

open Idealize.ShloMosaic Idealize.ShloMosaic.TcCoe Idealize.ShloMosaic.ValueIdx
open Idealize.SL.Sem
open Cert.KernelIdeal Cert.KernelIdeal.Gen

/-! ## Pad and select, for any source and any diagonal -/

/-- A column of zeros. -/
abbrev zcol : FVec Ideal S4096x1 .f32 := broadcastInDim S4096x1 ![] bcast_S_S4096x1 (constant (F := Ideal) S_ .f32 0x00000000#32)

/-- The column counter is below the row counter. -/
abbrev beforeDiag : IVec S4096x4096 1 := cmpi .slt (iotaInDim S4096x4096 32 1) (iotaInDim S4096x4096 32 0)
/-- The column counter equals the row counter. -/
abbrev onDiag : IVec S4096x4096 1 := cmpi .eq (iotaInDim S4096x4096 32 1) (iotaInDim S4096x4096 32 0)

/-- The square matrix built from the source `X` and the diagonal values `D`. -/
def padSelect (X : FVec Ideal S4096x4095 .f32) (D : FVec Ideal S4096x4096 .f32) : FVec Ideal S4096x4096 .f32 :=
  select beforeDiag
    (concatenate S4096x4096 1 [⟨S4096x4095, X⟩, ⟨S4096x1, zcol⟩] concatenates_S4096x4095_S4096x1_S4096x4096_d1)
    (select onDiag D
      (concatenate S4096x4096 1 [⟨S4096x1, zcol⟩, ⟨S4096x4095, X⟩] concatenates_S4096x1_S4096x4095_S4096x4096_d1))

theorem small (k : Fin 4096) : k.val < 2 ^ 31 := Nat.lt_of_lt_of_le k.isLt (by norm_num)

/-- The first mask at `(i, j)` is the truth value of `j < i`. -/
theorem beforeDiag_at (i j : Fin 4096) : beforeDiag (ix2 i j) = if j.val < i.val then 1#1 else 0#1 :=
  IndexMasks.slt_small j.val i.val (small j) (small i)

/-- The second mask at `(i, j)` is the truth value of `j = i`. -/
theorem onDiag_at (i j : Fin 4096) : onDiag (ix2 i j) = if j.val = i.val then 1#1 else 0#1 :=
  IndexMasks.eq_small j.val i.val (small j) (small i)

/-- Before the diagonal the source padded on the right reads the source at the same column. -/
theorem padRight_at (X : FVec Ideal S4096x4095 .f32) (i j : Fin 4096) (h : j.val < 4095) :
    concatenate S4096x4096 1 [⟨S4096x4095, X⟩, ⟨S4096x1, zcol⟩] concatenates_S4096x4095_S4096x1_S4096x4096_d1 (ix2 i j)
      = X (ix2 i ⟨j.val, h⟩) :=
  concatenate_pair_apply_left (1 : Fin 2) X zcol _ (ix2 i j) rfl (ix2 i ⟨j.val, h⟩)
    (fun b => match b with | ⟨0, _⟩ => rfl | ⟨1, _⟩ => rfl)

/-- After the first column the source padded on the left reads the source one column to the left. -/
theorem padLeft_at (X : FVec Ideal S4096x4095 .f32) (i j : Fin 4096) (h : 1 ≤ j.val) :
    concatenate S4096x4096 1 [⟨S4096x1, zcol⟩, ⟨S4096x4095, X⟩] concatenates_S4096x1_S4096x4095_S4096x4096_d1 (ix2 i j)
      = X (ix2 i ⟨j.val - 1, by have := j.isLt; omega⟩) :=
  concatenate_pair_apply_right (1 : Fin 2) zcol X _ (ix2 i j) rfl rfl (ix2 i ⟨j.val - 1, by have := j.isLt; omega⟩)
    (fun b hb => match b, hb with
      | ⟨0, _⟩, _ => rfl
      | ⟨1, _⟩, hb => absurd rfl hb)
    (by show j.val - 1 + 1 = j.val; omega)

/-- THE ENTRIES of the square matrix: before the diagonal the source at the same column, on it the diagonal value,
    after it the source one column to the left. -/
theorem padSelect_at (X : FVec Ideal S4096x4095 .f32) (D : FVec Ideal S4096x4096 .f32) (i j : Fin 4096) :
    padSelect X D (ix2 i j)
      = if h : j.val < i.val then X (ix2 i ⟨j.val, by have := i.isLt; omega⟩)
        else if h' : j.val = i.val then D (ix2 i j)
        else X (ix2 i ⟨j.val - 1, by have := j.isLt; omega⟩) := by
  have hi := i.isLt
  have hj := j.isLt
  unfold padSelect
  rw [select_apply, beforeDiag_at, IndexMasks.select_ite]
  by_cases h : j.val < i.val
  · rw [if_pos h, dif_pos h]
    exact padRight_at X i j (by omega)
  · rw [if_neg h, dif_neg h, select_apply, onDiag_at, IndexMasks.select_ite]
    by_cases h' : j.val = i.val
    · rw [if_pos h', dif_pos h']
    · rw [if_neg h', dif_neg h']
      exact padLeft_at X i j (by omega)

/-! ## The program's two matrices -/

variable (m : (ℓ : Loc nD τ sig) → Buf (Elt Ideal) ℓ) (c : Dev nD)

/-- The source as launched: row `i` lists the off-diagonal entries of row `i`. -/
abbrev src : FVec Ideal S4096x4095 .f32 := m ((c : Thread nD τ).loc main_arg3)
/-- The first square matrix, as region 1 finds it. -/
abbrev msfull : FVec Ideal S4096x4096 .f32 := U4 m c main_v9
/-- The second square matrix, as the later regions find it. -/
abbrev incall : FVec Ideal S4096x4096 .f32 := U8 m c main_v34

/-- Region 0 does not write the source. -/
theorem src_after_region0 : (U1 m c (Proc.devRef .tc main_arg3) : FVec Ideal S4096x4095 .f32) = src m c :=
  U1_of_ne m c main_arg3 (by decide)

set_option maxHeartbeats 4000000 in
/-- The first matrix is the pad-and-select of the source with a zero diagonal: the operations' results read back. -/
theorem msfull_eq : msfull m c
    = padSelect (src m c) (broadcastInDim S4096x4096 ![] bcast_S_S4096x4096 (constant (F := Ideal) S_ .f32 0x00000000#32)) := by
  rw [← src_after_region0 m c]
  dsimp only [msfull, U4, U3, U2]
  simp only [hostOps1, hostOps1_1, hostOps1_2]
  after_results
  rfl

/-- Entry `(i, j)` of the first matrix: the source before the diagonal, zero on it, the source shifted after it. -/
theorem msfull_at (i j : Fin 4096) :
    msfull m c (ix2 i j)
      = if h : j.val < i.val then src m c (ix2 i ⟨j.val, by have := i.isLt; omega⟩)
        else if h' : j.val = i.val then 0
        else src m c (ix2 i ⟨j.val - 1, by have := j.isLt; omega⟩) := by
  rw [msfull_eq, padSelect_at]
  by_cases h : j.val < i.val
  · rw [dif_pos h, dif_pos h]
  · rw [dif_neg h, dif_neg h]
    by_cases h' : j.val = i.val
    · rw [dif_pos h', dif_pos h', broadcastInDim_scalar_apply, constant_apply, Ideal.ofBits_zero_f32]
    · rw [dif_neg h', dif_neg h']

/-- Neither region 1 nor the operations before it write the source. -/
theorem src_after_region1 : (U5 m c (Proc.devRef .tc main_arg3) : FVec Ideal S4096x4095 .f32) = src m c := by
  rw [U5_of_ne m c main_arg3 (by decide), ← src_after_region0 m c]
  dsimp only [U4, U3, U2]
  simp only [hostOps1, hostOps1_1, hostOps1_2]
  after_results

/-- The source clamped below at zero. -/
abbrev clamped : FVec Ideal S4096x4095 .f32 :=
  maximumf (src m c) (broadcastInDim S4096x4095 ![] bcast_S_S4096x4095 (constant (F := Ideal) S_ .f32 0x00000000#32))

set_option maxHeartbeats 8000000 in
/-- The second matrix is the pad-and-select of the clamped source with the constant `1.0` on the diagonal: the
    operations' results read back. -/
theorem incall_eq : incall m c
    = padSelect (clamped m c) (broadcastInDim S4096x4096 ![] bcast_S_S4096x4096 (constant (F := Ideal) S_ .f32 0x3F800000#32)) := by
  unfold clamped
  rw [← src_after_region1 m c]
  dsimp only [incall, U8, U7, U6]
  simp only [hostOps2, hostOps2_1, hostOps2_2]
  after_results
  rfl

/-- Entry `(i, j)` of the second matrix: the clamped source before the diagonal, one on it, the clamped source
    shifted after it. -/
theorem incall_at (i j : Fin 4096) :
    incall m c (ix2 i j)
      = if h : j.val < i.val then max (src m c (ix2 i ⟨j.val, by have := i.isLt; omega⟩)) 0
        else if h' : j.val = i.val then 1
        else max (src m c (ix2 i ⟨j.val - 1, by have := j.isLt; omega⟩)) 0 := by
  rw [incall_eq, padSelect_at]
  by_cases h : j.val < i.val
  · rw [dif_pos h, dif_pos h]
    unfold clamped
    rw [maximumf_apply, broadcastInDim_scalar_apply, constant_apply, Ideal.ofBits_zero_f32]
  · rw [dif_neg h, dif_neg h]
    by_cases h' : j.val = i.val
    · rw [dif_pos h', dif_pos h', broadcastInDim_scalar_apply, constant_apply, Ideal.ofBits_one_f32]
    · rw [dif_neg h', dif_neg h']
      unfold clamped
      rw [maximumf_apply, broadcastInDim_scalar_apply, constant_apply, Ideal.ofBits_zero_f32]

end Cert.KernelIdeal.Glue

end
-- ==== Proof.LibScatterSet.lean ====
/-
  A host scatter that SETS (the body returns the update), read at an index.

  The host's scatter folds over the update indices in row-major order; each update either lands at an operand
  index (its start index, read off the index array, plus its window coordinate, when that is inside the operand) or
  is dropped.  When at most one update lands at a given operand index, the result there is that update's value
  if there is one and the operand's own entry otherwise: the order of the fold does not matter.
-/
import Idealize.ShloMosaic.PureOps.ShapeOps

namespace Idealize.ShloMosaic.LibScatterSet

open Idealize.ShloMosaic

variable {α : Type} {s si u : Shape} {w : Nat}

/-- One step of the fold, read at an index: the update's value if the update lands there, else what was there. -/
theorem step_apply (g : Option s.Idx) (r : s.Idx → α) (v : α) (j : s.Idx) :
    (match g with
      | some i => fun i' => if i' = i then (fun (_ b : α) => b) (r i) v else r i'
      | none => r) j = if g = some j then v else r j := by
  cases g with
  | none => simp
  | some i =>
    by_cases h : j = i
    · subst h; simp
    · have h' : ¬ (some i = some j) := fun e => h (Option.some.inj e).symm
      simp [h, h']

/-- The fold over any list of update numbers, read at an operand index that at most the update `j0` lands at. -/
theorem foldl_set_apply (d : ScatterDims s si u) (idx : IVec si w) (upd : u.Idx → α) (i' : s.Idx) (j0 : u.Idx)
    (uniq : ∀ j, d.resultIdx? j idx = some i' → j = j0) (l : List (Fin u.numel)) (r : s.Idx → α) :
    (l.foldl (fun r n =>
        match d.resultIdx? (u.rowMajor.symm n) idx with
        | some i => fun i'' => if i'' = i then (fun (_ b : α) => b) (r i) (upd (u.rowMajor.symm n)) else r i''
        | none => r) r) i'
      = if u.rowMajor j0 ∈ l ∧ d.resultIdx? j0 idx = some i' then upd j0 else r i' := by
  induction l generalizing r with
  | nil => simp
  | cons a l ih =>
    rw [List.foldl_cons, ih, step_apply]
    by_cases ha : d.resultIdx? (u.rowMajor.symm a) idx = some i'
    · have hj : u.rowMajor.symm a = j0 := uniq _ ha
      have hhit : d.resultIdx? j0 idx = some i' := hj ▸ ha
      have hmem : u.rowMajor j0 ∈ a :: l := by rw [← hj]; simp
      have hR : (if u.rowMajor j0 ∈ a :: l ∧ d.resultIdx? j0 idx = some i' then upd j0 else r i') = upd j0 := if_pos ⟨hmem, hhit⟩
      rw [hR, if_pos ha, hj]
      split <;> rfl
    · rw [if_neg ha]
      by_cases hhit : d.resultIdx? j0 idx = some i'
      · have hne : a ≠ u.rowMajor j0 := fun e => ha (by rw [e, Equiv.symm_apply_apply]; exact hhit)
        have hiff : (u.rowMajor j0 ∈ a :: l) ↔ (u.rowMajor j0 ∈ l) := by
          rw [List.mem_cons]; exact ⟨fun h => h.resolve_left (fun e => hne e.symm), Or.inr⟩
        simp only [hiff]
      · simp [hhit]

/-- THE SCATTER AT AN INDEX that at most one update lands at: that update's value when it lands there, the
    operand's entry when it does not. -/
theorem scatter_set_apply (d : ScatterDims s si u) (x : s.Idx → α) (idx : IVec si w) (upd : u.Idx → α) (i' : s.Idx) (j0 : u.Idx)
    (uniq : ∀ j, d.resultIdx? j idx = some i' → j = j0) :
    Host.scatter d (fun _ b => b) x idx upd i' = if d.resultIdx? j0 idx = some i' then upd j0 else x i' := by
  refine (foldl_set_apply d idx upd i' j0 uniq (List.finRange u.numel) x).trans ?_
  simp [List.mem_finRange]

end Idealize.ShloMosaic.LibScatterSet
-- ==== Proof.RefScatter.lean ====
/-
  The reference builds its zero-diagonal square matrix by a scatter: row `i`'s `k`-th stored value goes to column
  `k` when `k < i` and to column `k + 1` otherwise, the row and column numbers computed as two integer arrays over the
  flattened 4096 · 4095 values.  Here: what that scatter holds at an entry, for ANY operand, index array and values,
  given only the two integer arrays' entries.  No two values land on one entry, and the diagonal is never hit, so an
  entry left of the diagonal holds the row's value at the same position, an entry right of it the value one position
  earlier, and a diagonal entry the operand's own.
-/
import proofs.«140739_j42683384987781_2_alg».proof.Proof.Gen.ReferenceIdeal.Read
import proofs.«140739_j42683384987781_2_alg».proof.Proof.LibScatterSet
import Idealize.ShloMosaic.Lib.ValueIdx
import Idealize.ShloMosaic.Lib.WordArith

set_option maxRecDepth 16384

noncomputable section

namespace Cert.ReferenceIdeal.Scatter

open Cert.ReferenceIdeal Cert.ReferenceIdeal.Gen Idealize.ShloMosaic Idealize.ShloMosaic.ValueIdx

/-- The scatter's dimension record: both operand axes are indexed, no window axis. -/
abbrev Dsc : ScatterDims S4096x4096 S16773120x2 S16773120 := scatter_S4096x4096_S16773120x2_S16773120_n_01_01_1

/-- Entry `(n, a)` of the index array: component `a` of update `n`'s target. -/
abbrev pairIdx (j : S16773120.Idx) (a : Fin 2) : S16773120x2.Idx := fun b => match b with
  | ⟨0, _⟩ => ⟨(j 0).val, (j 0).isLt⟩
  | ⟨1, _⟩ => ⟨a.val, a.isLt⟩

/-- The start of update `j`'s window on operand axis `a` is the index array's entry `(j, a)`, read signed. -/
theorem start_eq (j : S16773120.Idx) (idx : IVec S16773120x2 32) (a : Fin 2) :
    Dsc.start j idx a = (idx (pairIdx j a)).toInt := by
  unfold ScatterDims.start
  have ha : a ∈ Dsc.scatterDimsToOperandDims := by fin_cases a <;> decide
  rw [dif_pos ha]
  refine congrArg (fun z => (idx z).toInt) ?_
  funext b
  fin_cases a <;> fin_cases b
  all_goals first | rfl | (apply Fin.ext; rfl) | (apply Fin.ext; simp [ScatterDims.siIdx, ScatterDims.siCoord, Dsc, scatter_S4096x4096_S16773120x2_S16773120_n_01_01_1]; done)

/-- There is no window coordinate: every update is one element. -/
theorem window_eq (j : S16773120.Idx) (a : Fin 2) : Dsc.window j a = 0 := by
  unfold ScatterDims.window
  have ha : a ∉ Dsc.sKept := by fin_cases a <;> decide
  rw [dif_neg ha]

/-- A small natural number as a 32-bit word, read signed, is itself. -/
theorem toInt_small (n : Nat) (h : n < 2147483648) : (BitVec.ofNat 32 n).toInt = (n : Int) :=
  WordArith.toInt_ofNat_small n (by omega)

/-- Row and column of the flattened update `n`: row `n / 4095`; column `n % 4095`, one more from the diagonal on. -/
def rowOf (n : Nat) : Nat := n / 4095
def colOf (n : Nat) : Nat := n % 4095 + (if n / 4095 ≤ n % 4095 then 1 else 0)

variable {α : Type} (x : S4096x4096.Idx → α) (idx : IVec S16773120x2 32) (upd : S16773120.Idx → α)
variable (hrow : ∀ j : S16773120.Idx, idx (pairIdx j 0) = BitVec.ofNat 32 (rowOf (j 0).val))
variable (hcol : ∀ j : S16773120.Idx, idx (pairIdx j 1) = BitVec.ofNat 32 (colOf (j 0).val))

include hrow hcol in
/-- Every update lands inside the matrix, at its row and column. -/
theorem resultIdx_eq (j : S16773120.Idx) :
    Dsc.resultIdx? j idx = some (ix2 ⟨rowOf (j 0).val, by unfold rowOf; have hn : (j 0).val < 16773120 := (j 0).isLt; omega⟩
      ⟨colOf (j 0).val, by unfold colOf; have hn : (j 0).val < 16773120 := (j 0).isLt; split <;> omega⟩) := by
  have hn : (j 0).val < 16773120 := (j 0).isLt
  have hr : rowOf (j 0).val < 4096 := by unfold rowOf; omega
  have hc : colOf (j 0).val < 4096 := by unfold colOf; split <;> omega
  have s0 : Dsc.start j idx 0 + Dsc.window j 0 = (rowOf (j 0).val : Int) := by
    rw [start_eq, window_eq, hrow, toInt_small _ (by omega)]; simp
  have s1 : Dsc.start j idx 1 + Dsc.window j 1 = (colOf (j 0).val : Int) := by
    rw [start_eq, window_eq, hcol, toInt_small _ (by omega)]; simp
  unfold ScatterDims.resultIdx?
  have hb : ∀ a : Fin 2, 0 ≤ Dsc.start j idx a + Dsc.window j a ∧ Dsc.start j idx a + Dsc.window j a < S4096x4096.size a := by
    intro a
    fin_cases a
    · show 0 ≤ Dsc.start j idx 0 + Dsc.window j 0 ∧ Dsc.start j idx 0 + Dsc.window j 0 < (4096 : Nat); rw [s0]; omega
    · show 0 ≤ Dsc.start j idx 1 + Dsc.window j 1 ∧ Dsc.start j idx 1 + Dsc.window j 1 < (4096 : Nat); rw [s1]; omega
  rw [dif_pos hb]
  refine congrArg some ?_
  funext a
  apply Fin.ext
  fin_cases a
  · show (Dsc.start j idx 0 + Dsc.window j 0).toNat = rowOf (j 0).val; rw [s0]; simp
  · show (Dsc.start j idx 1 + Dsc.window j 1).toNat = colOf (j 0).val; rw [s1]; simp

/-- The flattened position of row `i`'s `k`-th value. -/
def flat (i : Fin 4096) (k : Fin 4095) : S16773120.Idx := ix1 ⟨i.val * 4095 + k.val, by have := i.isLt; have := k.isLt; omega⟩

include hrow hcol in
/-- THE SCATTER AT AN ENTRY: left of the diagonal the row's value at the same position, on the diagonal the
    operand's own entry, right of it the row's value one position earlier. -/
theorem scatter_pad_at (a b : Fin 4096) :
    Host.scatter Dsc (fun _ v => v) x idx upd (ix2 a b)
      = if h : b.val < a.val then upd (flat a ⟨b.val, by omega⟩)
        else if h' : b.val = a.val then x (ix2 a b)
        else upd (flat a ⟨b.val - 1, by have := b.isLt; omega⟩) := by
  have ha := a.isLt
  have hb := b.isLt
  -- an update lands at (a, b) only from the position the case split names
  have land : ∀ j : S16773120.Idx, Dsc.resultIdx? j idx = some (ix2 a b) → rowOf (j 0).val = a.val ∧ colOf (j 0).val = b.val := by
    intro j hj
    rw [resultIdx_eq idx hrow hcol j] at hj
    exact ⟨congrArg (fun z : S4096x4096.Idx => (z 0).val) (Option.some.inj hj),
      congrArg (fun z : S4096x4096.Idx => (z 1).val) (Option.some.inj hj)⟩
  have flat_ext : ∀ (j : S16773120.Idx) (k : Fin 4095), (j 0).val = a.val * 4095 + k.val → j = flat a k := by
    intro j k h
    funext q
    apply Fin.ext
    match q with
    | ⟨0, _⟩ => exact h
  by_cases h : b.val < a.val
  · rw [dif_pos h]
    have uniq : ∀ j : S16773120.Idx, Dsc.resultIdx? j idx = some (ix2 a b) → j = flat a ⟨b.val, by omega⟩ := by
      intro j hj
      obtain ⟨h0, h1⟩ := land j hj
      have hn : (j 0).val < 16773120 := (j 0).isLt
      refine flat_ext j _ ?_
      unfold rowOf at h0; unfold colOf at h1
      show (j 0).val = a.val * 4095 + b.val
      split at h1 <;> omega
    rw [LibScatterSet.scatter_set_apply Dsc x idx upd (ix2 a b) _ uniq, if_pos]
    rw [resultIdx_eq idx hrow hcol]
    refine congrArg some ?_
    funext q
    apply Fin.ext
    match q with
    | ⟨0, _⟩ => show rowOf (a.val * 4095 + b.val) = a.val; unfold rowOf; omega
    | ⟨1, _⟩ => show colOf (a.val * 4095 + b.val) = b.val; unfold colOf; split <;> omega
  · rw [dif_neg h]
    by_cases h' : b.val = a.val
    · rw [dif_pos h']
      have uniq : ∀ j : S16773120.Idx, Dsc.resultIdx? j idx = some (ix2 a b) → j = flat a ⟨0, by omega⟩ := by
        intro j hj
        obtain ⟨h0, h1⟩ := land j hj
        have hn : (j 0).val < 16773120 := (j 0).isLt
        exfalso
        unfold rowOf at h0; unfold colOf at h1
        split at h1 <;> omega
      rw [LibScatterSet.scatter_set_apply Dsc x idx upd (ix2 a b) _ uniq, if_neg]
      intro hj
      obtain ⟨h0, h1⟩ := land _ hj
      have e0 : (flat a ⟨0, by omega⟩ 0).val = a.val * 4095 + 0 := rfl
      rw [e0] at h0 h1
      unfold rowOf at h0; unfold colOf at h1
      split at h1 <;> omega
    · rw [dif_neg h']
      have uniq : ∀ j : S16773120.Idx, Dsc.resultIdx? j idx = some (ix2 a b) → j = flat a ⟨b.val - 1, by omega⟩ := by
        intro j hj
        obtain ⟨h0, h1⟩ := land j hj
        have hn : (j 0).val < 16773120 := (j 0).isLt
        refine flat_ext j _ ?_
        unfold rowOf at h0; unfold colOf at h1
        show (j 0).val = a.val * 4095 + (b.val - 1)
        split at h1 <;> omega
      rw [LibScatterSet.scatter_set_apply Dsc x idx upd (ix2 a b) _ uniq, if_pos]
      rw [resultIdx_eq idx hrow hcol]
      refine congrArg some ?_
      funext q
      apply Fin.ext
      match q with
      | ⟨0, _⟩ => show rowOf (a.val * 4095 + (b.val - 1)) = a.val; unfold rowOf; omega
      | ⟨1, _⟩ => show colOf (a.val * 4095 + (b.val - 1)) = b.val; unfold colOf; split <;> omega

end Cert.ReferenceIdeal.Scatter

end
-- ==== Proof.RefSquare.lean ====
/-
  The reference's two square matrices at an entry.  Its row and column arrays are small naturals as 32-bit words:
  the row is the flattened position divided by 4095, the column the remainder, plus one from the diagonal on; both
  are nonnegative, so the reference's wrap-around of negative indices never fires.  With the scatter read at an entry
  this gives the zero-diagonal matrix of the stored values, and, for the second matrix, the clipped values with the
  identity added.
-/
import proofs.«140739_j42683384987781_2_alg».proof.Proof.RefScatter
import Idealize.ShloMosaic.Lib.Pipeline.Value
import Idealize.ShloMosaic.Lib.Affine

set_option maxRecDepth 16384

noncomputable section

namespace Cert.ReferenceIdeal.Square

open Cert.ReferenceIdeal Cert.ReferenceIdeal.Gen Cert.ReferenceIdeal.Read Cert.ReferenceIdeal.Scatter
open Idealize.ShloMosaic Idealize.ShloMosaic.ValueIdx

/-- A word that is a small natural number is not negative, so the wrap-around select returns it. -/
theorem wrapWord (n : Nat) (hn : n < 2147483648) :
    Scalar.select (IntOp.cmpi .slt (BitVec.ofNat 32 n) 0#32) (IntOp.addi (BitVec.ofNat 32 n) 4096#32) (BitVec.ofNat 32 n) = BitVec.ofNat 32 n := by
  have h : ¬ (IntOp.cmpi .slt (BitVec.ofNat 32 n) 0#32 = 1#1) := by
    rw [IntOp.cmpi_slt, toInt_small _ hn, show (0#32 : BitVec 32).toInt = 0 from by decide]; omega
  unfold Scalar.select; exact if_neg h

/-- The column word: the position in the row, plus the one-bit "at or past the diagonal" widened to 32 bits. -/
theorem colWord (i k : Nat) (hi : i < 4096) (hk : k < 4095) :
    IntOp.addi (BitVec.ofNat 32 k) ((IntOp.cmpi .sge (BitVec.ofNat 32 k) (BitVec.ofNat 32 i)).setWidth 32)
      = BitVec.ofNat 32 (k + if i ≤ k then 1 else 0) := by
  unfold IntOp.addi
  by_cases h : i ≤ k
  · have e : IntOp.cmpi .sge (BitVec.ofNat 32 k) (BitVec.ofNat 32 i) = 1#1 := by
      rw [IntOp.cmpi_sge, toInt_small _ (by omega), toInt_small _ (by omega)]; omega
    rw [e, if_pos h, show ((1#1 : BitVec 1).setWidth 32) = 1#32 from by decide, BitVec.ofNat_add]
  · have e : IntOp.cmpi .sge (BitVec.ofNat 32 k) (BitVec.ofNat 32 i) = 0#1 := by
      rcases BitVec.eq_zero_or_eq_one (IntOp.cmpi .sge (BitVec.ofNat 32 k) (BitVec.ofNat 32 i)) with h0 | h1
      · exact h0
      · rw [IntOp.cmpi_sge, toInt_small _ (by omega), toInt_small _ (by omega)] at h1; omega
    rw [e, if_neg h, show ((0#1 : BitVec 1).setWidth 32) = 0#32 from by decide]; simp

/-! ## The two index arrays -/

theorem idxA_row (j : S16773120.Idx) : val_main_v30 (F := Ideal) (pairIdx j 0) = BitVec.ofNat 32 (rowOf (j 0).val) := by
  have hn : (j 0).val < 16773120 := (j 0).isLt
  unfold val_main_v30
  rw [concatenate_pair_apply_left (s₁ := S16773120x1) (s₂ := S16773120x1) (1 : Fin 2) _ _ _ (pairIdx j 0) rfl (ix2 ⟨(j 0).val, hn⟩ (0 : Fin 1)) (fun b => by
    match b with
    | ⟨0, _⟩ => rfl
    | ⟨1, _⟩ => rfl)]
  simp only [val_main_v28_apply, val_main_v22_apply, val_main_v19_apply, val_main_v21_apply, val_main_v15_apply, val_main_v13_apply, val_main_v12_apply, val_main_v11_apply, val_main_v18_apply, val_main_c_apply, val_main_v20_apply, val_main_c_0_apply]
  exact wrapWord _ (by show (j 0).val / 4095 < 2147483648; omega)

theorem idxA_col (j : S16773120.Idx) : val_main_v30 (F := Ideal) (pairIdx j 1) = BitVec.ofNat 32 (colOf (j 0).val) := by
  have hn : (j 0).val < 16773120 := (j 0).isLt
  unfold val_main_v30
  rw [concatenate_pair_apply_right (s₁ := S16773120x1) (s₂ := S16773120x1) (1 : Fin 2) _ _ _ (pairIdx j 1) rfl rfl (ix2 ⟨(j 0).val, hn⟩ (0 : Fin 1)) (fun b hb => by
    match b with
    | ⟨0, _⟩ => rfl
    | ⟨1, _⟩ => exact absurd rfl hb) rfl]
  simp only [val_main_v29_apply, val_main_v27_apply, val_main_v24_apply, val_main_v26_apply, val_main_v16_apply, val_main_v10_apply, val_main_v9_apply, val_main_v8_apply, val_main_v7_apply, val_main_v5_apply, val_main_v6_apply, val_main_v2_apply, val_main_v1_apply, val_main_v4_apply, val_main_v3_apply, val_main_v23_apply, val_main_c_1_apply, val_main_v25_apply, val_main_c_2_apply]
  show Scalar.select (IntOp.cmpi .slt (IntOp.addi (BitVec.ofNat 32 ((j 0).val % 4095)) ((IntOp.cmpi .sge (BitVec.ofNat 32 ((j 0).val % 4095)) (BitVec.ofNat 32 ((j 0).val / 4095))).setWidth 32)) 0#32)
    (IntOp.addi (IntOp.addi (BitVec.ofNat 32 ((j 0).val % 4095)) ((IntOp.cmpi .sge (BitVec.ofNat 32 ((j 0).val % 4095)) (BitVec.ofNat 32 ((j 0).val / 4095))).setWidth 32)) 4096#32)
    (IntOp.addi (BitVec.ofNat 32 ((j 0).val % 4095)) ((IntOp.cmpi .sge (BitVec.ofNat 32 ((j 0).val % 4095)) (BitVec.ofNat 32 ((j 0).val / 4095))).setWidth 32)) = _
  rw [colWord _ _ (by omega) (by omega)]
  exact wrapWord _ (by split <;> omega)

theorem idxB_row (j : S16773120.Idx) : val_main_v78 (F := Ideal) (pairIdx j 0) = BitVec.ofNat 32 (rowOf (j 0).val) := by
  have hn : (j 0).val < 16773120 := (j 0).isLt
  unfold val_main_v78
  rw [concatenate_pair_apply_left (s₁ := S16773120x1) (s₂ := S16773120x1) (1 : Fin 2) _ _ _ (pairIdx j 0) rfl (ix2 ⟨(j 0).val, hn⟩ (0 : Fin 1)) (fun b => by
    match b with
    | ⟨0, _⟩ => rfl
    | ⟨1, _⟩ => rfl)]
  simp only [val_main_v76_apply, val_main_v70_apply, val_main_v67_apply, val_main_v69_apply, val_main_v63_apply, val_main_v61_apply, val_main_v60_apply, val_main_v59_apply, val_main_v66_apply, val_main_c_11_apply, val_main_v68_apply, val_main_c_12_apply]
  exact wrapWord _ (by show (j 0).val / 4095 < 2147483648; omega)

theorem idxB_col (j : S16773120.Idx) : val_main_v78 (F := Ideal) (pairIdx j 1) = BitVec.ofNat 32 (colOf (j 0).val) := by
  have hn : (j 0).val < 16773120 := (j 0).isLt
  unfold val_main_v78
  rw [concatenate_pair_apply_right (s₁ := S16773120x1) (s₂ := S16773120x1) (1 : Fin 2) _ _ _ (pairIdx j 1) rfl rfl (ix2 ⟨(j 0).val, hn⟩ (0 : Fin 1)) (fun b hb => by
    match b with
    | ⟨0, _⟩ => rfl
    | ⟨1, _⟩ => exact absurd rfl hb) rfl]
  simp only [val_main_v77_apply, val_main_v75_apply, val_main_v72_apply, val_main_v74_apply, val_main_v64_apply, val_main_v58_apply, val_main_v57_apply, val_main_v56_apply, val_main_v55_apply, val_main_v53_apply, val_main_v54_apply, val_main_v50_apply, val_main_v49_apply, val_main_v52_apply, val_main_v51_apply, val_main_v71_apply, val_main_c_13_apply, val_main_v73_apply, val_main_c_14_apply]
  show Scalar.select (IntOp.cmpi .slt (IntOp.addi (BitVec.ofNat 32 ((j 0).val % 4095)) ((IntOp.cmpi .sge (BitVec.ofNat 32 ((j 0).val % 4095)) (BitVec.ofNat 32 ((j 0).val / 4095))).setWidth 32)) 0#32)
    (IntOp.addi (IntOp.addi (BitVec.ofNat 32 ((j 0).val % 4095)) ((IntOp.cmpi .sge (BitVec.ofNat 32 ((j 0).val % 4095)) (BitVec.ofNat 32 ((j 0).val / 4095))).setWidth 32)) 4096#32)
    (IntOp.addi (BitVec.ofNat 32 ((j 0).val % 4095)) ((IntOp.cmpi .sge (BitVec.ofNat 32 ((j 0).val % 4095)) (BitVec.ofNat 32 ((j 0).val / 4095))).setWidth 32)) = _
  rw [colWord _ _ (by omega) (by omega)]
  exact wrapWord _ (by split <;> omega)

/-! ## The two matrices at an entry -/

/-- The flattened position of row `a`'s `k`-th value, unflattened, is `(a, k)`. -/
theorem unflat (a : Fin 4096) (k : Fin 4095) :
    (fun q : Fin 2 => match q with
      | ⟨0, _⟩ => (⟨((flat a k) 0).val / 4095, by have := a.isLt; have := k.isLt; show (a.val * 4095 + k.val) / 4095 < 4096; omega⟩ : Fin (S4096x4095.size 0))
      | ⟨1, _⟩ => (⟨((flat a k) 0).val % 4095, by show (a.val * 4095 + k.val) % 4095 < 4095; omega⟩ : Fin (S4096x4095.size 1))) = (ix2 a k : S4096x4095.Idx) := by
  have ha := a.isLt; have hk := k.isLt
  funext q
  apply Fin.ext
  match q with
  | ⟨0, _⟩ => show (a.val * 4095 + k.val) / 4095 = a.val; omega
  | ⟨1, _⟩ => show (a.val * 4095 + k.val) % 4095 = k.val; omega

/-- THE FIRST MATRIX (zero diagonal) at an entry. -/
theorem msfull_ref_at (x3 : (⟨S4096x4095, .f32⟩ : BufTy).Contents (Elt Ideal)) (a b : Fin 4096) :
    val_main_v31 (F := Ideal) x3 (ix2 a b)
      = if h : b.val < a.val then x3 (ix2 a ⟨b.val, by have := a.isLt; omega⟩)
        else if h' : b.val = a.val then (0 : EReal)
        else x3 (ix2 a ⟨b.val - 1, by have := b.isLt; omega⟩) := by
  unfold val_main_v31
  rw [scatter_pad_at _ _ _ idxA_row idxA_col a b]
  have hu : ∀ k : Fin 4095, val_main_v17 (F := Ideal) x3 (flat a k) = x3 (ix2 a k) := by
    intro k
    rw [val_main_v17_apply]
    exact congrArg x3 (unflat a k)
  have hz : val_main_v14 (F := Ideal) (ix2 a b) = (0 : EReal) := by
    rw [val_main_v14_apply, val_main_cst_apply]; simp
  simp only [hu, hz]

/-- The clip the reference writes as a select on "greater than zero" is the maximum with zero. -/
theorem where_pos (x : EReal) : Scalar.select (Ideal.cmp .ogt x 0) x (0 : EReal) = max x 0 := by
  unfold Scalar.select Ideal.cmp
  by_cases h : (0 : EReal) < x
  · simp [h, max_eq_left (le_of_lt h)]
  · simp [h, max_eq_right (not_lt.mp h)]

/-- THE SECOND MATRIX (clipped values, ones on the diagonal) at an entry. -/
theorem incall_ref_at (x3 : (⟨S4096x4095, .f32⟩ : BufTy).Contents (Elt Ideal)) (a b : Fin 4096) :
    val_main_v86 (F := Ideal) x3 (ix2 a b)
      = if h : b.val < a.val then max (x3 (ix2 a ⟨b.val, by have := a.isLt; omega⟩)) 0
        else if h' : b.val = a.val then (1 : EReal)
        else max (x3 (ix2 a ⟨b.val - 1, by have := b.isLt; omega⟩)) 0 := by
  have ha := a.isLt; have hb := b.isLt
  rw [val_main_v86_apply]
  unfold val_main_v79
  rw [scatter_pad_at _ _ _ idxB_row idxB_col a b]
  have hu : ∀ k : Fin 4095, val_main_v65 (F := Ideal) x3 (flat a k) = max (x3 (ix2 a k)) 0 := by
    intro k
    rw [val_main_v65_apply, val_main_v48_apply, val_main_v47_apply, val_main_call0_v1_apply, val_main_call0_v0_apply,
      val_main_cst_9_apply, val_main_v46_apply, val_main_cst_8_apply]
    have e : idx_main_v65 (flat a k) = (ix2 a k : S4096x4095.Idx) := unflat a k
    rw [e]
    simp only [Ideal.cmpf_def, Ideal.ofBits_def, Ideal.ofBits_zero_f32]
    exact where_pos _
  have hz : val_main_v62 (F := Ideal) (ix2 a b) = (0 : EReal) := by
    rw [val_main_v62_apply, val_main_cst_10_apply]; simp
  have he : val_main_v85 (F := Ideal) (ix2 a b) = if b.val = a.val then (1 : EReal) else 0 := by
    rw [val_main_v85_apply, val_main_v84_apply, val_main_v83_apply, val_main_v80_apply, val_main_v81_apply, val_main_v82_apply, val_main_c_15_apply]
    show FloatOps.uitofp (F := Ideal) .f32 (IntOp.cmpi .eq (IntOp.addi (BitVec.ofNat 32 a.val) 0#32) (BitVec.ofNat 32 b.val)) = _
    unfold IntOp.addi
    rw [BitVec.add_zero]
    by_cases h : b.val = a.val
    · have e : IntOp.cmpi .eq (BitVec.ofNat 32 a.val) (BitVec.ofNat 32 b.val) = 1#1 := by rw [IntOp.cmpi_eq, h]
      rw [e, if_pos h]
      show (((1#1 : BitVec 1).toNat : ℝ) : EReal) = 1
      simp
    · have e : IntOp.cmpi .eq (BitVec.ofNat 32 a.val) (BitVec.ofNat 32 b.val) = 0#1 := by
        rcases BitVec.eq_zero_or_eq_one (IntOp.cmpi .eq (BitVec.ofNat 32 a.val) (BitVec.ofNat 32 b.val)) with h0 | h1
        · exact h0
        · rw [IntOp.cmpi_eq] at h1
          have := congrArg BitVec.toInt h1
          rw [toInt_small _ (by omega), toInt_small _ (by omega)] at this
          omega
      rw [e, if_neg h]
      show (((0#1 : BitVec 1).toNat : ℝ) : EReal) = 0
      simp
  simp only [hu, hz, he, Ideal.addf_def]
  by_cases h : b.val < a.val
  · have hne : ¬ b.val = a.val := by omega
    simp only [dif_pos h, if_neg hne, add_zero]
  · by_cases h' : b.val = a.val
    · simp only [dif_neg h, dif_pos h', if_pos h', zero_add]
    · simp only [dif_neg h, dif_neg h', if_neg h', add_zero]

end Cert.ReferenceIdeal.Square

end
-- ==== Proof.JoinLossB.lean ====
/-
  The other two matrix products that enter the loss: what regions 1 and 3 leave in their output arrays is what the
  reference's dot products compute, entry by entry. Both sides are the sum over the 4096 contraction indices of the
  same products. For region 3 the two factors are launch arguments on both sides. For region 1 the left factor is the
  square matrix rebuilt from the argument with one column fewer: the kernel program rebuilds it by padding and
  selecting, the reference by a scatter, and at every entry both give the argument before the diagonal, zero on it and
  the argument shifted by one column after it — so the summands agree term by term.
-/
import proofs.«140739_j42683384987781_2_alg».proof.Proof.JoinLossA
import proofs.«140739_j42683384987781_2_alg».proof.Proof.KI.R1Value
import proofs.«140739_j42683384987781_2_alg».proof.Proof.KI.R3Value
import proofs.«140739_j42683384987781_2_alg».proof.Proof.KI.GlueSquare
import proofs.«140739_j42683384987781_2_alg».proof.Proof.RefSquare

set_option maxRecDepth 16384

noncomputable section

namespace Cert.Proof.JoinLoss

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Region 3's product is the reference's product of the same two arguments. -/
theorem join_v36 (c : Dev nD) :
    kv36 m c = Cert.ReferenceIdeal.Read.val_main_v88 (F := Ideal) (a1 m c) (a5 m c) := by
  funext i
  obtain ⟨a, b, rfl⟩ : ∃ (a : Fin 4096) (b : Fin 256), i = ix2 a b := ⟨i 0, i 1, eq_ix2 i⟩
  rw [Cert.ReferenceIdeal.Read.val_main_v88_apply]
  have e1 : kv36 m c (ix2 a b)
      = ∑ k : Fin 4096, RegionValue3.lhs (fun c b => U9 m c b) c (ix2 a k) * RegionValue3.rhs (fun c b => U9 m c b) c (ix2 k b) :=
    (congrFun (U10_arr m c 2) (ix2 a b)).trans (RegionValue3.final3_at (fun c b => U9 m c b) c a b)
  have hA : RegionValue3.lhs (fun c b => U9 m c b) c = a5 m c := U9_main_arg5 m c
  have hB : RegionValue3.rhs (fun c b => U9 m c b) c = a1 m c := U9_main_arg1 m c
  rw [e1, hA, hB]
  refine Finset.sum_congr rfl fun k _ => ?_
  have hl : Cert.ReferenceIdeal.Read.lidx_main_v88 (ix2 a b) k = (ix2 a k : Cert.ReferenceIdeal.S4096x4096.Idx) :=
    funext fun q => Fin.ext (by match q with | ⟨0, _⟩ => rfl | ⟨1, _⟩ => rfl)
  have hr : Cert.ReferenceIdeal.Read.ridx_main_v88 (ix2 a b) k = (ix2 k b : Cert.ReferenceIdeal.S4096x256.Idx) :=
    funext fun q => Fin.ext (by match q with | ⟨0, _⟩ => rfl | ⟨1, _⟩ => rfl)
  rw [hl, hr]

/-- Region 1's product is the reference's product of the rebuilt square matrix with the same argument. -/
theorem join_v10 (c : Dev nD) :
    kv10 m c = Cert.ReferenceIdeal.Read.val_main_v32 (F := Ideal) (a0 m c) (a3 m c) := by
  funext i
  obtain ⟨a, b, rfl⟩ : ∃ (a : Fin 4096) (b : Fin 256), i = ix2 a b := ⟨i 0, i 1, eq_ix2 i⟩
  rw [Cert.ReferenceIdeal.Read.val_main_v32_apply]
  have e1 : kv10 m c (ix2 a b)
      = ∑ k : Fin 4096, RegionValue1.lhs (fun c b => U4 m c b) c (ix2 a k) * RegionValue1.rhs (fun c b => U4 m c b) c (ix2 k b) :=
    (congrFun (U5_arr m c 2) (ix2 a b)).trans (RegionValue1.final1_at (fun c b => U4 m c b) c a b)
  have hA : RegionValue1.lhs (fun c b => U4 m c b) c = Glue.msfull m c := rfl
  have hB : RegionValue1.rhs (fun c b => U4 m c b) c = a0 m c := U4_main_arg0 m c
  rw [e1, hA, hB]
  refine Finset.sum_congr rfl fun k _ => ?_
  have hl : Cert.ReferenceIdeal.Read.lidx_main_v32 (ix2 a b) k = (ix2 a k : Cert.ReferenceIdeal.S4096x4096.Idx) :=
    funext fun q => Fin.ext (by match q with | ⟨0, _⟩ => rfl | ⟨1, _⟩ => rfl)
  have hr : Cert.ReferenceIdeal.Read.ridx_main_v32 (ix2 a b) k = (ix2 k b : Cert.ReferenceIdeal.S4096x256.Idx) :=
    funext fun q => Fin.ext (by match q with | ⟨0, _⟩ => rfl | ⟨1, _⟩ => rfl)
  rw [hl, hr, Glue.msfull_at m c a k, Cert.ReferenceIdeal.Square.msfull_ref_at (a3 m c) a k]

end Cert.Proof.JoinLoss

end
-- ==== Proof.LossSpec.lean ====
/-
  The regularised consistency loss, as one function of the arrays that go into it.

  For two [4096, 256] arrays `ms` and `nr` (the two sides that should agree) and a weight array `w` of 4096 rows,
  the loss is  0.2 · sqrt(Σ (ms − nr)²) + Σ |w| + 0.001 · sqrt(Σ w²):  the Frobenius norm of the disagreement, scaled,
  plus the sum of the weights' absolute values plus a small multiple of the weights' Frobenius norm.  It is written
  here with the host's own operations in the order both programs print them, each sum a host sum from the zero word,
  the two scale factors the literal words of 0.2 and 0.001, never evaluated.  The total is the temporal loss plus the
  spatial loss, in that order.  Nothing here says what the value is as a real number: the point is that both programs
  compute THIS term of the six arrays, so that they agree as soon as the six arrays do.
-/
import Idealize.ShloMosaic.PureOps.Ideal
import Idealize.ShloMosaic.Lib.IdealHost
import Idealize.ShloMosaic.Lib.ValueIdx

noncomputable section

namespace LossSpec

open Idealize.ShloMosaic

/-- The loss of one pair of sides `ms`, `nr` under the weights `w` (an array of 4096 rows and `n` columns). The three
    proofs are the shapes' side conditions of the host sums: that summing both axes of the array leaves a scalar, and
    that the scalar shape has an element. -/
def lossOf {n : ℕ}
    (hr : (⟨2, ![4096, 256]⟩ : Shape).ReducesTo [0, 1] ⟨0, ![]⟩)
    (hw : (⟨2, ![4096, n]⟩ : Shape).ReducesTo [0, 1] ⟨0, ![]⟩)
    (h0 : 0 < (⟨0, ![]⟩ : Shape).numel)
    (ms nr : FVec Ideal ⟨2, ![4096, 256]⟩ .f32) (w : FVec Ideal ⟨2, ![4096, n]⟩ .f32) : FVec Ideal ⟨0, ![]⟩ .f32 :=
  addf
    (addf
      (mulf
        (Host.sqrt (Host.reduceAdd (mulf (subf ms nr) (subf ms nr)) (constant (F := Ideal) ⟨0, ![]⟩ .f32 0x00000000#32) hr h0))
        (constant (F := Ideal) ⟨0, ![]⟩ .f32 0x3E4CCCCD#32))
      (Host.reduceAdd (Host.absf w) (constant (F := Ideal) ⟨0, ![]⟩ .f32 0x00000000#32) hw h0))
    (mulf
      (constant (F := Ideal) ⟨0, ![]⟩ .f32 0x3A83126F#32)
      (Host.sqrt (Host.reduceAdd (mulf w w) (constant (F := Ideal) ⟨0, ![]⟩ .f32 0x00000000#32) hw h0)))

/-- The total: the temporal loss (sides `mt`, `nt`, weights `wt` of 4096 columns) plus the spatial loss (sides `ms`,
    `ns`, weights `ws` of 4095 columns), in that order. -/
def totalLoss
    (hr : (⟨2, ![4096, 256]⟩ : Shape).ReducesTo [0, 1] ⟨0, ![]⟩)
    (ht : (⟨2, ![4096, 4096]⟩ : Shape).ReducesTo [0, 1] ⟨0, ![]⟩)
    (hs : (⟨2, ![4096, 4095]⟩ : Shape).ReducesTo [0, 1] ⟨0, ![]⟩)
    (h0 : 0 < (⟨0, ![]⟩ : Shape).numel)
    (mt nt : FVec Ideal ⟨2, ![4096, 256]⟩ .f32) (wt : FVec Ideal ⟨2, ![4096, 4096]⟩ .f32)
    (ms ns : FVec Ideal ⟨2, ![4096, 256]⟩ .f32) (ws : FVec Ideal ⟨2, ![4096, 4095]⟩ .f32) : FVec Ideal ⟨0, ![]⟩ .f32 :=
  addf (lossOf hr ht h0 mt nt wt) (lossOf hr hs h0 ms ns ws)

end LossSpec

end
-- ==== Proof.KI.GlueLoss.lean ====
/-
  The kernel program's second result is the shared loss term of its own six arrays.

  The last stretch of array operations adds the temporal loss to the spatial loss.  Each of the two was computed by an
  earlier stretch — the temporal one after region 3 from the outputs of regions 2 and 3 and the temporal weights, the
  spatial one after region 1 from the outputs of regions 0 and 1 and the spatial weights — and nothing afterwards
  writes either scalar, nor, between their producers and those stretches, the four region outputs; the two weight
  arrays are arguments, which nothing writes.  So the last valuation at the result walks back to the shared term of the
  four region outputs where their regions left them and the two weight arguments as launched.
-/
import proofs.«140739_j42683384987781_2_alg».proof.Proof.KI.Run
import proofs.«140739_j42683384987781_2_alg».proof.Proof.LossSpec

set_option maxRecDepth 16384

noncomputable section

namespace Cert.KernelIdeal.GlueLoss

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The last stretch's one operation adds what it finds at the temporal loss to what it finds at the spatial loss,
    whatever the buffers hold when it starts. -/
theorem result_add (V : Valuation τ sig (Elt Ideal)) :
    StableHlo.after hostOps7 V (Proc.devRef .tc main_v64)
      = addf (F := Ideal) (s := S_) (φ := .f32) (V (Proc.devRef .tc main_v49)) (V (Proc.devRef .tc main_v23)) := by
  simp only [hostOps7]
  after_results

set_option maxHeartbeats 1000000 in
/-- The temporal stretch computes the shared loss of the two temporal sides and the temporal weights as it finds them,
    whatever the buffers hold when it starts. -/
theorem temporal_chain (V : Valuation τ sig (Elt Ideal)) :
    StableHlo.after hostOps4 V (Proc.devRef .tc main_v49)
      = LossSpec.lossOf reducesTo_S4096x256_S_d0_1 reducesTo_S4096x4096_S_d0_1 h_S_
          (V (Proc.devRef .tc main_v35)) (V (Proc.devRef .tc main_v36)) (V (Proc.devRef .tc main_arg5)) := by
  simp only [hostOps4]
  after_results
  rfl

set_option maxHeartbeats 2000000 in
/-- The spatial stretch computes the shared loss of the two spatial sides and the spatial weights as it finds them,
    whatever the buffers hold when it starts; what it computes afterwards writes other buffers. -/
theorem spatial_chain (V : Valuation τ sig (Elt Ideal)) :
    StableHlo.after hostOps2 V (Proc.devRef .tc main_v23)
      = LossSpec.lossOf reducesTo_S4096x256_S_d0_1 reducesTo_S4096x4095_S_d0_1 h_S_
          (V (Proc.devRef .tc main_v0)) (V (Proc.devRef .tc main_v10)) (V (Proc.devRef .tc main_arg3)) := by
  simp only [hostOps2]
  after_results_simp
  rfl

/-- Nothing after the temporal stretch writes the temporal loss. -/
theorem temporal_back (c : Dev nD) : U16 m c (Proc.devRef .tc main_v49) = U11 m c (Proc.devRef .tc main_v49) :=
  (U16_of_ne m c main_v49 (by decide)).trans <|
  (StableHlo.after_of_writes_sub hostOps6 _ hostOps6_writes (by decide : main_v49 ∉ hostOps6_W)).trans <|
  (U14_of_ne m c main_v49 (by decide)).trans <|
  (StableHlo.after_of_writes_sub hostOps5 _ hostOps5_writes (by decide : main_v49 ∉ hostOps5_W)).trans <|
  (U12_of_ne m c main_v49 (by decide)).trans <| rfl

/-- Nothing after the spatial stretch writes the spatial loss. -/
theorem spatial_back (c : Dev nD) : U16 m c (Proc.devRef .tc main_v23) = U6 m c (Proc.devRef .tc main_v23) :=
  (U16_of_ne m c main_v23 (by decide)).trans <|
  (StableHlo.after_of_writes_sub hostOps6 _ hostOps6_writes (by decide : main_v23 ∉ hostOps6_W)).trans <|
  (U14_of_ne m c main_v23 (by decide)).trans <|
  (StableHlo.after_of_writes_sub hostOps5 _ hostOps5_writes (by decide : main_v23 ∉ hostOps5_W)).trans <|
  (U12_of_ne m c main_v23 (by decide)).trans <|
  (StableHlo.after_of_writes_sub hostOps4 _ hostOps4_writes (by decide : main_v23 ∉ hostOps4_W)).trans <|
  (U10_of_ne m c main_v23 (by decide)).trans <|
  (U9_of_ne m c main_v23 (by decide)).trans <|
  (StableHlo.after_of_writes_sub hostOps2_2 _ hostOps2_2_writes (by decide : main_v23 ∉ hostOps2_2_W)).trans <|
  (StableHlo.after_of_writes_sub hostOps2_1 _ hostOps2_1_writes (by decide : main_v23 ∉ hostOps2_1_W)).trans <| rfl

/-- Region 3 does not touch region 2's output. -/
theorem side_t (c : Dev nD) : U10 m c (Proc.devRef .tc main_v35) = U9 m c (Proc.devRef .tc main_v35) :=
  U10_of_ne m c main_v35 (by decide)

/-- The temporal weights are an argument: an input window of region 3, which leaves it as found, and written by nothing
    before it. -/
theorem weights_t (c : Dev nD) : U10 m c (Proc.devRef .tc main_arg5) = m ((c : Thread nD τ).loc main_arg5) :=
  ((U10_arr m c 0).trans (((dat3 (fun c b => U9 m c b) c).arrAt_in 0 rfl _).trans (A_eq3 (fun c b => U9 m c b) c 0))).trans <|
  (U9_of_ne m c main_arg5 (by decide)).trans <|
  (StableHlo.after_of_writes_sub hostOps2_2 _ hostOps2_2_writes (by decide : main_arg5 ∉ hostOps2_2_W)).trans <|
  (StableHlo.after_of_writes_sub hostOps2_1 _ hostOps2_1_writes (by decide : main_arg5 ∉ hostOps2_1_W)).trans <|
  (StableHlo.after_of_writes_sub hostOps2 _ hostOps2_writes (by decide : main_arg5 ∉ hostOps2_W)).trans <|
  (U5_of_ne m c main_arg5 (by decide)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (U1_of_ne m c main_arg5 (by decide)).trans <| rfl

/-- Neither region 1 nor the stretches before it touch region 0's output. -/
theorem side_s (c : Dev nD) : U5 m c (Proc.devRef .tc main_v0) = U1 m c (Proc.devRef .tc main_v0) :=
  (U5_of_ne m c main_v0 (by decide)).trans <|
  (StableHlo.after_of_writes_sub hostOps1_2 _ hostOps1_2_writes (by decide : main_v0 ∉ hostOps1_2_W)).trans <|
  (StableHlo.after_of_writes_sub hostOps1_1 _ hostOps1_1_writes (by decide : main_v0 ∉ hostOps1_1_W)).trans <|
  (StableHlo.after_of_writes_sub hostOps1 _ hostOps1_writes (by decide : main_v0 ∉ hostOps1_W)).trans <| rfl

/-- The spatial weights are an argument, written by nothing. -/
theorem weights_s (c : Dev nD) : U5 m c (Proc.devRef .tc main_arg3) = m ((c : Thread nD τ).loc main_arg3) :=
  (U5_of_ne m c main_arg3 (by decide)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (U1_of_ne m c main_arg3 (by decide)).trans <| rfl

/-- THE SECOND RESULT: the shared loss of region 2's and region 3's outputs with the temporal weights, and of region 0's
    and region 1's outputs with the spatial weights. -/
theorem loss_result (c : Dev nD) :
    U17 m c (Proc.devRef .tc main_v64)
      = LossSpec.totalLoss reducesTo_S4096x256_S_d0_1 reducesTo_S4096x4096_S_d0_1 reducesTo_S4096x4095_S_d0_1 h_S_
          (U9 m c (Proc.devRef .tc main_v35)) (U10 m c (Proc.devRef .tc main_v36)) (m ((c : Thread nD τ).loc main_arg5))
          (U1 m c (Proc.devRef .tc main_v0)) (U5 m c (Proc.devRef .tc main_v10)) (m ((c : Thread nD τ).loc main_arg3)) := by
  have h1 : U17 m c (Proc.devRef .tc main_v64)
      = addf (F := Ideal) (s := S_) (φ := .f32) (U16 m c (Proc.devRef .tc main_v49)) (U16 m c (Proc.devRef .tc main_v23)) := result_add (U16 m c)
  have h2 : U16 m c (Proc.devRef .tc main_v49)
      = LossSpec.lossOf reducesTo_S4096x256_S_d0_1 reducesTo_S4096x4096_S_d0_1 h_S_
          (U9 m c (Proc.devRef .tc main_v35)) (U10 m c (Proc.devRef .tc main_v36)) (m ((c : Thread nD τ).loc main_arg5)) := by
    refine (temporal_back m c).trans ((temporal_chain (U10 m c)).trans ?_)
    rw [side_t, weights_t]
  have h3 : U16 m c (Proc.devRef .tc main_v23)
      = LossSpec.lossOf reducesTo_S4096x256_S_d0_1 reducesTo_S4096x4095_S_d0_1 h_S_
          (U1 m c (Proc.devRef .tc main_v0)) (U5 m c (Proc.devRef .tc main_v10)) (m ((c : Thread nD τ).loc main_arg3)) := by
    refine (spatial_back m c).trans ((spatial_chain (U5 m c)).trans ?_)
    rw [side_s, weights_s]
  unfold LossSpec.totalLoss
  rw [h1, h2, h3]

end Cert.KernelIdeal.GlueLoss

end
-- ==== Proof.RefLoss.lean ====
/-
  The reference's second result is the shared loss term of its own six arrays.

  The reference computes the spatial loss from its projection of the current state (its operation 0), the spatial
  message product (operation 32) and the spatial weights (argument 3), the temporal loss from its temporal projection
  (operation 87), the temporal message product (operation 88) and the temporal weights (argument 5), each by the same
  thirteen operations in the same order, and adds them, temporal first.  Unfolding just those operations — and none of
  the four products, which stay closed — leaves the shared term by definition.
-/
import proofs.«140739_j42683384987781_2_alg».proof.Proof.Gen.ReferenceIdeal.Read
import proofs.«140739_j42683384987781_2_alg».proof.Proof.LossSpec

noncomputable section

namespace Cert.ReferenceIdeal.Loss

open Cert.ReferenceIdeal Cert.ReferenceIdeal.Gen Cert.ReferenceIdeal.Read Idealize.ShloMosaic

/-- The reference's scalar result as the shared loss of the temporal sides and weights and the spatial sides and
    weights. -/
theorem ref_loss (x0 x1 : (⟨S4096x256, .f32⟩ : BufTy).Contents (Elt Ideal)) (x2 : (⟨S256x256, .f32⟩ : BufTy).Contents (Elt Ideal)) (x3 : (⟨S4096x4095, .f32⟩ : BufTy).Contents (Elt Ideal))
    (x4 : (⟨S256x256, .f32⟩ : BufTy).Contents (Elt Ideal)) (x5 : (⟨S4096x4096, .f32⟩ : BufTy).Contents (Elt Ideal)) :
    val_main_v141 (F := Ideal) x0 x1 x2 x3 x4 x5
      = LossSpec.totalLoss reducesTo_S4096x256_S_d0_1 reducesTo_S4096x4096_S_d0_1 reducesTo_S4096x4095_S_d0_1 h_S_
          (val_main_v87 (F := Ideal) x0 x4) (val_main_v88 (F := Ideal) x1 x5) x5
          (val_main_v0 (F := Ideal) x0 x2) (val_main_v32 (F := Ideal) x0 x3) x3 := by
  simp only [val_main_v141,
    val_main_v89, val_main_v90, val_main_v91, val_main_v92, val_main_v93, val_main_v94, val_main_v95, val_main_v96, val_main_v97, val_main_v98, val_main_v99, val_main_v100, val_main_v101, val_main_cst_16, val_main_cst_17, val_main_cst_18, val_main_cst_19, val_main_cst_20,
    val_main_v33, val_main_v34, val_main_v35, val_main_v36, val_main_v37, val_main_v38, val_main_v39, val_main_v40, val_main_v41, val_main_v42, val_main_v43, val_main_v44, val_main_v45, val_main_cst_3, val_main_cst_4, val_main_cst_5, val_main_cst_6, val_main_cst_7]
  generalize val_main_v87 (F := Ideal) x0 x4 = mt
  generalize val_main_v88 (F := Ideal) x1 x5 = nt
  generalize val_main_v0 (F := Ideal) x0 x2 = ms
  generalize val_main_v32 (F := Ideal) x0 x3 = ns
  rfl

end Cert.ReferenceIdeal.Loss

end
-- ==== Proof.Bridge.lean ====
/-
  The second result on both sides: the kernel program's final scalar is the shared loss function of its four
  products and the two stored matrices; the reference's is the same function of its four products; and the four
  products agree (regions 0 to 3 against the reference's dot products).  So the two scalars are equal.
-/
import proofs.«140739_j42683384987781_2_alg».proof.Proof.JoinLossA
import proofs.«140739_j42683384987781_2_alg».proof.Proof.JoinLossB
import proofs.«140739_j42683384987781_2_alg».proof.Proof.KI.GlueLoss
import proofs.«140739_j42683384987781_2_alg».proof.Proof.RefLoss

set_option maxRecDepth 16384

noncomputable section

namespace Cert.Proof.JoinLoss

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The kernel program's second result, typed as a scalar array over the extended reals. -/
abbrev kv64 (c : Dev nD) : S_.Idx → EReal := U17 m c (Proc.devRef .tc main_v64)

/-- THE SECOND RESULT: the kernel program's final scalar is the reference's, of the same launch arguments. -/
theorem loss_join (c : Dev nD) :
    kv64 m c = Cert.ReferenceIdeal.Read.val_main_v141 (F := Ideal) (a0 m c) (a1 m c) (a2 m c) (a3 m c) (a4 m c) (a5 m c) := by
  have hk := Cert.KernelIdeal.GlueLoss.loss_result m c
  have hr := Cert.ReferenceIdeal.Loss.ref_loss (a0 m c) (a1 m c) (a2 m c) (a3 m c) (a4 m c) (a5 m c)
  rw [← join_v0 m c, ← join_v10 m c, ← join_v35 m c, ← join_v36 m c] at hr
  exact hk.trans hr.symm

end Cert.Proof.JoinLoss

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.KI.R6Spec.lean ====
/- The node update, index by index, over the extended reals. Three row arrays (current, spatial embedding, temporal
   embedding) are each projected by a 256 × 256 weight; each embedding's projection is weighted, row by row, by its
   inner product with the current rows' projection scaled by one sixteenth; the two weighted projections are added,
   projected once more, shifted by a bias row and clamped below at zero. Stated for any number of rows, so that the
   same function reads a whole array and a block of its rows, and a congruence: row `r` of the result reads the three
   row arrays at row `r` only. -/
import Idealize.ShloMosaic.Lib.ValueIdx

noncomputable section

open scoped BigOperators

namespace Cert.KernelIdeal.RegionValue6

open Idealize.ShloMosaic Idealize.ShloMosaic.ValueIdx

/-- A row array times a square weight, at row `r` and column `j`: the sum over the contracted coordinate. -/
def proj {m : ℕ} (x : (⟨2, ![m, 256]⟩ : Shape).Idx → EReal) (w : (⟨2, ![256, 256]⟩ : Shape).Idx → EReal)
    (r : Fin m) (j : Fin 256) : EReal :=
  ∑ k : Fin 256, x (ix2 r k) * w (ix2 k j)

/-- The attention weight of row `r`: the inner product of two rows, times one sixteenth (the word of 0.0625). -/
def attn {m : ℕ} (f g : Fin m → Fin 256 → EReal) (r : Fin m) : EReal :=
  (∑ j : Fin 256, f r j * g r j) * Ideal.ofBits .f32 0x3D800000#32

/-- The mixed value at row `r`, column `k`: each embedding's projection weighted by its attention against the current
    rows' projection, added. -/
def mixed {m : ℕ} (cur spa tmp : (⟨2, ![m, 256]⟩ : Shape).Idx → EReal) (wn ws wt : (⟨2, ![256, 256]⟩ : Shape).Idx → EReal)
    (r : Fin m) (k : Fin 256) : EReal :=
  attn (proj spa ws) (proj cur wn) r * proj spa ws r k + attn (proj tmp wt) (proj cur wn) r * proj tmp wt r k

/-- The node update at row `r`, column `j`. -/
def nodeAt {m : ℕ} (cur spa tmp : (⟨2, ![m, 256]⟩ : Shape).Idx → EReal) (wn ws wt wθ : (⟨2, ![256, 256]⟩ : Shape).Idx → EReal)
    (b : (⟨2, ![1, 256]⟩ : Shape).Idx → EReal) (r : Fin m) (j : Fin 256) : EReal :=
  max ((∑ k : Fin 256, mixed cur spa tmp wn ws wt r k * wθ (ix2 k j)) + b (ix2 (0 : Fin 1) j)) (Ideal.ofBits .f32 0x00000000#32)

/-- The node update of 4096 rows, as one function of the eight arrays. -/
def node_out (cur spa tmp : (⟨2, ![4096, 256]⟩ : Shape).Idx → EReal) (wn ws wt wθ : (⟨2, ![256, 256]⟩ : Shape).Idx → EReal)
    (b : (⟨2, ![1, 256]⟩ : Shape).Idx → EReal) : (⟨2, ![4096, 256]⟩ : Shape).Idx → EReal :=
  fun i => nodeAt cur spa tmp wn ws wt wθ b (i 0) (i 1)

/-- At an index given by its coordinates. -/
theorem node_out_ix2 (cur spa tmp : (⟨2, ![4096, 256]⟩ : Shape).Idx → EReal) (wn ws wt wθ : (⟨2, ![256, 256]⟩ : Shape).Idx → EReal)
    (b : (⟨2, ![1, 256]⟩ : Shape).Idx → EReal) (r : Fin 4096) (j : Fin 256) :
    node_out cur spa tmp wn ws wt wθ b (ix2 r j) = nodeAt cur spa tmp wn ws wt wθ b r j := rfl

/-- A projection's row reads the row array at that row only. -/
theorem proj_congr {m m' : ℕ} (x : (⟨2, ![m, 256]⟩ : Shape).Idx → EReal) (x' : (⟨2, ![m', 256]⟩ : Shape).Idx → EReal)
    (w : (⟨2, ![256, 256]⟩ : Shape).Idx → EReal) (r : Fin m) (r' : Fin m') (h : ∀ k : Fin 256, x (ix2 r k) = x' (ix2 r' k))
    (j : Fin 256) : proj x w r j = proj x' w r' j := by
  unfold proj
  exact Finset.sum_congr rfl fun k _ => by rw [h k]

/-- Row `r` of the node update reads the three row arrays at row `r` only: two triples of row arrays that agree there —
    possibly of different heights, at different rows — give the same row. -/
theorem nodeAt_congr {m m' : ℕ} (cur spa tmp : (⟨2, ![m, 256]⟩ : Shape).Idx → EReal) (cur' spa' tmp' : (⟨2, ![m', 256]⟩ : Shape).Idx → EReal)
    (wn ws wt wθ : (⟨2, ![256, 256]⟩ : Shape).Idx → EReal) (b : (⟨2, ![1, 256]⟩ : Shape).Idx → EReal) (r : Fin m) (r' : Fin m')
    (hcur : ∀ k : Fin 256, cur (ix2 r k) = cur' (ix2 r' k)) (hspa : ∀ k : Fin 256, spa (ix2 r k) = spa' (ix2 r' k))
    (htmp : ∀ k : Fin 256, tmp (ix2 r k) = tmp' (ix2 r' k)) (j : Fin 256) :
    nodeAt cur spa tmp wn ws wt wθ b r j = nodeAt cur' spa' tmp' wn ws wt wθ b r' j := by
  have hn : ∀ k, proj cur wn r k = proj cur' wn r' k := proj_congr cur cur' wn r r' hcur
  have hs : ∀ k, proj spa ws r k = proj spa' ws r' k := proj_congr spa spa' ws r r' hspa
  have ht : ∀ k, proj tmp wt r k = proj tmp' wt r' k := proj_congr tmp tmp' wt r r' htmp
  have hm : ∀ k, mixed cur spa tmp wn ws wt r k = mixed cur' spa' tmp' wn ws wt r' k := fun k => by
    unfold mixed attn
    simp only [hn, hs, ht]
  unfold nodeAt
  simp only [hm]

end Cert.KernelIdeal.RegionValue6

end
-- ==== Proof.KI.R6Pay.lean ====
/- The value the fused node kernel stores (region 6), read at an index of its block, at the ideal instance: the
   stored payload is, entry by entry, the node update of the loaded blocks. The payload is first regrouped, by
   definitional unfolding, into the four kinds of step it is made of — a product of narrowed operands into a zero
   accumulator, a lane-reduced inner product scaled by a constant, two column-weighted blocks added, a bias row added
   and a clamp at zero — and each kind is read at an index once. -/
import proofs.«140739_j42683384987781_2_alg».proof.Proof.Gen.KernelIdeal.Skeleton
import proofs.«140739_j42683384987781_2_alg».proof.Proof.LibColumn
import proofs.«140739_j42683384987781_2_alg».proof.Proof.LibPlainProduct
import proofs.«140739_j42683384987781_2_alg».proof.Proof.KI.R6Spec
import Idealize.ShloMosaic.Lib.ValueLayout
import Idealize.ShloMosaic.Lib.Pipeline.Value

noncomputable section

open scoped BigOperators

namespace Cert.KernelIdeal.RegionValue6

open Idealize.ShloMosaic Idealize.ShloMosaic.ValueIdx
open Cert.KernelIdeal Cert.KernelIdeal.Gen

/-! ## The four kinds of step -/

/-- A row block times a square weight block on the matrix unit: both narrowed, accumulated into zero. -/
def projV (X : FVec Ideal S1024x256 .f32) (W : FVec Ideal S256x256 .f32) : FVec Ideal S1024x256 .f32 :=
  matmul dot_S1024x256_S256x256_S1024x256_1_0_0_1_n_n none (truncf .bf16 X bitsLt_bf16_f32) (truncf .bf16 W bitsLt_bf16_f32)
    (constant S1024x256 .f32 0x00000000#32)

/-- The attention column: the lane sum of a product of two blocks, as a column, times the broadcast constant. -/
def attnV (f g : FVec Ideal S1024x256 .f32) : FVec Ideal S1024x1 .f32 :=
  mulf (shapeCast S1024x1 (multiReduction .add [1] S1024 (mulf f g) 0x00000000#32 reduces_S1024x256_S1024 (.inl rfl) rfl) shapeCasts_S1024_S1024x1)
    (broadcast S1024x1 (Scalar.ofBits .f32 0x3D800000#32))

/-- Two blocks, each weighted row by row by a column, added. -/
def mixedV (sa ta : FVec Ideal S1024x1 .f32) (sf tf : FVec Ideal S1024x256 .f32) : FVec Ideal S1024x256 .f32 :=
  addf (mulf (broadcastTo S1024x256 sa broadcasts_S1024x1_S1024x256) sf) (mulf (broadcastTo S1024x256 ta broadcasts_S1024x1_S1024x256) tf)

/-- A block plus the bias row repeated down its rows, clamped below at zero. -/
def clampV (v : FVec Ideal S1024x256 .f32) (b : Vec Ideal S1x256 .f32) : FVec Ideal S1024x256 .f32 :=
  maximumf (addf v (broadcastTo S1024x256 (shapeCast S1x256 b shapeCasts_S1x256_S1x256) broadcasts_S1x256_S1024x256))
    (broadcast S1024x256 (Scalar.ofBits .f32 0x00000000#32))

/-- The stored payload is these steps composed: the body's arithmetic, regrouped. -/
theorem pay6_eq (x0 x1 x2 : Vec Ideal S1024x256 .f32) (x3 x4 x5 x6 : Vec Ideal S256x256 .f32) (x7 : Vec Ideal S1x256 .f32) :
    k6_pay1 (k6_pay2 x0 x1 x2 x3 x4 x5 x6) x7
      = clampV (projV (mixedV
            (attnV (projV (shapeCast S1024x256 x1 shapeCasts_S1024x256_S1024x256) x4) (projV x0 x3))
            (attnV (projV (shapeCast S1024x256 x2 shapeCasts_S1024x256_S1024x256) x5) (projV x0 x3))
            (projV (shapeCast S1024x256 x1 shapeCasts_S1024x256_S1024x256) x4)
            (projV (shapeCast S1024x256 x2 shapeCasts_S1024x256_S1024x256) x5))
          (shapeCast S256x256 x6 shapeCasts_S256x256_S256x256)) x7 := rfl

/-! ## Each step at an index -/

/-- The product at row `p`, column `j`: narrowing is the identity and the accumulator is zero, so the sum over the
    contracted coordinate. -/
theorem projV_at (X : FVec Ideal S1024x256 .f32) (W : FVec Ideal S256x256 .f32) (p : Fin 1024) (j : Fin 256) :
    projV X W (ix2 p j) = proj X W p j := by
  unfold projV proj
  refine (PlainProduct.matmul_at _ rfl none _ _ _ p j).trans ?_
  rw [constant_apply, Ideal.ofBits_zero_f32, zero_add]
  rfl

/-- The attention column at row `p`: the row's inner product times the constant. -/
theorem attnV_at (f g : FVec Ideal S1024x256 .f32) (p : Fin 1024) (u : Fin 1) :
    attnV f g (ix2 p u) = (∑ j : Fin 256, f (ix2 p j) * g (ix2 p j)) * Ideal.ofBits .f32 0x3D800000#32 := by
  unfold attnV
  refine congrArg (· * Ideal.ofBits .f32 0x3D800000#32) ?_
  refine (ColumnIdx.shapeCast_a_a1_apply _ _ p u).trans ?_
  exact ColumnIdx.rowSum_apply (mulf f g) _ _ _ p

/-- The mix at row `p`, column `k`. -/
theorem mixedV_at (sa ta : FVec Ideal S1024x1 .f32) (sf tf : FVec Ideal S1024x256 .f32) (p : Fin 1024) (k : Fin 256) :
    mixedV sa ta sf tf (ix2 p k) = sa (ix2 p (0 : Fin 1)) * sf (ix2 p k) + ta (ix2 p (0 : Fin 1)) * tf (ix2 p k) := by
  unfold mixedV
  rw [addf_apply, mulf_apply, mulf_apply, ColumnIdx.broadcastTo_a1_ab_apply, ColumnIdx.broadcastTo_a1_ab_apply]

/-- The clamp at row `p`, column `j`. -/
theorem clampV_at (v : FVec Ideal S1024x256 .f32) (b : Vec Ideal S1x256 .f32) (p : Fin 1024) (j : Fin 256) :
    clampV v b (ix2 p j) = max (v (ix2 p j) + b (ix2 (0 : Fin 1) j)) (Ideal.ofBits .f32 0x00000000#32) := by
  unfold clampV
  rw [maximumf_apply, addf_apply, broadcast_apply, broadcastTo_1b_ab_apply, shapeCast_self]
  rfl

/-! ## The stored payload at an index -/

/-- Entry `(p, j)` of what the body stores is the node update of the loaded blocks at row `p`, column `j`. -/
theorem pay6_at (x0 x1 x2 : Vec Ideal S1024x256 .f32) (x3 x4 x5 x6 : Vec Ideal S256x256 .f32) (x7 : Vec Ideal S1x256 .f32)
    (p : Fin 1024) (j : Fin 256) :
    k6_pay1 (k6_pay2 x0 x1 x2 x3 x4 x5 x6) x7 (ix2 p j) = nodeAt x0 x1 x2 x3 x4 x5 x6 x7 p j := by
  rw [pay6_eq, clampV_at, projV_at]
  unfold nodeAt mixed attn
  conv_lhs => unfold proj
  simp only [mixedV_at, attnV_at, projV_at, shapeCast_self]

end Cert.KernelIdeal.RegionValue6

end
-- ==== Proof.KI.R6Value.lean ====
/- The value of region 6 at the ideal instance: after the region, the output array is the node update of the eight
   input arrays as the region finds them. Point `t` of the grid writes back rows `1024 t … 1024 t + 1023`: its three
   row windows hold those rows of their arrays, its five constant windows the whole weight arrays and the bias row,
   so what the body stores there is the node update of the whole arrays read at those rows; the four points' blocks
   tile the 4096 rows. -/
import proofs.«140739_j42683384987781_2_alg».proof.Proof.KI.R6
import proofs.«140739_j42683384987781_2_alg».proof.Proof.KI.R6Pay
import Idealize.ShloMosaic.Lib.Pipeline.Value

set_option maxRecDepth 16384

noncomputable section

open scoped BigOperators

namespace Cert.KernelIdeal.RegionValue6

open Idealize.ShloMosaic Idealize.ShloMosaic.TcCoe Idealize.ShloMosaic.ValueIdx Idealize.SL.Sem
open Idealize.ShloMosaic.Pipeline (Dat)
open Cert.KernelIdeal Cert.KernelIdeal.Gen

-- the buffer contents on the TensorCore when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The schedule's block indices, decided over the four points

The three row windows and the output move down the rows with the point; the five constant windows stay at their one
block. -/

theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx6_1 : ∀ t : Fin cfg6.N, win6_1.index t (0 : Fin 2) = t.val ∧ win6_1.index t (1 : Fin 2) = 0 :=
  (by decide +kernel : ∀ t : Fin grid6.N, win6_1.index t (0 : Fin 2) = t.val ∧ win6_1.index t (1 : Fin 2) = 0)
theorem idx6_2 : ∀ t : Fin cfg6.N, win6_2.index t (0 : Fin 2) = t.val ∧ win6_2.index t (1 : Fin 2) = 0 :=
  (by decide +kernel : ∀ t : Fin grid6.N, win6_2.index t (0 : Fin 2) = t.val ∧ win6_2.index t (1 : Fin 2) = 0)
theorem idx6_3 : ∀ t : Fin cfg6.N, win6_3.index t (0 : Fin 2) = 0 ∧ win6_3.index t (1 : Fin 2) = 0 :=
  (by decide +kernel : ∀ t : Fin grid6.N, win6_3.index t (0 : Fin 2) = 0 ∧ win6_3.index t (1 : Fin 2) = 0)
theorem idx6_4 : ∀ t : Fin cfg6.N, win6_4.index t (0 : Fin 2) = 0 ∧ win6_4.index t (1 : Fin 2) = 0 :=
  (by decide +kernel : ∀ t : Fin grid6.N, win6_4.index t (0 : Fin 2) = 0 ∧ win6_4.index t (1 : Fin 2) = 0)
theorem idx6_5 : ∀ t : Fin cfg6.N, win6_5.index t (0 : Fin 2) = 0 ∧ win6_5.index t (1 : Fin 2) = 0 :=
  (by decide +kernel : ∀ t : Fin grid6.N, win6_5.index t (0 : Fin 2) = 0 ∧ win6_5.index t (1 : Fin 2) = 0)
theorem idx6_6 : ∀ t : Fin cfg6.N, win6_6.index t (0 : Fin 2) = 0 ∧ win6_6.index t (1 : Fin 2) = 0 :=
  (by decide +kernel : ∀ t : Fin grid6.N, win6_6.index t (0 : Fin 2) = 0 ∧ win6_6.index t (1 : Fin 2) = 0)
theorem idx6_7 : ∀ t : Fin cfg6.N, win6_7.index t (0 : Fin 2) = 0 ∧ win6_7.index t (1 : Fin 2) = 0 :=
  (by decide +kernel : ∀ t : Fin grid6.N, win6_7.index t (0 : Fin 2) = 0 ∧ win6_7.index t (1 : Fin 2) = 0)
theorem idx6_8 : ∀ t : Fin cfg6.N, win6_8.index t (0 : Fin 2) = t.val ∧ win6_8.index t (1 : Fin 2) = 0 :=
  (by decide +kernel : ∀ t : Fin grid6.N, win6_8.index t (0 : Fin 2) = t.val ∧ win6_8.index t (1 : Fin 2) = 0)

theorem N6 : cfg6.N = 4 := N_6

/-- The array row that row `p` of point `t`'s block is. -/
def row6 (t : Fin cfg6.N) (p : Fin 1024) : Fin 4096 :=
  ⟨t.val * 1024 + p.val, by have h := t.isLt; have hN : cfg6.N = 4 := N6; have := p.isLt; omega⟩

/-! ## The input blocks as parts of the arrays -/

/-- Input window 0 (the current rows): row `p` of point `t`'s block is row `1024 t + p` of the array. -/
theorem rows6_0 (c : Dev nD) (t : Fin cfg6.N) (p : Fin 1024) (k : Fin 256) :
    (iblk6 V c 0 t : S1024x256.Idx → EReal) (ix2 p k) = (V c (Pipeline.arrRef spec6 0) : S4096x256.Idx → EReal) (ix2 (row6 t p) k) := by
  obtain ⟨e0, e1⟩ := idx6_0 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 1024 + 1 * p.val = t.val * 1024 + p.val; rw [e0]; omega
  | ⟨1, _⟩ => show win6_0.index t (1 : Fin 2) * 256 + 1 * k.val = k.val; rw [e1]; omega

/-- Input window 1 (the spatial embedding rows): row `p` of point `t`'s block is row `1024 t + p` of the array. -/
theorem rows6_1 (c : Dev nD) (t : Fin cfg6.N) (p : Fin 1024) (k : Fin 256) :
    (iblk6 V c 1 t : S1024x256.Idx → EReal) (ix2 p k) = (V c (Pipeline.arrRef spec6 1) : S4096x256.Idx → EReal) (ix2 (row6 t p) k) := by
  obtain ⟨e0, e1⟩ := idx6_1 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 1024 + 1 * p.val = t.val * 1024 + p.val; rw [e0]; omega
  | ⟨1, _⟩ => show win6_1.index t (1 : Fin 2) * 256 + 1 * k.val = k.val; rw [e1]; omega

/-- Input window 2 (the temporal embedding rows): row `p` of point `t`'s block is row `1024 t + p` of the array. -/
theorem rows6_2 (c : Dev nD) (t : Fin cfg6.N) (p : Fin 1024) (k : Fin 256) :
    (iblk6 V c 2 t : S1024x256.Idx → EReal) (ix2 p k) = (V c (Pipeline.arrRef spec6 2) : S4096x256.Idx → EReal) (ix2 (row6 t p) k) := by
  obtain ⟨e0, e1⟩ := idx6_2 t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 1024 + 1 * p.val = t.val * 1024 + p.val; rw [e0]; omega
  | ⟨1, _⟩ => show win6_2.index t (1 : Fin 2) * 256 + 1 * k.val = k.val; rw [e1]; omega

/-- Input window 3 (the node projection): its one block is the whole array, at every point. -/
theorem whole6_3 (c : Dev nD) (t : Fin cfg6.N) :
    (iblk6 V c 3 t : S256x256.Idx → EReal) = (V c (Pipeline.arrRef spec6 3) : S256x256.Idx → EReal) := by
  obtain ⟨e0, e1⟩ := idx6_3 t
  funext y
  unfold iblk6
  rw [View.read_apply]
  show V c (Pipeline.arrRef spec6 3) _ = V c (Pipeline.arrRef spec6 3) y
  congr 1
  funext a
  apply Fin.ext
  match a with
  | ⟨0, _⟩ => show win6_3.index t (0 : Fin 2) * 256 + 1 * (y 0).val = (y 0).val; rw [e0]; omega
  | ⟨1, _⟩ => show win6_3.index t (1 : Fin 2) * 256 + 1 * (y 1).val = (y 1).val; rw [e1]; omega

/-- Input window 4 (the spatial edge projection): its one block is the whole array, at every point. -/
theorem whole6_4 (c : Dev nD) (t : Fin cfg6.N) :
    (iblk6 V c 4 t : S256x256.Idx → EReal) = (V c (Pipeline.arrRef spec6 4) : S256x256.Idx → EReal) := by
  obtain ⟨e0, e1⟩ := idx6_4 t
  funext y
  unfold iblk6
  rw [View.read_apply]
  show V c (Pipeline.arrRef spec6 4) _ = V c (Pipeline.arrRef spec6 4) y
  congr 1
  funext a
  apply Fin.ext
  match a with
  | ⟨0, _⟩ => show win6_4.index t (0 : Fin 2) * 256 + 1 * (y 0).val = (y 0).val; rw [e0]; omega
  | ⟨1, _⟩ => show win6_4.index t (1 : Fin 2) * 256 + 1 * (y 1).val = (y 1).val; rw [e1]; omega

/-- Input window 5 (the temporal edge projection): its one block is the whole array, at every point. -/
theorem whole6_5 (c : Dev nD) (t : Fin cfg6.N) :
    (iblk6 V c 5 t : S256x256.Idx → EReal) = (V c (Pipeline.arrRef spec6 5) : S256x256.Idx → EReal) := by
  obtain ⟨e0, e1⟩ := idx6_5 t
  funext y
  unfold iblk6
  rw [View.read_apply]
  show V c (Pipeline.arrRef spec6 5) _ = V c (Pipeline.arrRef spec6 5) y
  congr 1
  funext a
  apply Fin.ext
  match a with
  | ⟨0, _⟩ => show win6_5.index t (0 : Fin 2) * 256 + 1 * (y 0).val = (y 0).val; rw [e0]; omega
  | ⟨1, _⟩ => show win6_5.index t (1 : Fin 2) * 256 + 1 * (y 1).val = (y 1).val; rw [e1]; omega

/-- Input window 6 (the transposed output weight): its one block is the whole array, at every point. -/
theorem whole6_6 (c : Dev nD) (t : Fin cfg6.N) :
    (iblk6 V c 6 t : S256x256.Idx → EReal) = (V c (Pipeline.arrRef spec6 6) : S256x256.Idx → EReal) := by
  obtain ⟨e0, e1⟩ := idx6_6 t
  funext y
  unfold iblk6
  rw [View.read_apply]
  show V c (Pipeline.arrRef spec6 6) _ = V c (Pipeline.arrRef spec6 6) y
  congr 1
  funext a
  apply Fin.ext
  match a with
  | ⟨0, _⟩ => show win6_6.index t (0 : Fin 2) * 256 + 1 * (y 0).val = (y 0).val; rw [e0]; omega
  | ⟨1, _⟩ => show win6_6.index t (1 : Fin 2) * 256 + 1 * (y 1).val = (y 1).val; rw [e1]; omega

/-- Input window 7 (the bias row): its one block is the whole array, at every point. -/
theorem whole6_7 (c : Dev nD) (t : Fin cfg6.N) :
    (iblk6 V c 7 t : S1x256.Idx → EReal) = (V c (Pipeline.arrRef spec6 7) : S1x256.Idx → EReal) := by
  obtain ⟨e0, e1⟩ := idx6_7 t
  funext y
  unfold iblk6
  rw [View.read_apply]
  show V c (Pipeline.arrRef spec6 7) _ = V c (Pipeline.arrRef spec6 7) y
  congr 1
  funext a
  apply Fin.ext
  match a with
  | ⟨0, _⟩ => show win6_7.index t (0 : Fin 2) * 1 + 1 * (y 0).val = (y 0).val; rw [e0]; omega
  | ⟨1, _⟩ => show win6_7.index t (1 : Fin 2) * 256 + 1 * (y 1).val = (y 1).val; rw [e1]; omega

/-! ## What the body leaves in the output buffer, entry by entry -/

/-- The output buffer after the body, at row `p`, column `j`: the node update of the loaded blocks. -/
theorem out6_8_at (x0 x1 x2 : Vec Ideal S1024x256 .f32) (x3 x4 x5 x6 : Vec Ideal S256x256 .f32) (x7 : Vec Ideal S1x256 .f32)
    (p : Fin 1024) (j : Fin 256) : out6_8 x0 x1 x2 x3 x4 x5 x6 x7 (ix2 p j) = nodeAt x0 x1 x2 x3 x4 x5 x6 x7 p j := by
  unfold out6_8
  rw [View.canon_unit_zero hz]
  simp only [View.ld_unit_zero (S := S1024x256) hz, View.ld_unit_zero (S := S256x256) hz, View.ld_unit_zero (S := S1x256) hz]
  exact pay6_at x0 x1 x2 x3 x4 x5 x6 x7 p j

/-- The node update of blocks that are parts of arrays, when also the weights and the bias agree. -/
theorem nodeAt_congr_all {m m' : ℕ} (cur spa tmp : (⟨2, ![m, 256]⟩ : Shape).Idx → EReal) (cur' spa' tmp' : (⟨2, ![m', 256]⟩ : Shape).Idx → EReal)
    (wn ws wt wθ wn' ws' wt' wθ' : (⟨2, ![256, 256]⟩ : Shape).Idx → EReal) (b b' : (⟨2, ![1, 256]⟩ : Shape).Idx → EReal) (r : Fin m) (r' : Fin m')
    (hcur : ∀ k : Fin 256, cur (ix2 r k) = cur' (ix2 r' k)) (hspa : ∀ k : Fin 256, spa (ix2 r k) = spa' (ix2 r' k))
    (htmp : ∀ k : Fin 256, tmp (ix2 r k) = tmp' (ix2 r' k)) (hwn : wn = wn') (hws : ws = ws') (hwt : wt = wt') (hwθ : wθ = wθ') (hb : b = b')
    (j : Fin 256) : nodeAt cur spa tmp wn ws wt wθ b r j = nodeAt cur' spa' tmp' wn' ws' wt' wθ' b' r' j := by
  subst hwn hws hwt hwθ hb
  exact nodeAt_congr cur spa tmp cur' spa' tmp' wn ws wt wθ b r r' hcur hspa htmp j

/-! ## What each point writes back -/

/-- Entry `(p, j)` of point `t`'s output block sits at row `1024 t + p`, column `j` of the array. -/
theorem emb6_8 (t : Fin cfg6.N) (p : Fin 1024) (j : Fin 256) :
    ((cfg6.win 8).blk t).view.emb (ix2 p j) = (ix2 (row6 t p) j : S4096x256.Idx) := by
  obtain ⟨e0, e1⟩ := idx6_8 t
  funext a
  apply Fin.ext
  match a with
  | ⟨0, _⟩ => show win6_8.index t (0 : Fin 2) * 1024 + 1 * p.val = t.val * 1024 + p.val; rw [e0]; omega
  | ⟨1, _⟩ => show win6_8.index t (1 : Fin 2) * 256 + 1 * j.val = j.val; rw [e1]; omega

/-- What the body leaves at row `p`, column `j` of the output buffer at point `t` is the node update of the whole arrays
    at row `1024 t + p`, column `j`: the row windows hold those rows, the constant windows the whole arrays. -/
theorem core6 (c : Dev nD) (t : Fin cfg6.N) (p : Fin 1024) (j : Fin 256) :
    out6_8 (iblk6 V c 0 t) (iblk6 V c 1 t) (iblk6 V c 2 t) (iblk6 V c 3 t) (iblk6 V c 4 t) (iblk6 V c 5 t) (iblk6 V c 6 t) (iblk6 V c 7 t) (ix2 p j) = node_out (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (ix2 (row6 t p) j) :=
  ((out6_8_at (iblk6 V c 0 t) (iblk6 V c 1 t) (iblk6 V c 2 t) (iblk6 V c 3 t) (iblk6 V c 4 t) (iblk6 V c 5 t) (iblk6 V c 6 t) (iblk6 V c 7 t) p j).trans
    (nodeAt_congr_all (m := 1024) (m' := 4096) (iblk6 V c 0 t) (iblk6 V c 1 t) (iblk6 V c 2 t) (V c (Pipeline.arrRef spec6 0)) (V c (Pipeline.arrRef spec6 1)) (V c (Pipeline.arrRef spec6 2))
      (iblk6 V c 3 t) (iblk6 V c 4 t) (iblk6 V c 5 t) (iblk6 V c 6 t) (V c (Pipeline.arrRef spec6 3)) (V c (Pipeline.arrRef spec6 4)) (V c (Pipeline.arrRef spec6 5)) (V c (Pipeline.arrRef spec6 6)) (iblk6 V c 7 t) (V c (Pipeline.arrRef spec6 7)) p (row6 t p)
      (rows6_0 V c t p) (rows6_1 V c t p) (rows6_2 V c t p) (whole6_3 V c t) (whole6_4 V c t) (whole6_5 V c t) (whole6_6 V c t) (whole6_7 V c t) j)).trans
    (node_out_ix2 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (row6 t p) j).symm

/-- Point `t` writes back block `t` of the node update of the arrays as the region finds them. -/
theorem flushed6_eq (c : Dev nD) (t : Fin cfg6.N) :
    (dat6 (F := Ideal) V c).flushed 8 t = ((cfg6.win 8).blk t).view.read (Elt Ideal) (node_out (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7))) := by
  show (cfg6.win 8).cut (grid6.coords t) ((dat6 (F := Ideal) V c).after 8 t) = _
  rw [after6_8]
  funext y
  obtain ⟨p, j, rfl⟩ : ∃ (p : Fin 1024) (j : Fin 256), y = ix2 p j := ⟨y 0, y 1, eq_ix2 y⟩
  show out6_8 (iblk6 V c 0 t) (iblk6 V c 1 t) (iblk6 V c 2 t) (iblk6 V c 3 t) (iblk6 V c 4 t) (iblk6 V c 5 t) (iblk6 V c 6 t) (iblk6 V c 7 t) (ix2 p j) = node_out (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (((cfg6.win 8).blk t).view.emb (ix2 p j))
  exact (core6 V c t p j).trans (congrArg (node_out (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7))) (emb6_8 t p j)).symm

/-! ## The four blocks tile the array -/

/-- An index of the array is in point `t`'s block iff each coordinate is in the block's range on its axis. -/
theorem mem_blk6 (t : Fin cfg6.N) (i : S4096x256.Idx) :
    i ∈ ((cfg6.win 8).blk t).view.set ↔ ∀ a : Fin 2, win6_8.index t a * S1024x256.size a ≤ (i a).val ∧ (i a).val < win6_8.index t a * S1024x256.size a + S1024x256.size a := by
  show i ∈ ((View.whole main_v63).slice (win6_8.rect t)).set ↔ _
  rw [View.set_slice_whole, Rect.mem_set_unit]
  exact Iff.rfl

/-- Row `r` is in the block of point `r / 1024`, which is written back. -/
theorem cover6 (i : S4096x256.Idx) : ∃ t : Fin cfg6.N, (cfg6.win 8).flush t = true ∧ i ∈ ((cfg6.win 8).blk t).view.set := by
  have hi0 : (i 0).val < 4096 := (i 0).isLt
  have hi1 : (i 1).val < 256 := (i 1).isLt
  obtain ⟨t, ht⟩ : ∃ t : Fin cfg6.N, t.val = (i 0).val / 1024 := ⟨⟨(i 0).val / 1024, by have hN : cfg6.N = 4 := N6; omega⟩, rfl⟩
  obtain ⟨e0, e1⟩ := idx6_8 t
  refine ⟨t, flush6_8 t, ?_⟩
  rw [mem_blk6]
  intro a
  match a with
  | ⟨0, _⟩ => show win6_8.index t (0 : Fin 2) * 1024 ≤ (i 0).val ∧ (i 0).val < win6_8.index t (0 : Fin 2) * 1024 + 1024; rw [e0, ht]; omega
  | ⟨1, _⟩ => show win6_8.index t (1 : Fin 2) * 256 ≤ (i 1).val ∧ (i 1).val < win6_8.index t (1 : Fin 2) * 256 + 256; rw [e1]; omega

/-! ## The array after the region -/

/-- The output array after the region is the node update of the eight input arrays as the region finds them. -/
theorem final6 (c : Dev nD) :
    (dat6 (F := Ideal) V c).arrAt 8 cfg6.N = node_out (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) :=
  (dat6 (F := Ideal) V c).arrAt_eq_of_cover 8 (node_out (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7))) (fun t _ => flushed6_eq V c t) cover6

end Cert.KernelIdeal.RegionValue6

end
-- ==== Proof.KI.GlueNode.lean ====
/- The host operations around region 6, at the ideal instance, and the region's result over them. Before the region
   the host forms the two embeddings — a product's rows divided by a degree column; a product plus the current rows,
   divided by a degree column plus one —, the output weight transposed and the bias as a one-row array; the region's
   output array is then the node update of the current rows, those four arrays and the three projection weights, and
   the one host operation after the region leaves it alone. The constant one stays the word 0x3F800000, unevaluated. -/
import proofs.«140739_j42683384987781_2_alg».proof.Proof.KI.Args
import proofs.«140739_j42683384987781_2_alg».proof.Proof.KI.R6Value
import Idealize.ShloMosaic.Lib.IdealHost
import Idealize.ShloMosaic.Lib.ValueLayout
import Idealize.ShloMosaic.Lib.Pipeline.Value

set_option maxRecDepth 16384

noncomputable section

open scoped BigOperators

namespace Cert.KernelIdeal.Glue6

open Idealize.ShloMosaic Idealize.ShloMosaic.TcCoe Idealize.ShloMosaic.ValueIdx Idealize.SL.Sem Idealize.ShloMosaic.StableHlo
open Cert.KernelIdeal Cert.KernelIdeal.Gen Cert.KernelIdeal.RegionValue6

/-! ## The host terms, over plain arrays, and each at an index -/

/-- A product's rows divided by column 0 of a degree array repeated along the row. -/
def spaTerm (num : FVec Ideal S4096x256 .f32) (deg : FVec Ideal S4096x128 .f32) : FVec Ideal S4096x256 .f32 :=
  Host.divf num (broadcastInDim S4096x256 ![0, 1] bcast_S4096x1_S4096x256_0_1
    (extractStridedSlice S4096x1 ![0, 0] deg slices_S4096x128_S4096x1_0_0))

/-- Column 0 of a 128-column array, as a column, at row `r`. -/
theorem col0_at (deg : FVec Ideal S4096x128 .f32) (r : Fin 4096) (u : Fin 1) :
    extractStridedSlice S4096x1 ![0, 0] deg slices_S4096x128_S4096x1_0_0 (ix2 r u) = deg (ix2 r (0 : Fin 128)) :=
  extractStridedSlice_apply ![0, 0] deg slices_S4096x128_S4096x1_0_0 (ix2 r u) (ix2 r (0 : Fin 128)) fun a => by
    match a with
    | ⟨0, _⟩ => show r.val = 0 + r.val; omega
    | ⟨1, _⟩ => show (0 : ℕ) = 0 + u.val; have := u.isLt; omega

/-- A column repeated along the row, at row `r`. -/
theorem colBcast_at (v : FVec Ideal S4096x1 .f32) (r : Fin 4096) (j : Fin 256) :
    broadcastInDim S4096x256 ![0, 1] bcast_S4096x1_S4096x256_0_1 v (ix2 r j) = v (ix2 r (0 : Fin 1)) :=
  broadcastInDim_apply ![0, 1] bcast_S4096x1_S4096x256_0_1 v (ix2 r j) (ix2 r (0 : Fin 1)) fun a => by
    match a with
    | ⟨0, _⟩ => show r.val = if (4096 : ℕ) = 1 then 0 else r.val; rw [if_neg (by decide)]
    | ⟨1, _⟩ => show (0 : ℕ) = if (1 : ℕ) = 1 then 0 else j.val; rw [if_pos rfl]

theorem spaTerm_at (num : FVec Ideal S4096x256 .f32) (deg : FVec Ideal S4096x128 .f32) (r : Fin 4096) (j : Fin 256) :
    spaTerm num deg (ix2 r j) = Ideal.div (num (ix2 r j)) (deg (ix2 r (0 : Fin 128))) := by
  unfold spaTerm
  rw [hostDivf_apply, colBcast_at, col0_at]

/-- A product plus the current rows, divided by (column 0 of a degree array plus one) repeated along the row. -/
def tmpTerm (num cur : FVec Ideal S4096x256 .f32) (deg : FVec Ideal S4096x128 .f32) : FVec Ideal S4096x256 .f32 :=
  Host.divf (addf num cur) (broadcastInDim S4096x256 ![0, 1] bcast_S4096x1_S4096x256_0_1
    (addf (extractStridedSlice S4096x1 ![0, 0] deg slices_S4096x128_S4096x1_0_0)
      (broadcastInDim S4096x1 ![] bcast_S_S4096x1 (constant (F := Ideal) S_ .f32 0x3F800000#32))))

theorem tmpTerm_at (num cur : FVec Ideal S4096x256 .f32) (deg : FVec Ideal S4096x128 .f32) (r : Fin 4096) (j : Fin 256) :
    tmpTerm num cur deg (ix2 r j)
      = Ideal.div (num (ix2 r j) + cur (ix2 r j)) (deg (ix2 r (0 : Fin 128)) + Ideal.ofBits .f32 0x3F800000#32) := by
  unfold tmpTerm
  rw [hostDivf_apply, colBcast_at, addf_apply, addf_apply, col0_at, broadcastInDim_scalar_apply, constant_apply]

/-- The transpose at `(k, j)` reads `(j, k)`. -/
theorem transpose_at (w : FVec Ideal S256x256 .f32) (k j : Fin 256) :
    transpose S256x256 [1, 0] w transposes_S256x256_S256x256_1_0 (ix2 k j) = w (ix2 j k) :=
  transpose_apply [1, 0] w transposes_S256x256_S256x256_1_0 (ix2 k j) (ix2 j k) fun b => by
    match b with
    | ⟨0, _⟩ => rfl
    | ⟨1, _⟩ => rfl

/-- The bias as a one-row array, at column `j`. -/
theorem biasRow_at (b : FVec Ideal S256 .f32) (u : Fin 1) (j : Fin 256) :
    shapeCast S1x256 b shapeCasts_S256_S1x256 (ix2 u j) = b (ix1 j) :=
  shapeCast_a_1a_apply b shapeCasts_S256_S1x256 u j

variable (m : (ℓ : Loc nD τ sig) → Buf (Elt Ideal) ℓ)

/-! ## The arguments the host operations and the region read, walked back to the launch memory

Each argument's value at the end of the run is the launch memory's (the run's own chain); the last items of that chain
— the host operation after the region, the region (an input window's array is left as found; any other buffer is not
touched), the host operations before it — are undone to stop at the valuation wanted. -/

theorem U15_main_arg0 (c : Dev nD) : U15 m c (Proc.devRef .tc main_arg0) = (m ((c : Thread nD τ).loc main_arg0)) :=
  (((StableHlo.after_of_writes_sub hostOps7 _ hostOps7_writes (by decide : main_arg0 ∉ hostOps7_W))).trans (((U16_arr m c 0).trans (((dat6 (fun c b => U15 m c b) c).arrAt_in 0 rfl _).trans (A_eq6 (fun c b => U15 m c b) c 0))))).symm.trans (U17_main_arg0 m c)
theorem U15_main_arg6 (c : Dev nD) : U15 m c (Proc.devRef .tc main_arg6) = (m ((c : Thread nD τ).loc main_arg6)) :=
  (((StableHlo.after_of_writes_sub hostOps7 _ hostOps7_writes (by decide : main_arg6 ∉ hostOps7_W))).trans (((U16_arr m c 3).trans (((dat6 (fun c b => U15 m c b) c).arrAt_in 3 rfl _).trans (A_eq6 (fun c b => U15 m c b) c 3))))).symm.trans (U17_main_arg6 m c)
theorem U15_main_arg7 (c : Dev nD) : U15 m c (Proc.devRef .tc main_arg7) = (m ((c : Thread nD τ).loc main_arg7)) :=
  (((StableHlo.after_of_writes_sub hostOps7 _ hostOps7_writes (by decide : main_arg7 ∉ hostOps7_W))).trans (((U16_arr m c 4).trans (((dat6 (fun c b => U15 m c b) c).arrAt_in 4 rfl _).trans (A_eq6 (fun c b => U15 m c b) c 4))))).symm.trans (U17_main_arg7 m c)
theorem U15_main_arg8 (c : Dev nD) : U15 m c (Proc.devRef .tc main_arg8) = (m ((c : Thread nD τ).loc main_arg8)) :=
  (((StableHlo.after_of_writes_sub hostOps7 _ hostOps7_writes (by decide : main_arg8 ∉ hostOps7_W))).trans (((U16_arr m c 5).trans (((dat6 (fun c b => U15 m c b) c).arrAt_in 5 rfl _).trans (A_eq6 (fun c b => U15 m c b) c 5))))).symm.trans (U17_main_arg8 m c)
theorem U14_main_arg0 (c : Dev nD) : U14 m c (Proc.devRef .tc main_arg0) = (m ((c : Thread nD τ).loc main_arg0)) :=
  ((((StableHlo.after_of_writes_sub hostOps7 _ hostOps7_writes (by decide : main_arg0 ∉ hostOps7_W))).trans (((U16_arr m c 0).trans (((dat6 (fun c b => U15 m c b) c).arrAt_in 0 rfl _).trans (A_eq6 (fun c b => U15 m c b) c 0))))).trans ((StableHlo.after_of_writes_sub hostOps6 _ hostOps6_writes (by decide : main_arg0 ∉ hostOps6_W)))).symm.trans (U17_main_arg0 m c)
theorem U14_main_arg9 (c : Dev nD) : U14 m c (Proc.devRef .tc main_arg9) = (m ((c : Thread nD τ).loc main_arg9)) :=
  ((((StableHlo.after_of_writes_sub hostOps7 _ hostOps7_writes (by decide : main_arg9 ∉ hostOps7_W))).trans ((U16_of_ne m c main_arg9 (by decide)))).trans ((StableHlo.after_of_writes_sub hostOps6 _ hostOps6_writes (by decide : main_arg9 ∉ hostOps6_W)))).symm.trans (U17_main_arg9 m c)
theorem U14_main_arg10 (c : Dev nD) : U14 m c (Proc.devRef .tc main_arg10) = (m ((c : Thread nD τ).loc main_arg10)) :=
  ((((StableHlo.after_of_writes_sub hostOps7 _ hostOps7_writes (by decide : main_arg10 ∉ hostOps7_W))).trans ((U16_of_ne m c main_arg10 (by decide)))).trans ((StableHlo.after_of_writes_sub hostOps6 _ hostOps6_writes (by decide : main_arg10 ∉ hostOps6_W)))).symm.trans (U17_main_arg10 m c)

/-! ## The four arrays the host writes before the region -/

/-- The spatial embedding, as the first host stretch leaves it. -/
theorem U13_v53 (c : Dev nD) :
    U13 m c (Proc.devRef .tc main_v53) = spaTerm (U12 m c (Proc.devRef .tc main_v50_0)) (U12 m c (Proc.devRef .tc main_v50_1)) := by
  dsimp only [U13]; simp only [hostOps5]; after_results; rfl

/-- Region 5 and the second host stretch do not touch it. -/
theorem U15_v53 (c : Dev nD) :
    U15 m c (Proc.devRef .tc main_v53) = spaTerm (U12 m c (Proc.devRef .tc main_v50_0)) (U12 m c (Proc.devRef .tc main_v50_1)) :=
  ((StableHlo.after_of_writes_sub hostOps6 _ hostOps6_writes (by decide : main_v53 ∉ hostOps6_W)).trans
    (U14_of_ne m c main_v53 (by decide))).trans (U13_v53 m c)

/-- The temporal embedding. -/
theorem U15_v60 (c : Dev nD) :
    U15 m c (Proc.devRef .tc main_v60) = tmpTerm (U14 m c (Proc.devRef .tc main_v54_0)) (U14 m c (Proc.devRef .tc main_arg0)) (U14 m c (Proc.devRef .tc main_v54_1)) := by
  dsimp only [U15]; simp only [hostOps6]; after_results; rfl

/-- The output weight, transposed. -/
theorem U15_v61 (c : Dev nD) :
    U15 m c (Proc.devRef .tc main_v61) = transpose S256x256 [1, 0] (U14 m c (Proc.devRef .tc main_arg9)) transposes_S256x256_S256x256_1_0 := by
  dsimp only [U15]; simp only [hostOps6]; after_results

/-- The bias, as a one-row array. -/
theorem U15_v62 (c : Dev nD) :
    U15 m c (Proc.devRef .tc main_v62) = shapeCast S1x256 (U14 m c (Proc.devRef .tc main_arg10)) shapeCasts_S256_S1x256 := by
  dsimp only [U15]; simp only [hostOps6]; after_results; rfl

/-! ## The four arrays, entry by entry

The arrays that enter the arithmetic below, named as plain functions of an index (a valuation's buffer is one only after
its reference's type is unfolded): -/

/-- Region 4's product array and its degree array, as region 4 leaves them. -/
abbrev spaNum (c : Dev nD) : S4096x256.Idx → EReal := U12 m c (Proc.devRef .tc main_v50_0)
abbrev spaDeg (c : Dev nD) : S4096x128.Idx → EReal := U12 m c (Proc.devRef .tc main_v50_1)
/-- Region 5's product array and its degree array, as region 5 leaves them. -/
abbrev tmpNum (c : Dev nD) : S4096x256.Idx → EReal := U14 m c (Proc.devRef .tc main_v54_0)
abbrev tmpDeg (c : Dev nD) : S4096x128.Idx → EReal := U14 m c (Proc.devRef .tc main_v54_1)
/-- The current rows, the output weight and the bias, at launch. -/
abbrev curArr (c : Dev nD) : S4096x256.Idx → EReal := (m ((c : Thread nD τ).loc main_arg0))
abbrev thetaArr (c : Dev nD) : S256x256.Idx → EReal := (m ((c : Thread nD τ).loc main_arg9))
abbrev biasArr (c : Dev nD) : S256.Idx → EReal := (m ((c : Thread nD τ).loc main_arg10))

/-- The spatial embedding at `(r, j)`: region 4's product over its degree column. -/
theorem spa_emb_at (c : Dev nD) (r : Fin 4096) (j : Fin 256) :
    (U15 m c (Proc.devRef .tc main_v53) : S4096x256.Idx → EReal) (ix2 r j)
      = Ideal.div (spaNum m c (ix2 r j)) (spaDeg m c (ix2 r (0 : Fin 128))) :=
  (congrFun (U15_v53 m c) (ix2 r j)).trans (spaTerm_at _ _ r j)

/-- The temporal embedding at `(r, j)`: region 5's product plus the current rows, over its degree column plus one (the
    word of 1.0, unevaluated). -/
theorem tmp_emb_at (c : Dev nD) (r : Fin 4096) (j : Fin 256) :
    (U15 m c (Proc.devRef .tc main_v60) : S4096x256.Idx → EReal) (ix2 r j)
      = Ideal.div (tmpNum m c (ix2 r j) + curArr m c (ix2 r j)) (tmpDeg m c (ix2 r (0 : Fin 128)) + Ideal.ofBits .f32 0x3F800000#32) :=
  (congrFun (U15_v60 m c) (ix2 r j)).trans
    ((tmpTerm_at _ _ _ r j).trans (by rw [U14_main_arg0]))

/-- The transposed output weight at `(k, j)`. -/
theorem thetaT_at (c : Dev nD) (k j : Fin 256) :
    (U15 m c (Proc.devRef .tc main_v61) : S256x256.Idx → EReal) (ix2 k j) = thetaArr m c (ix2 j k) :=
  (congrFun (U15_v61 m c) (ix2 k j)).trans ((transpose_at _ k j).trans (by rw [U14_main_arg9]))

/-- The bias row at column `j`. -/
theorem bias_at (c : Dev nD) (j : Fin 256) :
    (U15 m c (Proc.devRef .tc main_v62) : S1x256.Idx → EReal) (ix2 (0 : Fin 1) j) = biasArr m c (ix1 j) :=
  (congrFun (U15_v62 m c) (ix2 (0 : Fin 1) j)).trans ((biasRow_at _ (0 : Fin 1) j).trans (by rw [U14_main_arg10]))

/-! ## The region's result -/

/-- The node update of equal arrays. -/
theorem node_out_congr {cur cur' spa spa' tmp tmp' : (⟨2, ![4096, 256]⟩ : Shape).Idx → EReal}
    {wn wn' ws ws' wt wt' wθ wθ' : (⟨2, ![256, 256]⟩ : Shape).Idx → EReal} {b b' : (⟨2, ![1, 256]⟩ : Shape).Idx → EReal}
    (h0 : cur = cur') (h1 : spa = spa') (h2 : tmp = tmp') (h3 : wn = wn') (h4 : ws = ws') (h5 : wt = wt') (h6 : wθ = wθ') (h7 : b = b') :
    node_out cur spa tmp wn ws wt wθ b = node_out cur' spa' tmp' wn' ws' wt' wθ' b' := by
  subst h0 h1 h2 h3 h4 h5 h6 h7; rfl

/-- The output array at the end of the run is what region 6 left: the last host operation writes a scalar only. -/
theorem U17_v63 (c : Dev nD) :
    U17 m c (Proc.devRef .tc main_v63) = (dat6 (F := Ideal) (fun c b => U15 m c b) c).arrAt 8 cfg6.N :=
  (StableHlo.after_of_writes_sub hostOps7 _ hostOps7_writes (by decide : main_v63 ∉ hostOps7_W)).trans (U16_arr m c 8)

/-- The output array at the end of the run is the node update of the current rows, the two embeddings, the three
    projection weights, the transposed output weight and the bias row — the arguments at their launch contents. -/
theorem node_result (c : Dev nD) :
    U17 m c (Proc.devRef .tc main_v63)
      = node_out (m ((c : Thread nD τ).loc main_arg0)) (U15 m c (Proc.devRef .tc main_v53)) (U15 m c (Proc.devRef .tc main_v60))
          (m ((c : Thread nD τ).loc main_arg6)) (m ((c : Thread nD τ).loc main_arg7)) (m ((c : Thread nD τ).loc main_arg8)) (U15 m c (Proc.devRef .tc main_v61)) (U15 m c (Proc.devRef .tc main_v62)) :=
  (U17_v63 m c).trans ((final6 (fun c b => U15 m c b) c).trans
    (node_out_congr (U15_main_arg0 m c) rfl rfl (U15_main_arg6 m c) (U15_main_arg7 m c) (U15_main_arg8 m c) rfl rfl))

end Cert.KernelIdeal.Glue6

end
-- ==== Proof.RefNode.lean ====
/- The reference's first result, entry by entry, is the node update of the current rows, the two embeddings the
   reference forms before it (each left as the array it is), the three projections, the output weight transposed and
   the bias as a one-row array. The reference's stages are read at an index one after another: a product as the sum
   over its contracted coordinate, a row sum from the zero constant, the broadcasts of a column and of the bias row,
   the transpose, the clamp against the broadcast zero. The constants are the same words as the kernel's: 0x3D800000
   (one sixteenth) and the zero word. -/
import proofs.«140739_j42683384987781_2_alg».proof.Proof.Gen.ReferenceIdeal.Read
import proofs.«140739_j42683384987781_2_alg».proof.Proof.KI.R6Spec

noncomputable section

open scoped BigOperators

namespace Cert.ReferenceIdeal.Node

open Idealize.ShloMosaic Idealize.ShloMosaic.ValueIdx
open Cert.ReferenceIdeal Cert.ReferenceIdeal.Gen Cert.ReferenceIdeal.Read
open Cert.KernelIdeal.RegionValue6

/-! ## The three projections -/

theorem v117_at (x0 : (⟨S4096x256, .f32⟩ : BufTy).Contents (Elt Ideal)) (x6 : (⟨S256x256, .f32⟩ : BufTy).Contents (Elt Ideal)) (r : Fin 4096) (j : Fin 256) :
    val_main_v117 (F := Ideal) x0 x6 (ix2 r j) = proj x0 x6 r j := by
  rw [val_main_v117_apply]
  unfold proj
  refine Finset.sum_congr rfl fun k _ => ?_
  have el : lidx_main_v117 (ix2 r j) k = (ix2 r k : S4096x256.Idx) := by funext a; apply Fin.ext; match a with | ⟨0, _⟩ => rfl | ⟨1, _⟩ => rfl
  have er : ridx_main_v117 (ix2 r j) k = (ix2 k j : S256x256.Idx) := by funext a; apply Fin.ext; match a with | ⟨0, _⟩ => rfl | ⟨1, _⟩ => rfl
  rw [el, er]

theorem v118_at (x0 : (⟨S4096x256, .f32⟩ : BufTy).Contents (Elt Ideal)) (x3 : (⟨S4096x4095, .f32⟩ : BufTy).Contents (Elt Ideal)) (x7 : (⟨S256x256, .f32⟩ : BufTy).Contents (Elt Ideal)) (r : Fin 4096) (j : Fin 256) :
    val_main_v118 (F := Ideal) x0 x3 x7 (ix2 r j) = proj (val_main_v108 (F := Ideal) x0 x3) x7 r j := by
  rw [val_main_v118_apply]
  unfold proj
  refine Finset.sum_congr rfl fun k _ => ?_
  have el : lidx_main_v118 (ix2 r j) k = (ix2 r k : S4096x256.Idx) := by funext a; apply Fin.ext; match a with | ⟨0, _⟩ => rfl | ⟨1, _⟩ => rfl
  have er : ridx_main_v118 (ix2 r j) k = (ix2 k j : S256x256.Idx) := by funext a; apply Fin.ext; match a with | ⟨0, _⟩ => rfl | ⟨1, _⟩ => rfl
  rw [el, er]

theorem v119_at (x0 x1 : (⟨S4096x256, .f32⟩ : BufTy).Contents (Elt Ideal)) (x5 : (⟨S4096x4096, .f32⟩ : BufTy).Contents (Elt Ideal)) (x8 : (⟨S256x256, .f32⟩ : BufTy).Contents (Elt Ideal)) (r : Fin 4096) (j : Fin 256) :
    val_main_v119 (F := Ideal) x0 x1 x5 x8 (ix2 r j) = proj (val_main_v116 (F := Ideal) x0 x1 x5) x8 r j := by
  rw [val_main_v119_apply]
  unfold proj
  refine Finset.sum_congr rfl fun k _ => ?_
  have el : lidx_main_v119 (ix2 r j) k = (ix2 r k : S4096x256.Idx) := by funext a; apply Fin.ext; match a with | ⟨0, _⟩ => rfl | ⟨1, _⟩ => rfl
  have er : ridx_main_v119 (ix2 r j) k = (ix2 k j : S256x256.Idx) := by funext a; apply Fin.ext; match a with | ⟨0, _⟩ => rfl | ⟨1, _⟩ => rfl
  rw [el, er]

/-! ## The two attention columns: a row's inner product from the zero constant, times one sixteenth -/

theorem v124_at (x0 : (⟨S4096x256, .f32⟩ : BufTy).Contents (Elt Ideal)) (x3 : (⟨S4096x4095, .f32⟩ : BufTy).Contents (Elt Ideal)) (x6 x7 : (⟨S256x256, .f32⟩ : BufTy).Contents (Elt Ideal)) (r : Fin 4096) (u : Fin 1) :
    val_main_v124 (F := Ideal) x0 x3 x6 x7 (ix2 r u) = attn (proj (val_main_v108 (F := Ideal) x0 x3) x7) (proj x0 x6) r := by
  rw [val_main_v124_apply, val_main_v122_apply, val_main_v123_apply, val_main_cst_26_apply, val_main_v121_apply, val_main_cst_25_apply]
  unfold attn
  rw [Ideal.mulf_def, Ideal.ofBits_def, Ideal.ofBits_def, Ideal.ofBits_zero_f32, zero_add]
  refine congrArg (· * Ideal.ofBits .f32 0x3D800000#32) (Finset.sum_congr rfl fun k _ => ?_)
  have e : idx_main_v121 (idx_main_v122 (ix2 r u)) k = (ix2 r k : S4096x256.Idx) := by funext a; apply Fin.ext; match a with | ⟨0, _⟩ => rfl | ⟨1, _⟩ => rfl
  rw [e, val_main_v120_apply, Ideal.mulf_def, v118_at, v117_at]

theorem v129_at (x0 x1 : (⟨S4096x256, .f32⟩ : BufTy).Contents (Elt Ideal)) (x5 : (⟨S4096x4096, .f32⟩ : BufTy).Contents (Elt Ideal)) (x6 x8 : (⟨S256x256, .f32⟩ : BufTy).Contents (Elt Ideal)) (r : Fin 4096) (u : Fin 1) :
    val_main_v129 (F := Ideal) x0 x1 x5 x6 x8 (ix2 r u) = attn (proj (val_main_v116 (F := Ideal) x0 x1 x5) x8) (proj x0 x6) r := by
  rw [val_main_v129_apply, val_main_v127_apply, val_main_v128_apply, val_main_cst_28_apply, val_main_v126_apply, val_main_cst_27_apply]
  unfold attn
  rw [Ideal.mulf_def, Ideal.ofBits_def, Ideal.ofBits_def, Ideal.ofBits_zero_f32, zero_add]
  refine congrArg (· * Ideal.ofBits .f32 0x3D800000#32) (Finset.sum_congr rfl fun k _ => ?_)
  have e : idx_main_v126 (idx_main_v127 (ix2 r u)) k = (ix2 r k : S4096x256.Idx) := by funext a; apply Fin.ext; match a with | ⟨0, _⟩ => rfl | ⟨1, _⟩ => rfl
  rw [e, val_main_v125_apply, Ideal.mulf_def, v119_at, v117_at]

/-! ## The mixed value -/

theorem v134_at (x0 x1 : (⟨S4096x256, .f32⟩ : BufTy).Contents (Elt Ideal)) (x3 : (⟨S4096x4095, .f32⟩ : BufTy).Contents (Elt Ideal)) (x5 : (⟨S4096x4096, .f32⟩ : BufTy).Contents (Elt Ideal)) (x6 x7 x8 : (⟨S256x256, .f32⟩ : BufTy).Contents (Elt Ideal)) (r : Fin 4096) (k : Fin 256) :
    val_main_v134 (F := Ideal) x0 x1 x3 x5 x6 x7 x8 (ix2 r k) = mixed x0 (val_main_v108 (F := Ideal) x0 x3) (val_main_v116 (F := Ideal) x0 x1 x5) x6 x7 x8 r k := by
  rw [val_main_v134_apply, val_main_v131_apply, val_main_v133_apply, val_main_v130_apply, val_main_v132_apply]
  have e0 : idx_main_v130 (ix2 r k) = (ix2 r (0 : Fin 1) : S4096x1.Idx) := by funext a; apply Fin.ext; match a with | ⟨0, _⟩ => rfl | ⟨1, _⟩ => rfl
  have e1 : idx_main_v132 (ix2 r k) = (ix2 r (0 : Fin 1) : S4096x1.Idx) := by funext a; apply Fin.ext; match a with | ⟨0, _⟩ => rfl | ⟨1, _⟩ => rfl
  rw [e0, e1, v124_at, v129_at, v118_at, v119_at, Ideal.addf_def, Ideal.mulf_def, Ideal.mulf_def]
  rfl

/-! ## The result -/

/-- Entry `(r, j)` of the reference's first result is the node update at row `r`, column `j`, of the current rows, the
    two embeddings, the three projections, the output weight read transposed and the bias read as a one-row array. -/
theorem ref_node_at (x0 x1 : (⟨S4096x256, .f32⟩ : BufTy).Contents (Elt Ideal)) (x3 : (⟨S4096x4095, .f32⟩ : BufTy).Contents (Elt Ideal)) (x5 : (⟨S4096x4096, .f32⟩ : BufTy).Contents (Elt Ideal)) (x6 x7 x8 x9 : (⟨S256x256, .f32⟩ : BufTy).Contents (Elt Ideal)) (x10 : (⟨S256, .f32⟩ : BufTy).Contents (Elt Ideal)) (r : Fin 4096) (j : Fin 256) :
    val_main_v140 (F := Ideal) x0 x1 x3 x5 x6 x7 x8 x9 x10 (ix2 r j)
      = nodeAt (m := 4096) x0 (val_main_v108 (F := Ideal) x0 x3) (val_main_v116 (F := Ideal) x0 x1 x5) x6 x7 x8
          (fun i => x9 (ix2 (n0 := 256) (n1 := 256) (i 1) (i 0))) (fun i => x10 (ix1 (n := 256) (i 1))) r j := by
  rw [val_main_v140_apply, val_main_v139_apply, val_main_call1_v0_apply, val_main_call1_cst_apply, val_main_v138_apply, val_main_v137_apply,
    val_main_v136_apply]
  unfold nodeAt
  rw [Ideal.maximumf_def, Ideal.addf_def, Ideal.ofBits_def]
  have eb : idx_main_v137 (idx_main_v138 (ix2 r j)) = (ix1 j : S256.Idx) := by
    funext a; apply Fin.ext; match a with | ⟨0, _⟩ => rfl
  rw [eb]
  refine congrArg (fun s => max (s + x10 (ix1 j)) (Ideal.ofBits .f32 0x00000000#32)) (Finset.sum_congr rfl fun k _ => ?_)
  have el : lidx_main_v136 (ix2 r j) k = (ix2 r k : S4096x256.Idx) := by funext a; apply Fin.ext; match a with | ⟨0, _⟩ => rfl | ⟨1, _⟩ => rfl
  have er : ridx_main_v136 (ix2 r j) k = (ix2 k j : S256x256.Idx) := by funext a; apply Fin.ext; match a with | ⟨0, _⟩ => rfl | ⟨1, _⟩ => rfl
  have et : idx_main_v135 (ix2 k j) = (ix2 j k : S256x256.Idx) := by funext a; apply Fin.ext; match a with | ⟨0, _⟩ => rfl | ⟨1, _⟩ => rfl
  rw [el, er, val_main_v135_apply, et, v134_at]

end Cert.ReferenceIdeal.Node

end
-- ==== Proof.KI.R4Pieces.lean ====
/-
  Region 4, what each control case of the body leaves, as the body's arithmetic applied to what it loaded.

  The body's stores are whole-buffer stores, so each buffer ends holding its last store's payload.  At k = 0 each
  accumulator is cleared and the step's term is added to the cleared accumulator; at every other step the term is
  added to what the step before left; at k = 7 each output receives the accumulator just stored.
-/
import proofs.«140739_j42683384987781_2_alg».proof.Proof.KI.R4
import proofs.«140739_j42683384987781_2_alg».proof.Proof.LibWholeStores
import Idealize.ShloMosaic.Lib.ValueIdx

set_option maxRecDepth 16384

noncomputable section

namespace Cert.KernelIdeal.RegionValue4

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open Idealize.ShloMosaic.LibWholeStores

variable {F : FTy → Type} [FloatOps F]

/-- At k = 0 the product accumulator ends at the step's product added to the cleared accumulator. -/
theorem sout4_A_0_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) :
    sout4_A_0 c i arg2 harg2 arg3 harg3 arg4 harg4 arg5 harg5 arg6 harg6 arg7 harg7 hc0 hc1 x0 x1 = k4_pay4 x0 x1 (k4_pay1 (F := F)) := by
  unfold sout4_A_0
  rw [View.read_writes_eq_canon _ _ _ (scover4_A_0 c i arg2 harg2 arg3 harg3 arg4 harg4 arg5 harg5 arg6 harg6 arg7 harg7 hc0 hc1 x0 x1)]
  unfold kernelRun4_A
  dsimp only
  sl_unfold_words
  rw [View.canon_cons_unit_zero zero_off2, View.readCov_unit_zero _ zero_off2]
  simp only [View.readAt_eq_ld, harg2.read_unread, harg3.read_unread,
    View.ld_unit_zero (S := S1024x512) zero_off2, View.ld_unit_zero (S := S512x256) zero_off2]

/-- At k = 0 the row-sum accumulator ends at the step's row sums added to the cleared accumulator. -/
theorem sout4_A_1_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond4_0 i) (hc1 : ¬cond4_1 i)
    (x0 : Vec F S1024x512 .f32) (x1 : Vec F S512x256 .f32) :
    sout4_A_1 c i arg2 harg2 arg3 harg3 arg4 harg4 arg5 harg5 arg6 harg6 arg7 harg7 hc0 hc1 x0 x1 = k4_pay5 x0 (k4_pay2 (F := F)) := by
  unfold sout4_A_1
  rw [View.read_writes_eq_canon _ _ _ (scover4_A_1 c i arg2 harg2 arg3 harg3 arg4 harg4 arg5 harg5 arg6 harg6 arg7 harg7 hc0 hc1 x0 x1)]
  unfold kernelRun4_A
  dsimp only
  sl_unfold_words
  rw [View.canon_cons_unit_zero zero_off2, View.readCov_unit_zero _ zero_off2]
  simp only [View.readAt_eq_ld, harg2.read_unread, harg3.read_unread,
    View.ld_unit_zero (S := S1024x512) zero_off2, View.ld_unit_zero (S := S512x256) zero_off2]

/-- At a middle step the product accumulator ends at the step's product added to what it held. -/
theorem sout4_B_0_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) :
    sout4_B_0 c i arg2 harg2 arg3 harg3 arg4 harg4 arg5 harg5 arg6 harg6 arg7 harg7 hc0 hc1 x0 x1 xs0 xs1 = k4_pay4 x0 x1 xs0 := by
  unfold sout4_B_0
  rw [View.read_writes_eq_canon _ _ _ (scover4_B_0 c i arg2 harg2 arg3 harg3 arg4 harg4 arg5 harg5 arg6 harg6 arg7 harg7 hc0 hc1 x0 x1 xs0 xs1)]
  unfold kernelRun4_B
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At a middle step the row-sum accumulator ends at the step's row sums added to what it held. -/
theorem sout4_B_1_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : ¬cond4_1 i)
    (x0 : Vec F S1024x512 .f32) (x1 : Vec F S512x256 .f32) (xs0 : Vec F S1024x256 .f32) (xs1 : Vec F S1024x128 .f32) :
    sout4_B_1 c i arg2 harg2 arg3 harg3 arg4 harg4 arg5 harg5 arg6 harg6 arg7 harg7 hc0 hc1 x0 x1 xs0 xs1 = k4_pay5 x0 xs1 := by
  unfold sout4_B_1
  rw [View.read_writes_eq_canon _ _ _ (scover4_B_1 c i arg2 harg2 arg3 harg3 arg4 harg4 arg5 harg5 arg6 harg6 arg7 harg7 hc0 hc1 x0 x1 xs0 xs1)]
  unfold kernelRun4_B
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the product accumulator ends at the step's product added to what it held. -/
theorem sout4_C_0_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) :
    sout4_C_0 c i arg2 harg2 arg3 harg3 arg4 harg4 arg5 harg5 arg6 harg6 arg7 harg7 hc0 hc1 x0 x1 xs0 xs1 = k4_pay4 x0 x1 xs0 := by
  unfold sout4_C_0
  rw [View.read_writes_eq_canon _ _ _ (scover4_C_0 c i arg2 harg2 arg3 harg3 arg4 harg4 arg5 harg5 arg6 harg6 arg7 harg7 hc0 hc1 x0 x1 xs0 xs1)]
  unfold kernelRun4_C
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the row-sum accumulator ends at the step's row sums added to what it held. -/
theorem sout4_C_1_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) :
    sout4_C_1 c i arg2 harg2 arg3 harg3 arg4 harg4 arg5 harg5 arg6 harg6 arg7 harg7 hc0 hc1 x0 x1 xs0 xs1 = k4_pay5 x0 xs1 := by
  unfold sout4_C_1
  rw [View.read_writes_eq_canon _ _ _ (scover4_C_1 c i arg2 harg2 arg3 harg3 arg4 harg4 arg5 harg5 arg6 harg6 arg7 harg7 hc0 hc1 x0 x1 xs0 xs1)]
  unfold kernelRun4_C
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the product output receives the accumulator just stored. -/
theorem out4_C_2_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) :
    out4_C_2 c i arg2 harg2 arg3 harg3 arg4 harg4 arg5 harg5 arg6 harg6 arg7 harg7 hc0 hc1 x0 x1 xs0 xs1 = k4_pay4 x0 x1 xs0 := by
  unfold out4_C_2
  rw [View.read_writes_eq_canon _ _ _ (cover4_C_2 c i arg2 harg2 arg3 harg3 arg4 harg4 arg5 harg5 arg6 harg6 arg7 harg7 hc0 hc1 x0 x1 xs0 xs1)]
  unfold kernelRun4_C
  dsimp only
  sl_unfold_words
  rw [View.canon_unit_zero zero_off2, View.readCov_unit_zero _ zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the row-sum output receives the accumulator just stored. -/
theorem out4_C_3_eq (c : Dev nD) (i : grid4.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond4_0 i) (hc1 : cond4_1 i)
    (x0 : Vec F S1024x512 .f32) (x1 : Vec F S512x256 .f32) (xs0 : Vec F S1024x256 .f32) (xs1 : Vec F S1024x128 .f32) :
    out4_C_3 c i arg2 harg2 arg3 harg3 arg4 harg4 arg5 harg5 arg6 harg6 arg7 harg7 hc0 hc1 x0 x1 xs0 xs1 = k4_pay5 x0 xs1 := by
  unfold out4_C_3
  rw [View.read_writes_eq_canon _ _ _ (cover4_C_3 c i arg2 harg2 arg3 harg3 arg4 harg4 arg5 harg5 arg6 harg6 arg7 harg7 hc0 hc1 x0 x1 xs0 xs1)]
  unfold kernelRun4_C
  dsimp only
  sl_unfold_words
  rw [View.canon_unit_zero zero_off2, View.readCov_unit_zero _ zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

end Cert.KernelIdeal.RegionValue4

end
-- ==== Proof.KI.R4Payload.lean ====
/-
  Region 4, the body's arithmetic read at an index over the extended reals.

  Narrowing to bf16 is the identity there, the cleared accumulators are zero, the step's product at (a, b) is the
  accumulator's entry plus the sum over the 512 contraction indices of the step of the products of the two blocks'
  entries, and the step's row sum at (a, j) is the accumulator's entry plus the sum of row a of the left
  block, the same for every lane j.
-/
import proofs.«140739_j42683384987781_2_alg».proof.Proof.Gen.KernelIdeal.Skeleton
import proofs.«140739_j42683384987781_2_alg».proof.Proof.LibPlainProduct
import proofs.«140739_j42683384987781_2_alg».proof.Proof.LibColumn
import Idealize.ShloMosaic.Lib.ValueIdx
import Idealize.ShloMosaic.Lib.Pipeline.Value
import Idealize.ShloMosaic.PureOps.Ideal.Laws

set_option maxRecDepth 16384

noncomputable section

namespace Cert.KernelIdeal.RegionValue4

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-- The cleared product accumulator is zero everywhere. -/
theorem pay1_at (a : Fin 1024) (b : Fin 256) : (k4_pay1 (F := Ideal) : S1024x256.Idx → EReal) (ix2 a b) = 0 := by
  unfold k4_pay1
  (try dsimp only)
  refine (congrFun (shapeCast_self _ _) _).trans ?_
  exact (broadcast_apply _ _).trans Ideal.ofBits_zero_f32

/-- The cleared row-sum accumulator is zero everywhere. -/
theorem pay2_at (a : Fin 1024) (j : Fin 128) : (k4_pay2 (F := Ideal) : S1024x128.Idx → EReal) (ix2 a j) = 0 := by
  unfold k4_pay2
  (try dsimp only)
  refine (congrFun (shapeCast_self _ _) _).trans ?_
  exact (broadcast_apply _ _).trans Ideal.ofBits_zero_f32

/-- What both terms of the step read of the left operand: the left operand's block. -/
theorem pay3_at (x0 : S1024x512.Idx → EReal) (a : Fin 1024) (l : Fin 512) :
    (k4_pay3 (F := Ideal) x0 : S1024x512.Idx → EReal) (ix2 a l) = x0 (ix2 a l) := by
  unfold k4_pay3
  (try dsimp only)
  exact congrFun (shapeCast_self _ _) _

/-- The step's product added to the accumulator, at (a, b). -/
theorem pay4_at (x0 : S1024x512.Idx → EReal) (x1 : S512x256.Idx → EReal) (acc : S1024x256.Idx → EReal) (a : Fin 1024) (b : Fin 256) :
    (k4_pay4 (F := Ideal) x0 x1 acc : S1024x256.Idx → EReal) (ix2 a b)
      = acc (ix2 a b) + ∑ l : Fin 512, x0 (ix2 a l) * x1 (ix2 l b) := by
  unfold k4_pay4
  (try dsimp only)
  refine (congrFun (shapeCast_self _ _) _).trans ?_
  refine (addf_apply _ _ _).trans ?_
  refine congrArg (acc (ix2 a b) + ·) ?_
  refine (PlainProduct.matmul_at dot_S1024x512_S512x256_S1024x256_1_0_0_1_n_n rfl none _ _ _ a b).trans ?_
  refine (congrArg (· + _) ((constant_apply _ _).trans Ideal.ofBits_zero_f32)).trans ?_
  refine (zero_add _).trans ?_
  refine Finset.sum_congr rfl fun l _ => ?_
  exact congrArg (· * x1 (ix2 l b)) (pay3_at x0 a l)

/-- The step's row sums added to the accumulator, at (a, j): the same sum in every lane j. -/
theorem pay5_at (x0 : S1024x512.Idx → EReal) (acc : S1024x128.Idx → EReal) (a : Fin 1024) (j : Fin 128) :
    (k4_pay5 (F := Ideal) x0 acc : S1024x128.Idx → EReal) (ix2 a j)
      = acc (ix2 a j) + ∑ l : Fin 512, x0 (ix2 a l) := by
  unfold k4_pay5
  (try dsimp only)
  refine (congrFun (shapeCast_self _ _) _).trans ?_
  refine (addf_apply _ _ _).trans ?_
  refine congrArg (acc (ix2 a j) + ·) ?_
  refine (Idealize.ShloMosaic.ColumnIdx.broadcastTo_a1_ab_apply _ _ a j).trans ?_
  refine (congrFun (shapeCast_self _ _) _).trans ?_
  refine (Idealize.ShloMosaic.ColumnIdx.shapeCast_a_a1_apply _ _ a 0).trans ?_
  refine (Idealize.ShloMosaic.ColumnIdx.rowSum_apply _ _ _ _ a).trans ?_
  exact Finset.sum_congr rfl fun l _ => pay3_at x0 a l

end Cert.KernelIdeal.RegionValue4

end
-- ==== Proof.KI.R4Value.lean ====
/-
  Region 4, what its two output arrays hold when the region ends, over the extended reals.

  The grid is 4 row blocks of 1024 rows by 8 steps of 512 contraction indices.  Within a row block the two
  accumulators are cleared at step 0 and step k adds the step's 512 terms, so after step k they hold the sum over the
  first (k + 1) · 512 contraction indices, taken block by block; addition on the extended reals is commutative and
  associative and 0 + x = x, so no finiteness is needed.  At step 7 the accumulators are copied to the outputs' blocks,
  which are written back: 8 blocks of 512 are the whole contraction of length 4096.  So the first output at (a, b) is
  the sum over k of A(a, k) · B(k, b), and the second at (a, j), for every lane j, the sum over k of A(a, k).
-/
import proofs.«140739_j42683384987781_2_alg».proof.Proof.KI.R4Pieces
import proofs.«140739_j42683384987781_2_alg».proof.Proof.KI.R4Payload
import proofs.«140739_j42683384987781_2_alg».proof.Proof.LibBlockRange

set_option maxRecDepth 16384

noncomputable section

namespace Cert.KernelIdeal.RegionValue4

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open Idealize.ShloMosaic.LibWholeStores

variable (V : (c : Dev nD) → (b : Ref sig .tc) → Buf (Elt Ideal) ((c : Thread nD τ).loc b))

/-! ## The two input arrays, and their entries by natural-number coordinates -/

/-- The left operand's array as the region finds it. -/
abbrev A (c : Dev nD) : S4096x4096.Idx → EReal := V c (Pipeline.arrRef spec4 0)
/-- The right operand's array as the region finds it. -/
abbrev B (c : Dev nD) : S4096x256.Idx → EReal := V c (Pipeline.arrRef spec4 1)

/-- The left operand's entry at natural-number coordinates (zero outside the array: never read there). -/
def AN (c : Dev nD) (i j : ℕ) : EReal := if h : i < 4096 ∧ j < 4096 then A V c (ix2 ⟨i, h.1⟩ ⟨j, h.2⟩) else 0
/-- The right operand's entry at natural-number coordinates. -/
def BN (c : Dev nD) (i j : ℕ) : EReal := if h : i < 4096 ∧ j < 256 then B V c (ix2 ⟨i, h.1⟩ ⟨j, h.2⟩) else 0

theorem AN_of (c : Dev nD) (a k : Fin 4096) : AN V c a.val k.val = A V c (ix2 a k) := by
  unfold AN; rw [dif_pos ⟨a.isLt, k.isLt⟩]
theorem BN_of (c : Dev nD) (k : Fin 4096) (b : Fin 256) : BN V c k.val b.val = B V c (ix2 k b) := by
  unfold BN; rw [dif_pos ⟨k.isLt, b.isLt⟩]

/-! ## Which block each window is on at a point -/

/-- Point `t` is step `t mod 8` of row block `t / 8`: the left operand's block is (t / 8, t mod 8), the right
    operand's (t mod 8, 0), both outputs' (t / 8, 0) — decided over the grid. -/
theorem blockOf : ∀ t : Fin cfg4.N,
    win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = 0
    ∧ win4_3.index t (0 : Fin 2) = t.val / 8 ∧ win4_3.index t (1 : Fin 2) = 0 :=
  (by decide +kernel : ∀ t : Fin grid4.N, _)

/-- The left operand's block at point `t`, entry (a, l): row 1024 (t / 8) + a, column 512 (t mod 8) + l of the array. -/
theorem blk0_at (c : Dev nD) (t : Fin cfg4.N) (a : Fin 1024) (l : Fin 512) :
    (iblk4 V c 0 t : S1024x512.Idx → EReal) (ix2 a l) = AN V c (1024 * (t.val / 8) + a.val) (512 * (t.val % 8) + l.val) := by
  obtain ⟨e0, e1, -⟩ := blockOf t
  have hN : t.val < 32 := lt_of_lt_of_eq t.isLt (show cfg4.N = 32 from N_4)
  have ha := a.isLt
  have hl := l.isLt
  unfold AN
  rw [dif_pos ⟨by omega, by omega⟩]
  unfold iblk4
  rw [View.read_apply]
  show V c (Pipeline.arrRef spec4 0) _ = V c (Pipeline.arrRef spec4 0) _
  congr 1
  funext ax
  apply Fin.ext
  match ax with
  | ⟨0, _⟩ => show win4_0.index t (0 : Fin 2) * 1024 + 1 * a.val = 1024 * (t.val / 8) + a.val; rw [e0]; omega
  | ⟨1, _⟩ => show win4_0.index t (1 : Fin 2) * 512 + 1 * l.val = 512 * (t.val % 8) + l.val; rw [e1]; omega

/-- The right operand's block at point `t`, entry (l, b): row 512 (t mod 8) + l, column b of the array. -/
theorem blk1_at (c : Dev nD) (t : Fin cfg4.N) (l : Fin 512) (b : Fin 256) :
    (iblk4 V c 1 t : S512x256.Idx → EReal) (ix2 l b) = BN V c (512 * (t.val % 8) + l.val) b.val := by
  obtain ⟨-, -, e0, e1, -⟩ := blockOf t
  have hl := l.isLt
  have hb := b.isLt
  unfold BN
  rw [dif_pos ⟨by omega, by omega⟩]
  unfold iblk4
  rw [View.read_apply]
  show V c (Pipeline.arrRef spec4 1) _ = V c (Pipeline.arrRef spec4 1) _
  congr 1
  funext ax
  apply Fin.ext
  match ax with
  | ⟨0, _⟩ => show win4_1.index t (0 : Fin 2) * 512 + 1 * l.val = 512 * (t.val % 8) + l.val; rw [e0]; omega
  | ⟨1, _⟩ => show win4_1.index t (1 : Fin 2) * 256 + 1 * b.val = b.val; rw [e1]; omega

/-! ## The running totals -/

/-- The contraction of row `1024 r + a` with column `b` over the first `n` blocks of 512 indices. -/
def partProd (c : Dev nD) (r n : ℕ) (a : Fin 1024) (b : Fin 256) : EReal :=
  ∑ q ∈ Finset.range n, ∑ l : Fin 512, AN V c (1024 * r + a.val) (512 * q + l.val) * BN V c (512 * q + l.val) b.val
/-- The sum of row `1024 r + a` over the first `n` blocks of 512 indices. -/
def partDeg (c : Dev nD) (r n : ℕ) (a : Fin 1024) : EReal :=
  ∑ q ∈ Finset.range n, ∑ l : Fin 512, AN V c (1024 * r + a.val) (512 * q + l.val)

/-- The step's product over the cleared accumulator is the first block's contraction. -/
theorem prod_first (c : Dev nD) (t : Fin cfg4.N) (h0 : t.val % 8 = 0) (a : Fin 1024) (b : Fin 256) :
    (k4_pay4 (F := Ideal) (iblk4 V c 0 t) (iblk4 V c 1 t) (k4_pay1 (F := Ideal)) : S1024x256.Idx → EReal) (ix2 a b)
      = partProd V c (t.val / 8) (t.val % 8 + 1) a b := by
  refine (pay4_at _ _ _ a b).trans ?_
  rw [pay1_at, zero_add]
  unfold partProd
  rw [h0, Finset.sum_range_succ, Finset.sum_range_zero, zero_add]
  refine Finset.sum_congr rfl fun l _ => ?_
  rw [blk0_at V c t a l, blk1_at V c t l b, h0]

/-- The step's product over a running total of the blocks before it is the running total through it. -/
theorem prod_step (c : Dev nD) (t : Fin cfg4.N) (h0 : ¬t.val % 8 = 0) (prev : S1024x256.Idx → EReal)
    (hprev : ∀ a b, prev (ix2 a b) = partProd V c ((t.val - 1) / 8) ((t.val - 1) % 8 + 1) a b) (a : Fin 1024) (b : Fin 256) :
    (k4_pay4 (F := Ideal) (iblk4 V c 0 t) (iblk4 V c 1 t) prev : S1024x256.Idx → EReal) (ix2 a b)
      = partProd V c (t.val / 8) (t.val % 8 + 1) a b := by
  refine (pay4_at _ _ _ a b).trans ?_
  rw [hprev a b, show (t.val - 1) / 8 = t.val / 8 from by omega, show (t.val - 1) % 8 + 1 = t.val % 8 from by omega]
  unfold partProd
  rw [Finset.sum_range_succ]
  refine congrArg (_ + ·) ?_
  refine Finset.sum_congr rfl fun l _ => ?_
  rw [blk0_at V c t a l, blk1_at V c t l b]

/-- The step's row sums over the cleared accumulator are the first block's. -/
theorem deg_first (c : Dev nD) (t : Fin cfg4.N) (h0 : t.val % 8 = 0) (a : Fin 1024) (j : Fin 128) :
    (k4_pay5 (F := Ideal) (iblk4 V c 0 t) (k4_pay2 (F := Ideal)) : S1024x128.Idx → EReal) (ix2 a j)
      = partDeg V c (t.val / 8) (t.val % 8 + 1) a := by
  refine (pay5_at _ _ a j).trans ?_
  rw [pay2_at, zero_add]
  unfold partDeg
  rw [h0, Finset.sum_range_succ, Finset.sum_range_zero, zero_add]
  refine Finset.sum_congr rfl fun l _ => ?_
  rw [blk0_at V c t a l, h0]

/-- The step's row sums over a running total are the running total through the step. -/
theorem deg_step (c : Dev nD) (t : Fin cfg4.N) (h0 : ¬t.val % 8 = 0) (prev : S1024x128.Idx → EReal)
    (hprev : ∀ a j, prev (ix2 a j) = partDeg V c ((t.val - 1) / 8) ((t.val - 1) % 8 + 1) a) (a : Fin 1024) (j : Fin 128) :
    (k4_pay5 (F := Ideal) (iblk4 V c 0 t) prev : S1024x128.Idx → EReal) (ix2 a j)
      = partDeg V c (t.val / 8) (t.val % 8 + 1) a := by
  refine (pay5_at _ _ a j).trans ?_
  rw [hprev a j, show (t.val - 1) / 8 = t.val / 8 from by omega, show (t.val - 1) % 8 + 1 = t.val % 8 from by omega]
  unfold partDeg
  rw [Finset.sum_range_succ]
  refine congrArg (_ + ·) ?_
  refine Finset.sum_congr rfl fun l _ => ?_
  rw [blk0_at V c t a l]

/-! ## The accumulators after each point -/

/-- After position `n` the accumulators hold the running totals of row block `n / 8` through step `n mod 8`. -/
def Inv (c : Dev nD) (n : ℕ) (hn : n < cfg4.N) : Prop :=
  (∀ (a : Fin 1024) (b : Fin 256), ((outsAt4 V c n hn).2.2.1 : S1024x256.Idx → EReal) (ix2 a b) = partProd V c (n / 8) (n % 8 + 1) a b)
  ∧ (∀ (a : Fin 1024) (j : Fin 128), ((outsAt4 V c n hn).2.2.2 : S1024x128.Idx → EReal) (ix2 a j) = partDeg V c (n / 8) (n % 8 + 1) a)

theorem inv_first (c : Dev nD) (t : Fin cfg4.N) (h0 : t.val % 8 = 0) : Inv V c t.val t.isLt := by
  have h1 : ¬t.val % 8 = 7 := by omega
  unfold Inv
  rw [outsAt4_A V c t h0 h1]
  dsimp only
  rw [sout4_A_0_eq, sout4_A_1_eq]
  exact ⟨fun a b => prod_first V c t h0 a b, fun a j => deg_first V c t h0 a j⟩

theorem inv_step (c : Dev nD) (t : Fin cfg4.N) (h0 : ¬t.val % 8 = 0)
    (ih : Inv V c (t.val - 1) (Nat.lt_of_le_of_lt (Nat.sub_le _ _) t.isLt)) : Inv V c t.val t.isLt := by
  unfold Inv
  by_cases h1 : t.val % 8 = 7
  · rw [outsAt4_C V c t h0 h1]
    dsimp only
    rw [sout4_C_0_eq, sout4_C_1_eq]
    exact ⟨fun a b => prod_step V c t h0 _ ih.1 a b, fun a j => deg_step V c t h0 _ ih.2 a j⟩
  · rw [outsAt4_B V c t h0 h1]
    dsimp only
    rw [sout4_B_0_eq, sout4_B_1_eq]
    exact ⟨fun a b => prod_step V c t h0 _ ih.1 a b, fun a j => deg_step V c t h0 _ ih.2 a j⟩

theorem inv_all (c : Dev nD) : ∀ (n : ℕ) (hn : n < cfg4.N), Inv V c n hn := by
  intro n
  induction n with
  | zero => intro hn; exact inv_first V c ⟨0, hn⟩ (Nat.zero_mod 8)
  | succ n ih =>
    intro hn
    by_cases h0 : (n + 1) % 8 = 0
    · exact inv_first V c ⟨n + 1, hn⟩ h0
    · exact inv_step V c ⟨n + 1, hn⟩ h0 (ih (Nat.lt_of_succ_lt hn))

/-- At step 7 the outputs' staging buffers receive the full contraction of the row block, all 8 blocks. -/
theorem out_last (c : Dev nD) (t : Fin cfg4.N) (h7 : t.val % 8 = 7) :
    (∀ (a : Fin 1024) (b : Fin 256), ((outsAt4 V c t.val t.isLt).1 : S1024x256.Idx → EReal) (ix2 a b) = partProd V c (t.val / 8) 8 a b)
    ∧ (∀ (a : Fin 1024) (j : Fin 128), ((outsAt4 V c t.val t.isLt).2.1 : S1024x128.Idx → EReal) (ix2 a j) = partDeg V c (t.val / 8) 8 a) := by
  have h0 : ¬t.val % 8 = 0 := by omega
  have ih := inv_all V c (t.val - 1) (Nat.lt_of_le_of_lt (Nat.sub_le _ _) t.isLt)
  rw [outsAt4_C V c t h0 h7]
  dsimp only
  rw [out4_C_2_eq, out4_C_3_eq]
  refine ⟨fun a b => ?_, fun a j => ?_⟩
  · have h := prod_step V c t h0 _ ih.1 a b
    rw [h7] at h
    exact h
  · have h := deg_step V c t h0 _ ih.2 a j
    rw [h7] at h
    exact h

/-! ## From blocks to the arrays -/

/-- What the first output array ends holding: the whole contraction, index by index. -/
def G2 (c : Dev nD) : S4096x256.Idx → EReal := fun i => ∑ k : Fin 4096, AN V c (i 0).val k.val * BN V c k.val (i 1).val
/-- What the second output array ends holding: the whole row sum, the same in every lane. -/
def G3 (c : Dev nD) : S4096x128.Idx → EReal := fun i => ∑ k : Fin 4096, AN V c (i 0).val k.val

/-- What a step-7 point writes back of the first output is its block of `G2`. -/
theorem flushed2_eq (c : Dev nD) (t : Fin cfg4.N) (hf : (cfg4.win 2).flush t = true) :
    (dat4 (F := Ideal) V c).flushed 2 t = ((cfg4.win 2).blk t).view.read (Elt Ideal) (G2 V c) := by
  have h7 : t.val % 8 = 7 := (flush4_2 t).mp hf
  obtain ⟨-, -, -, -, e0, e1, -⟩ := blockOf t
  show (cfg4.win 2).cut (grid4.coords t) ((dat4 V c).after 2 t) = _
  rw [after4_2]
  funext j
  obtain ⟨a, b, rfl⟩ : ∃ (a : Fin 1024) (b : Fin 256), j = ix2 a b := ⟨j 0, j 1, eq_ix2 j⟩
  rw [View.read_apply]
  have hE0 : ((((cfg4.win 2).blk t).view.emb (ix2 a b)) 0).val = 1024 * (t.val / 8) + a.val := by
    show win4_2.index t (0 : Fin 2) * 1024 + 1 * a.val = _; rw [e0]; omega
  have hE1 : ((((cfg4.win 2).blk t).view.emb (ix2 a b)) 1).val = b.val := by
    show win4_2.index t (1 : Fin 2) * 256 + 1 * b.val = _; rw [e1]; omega
  show ((outsAt4 V c t.val t.isLt).1 : S1024x256.Idx → EReal) (ix2 a b)
    = ∑ k : Fin 4096, AN V c ((((cfg4.win 2).blk t).view.emb (ix2 a b)) 0).val k.val * BN V c k.val ((((cfg4.win 2).blk t).view.emb (ix2 a b)) 1).val
  rw [hE0, hE1]
  exact ((out_last V c t h7).1 a b).trans
    (BlockRange.sum_fin_blocks (fun q => AN V c (1024 * (t.val / 8) + a.val) q * BN V c q b.val) 512 8 4096 (by norm_num)).symm

/-- What a step-7 point writes back of the second output is its block of `G3`. -/
theorem flushed3_eq (c : Dev nD) (t : Fin cfg4.N) (hf : (cfg4.win 3).flush t = true) :
    (dat4 (F := Ideal) V c).flushed 3 t = ((cfg4.win 3).blk t).view.read (Elt Ideal) (G3 V c) := by
  have h7 : t.val % 8 = 7 := (flush4_3 t).mp hf
  obtain ⟨-, -, -, -, -, -, e0, e1⟩ := blockOf t
  show (cfg4.win 3).cut (grid4.coords t) ((dat4 V c).after 3 t) = _
  rw [after4_3]
  funext j
  obtain ⟨a, b, rfl⟩ : ∃ (a : Fin 1024) (b : Fin 128), j = ix2 a b := ⟨j 0, j 1, eq_ix2 j⟩
  rw [View.read_apply]
  have hE0 : ((((cfg4.win 3).blk t).view.emb (ix2 a b)) 0).val = 1024 * (t.val / 8) + a.val := by
    show win4_3.index t (0 : Fin 2) * 1024 + 1 * a.val = _; rw [e0]; omega
  show ((outsAt4 V c t.val t.isLt).2.1 : S1024x128.Idx → EReal) (ix2 a b)
    = ∑ k : Fin 4096, AN V c ((((cfg4.win 3).blk t).view.emb (ix2 a b)) 0).val k.val
  rw [hE0]
  exact ((out_last V c t h7).2 a b).trans
    (BlockRange.sum_fin_blocks (fun q => AN V c (1024 * (t.val / 8) + a.val) q) 512 8 4096 (by norm_num)).symm

/-- An index of the first output array is in point `t`'s block iff each coordinate is in the block's range. -/
theorem mem_blk2 (t : Fin cfg4.N) (i : S4096x256.Idx) :
    i ∈ ((cfg4.win 2).blk t).view.set ↔ ∀ a : Fin 2, win4_2.index t a * S1024x256.size a ≤ (i a).val ∧ (i a).val < win4_2.index t a * S1024x256.size a + S1024x256.size a := by
  show i ∈ ((View.whole (Pipeline.arrRef spec4 2)).slice (win4_2.rect t)).set ↔ _
  rw [View.set_slice_whole, Rect.mem_set_unit]
  exact Iff.rfl

theorem mem_blk3 (t : Fin cfg4.N) (i : S4096x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole (Pipeline.arrRef spec4 3)).slice (win4_3.rect t)).set ↔ _
  rw [View.set_slice_whole, Rect.mem_set_unit]
  exact Iff.rfl

/-- Row `r` of an output lies in the block written back at step 7 of row block `r / 1024`. -/
theorem final2 (c : Dev nD) : (dat4 (F := Ideal) V c).arrAt 2 cfg4.N = G2 V c :=
  (dat4 (F := Ideal) V c).arrAt_eq_of_cover 2 (G2 V c) (flushed2_eq V c) fun i => by
    have hi0 : (i 0).val < 4096 := (i 0).isLt
    have hi1 : (i 1).val < 256 := (i 1).isLt
    obtain ⟨t, ht⟩ : ∃ t : Fin cfg4.N, t.val = 8 * ((i 0).val / 1024) + 7 :=
      ⟨⟨8 * ((i 0).val / 1024) + 7, by rw [show cfg4.N = 32 from N_4]; omega⟩, rfl⟩
    obtain ⟨-, -, -, -, e0, e1, -⟩ := blockOf t
    refine ⟨t, (flush4_2 t).mpr (by omega), ?_⟩
    rw [mem_blk2]
    intro a
    match a with
    | ⟨0, _⟩ => show win4_2.index t (0 : Fin 2) * 1024 ≤ (i 0).val ∧ (i 0).val < win4_2.index t (0 : Fin 2) * 1024 + 1024; rw [e0]; omega
    | ⟨1, _⟩ => show win4_2.index t (1 : Fin 2) * 256 ≤ (i 1).val ∧ (i 1).val < win4_2.index t (1 : Fin 2) * 256 + 256; rw [e1]; omega

theorem final3 (c : Dev nD) : (dat4 (F := Ideal) V c).arrAt 3 cfg4.N = G3 V c :=
  (dat4 (F := Ideal) V c).arrAt_eq_of_cover 3 (G3 V c) (flushed3_eq V c) fun i => by
    have hi0 : (i 0).val < 4096 := (i 0).isLt
    have hi1 : (i 1).val < 128 := (i 1).isLt
    obtain ⟨t, ht⟩ : ∃ t : Fin cfg4.N, t.val = 8 * ((i 0).val / 1024) + 7 :=
      ⟨⟨8 * ((i 0).val / 1024) + 7, by rw [show cfg4.N = 32 from N_4]; omega⟩, rfl⟩
    obtain ⟨-, -, -, -, -, -, e0, e1⟩ := blockOf t
    refine ⟨t, (flush4_3 t).mpr (by omega), ?_⟩
    rw [mem_blk3]
    intro a
    match a with
    | ⟨0, _⟩ => show win4_3.index t (0 : Fin 2) * 1024 ≤ (i 0).val ∧ (i 0).val < win4_3.index t (0 : Fin 2) * 1024 + 1024; rw [e0]; omega
    | ⟨1, _⟩ => show win4_3.index t (1 : Fin 2) * 128 ≤ (i 1).val ∧ (i 1).val < win4_3.index t (1 : Fin 2) * 128 + 128; rw [e1]; omega

/-! ## The two outputs, entry by entry -/

/-- The first output at (a, b): the product of the left operand with the right operand. -/
theorem final4_prod_at (c : Dev nD) (a : Fin 4096) (b : Fin 256) :
    ((dat4 (F := Ideal) V c).arrAt 2 cfg4.N : S4096x256.Idx → EReal) (ix2 a b)
      = ∑ k : Fin 4096, A V c (ix2 a k) * B V c (ix2 k b) := by
  rw [final2 V c]
  show ∑ k : Fin 4096, AN V c a.val k.val * BN V c k.val b.val = _
  exact Finset.sum_congr rfl fun k _ => by rw [AN_of, BN_of]

/-- The second output at (a, j), for every lane j: the row sum of the left operand. -/
theorem final4_deg_at (c : Dev nD) (a : Fin 4096) (j : Fin 128) :
    ((dat4 (F := Ideal) V c).arrAt 3 cfg4.N : S4096x128.Idx → EReal) (ix2 a j)
      = ∑ k : Fin 4096, A V c (ix2 a k) := by
  rw [final3 V c]
  show ∑ k : Fin 4096, AN V c a.val k.val = _
  exact Finset.sum_congr rfl fun k _ => by rw [AN_of]

end Cert.KernelIdeal.RegionValue4

end
-- ==== Proof.KI.R5Pieces.lean ====
/-
  Region 5, what each control case of the body leaves, as the body's arithmetic applied to what it loaded.

  The body's stores are whole-buffer stores, so each buffer ends holding its last store's payload.  At k = 0 each
  accumulator is cleared and the step's term is added to the cleared accumulator; at every other step the term is
  added to what the step before left; at k = 7 each output receives the accumulator just stored.
-/
import proofs.«140739_j42683384987781_2_alg».proof.Proof.KI.R5
import proofs.«140739_j42683384987781_2_alg».proof.Proof.LibWholeStores
import Idealize.ShloMosaic.Lib.ValueIdx

set_option maxRecDepth 16384

noncomputable section

namespace Cert.KernelIdeal.RegionValue5

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open Idealize.ShloMosaic.LibWholeStores

variable {F : FTy → Type} [FloatOps F]

/-- At k = 0 the product accumulator ends at the step's product added to the cleared accumulator. -/
theorem sout5_A_0_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) :
    sout5_A_0 c i arg2 harg2 arg3 harg3 arg4 harg4 arg5 harg5 arg6 harg6 arg7 harg7 hc0 hc1 x0 x1 = k5_pay4 x0 x1 (k5_pay1 (F := F)) := by
  unfold sout5_A_0
  rw [View.read_writes_eq_canon _ _ _ (scover5_A_0 c i arg2 harg2 arg3 harg3 arg4 harg4 arg5 harg5 arg6 harg6 arg7 harg7 hc0 hc1 x0 x1)]
  unfold kernelRun5_A
  dsimp only
  sl_unfold_words
  rw [View.canon_cons_unit_zero zero_off2, View.readCov_unit_zero _ zero_off2]
  simp only [View.readAt_eq_ld, harg2.read_unread, harg3.read_unread,
    View.ld_unit_zero (S := S1024x512) zero_off2, View.ld_unit_zero (S := S512x256) zero_off2]

/-- At k = 0 the row-sum accumulator ends at the step's row sums added to the cleared accumulator. -/
theorem sout5_A_1_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : cond5_0 i) (hc1 : ¬cond5_1 i)
    (x0 : Vec F S1024x512 .f32) (x1 : Vec F S512x256 .f32) :
    sout5_A_1 c i arg2 harg2 arg3 harg3 arg4 harg4 arg5 harg5 arg6 harg6 arg7 harg7 hc0 hc1 x0 x1 = k5_pay5 x0 (k5_pay2 (F := F)) := by
  unfold sout5_A_1
  rw [View.read_writes_eq_canon _ _ _ (scover5_A_1 c i arg2 harg2 arg3 harg3 arg4 harg4 arg5 harg5 arg6 harg6 arg7 harg7 hc0 hc1 x0 x1)]
  unfold kernelRun5_A
  dsimp only
  sl_unfold_words
  rw [View.canon_cons_unit_zero zero_off2, View.readCov_unit_zero _ zero_off2]
  simp only [View.readAt_eq_ld, harg2.read_unread, harg3.read_unread,
    View.ld_unit_zero (S := S1024x512) zero_off2, View.ld_unit_zero (S := S512x256) zero_off2]

/-- At a middle step the product accumulator ends at the step's product added to what it held. -/
theorem sout5_B_0_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) :
    sout5_B_0 c i arg2 harg2 arg3 harg3 arg4 harg4 arg5 harg5 arg6 harg6 arg7 harg7 hc0 hc1 x0 x1 xs0 xs1 = k5_pay4 x0 x1 xs0 := by
  unfold sout5_B_0
  rw [View.read_writes_eq_canon _ _ _ (scover5_B_0 c i arg2 harg2 arg3 harg3 arg4 harg4 arg5 harg5 arg6 harg6 arg7 harg7 hc0 hc1 x0 x1 xs0 xs1)]
  unfold kernelRun5_B
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At a middle step the row-sum accumulator ends at the step's row sums added to what it held. -/
theorem sout5_B_1_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : ¬cond5_1 i)
    (x0 : Vec F S1024x512 .f32) (x1 : Vec F S512x256 .f32) (xs0 : Vec F S1024x256 .f32) (xs1 : Vec F S1024x128 .f32) :
    sout5_B_1 c i arg2 harg2 arg3 harg3 arg4 harg4 arg5 harg5 arg6 harg6 arg7 harg7 hc0 hc1 x0 x1 xs0 xs1 = k5_pay5 x0 xs1 := by
  unfold sout5_B_1
  rw [View.read_writes_eq_canon _ _ _ (scover5_B_1 c i arg2 harg2 arg3 harg3 arg4 harg4 arg5 harg5 arg6 harg6 arg7 harg7 hc0 hc1 x0 x1 xs0 xs1)]
  unfold kernelRun5_B
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the product accumulator ends at the step's product added to what it held. -/
theorem sout5_C_0_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) :
    sout5_C_0 c i arg2 harg2 arg3 harg3 arg4 harg4 arg5 harg5 arg6 harg6 arg7 harg7 hc0 hc1 x0 x1 xs0 xs1 = k5_pay4 x0 x1 xs0 := by
  unfold sout5_C_0
  rw [View.read_writes_eq_canon _ _ _ (scover5_C_0 c i arg2 harg2 arg3 harg3 arg4 harg4 arg5 harg5 arg6 harg6 arg7 harg7 hc0 hc1 x0 x1 xs0 xs1)]
  unfold kernelRun5_C
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the row-sum accumulator ends at the step's row sums added to what it held. -/
theorem sout5_C_1_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) :
    sout5_C_1 c i arg2 harg2 arg3 harg3 arg4 harg4 arg5 harg5 arg6 harg6 arg7 harg7 hc0 hc1 x0 x1 xs0 xs1 = k5_pay5 x0 xs1 := by
  unfold sout5_C_1
  rw [View.read_writes_eq_canon _ _ _ (scover5_C_1 c i arg2 harg2 arg3 harg3 arg4 harg4 arg5 harg5 arg6 harg6 arg7 harg7 hc0 hc1 x0 x1 xs0 xs1)]
  unfold kernelRun5_C
  dsimp only
  sl_unfold_words
  rw [View.canon_unit_zero zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the product output receives the accumulator just stored. -/
theorem out5_C_2_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) :
    out5_C_2 c i arg2 harg2 arg3 harg3 arg4 harg4 arg5 harg5 arg6 harg6 arg7 harg7 hc0 hc1 x0 x1 xs0 xs1 = k5_pay4 x0 x1 xs0 := by
  unfold out5_C_2
  rw [View.read_writes_eq_canon _ _ _ (cover5_C_2 c i arg2 harg2 arg3 harg3 arg4 harg4 arg5 harg5 arg6 harg6 arg7 harg7 hc0 hc1 x0 x1 xs0 xs1)]
  unfold kernelRun5_C
  dsimp only
  sl_unfold_words
  rw [View.canon_unit_zero zero_off2, View.readCov_unit_zero _ zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

/-- At k = 7 the row-sum output receives the accumulator just stored. -/
theorem out5_C_3_eq (c : Dev nD) (i : grid5.Coords) (arg2 : Memref sig .tc .vmem S1024x512 .f32) (harg2 : arg2.IsWhole) (arg3 : Memref sig .tc .vmem S512x256 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1024x128 .f32) (harg7 : arg7.IsWhole) (hc0 : ¬cond5_0 i) (hc1 : cond5_1 i)
    (x0 : Vec F S1024x512 .f32) (x1 : Vec F S512x256 .f32) (xs0 : Vec F S1024x256 .f32) (xs1 : Vec F S1024x128 .f32) :
    out5_C_3 c i arg2 harg2 arg3 harg3 arg4 harg4 arg5 harg5 arg6 harg6 arg7 harg7 hc0 hc1 x0 x1 xs0 xs1 = k5_pay5 x0 xs1 := by
  unfold out5_C_3
  rw [View.read_writes_eq_canon _ _ _ (cover5_C_3 c i arg2 harg2 arg3 harg3 arg4 harg4 arg5 harg5 arg6 harg6 arg7 harg7 hc0 hc1 x0 x1 xs0 xs1)]
  unfold kernelRun5_C
  dsimp only
  sl_unfold_words
  rw [View.canon_unit_zero zero_off2, View.readCov_unit_zero _ zero_off2]
  simp only [View.readAt_eq_ld, harg2.read_unread, harg3.read_unread, harg6.read_unread, harg7.read_unread,
    View.ld_unit_zero (S := S1024x512) zero_off2, View.ld_unit_zero (S := S512x256) zero_off2,
    View.ld_unit_zero (S := S1024x256) zero_off2, View.ld_unit_zero (S := S1024x128) zero_off2]

end Cert.KernelIdeal.RegionValue5

end
-- ==== Proof.KI.R5Payload.lean ====
/-
  Region 5, the body's arithmetic read at an index over the extended reals.

  Narrowing to bf16 is the identity there, the cleared accumulators are zero, the step's product at (a, b) is the
  accumulator's entry plus the sum over the 512 contraction indices of the step of the products of the two blocks'
  entries (the left block clipped below at zero), and the step's row sum at (a, j) is the accumulator's entry plus the sum of row a of the left
  block clipped below at zero, the same for every lane j.
-/
import proofs.«140739_j42683384987781_2_alg».proof.Proof.Gen.KernelIdeal.Skeleton
import proofs.«140739_j42683384987781_2_alg».proof.Proof.LibPlainProduct
import proofs.«140739_j42683384987781_2_alg».proof.Proof.LibColumn
import Idealize.ShloMosaic.Lib.ValueIdx
import Idealize.ShloMosaic.Lib.Pipeline.Value
import Idealize.ShloMosaic.PureOps.Ideal.Laws

set_option maxRecDepth 16384

noncomputable section

namespace Cert.KernelIdeal.RegionValue5

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-- The cleared product accumulator is zero everywhere. -/
theorem pay1_at (a : Fin 1024) (b : Fin 256) : (k5_pay1 (F := Ideal) : S1024x256.Idx → EReal) (ix2 a b) = 0 := by
  unfold k5_pay1
  (try dsimp only)
  refine (congrFun (shapeCast_self _ _) _).trans ?_
  exact (broadcast_apply _ _).trans Ideal.ofBits_zero_f32

/-- The cleared row-sum accumulator is zero everywhere. -/
theorem pay2_at (a : Fin 1024) (j : Fin 128) : (k5_pay2 (F := Ideal) : S1024x128.Idx → EReal) (ix2 a j) = 0 := by
  unfold k5_pay2
  (try dsimp only)
  refine (congrFun (shapeCast_self _ _) _).trans ?_
  exact (broadcast_apply _ _).trans Ideal.ofBits_zero_f32

/-- What both terms of the step read of the left operand: the left operand's block clipped below at zero. -/
theorem pay3_at (x0 : S1024x512.Idx → EReal) (a : Fin 1024) (l : Fin 512) :
    (k5_pay3 (F := Ideal) x0 : S1024x512.Idx → EReal) (ix2 a l) = max (x0 (ix2 a l)) 0 := by
  unfold k5_pay3
  (try dsimp only)
  refine (maximumf_apply _ _ _).trans ?_
  exact congrArg (max (x0 (ix2 a l))) ((broadcast_apply _ _).trans Ideal.ofBits_zero_f32)

/-- The step's product added to the accumulator, at (a, b). -/
theorem pay4_at (x0 : S1024x512.Idx → EReal) (x1 : S512x256.Idx → EReal) (acc : S1024x256.Idx → EReal) (a : Fin 1024) (b : Fin 256) :
    (k5_pay4 (F := Ideal) x0 x1 acc : S1024x256.Idx → EReal) (ix2 a b)
      = acc (ix2 a b) + ∑ l : Fin 512, max (x0 (ix2 a l)) 0 * x1 (ix2 l b) := by
  unfold k5_pay4
  (try dsimp only)
  refine (congrFun (shapeCast_self _ _) _).trans ?_
  refine (addf_apply _ _ _).trans ?_
  refine congrArg (acc (ix2 a b) + ·) ?_
  refine (PlainProduct.matmul_at dot_S1024x512_S512x256_S1024x256_1_0_0_1_n_n rfl none _ _ _ a b).trans ?_
  refine (congrArg (· + _) ((constant_apply _ _).trans Ideal.ofBits_zero_f32)).trans ?_
  refine (zero_add _).trans ?_
  refine Finset.sum_congr rfl fun l _ => ?_
  exact congrArg (· * x1 (ix2 l b)) (pay3_at x0 a l)

/-- The step's row sums added to the accumulator, at (a, j): the same sum in every lane j. -/
theorem pay5_at (x0 : S1024x512.Idx → EReal) (acc : S1024x128.Idx → EReal) (a : Fin 1024) (j : Fin 128) :
    (k5_pay5 (F := Ideal) x0 acc : S1024x128.Idx → EReal) (ix2 a j)
      = acc (ix2 a j) + ∑ l : Fin 512, max (x0 (ix2 a l)) 0 := by
  unfold k5_pay5
  (try dsimp only)
  refine (congrFun (shapeCast_self _ _) _).trans ?_
  refine (addf_apply _ _ _).trans ?_
  refine congrArg (acc (ix2 a j) + ·) ?_
  refine (Idealize.ShloMosaic.ColumnIdx.broadcastTo_a1_ab_apply _ _ a j).trans ?_
  refine (congrFun (shapeCast_self _ _) _).trans ?_
  refine (Idealize.ShloMosaic.ColumnIdx.shapeCast_a_a1_apply _ _ a 0).trans ?_
  refine (Idealize.ShloMosaic.ColumnIdx.rowSum_apply _ _ _ _ a).trans ?_
  exact Finset.sum_congr rfl fun l _ => pay3_at x0 a l

end Cert.KernelIdeal.RegionValue5

end
-- ==== Proof.KI.R5Value.lean ====
/-
  Region 5, what its two output arrays hold when the region ends, over the extended reals.

  The grid is 4 row blocks of 1024 rows by 8 steps of 512 contraction indices.  Within a row block the two
  accumulators are cleared at step 0 and step k adds the step's 512 terms, so after step k they hold the sum over the
  first (k + 1) · 512 contraction indices, taken block by block; addition on the extended reals is commutative and
  associative and 0 + x = x, so no finiteness is needed.  At step 7 the accumulators are copied to the outputs' blocks,
  which are written back: 8 blocks of 512 are the whole contraction of length 4096.  So the first output at (a, b) is
  the sum over k of max(A(a, k), 0) · B(k, b), and the second at (a, j), for every lane j, the sum over k of max(A(a, k), 0).
-/
import proofs.«140739_j42683384987781_2_alg».proof.Proof.KI.R5Pieces
import proofs.«140739_j42683384987781_2_alg».proof.Proof.KI.R5Payload
import proofs.«140739_j42683384987781_2_alg».proof.Proof.LibBlockRange

set_option maxRecDepth 16384

noncomputable section

namespace Cert.KernelIdeal.RegionValue5

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open Idealize.ShloMosaic.LibWholeStores

variable (V : (c : Dev nD) → (b : Ref sig .tc) → Buf (Elt Ideal) ((c : Thread nD τ).loc b))

/-! ## The two input arrays, and their entries by natural-number coordinates -/

/-- The left operand's array as the region finds it. -/
abbrev A (c : Dev nD) : S4096x4096.Idx → EReal := V c (Pipeline.arrRef spec5 0)
/-- The right operand's array as the region finds it. -/
abbrev B (c : Dev nD) : S4096x256.Idx → EReal := V c (Pipeline.arrRef spec5 1)

/-- The left operand's entry, clipped below at zero, at natural-number coordinates (zero outside the array: never read there). -/
def AN (c : Dev nD) (i j : ℕ) : EReal := if h : i < 4096 ∧ j < 4096 then max (A V c (ix2 ⟨i, h.1⟩ ⟨j, h.2⟩)) 0 else 0
/-- The right operand's entry at natural-number coordinates. -/
def BN (c : Dev nD) (i j : ℕ) : EReal := if h : i < 4096 ∧ j < 256 then B V c (ix2 ⟨i, h.1⟩ ⟨j, h.2⟩) else 0

theorem AN_of (c : Dev nD) (a k : Fin 4096) : AN V c a.val k.val = max (A V c (ix2 a k)) 0 := by
  unfold AN; rw [dif_pos ⟨a.isLt, k.isLt⟩]
theorem BN_of (c : Dev nD) (k : Fin 4096) (b : Fin 256) : BN V c k.val b.val = B V c (ix2 k b) := by
  unfold BN; rw [dif_pos ⟨k.isLt, b.isLt⟩]

/-! ## Which block each window is on at a point -/

/-- Point `t` is step `t mod 8` of row block `t / 8`: the left operand's block is (t / 8, t mod 8), the right
    operand's (t mod 8, 0), both outputs' (t / 8, 0) — decided over the grid. -/
theorem blockOf : ∀ t : Fin cfg5.N,
    win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = t.val / 8 ∧ win5_2.index t (1 : Fin 2) = 0
    ∧ win5_3.index t (0 : Fin 2) = t.val / 8 ∧ win5_3.index t (1 : Fin 2) = 0 :=
  (by decide +kernel : ∀ t : Fin grid5.N, _)

/-- The left operand's block at point `t`, entry (a, l): row 1024 (t / 8) + a, column 512 (t mod 8) + l of the array. -/
theorem blk0_at (c : Dev nD) (t : Fin cfg5.N) (a : Fin 1024) (l : Fin 512) :
    (max ((iblk5 V c 0 t : S1024x512.Idx → EReal) (ix2 a l)) (0 : EReal) : EReal) = AN V c (1024 * (t.val / 8) + a.val) (512 * (t.val % 8) + l.val) := by
  obtain ⟨e0, e1, -⟩ := blockOf t
  have hN : t.val < 32 := lt_of_lt_of_eq t.isLt (show cfg5.N = 32 from N_5)
  have ha := a.isLt
  have hl := l.isLt
  unfold AN
  rw [dif_pos ⟨by omega, by omega⟩]
  unfold iblk5
  rw [View.read_apply]
  refine congrArg (max · 0) ?_
  show V c (Pipeline.arrRef spec5 0) _ = V c (Pipeline.arrRef spec5 0) _
  congr 1
  funext ax
  apply Fin.ext
  match ax with
  | ⟨0, _⟩ => show win5_0.index t (0 : Fin 2) * 1024 + 1 * a.val = 1024 * (t.val / 8) + a.val; rw [e0]; omega
  | ⟨1, _⟩ => show win5_0.index t (1 : Fin 2) * 512 + 1 * l.val = 512 * (t.val % 8) + l.val; rw [e1]; omega

/-- The right operand's block at point `t`, entry (l, b): row 512 (t mod 8) + l, column b of the array. -/
theorem blk1_at (c : Dev nD) (t : Fin cfg5.N) (l : Fin 512) (b : Fin 256) :
    (iblk5 V c 1 t : S512x256.Idx → EReal) (ix2 l b) = BN V c (512 * (t.val % 8) + l.val) b.val := by
  obtain ⟨-, -, e0, e1, -⟩ := blockOf t
  have hl := l.isLt
  have hb := b.isLt
  unfold BN
  rw [dif_pos ⟨by omega, by omega⟩]
  unfold iblk5
  rw [View.read_apply]
  show V c (Pipeline.arrRef spec5 1) _ = V c (Pipeline.arrRef spec5 1) _
  congr 1
  funext ax
  apply Fin.ext
  match ax with
  | ⟨0, _⟩ => show win5_1.index t (0 : Fin 2) * 512 + 1 * l.val = 512 * (t.val % 8) + l.val; rw [e0]; omega
  | ⟨1, _⟩ => show win5_1.index t (1 : Fin 2) * 256 + 1 * b.val = b.val; rw [e1]; omega

/-! ## The running totals -/

/-- The contraction of row `1024 r + a` with column `b` over the first `n` blocks of 512 indices. -/
def partProd (c : Dev nD) (r n : ℕ) (a : Fin 1024) (b : Fin 256) : EReal :=
  ∑ q ∈ Finset.range n, ∑ l : Fin 512, AN V c (1024 * r + a.val) (512 * q + l.val) * BN V c (512 * q + l.val) b.val
/-- The sum of row `1024 r + a` over the first `n` blocks of 512 indices. -/
def partDeg (c : Dev nD) (r n : ℕ) (a : Fin 1024) : EReal :=
  ∑ q ∈ Finset.range n, ∑ l : Fin 512, AN V c (1024 * r + a.val) (512 * q + l.val)

/-- The step's product over the cleared accumulator is the first block's contraction. -/
theorem prod_first (c : Dev nD) (t : Fin cfg5.N) (h0 : t.val % 8 = 0) (a : Fin 1024) (b : Fin 256) :
    (k5_pay4 (F := Ideal) (iblk5 V c 0 t) (iblk5 V c 1 t) (k5_pay1 (F := Ideal)) : S1024x256.Idx → EReal) (ix2 a b)
      = partProd V c (t.val / 8) (t.val % 8 + 1) a b := by
  refine (pay4_at _ _ _ a b).trans ?_
  rw [pay1_at, zero_add]
  unfold partProd
  rw [h0, Finset.sum_range_succ, Finset.sum_range_zero, zero_add]
  refine Finset.sum_congr rfl fun l _ => ?_
  rw [blk0_at V c t a l, blk1_at V c t l b, h0]

/-- The step's product over a running total of the blocks before it is the running total through it. -/
theorem prod_step (c : Dev nD) (t : Fin cfg5.N) (h0 : ¬t.val % 8 = 0) (prev : S1024x256.Idx → EReal)
    (hprev : ∀ a b, prev (ix2 a b) = partProd V c ((t.val - 1) / 8) ((t.val - 1) % 8 + 1) a b) (a : Fin 1024) (b : Fin 256) :
    (k5_pay4 (F := Ideal) (iblk5 V c 0 t) (iblk5 V c 1 t) prev : S1024x256.Idx → EReal) (ix2 a b)
      = partProd V c (t.val / 8) (t.val % 8 + 1) a b := by
  refine (pay4_at _ _ _ a b).trans ?_
  rw [hprev a b, show (t.val - 1) / 8 = t.val / 8 from by omega, show (t.val - 1) % 8 + 1 = t.val % 8 from by omega]
  unfold partProd
  rw [Finset.sum_range_succ]
  refine congrArg (_ + ·) ?_
  refine Finset.sum_congr rfl fun l _ => ?_
  rw [blk0_at V c t a l, blk1_at V c t l b]

/-- The step's row sums over the cleared accumulator are the first block's. -/
theorem deg_first (c : Dev nD) (t : Fin cfg5.N) (h0 : t.val % 8 = 0) (a : Fin 1024) (j : Fin 128) :
    (k5_pay5 (F := Ideal) (iblk5 V c 0 t) (k5_pay2 (F := Ideal)) : S1024x128.Idx → EReal) (ix2 a j)
      = partDeg V c (t.val / 8) (t.val % 8 + 1) a := by
  refine (pay5_at _ _ a j).trans ?_
  rw [pay2_at, zero_add]
  unfold partDeg
  rw [h0, Finset.sum_range_succ, Finset.sum_range_zero, zero_add]
  refine Finset.sum_congr rfl fun l _ => ?_
  rw [blk0_at V c t a l, h0]

/-- The step's row sums over a running total are the running total through the step. -/
theorem deg_step (c : Dev nD) (t : Fin cfg5.N) (h0 : ¬t.val % 8 = 0) (prev : S1024x128.Idx → EReal)
    (hprev : ∀ a j, prev (ix2 a j) = partDeg V c ((t.val - 1) / 8) ((t.val - 1) % 8 + 1) a) (a : Fin 1024) (j : Fin 128) :
    (k5_pay5 (F := Ideal) (iblk5 V c 0 t) prev : S1024x128.Idx → EReal) (ix2 a j)
      = partDeg V c (t.val / 8) (t.val % 8 + 1) a := by
  refine (pay5_at _ _ a j).trans ?_
  rw [hprev a j, show (t.val - 1) / 8 = t.val / 8 from by omega, show (t.val - 1) % 8 + 1 = t.val % 8 from by omega]
  unfold partDeg
  rw [Finset.sum_range_succ]
  refine congrArg (_ + ·) ?_
  refine Finset.sum_congr rfl fun l _ => ?_
  rw [blk0_at V c t a l]

/-! ## The accumulators after each point -/

/-- After position `n` the accumulators hold the running totals of row block `n / 8` through step `n mod 8`. -/
def Inv (c : Dev nD) (n : ℕ) (hn : n < cfg5.N) : Prop :=
  (∀ (a : Fin 1024) (b : Fin 256), ((outsAt5 V c n hn).2.2.1 : S1024x256.Idx → EReal) (ix2 a b) = partProd V c (n / 8) (n % 8 + 1) a b)
  ∧ (∀ (a : Fin 1024) (j : Fin 128), ((outsAt5 V c n hn).2.2.2 : S1024x128.Idx → EReal) (ix2 a j) = partDeg V c (n / 8) (n % 8 + 1) a)

theorem inv_first (c : Dev nD) (t : Fin cfg5.N) (h0 : t.val % 8 = 0) : Inv V c t.val t.isLt := by
  have h1 : ¬t.val % 8 = 7 := by omega
  unfold Inv
  rw [outsAt5_A V c t h0 h1]
  dsimp only
  rw [sout5_A_0_eq, sout5_A_1_eq]
  exact ⟨fun a b => prod_first V c t h0 a b, fun a j => deg_first V c t h0 a j⟩

theorem inv_step (c : Dev nD) (t : Fin cfg5.N) (h0 : ¬t.val % 8 = 0)
    (ih : Inv V c (t.val - 1) (Nat.lt_of_le_of_lt (Nat.sub_le _ _) t.isLt)) : Inv V c t.val t.isLt := by
  unfold Inv
  by_cases h1 : t.val % 8 = 7
  · rw [outsAt5_C V c t h0 h1]
    dsimp only
    rw [sout5_C_0_eq, sout5_C_1_eq]
    exact ⟨fun a b => prod_step V c t h0 _ ih.1 a b, fun a j => deg_step V c t h0 _ ih.2 a j⟩
  · rw [outsAt5_B V c t h0 h1]
    dsimp only
    rw [sout5_B_0_eq, sout5_B_1_eq]
    exact ⟨fun a b => prod_step V c t h0 _ ih.1 a b, fun a j => deg_step V c t h0 _ ih.2 a j⟩

theorem inv_all (c : Dev nD) : ∀ (n : ℕ) (hn : n < cfg5.N), Inv V c n hn := by
  intro n
  induction n with
  | zero => intro hn; exact inv_first V c ⟨0, hn⟩ (Nat.zero_mod 8)
  | succ n ih =>
    intro hn
    by_cases h0 : (n + 1) % 8 = 0
    · exact inv_first V c ⟨n + 1, hn⟩ h0
    · exact inv_step V c ⟨n + 1, hn⟩ h0 (ih (Nat.lt_of_succ_lt hn))

/-- At step 7 the outputs' staging buffers receive the full contraction of the row block, all 8 blocks. -/
theorem out_last (c : Dev nD) (t : Fin cfg5.N) (h7 : t.val % 8 = 7) :
    (∀ (a : Fin 1024) (b : Fin 256), ((outsAt5 V c t.val t.isLt).1 : S1024x256.Idx → EReal) (ix2 a b) = partProd V c (t.val / 8) 8 a b)
    ∧ (∀ (a : Fin 1024) (j : Fin 128), ((outsAt5 V c t.val t.isLt).2.1 : S1024x128.Idx → EReal) (ix2 a j) = partDeg V c (t.val / 8) 8 a) := by
  have h0 : ¬t.val % 8 = 0 := by omega
  have ih := inv_all V c (t.val - 1) (Nat.lt_of_le_of_lt (Nat.sub_le _ _) t.isLt)
  rw [outsAt5_C V c t h0 h7]
  dsimp only
  rw [out5_C_2_eq, out5_C_3_eq]
  refine ⟨fun a b => ?_, fun a j => ?_⟩
  · have h := prod_step V c t h0 _ ih.1 a b
    rw [h7] at h
    exact h
  · have h := deg_step V c t h0 _ ih.2 a j
    rw [h7] at h
    exact h

/-! ## From blocks to the arrays -/

/-- What the first output array ends holding: the whole contraction, index by index. -/
def G2 (c : Dev nD) : S4096x256.Idx → EReal := fun i => ∑ k : Fin 4096, AN V c (i 0).val k.val * BN V c k.val (i 1).val
/-- What the second output array ends holding: the whole row sum, the same in every lane. -/
def G3 (c : Dev nD) : S4096x128.Idx → EReal := fun i => ∑ k : Fin 4096, AN V c (i 0).val k.val

/-- What a step-7 point writes back of the first output is its block of `G2`. -/
theorem flushed2_eq (c : Dev nD) (t : Fin cfg5.N) (hf : (cfg5.win 2).flush t = true) :
    (dat5 (F := Ideal) V c).flushed 2 t = ((cfg5.win 2).blk t).view.read (Elt Ideal) (G2 V c) := by
  have h7 : t.val % 8 = 7 := (flush5_2 t).mp hf
  obtain ⟨-, -, -, -, e0, e1, -⟩ := blockOf t
  show (cfg5.win 2).cut (grid5.coords t) ((dat5 V c).after 2 t) = _
  rw [after5_2]
  funext j
  obtain ⟨a, b, rfl⟩ : ∃ (a : Fin 1024) (b : Fin 256), j = ix2 a b := ⟨j 0, j 1, eq_ix2 j⟩
  rw [View.read_apply]
  have hE0 : ((((cfg5.win 2).blk t).view.emb (ix2 a b)) 0).val = 1024 * (t.val / 8) + a.val := by
    show win5_2.index t (0 : Fin 2) * 1024 + 1 * a.val = _; rw [e0]; omega
  have hE1 : ((((cfg5.win 2).blk t).view.emb (ix2 a b)) 1).val = b.val := by
    show win5_2.index t (1 : Fin 2) * 256 + 1 * b.val = _; rw [e1]; omega
  show ((outsAt5 V c t.val t.isLt).1 : S1024x256.Idx → EReal) (ix2 a b)
    = ∑ k : Fin 4096, AN V c ((((cfg5.win 2).blk t).view.emb (ix2 a b)) 0).val k.val * BN V c k.val ((((cfg5.win 2).blk t).view.emb (ix2 a b)) 1).val
  rw [hE0, hE1]
  exact ((out_last V c t h7).1 a b).trans
    (BlockRange.sum_fin_blocks (fun q => AN V c (1024 * (t.val / 8) + a.val) q * BN V c q b.val) 512 8 4096 (by norm_num)).symm

/-- What a step-7 point writes back of the second output is its block of `G3`. -/
theorem flushed3_eq (c : Dev nD) (t : Fin cfg5.N) (hf : (cfg5.win 3).flush t = true) :
    (dat5 (F := Ideal) V c).flushed 3 t = ((cfg5.win 3).blk t).view.read (Elt Ideal) (G3 V c) := by
  have h7 : t.val % 8 = 7 := (flush5_3 t).mp hf
  obtain ⟨-, -, -, -, -, -, e0, e1⟩ := blockOf t
  show (cfg5.win 3).cut (grid5.coords t) ((dat5 V c).after 3 t) = _
  rw [after5_3]
  funext j
  obtain ⟨a, b, rfl⟩ : ∃ (a : Fin 1024) (b : Fin 128), j = ix2 a b := ⟨j 0, j 1, eq_ix2 j⟩
  rw [View.read_apply]
  have hE0 : ((((cfg5.win 3).blk t).view.emb (ix2 a b)) 0).val = 1024 * (t.val / 8) + a.val := by
    show win5_3.index t (0 : Fin 2) * 1024 + 1 * a.val = _; rw [e0]; omega
  show ((outsAt5 V c t.val t.isLt).2.1 : S1024x128.Idx → EReal) (ix2 a b)
    = ∑ k : Fin 4096, AN V c ((((cfg5.win 3).blk t).view.emb (ix2 a b)) 0).val k.val
  rw [hE0]
  exact ((out_last V c t h7).2 a b).trans
    (BlockRange.sum_fin_blocks (fun q => AN V c (1024 * (t.val / 8) + a.val) q) 512 8 4096 (by norm_num)).symm

/-- An index of the first output array is in point `t`'s block iff each coordinate is in the block's range. -/
theorem mem_blk2 (t : Fin cfg5.N) (i : S4096x256.Idx) :
    i ∈ ((cfg5.win 2).blk t).view.set ↔ ∀ a : Fin 2, win5_2.index t a * S1024x256.size a ≤ (i a).val ∧ (i a).val < win5_2.index t a * S1024x256.size a + S1024x256.size a := by
  show i ∈ ((View.whole (Pipeline.arrRef spec5 2)).slice (win5_2.rect t)).set ↔ _
  rw [View.set_slice_whole, Rect.mem_set_unit]
  exact Iff.rfl

theorem mem_blk3 (t : Fin cfg5.N) (i : S4096x128.Idx) :
    i ∈ ((cfg5.win 3).blk t).view.set ↔ ∀ a : Fin 2, win5_3.index t a * S1024x128.size a ≤ (i a).val ∧ (i a).val < win5_3.index t a * S1024x128.size a + S1024x128.size a := by
  show i ∈ ((View.whole (Pipeline.arrRef spec5 3)).slice (win5_3.rect t)).set ↔ _
  rw [View.set_slice_whole, Rect.mem_set_unit]
  exact Iff.rfl

/-- Row `r` of an output lies in the block written back at step 7 of row block `r / 1024`. -/
theorem final2 (c : Dev nD) : (dat5 (F := Ideal) V c).arrAt 2 cfg5.N = G2 V c :=
  (dat5 (F := Ideal) V c).arrAt_eq_of_cover 2 (G2 V c) (flushed2_eq V c) fun i => by
    have hi0 : (i 0).val < 4096 := (i 0).isLt
    have hi1 : (i 1).val < 256 := (i 1).isLt
    obtain ⟨t, ht⟩ : ∃ t : Fin cfg5.N, t.val = 8 * ((i 0).val / 1024) + 7 :=
      ⟨⟨8 * ((i 0).val / 1024) + 7, by rw [show cfg5.N = 32 from N_5]; omega⟩, rfl⟩
    obtain ⟨-, -, -, -, e0, e1, -⟩ := blockOf t
    refine ⟨t, (flush5_2 t).mpr (by omega), ?_⟩
    rw [mem_blk2]
    intro a
    match a with
    | ⟨0, _⟩ => show win5_2.index t (0 : Fin 2) * 1024 ≤ (i 0).val ∧ (i 0).val < win5_2.index t (0 : Fin 2) * 1024 + 1024; rw [e0]; omega
    | ⟨1, _⟩ => show win5_2.index t (1 : Fin 2) * 256 ≤ (i 1).val ∧ (i 1).val < win5_2.index t (1 : Fin 2) * 256 + 256; rw [e1]; omega

theorem final3 (c : Dev nD) : (dat5 (F := Ideal) V c).arrAt 3 cfg5.N = G3 V c :=
  (dat5 (F := Ideal) V c).arrAt_eq_of_cover 3 (G3 V c) (flushed3_eq V c) fun i => by
    have hi0 : (i 0).val < 4096 := (i 0).isLt
    have hi1 : (i 1).val < 128 := (i 1).isLt
    obtain ⟨t, ht⟩ : ∃ t : Fin cfg5.N, t.val = 8 * ((i 0).val / 1024) + 7 :=
      ⟨⟨8 * ((i 0).val / 1024) + 7, by rw [show cfg5.N = 32 from N_5]; omega⟩, rfl⟩
    obtain ⟨-, -, -, -, -, -, e0, e1⟩ := blockOf t
    refine ⟨t, (flush5_3 t).mpr (by omega), ?_⟩
    rw [mem_blk3]
    intro a
    match a with
    | ⟨0, _⟩ => show win5_3.index t (0 : Fin 2) * 1024 ≤ (i 0).val ∧ (i 0).val < win5_3.index t (0 : Fin 2) * 1024 + 1024; rw [e0]; omega
    | ⟨1, _⟩ => show win5_3.index t (1 : Fin 2) * 128 ≤ (i 1).val ∧ (i 1).val < win5_3.index t (1 : Fin 2) * 128 + 128; rw [e1]; omega

/-! ## The two outputs, entry by entry -/

/-- The first output at (a, b): the product of the left operand clipped below at zero with the right operand. -/
theorem final5_prod_at (c : Dev nD) (a : Fin 4096) (b : Fin 256) :
    ((dat5 (F := Ideal) V c).arrAt 2 cfg5.N : S4096x256.Idx → EReal) (ix2 a b)
      = ∑ k : Fin 4096, max (A V c (ix2 a k)) 0 * B V c (ix2 k b) := by
  rw [final2 V c]
  show ∑ k : Fin 4096, AN V c a.val k.val * BN V c k.val b.val = _
  exact Finset.sum_congr rfl fun k _ => by rw [AN_of, BN_of]

/-- The second output at (a, j), for every lane j: the row sum of the left operand clipped below at zero. -/
theorem final5_deg_at (c : Dev nD) (a : Fin 4096) (j : Fin 128) :
    ((dat5 (F := Ideal) V c).arrAt 3 cfg5.N : S4096x128.Idx → EReal) (ix2 a j)
      = ∑ k : Fin 4096, max (A V c (ix2 a k)) 0 := by
  rw [final3 V c]
  show ∑ k : Fin 4096, AN V c a.val k.val = _
  exact Finset.sum_congr rfl fun k _ => by rw [AN_of]

end Cert.KernelIdeal.RegionValue5

end
-- ==== Proof.KI.GlueEmb.lean ====
/- The kernel program's two embeddings, entry by entry, over the launch arguments. Region 4 multiplies the completed
   incidence matrix (written by the host before region 2 and untouched since) by the current rows and sums that
   matrix's rows; region 5 does the same with the incidence matrix clipped below at zero and the previous rows. The
   host's divisions around them give the embeddings. The completed incidence matrix stays the array it is here. -/
import proofs.«140739_j42683384987781_2_alg».proof.Proof.KI.GlueNode
import proofs.«140739_j42683384987781_2_alg».proof.Proof.KI.R4Value
import proofs.«140739_j42683384987781_2_alg».proof.Proof.KI.R5Value
import proofs.«140739_j42683384987781_2_alg».proof.Proof.KI.GlueSquare

set_option maxRecDepth 16384

noncomputable section

open scoped BigOperators

namespace Cert.KernelIdeal.GlueEmb

open Idealize.ShloMosaic Idealize.ShloMosaic.TcCoe Idealize.ShloMosaic.ValueIdx Idealize.SL.Sem Idealize.ShloMosaic.StableHlo
open Cert.KernelIdeal Cert.KernelIdeal.Gen Cert.KernelIdeal.Glue6

variable (m : (ℓ : Loc nD τ sig) → Buf (Elt Ideal) ℓ)

/-! ## The regions' input arrays, walked back -/

theorem U11_main_arg0 (c : Dev nD) : U11 m c (Proc.devRef .tc main_arg0) = (m ((c : Thread nD τ).loc main_arg0)) :=
  (((((((StableHlo.after_of_writes_sub hostOps7 _ hostOps7_writes (by decide : main_arg0 ∉ hostOps7_W))).trans (((U16_arr m c 0).trans (((dat6 (fun c b => U15 m c b) c).arrAt_in 0 rfl _).trans (A_eq6 (fun c b => U15 m c b) c 0))))).trans ((StableHlo.after_of_writes_sub hostOps6 _ hostOps6_writes (by decide : main_arg0 ∉ hostOps6_W)))).trans ((U14_of_ne m c main_arg0 (by decide)))).trans ((StableHlo.after_of_writes_sub hostOps5 _ hostOps5_writes (by decide : main_arg0 ∉ hostOps5_W)))).trans (((U12_arr m c 1).trans (((dat4 (fun c b => U11 m c b) c).arrAt_in 1 rfl _).trans (A_eq4 (fun c b => U11 m c b) c 1))))).symm.trans (U17_main_arg0 m c)
theorem U13_main_arg1 (c : Dev nD) : U13 m c (Proc.devRef .tc main_arg1) = (m ((c : Thread nD τ).loc main_arg1)) :=
  (((((StableHlo.after_of_writes_sub hostOps7 _ hostOps7_writes (by decide : main_arg1 ∉ hostOps7_W))).trans ((U16_of_ne m c main_arg1 (by decide)))).trans ((StableHlo.after_of_writes_sub hostOps6 _ hostOps6_writes (by decide : main_arg1 ∉ hostOps6_W)))).trans (((U14_arr m c 1).trans (((dat5 (fun c b => U13 m c b) c).arrAt_in 1 rfl _).trans (A_eq5 (fun c b => U13 m c b) c 1))))).symm.trans (U17_main_arg1 m c)
theorem U13_main_arg5 (c : Dev nD) : U13 m c (Proc.devRef .tc main_arg5) = (m ((c : Thread nD τ).loc main_arg5)) :=
  (((((StableHlo.after_of_writes_sub hostOps7 _ hostOps7_writes (by decide : main_arg5 ∉ hostOps7_W))).trans ((U16_of_ne m c main_arg5 (by decide)))).trans ((StableHlo.after_of_writes_sub hostOps6 _ hostOps6_writes (by decide : main_arg5 ∉ hostOps6_W)))).trans (((U14_arr m c 0).trans (((dat5 (fun c b => U13 m c b) c).arrAt_in 0 rfl _).trans (A_eq5 (fun c b => U13 m c b) c 0))))).symm.trans (U17_main_arg5 m c)

/-- The completed incidence matrix is written before region 2; regions 2 and 3 and the host operations between them and
    region 4 leave it alone. -/
theorem U11_v34 (c : Dev nD) : U11 m c (Proc.devRef .tc main_v34) = U8 m c (Proc.devRef .tc main_v34) :=
  (StableHlo.after_of_writes_sub hostOps4 _ hostOps4_writes (by decide : main_v34 ∉ hostOps4_W)).trans
    ((U10_of_ne m c main_v34 (by decide)).trans (U9_of_ne m c main_v34 (by decide)))

/-- The previous rows and the incidence matrix, at launch, as plain functions of an index. -/
abbrev prevArr (c : Dev nD) : S4096x256.Idx → EReal := (m ((c : Thread nD τ).loc main_arg1))
abbrev incArr (c : Dev nD) : S4096x4096.Idx → EReal := (m ((c : Thread nD τ).loc main_arg5))

/-! ## Regions 4 and 5's outputs, entry by entry -/

theorem spaNum_at (c : Dev nD) (r : Fin 4096) (j : Fin 256) :
    spaNum m c (ix2 r j) = ∑ k : Fin 4096, Glue.incall m c (ix2 r k) * curArr m c (ix2 k j) := by
  have hA : RegionValue4.A (fun c b => U11 m c b) c = Glue.incall m c := U11_v34 m c
  have hB : RegionValue4.B (fun c b => U11 m c b) c = curArr m c := U11_main_arg0 m c
  have h := RegionValue4.final4_prod_at (fun c b => U11 m c b) c r j
  rw [hA, hB] at h
  exact (congrFun (U12_arr m c 2) (ix2 r j)).trans h

theorem spaDeg_at (c : Dev nD) (r : Fin 4096) :
    spaDeg m c (ix2 r (0 : Fin 128)) = ∑ k : Fin 4096, Glue.incall m c (ix2 r k) := by
  have hA : RegionValue4.A (fun c b => U11 m c b) c = Glue.incall m c := U11_v34 m c
  have h := RegionValue4.final4_deg_at (fun c b => U11 m c b) c r (0 : Fin 128)
  rw [hA] at h
  exact (congrFun (U12_arr m c 3) (ix2 r (0 : Fin 128))).trans h

theorem tmpNum_at (c : Dev nD) (r : Fin 4096) (j : Fin 256) :
    tmpNum m c (ix2 r j) = ∑ k : Fin 4096, max (incArr m c (ix2 r k)) 0 * prevArr m c (ix2 k j) := by
  have hA : RegionValue5.A (fun c b => U13 m c b) c = incArr m c := U13_main_arg5 m c
  have hB : RegionValue5.B (fun c b => U13 m c b) c = prevArr m c := U13_main_arg1 m c
  have h := RegionValue5.final5_prod_at (fun c b => U13 m c b) c r j
  rw [hA, hB] at h
  exact (congrFun (U14_arr m c 2) (ix2 r j)).trans h

theorem tmpDeg_at (c : Dev nD) (r : Fin 4096) :
    tmpDeg m c (ix2 r (0 : Fin 128)) = ∑ k : Fin 4096, max (incArr m c (ix2 r k)) 0 := by
  have hA : RegionValue5.A (fun c b => U13 m c b) c = incArr m c := U13_main_arg5 m c
  have h := RegionValue5.final5_deg_at (fun c b => U13 m c b) c r (0 : Fin 128)
  rw [hA] at h
  exact (congrFun (U14_arr m c 3) (ix2 r (0 : Fin 128))).trans h

/-! ## The two embeddings, entry by entry -/

/-- The spatial embedding at `(r, j)`: the completed incidence matrix's row `r` against column `j` of the current rows,
    over that row's sum. -/
theorem ker_spa_at (c : Dev nD) (r : Fin 4096) (j : Fin 256) :
    (U15 m c (Proc.devRef .tc main_v53) : S4096x256.Idx → EReal) (ix2 r j)
      = Ideal.div (∑ k : Fin 4096, Glue.incall m c (ix2 r k) * curArr m c (ix2 k j)) (∑ k : Fin 4096, Glue.incall m c (ix2 r k)) :=
  (spa_emb_at m c r j).trans (by rw [spaNum_at, spaDeg_at])

/-- The temporal embedding at `(r, j)`: the clipped incidence matrix's row `r` against column `j` of the previous rows,
    plus the current entry, over that row's sum plus one. -/
theorem ker_tmp_at (c : Dev nD) (r : Fin 4096) (j : Fin 256) :
    (U15 m c (Proc.devRef .tc main_v60) : S4096x256.Idx → EReal) (ix2 r j)
      = Ideal.div ((∑ k : Fin 4096, max (incArr m c (ix2 r k)) 0 * prevArr m c (ix2 k j)) + curArr m c (ix2 r j))
          ((∑ k : Fin 4096, max (incArr m c (ix2 r k)) 0) + Ideal.ofBits .f32 0x3F800000#32) :=
  (tmp_emb_at m c r j).trans (by rw [tmpNum_at, tmpDeg_at])

end Cert.KernelIdeal.GlueEmb

end
-- ==== Proof.RefEmb.lean ====
/- The reference's two embeddings, entry by entry. The spatial one is a product of the completed incidence matrix with
   the current rows, each row divided by that matrix's row sum; the temporal one is a product of the incidence matrix
   clipped below at zero with the previous rows, plus the current rows, each row divided by the clipped matrix's row
   sum plus one. Each stage is read at an index; the row sums start from the zero constant, which disappears; the
   constant one stays the word 0x3F800000. -/
import proofs.«140739_j42683384987781_2_alg».proof.Proof.Gen.ReferenceIdeal.Read

noncomputable section

open scoped BigOperators

namespace Cert.ReferenceIdeal.Emb

open Idealize.ShloMosaic Idealize.ShloMosaic.ValueIdx
open Cert.ReferenceIdeal Cert.ReferenceIdeal.Gen Cert.ReferenceIdeal.Read

/-- The incidence matrix clipped below at the broadcast zero, at an entry. -/
theorem clipped_at (x5 : (⟨S4096x4096, .f32⟩ : BufTy).Contents (Elt Ideal)) (r k : Fin 4096) :
    val_main_v103 (F := Ideal) x5 (ix2 r k) = max (x5 (ix2 r k)) 0 := by
  rw [val_main_v103_apply, val_main_v102_apply, val_main_cst_21_apply, Ideal.maximumf_def, Ideal.ofBits_def, Ideal.ofBits_zero_f32]

/-- The temporal embedding at `(r, j)`. -/
theorem ref_tmp_at (x0 x1 : (⟨S4096x256, .f32⟩ : BufTy).Contents (Elt Ideal)) (x5 : (⟨S4096x4096, .f32⟩ : BufTy).Contents (Elt Ideal)) (r : Fin 4096) (j : Fin 256) :
    val_main_v116 (F := Ideal) x0 x1 x5 (ix2 r j)
      = Ideal.div ((∑ k : Fin 4096, max (x5 (ix2 r k)) 0 * x1 (ix2 k j)) + x0 (ix2 r j))
          ((∑ k : Fin 4096, max (x5 (ix2 r k)) 0) + Ideal.ofBits .f32 0x3F800000#32) := by
  rw [val_main_v116_apply, val_main_v110_apply, val_main_v109_apply, val_main_v115_apply, val_main_v114_apply, val_main_v112_apply,
    val_main_v113_apply, val_main_cst_24_apply, val_main_v111_apply, val_main_cst_23_apply]
  rw [Ideal.hostDivf_def, Ideal.addf_def, Ideal.addf_def, Ideal.ofBits_def, Ideal.ofBits_def, Ideal.ofBits_zero_f32, zero_add]
  refine congrArg₂ Ideal.div (congrArg (· + x0 (ix2 r j)) (Finset.sum_congr rfl fun k _ => ?_))
    (congrArg (· + Ideal.ofBits .f32 0x3F800000#32) (Finset.sum_congr rfl fun k _ => ?_))
  · have el : lidx_main_v109 (ix2 r j) k = (ix2 r k : S4096x4096.Idx) := by funext a; apply Fin.ext; match a with | ⟨0, _⟩ => rfl | ⟨1, _⟩ => rfl
    have er : ridx_main_v109 (ix2 r j) k = (ix2 k j : S4096x256.Idx) := by funext a; apply Fin.ext; match a with | ⟨0, _⟩ => rfl | ⟨1, _⟩ => rfl
    rw [el, er, clipped_at]
  · have e : idx_main_v111 (idx_main_v112 (idx_main_v115 (ix2 r j))) k = (ix2 r k : S4096x4096.Idx) := by funext a; apply Fin.ext; match a with | ⟨0, _⟩ => rfl | ⟨1, _⟩ => rfl
    rw [e, clipped_at]

/-- The spatial embedding at `(r, j)`, over the completed incidence matrix left as the array it is. -/
theorem ref_spa_at (x0 : (⟨S4096x256, .f32⟩ : BufTy).Contents (Elt Ideal)) (x3 : (⟨S4096x4095, .f32⟩ : BufTy).Contents (Elt Ideal)) (r : Fin 4096) (j : Fin 256) :
    val_main_v108 (F := Ideal) x0 x3 (ix2 r j)
      = Ideal.div (∑ k : Fin 4096, val_main_v86 (F := Ideal) x3 (ix2 r k) * x0 (ix2 k j))
          (∑ k : Fin 4096, val_main_v86 (F := Ideal) x3 (ix2 r k)) := by
  rw [val_main_v108_apply, val_main_v104_apply, val_main_v107_apply, val_main_v106_apply, val_main_v105_apply, val_main_cst_22_apply,
    Ideal.hostDivf_def, Ideal.ofBits_def, Ideal.ofBits_zero_f32, zero_add]
  refine congrArg₂ Ideal.div (Finset.sum_congr rfl fun k _ => ?_) (Finset.sum_congr rfl fun k _ => ?_)
  · have el : lidx_main_v104 (ix2 r j) k = (ix2 r k : S4096x4096.Idx) := by funext a; apply Fin.ext; match a with | ⟨0, _⟩ => rfl | ⟨1, _⟩ => rfl
    have er : ridx_main_v104 (ix2 r j) k = (ix2 k j : S4096x256.Idx) := by funext a; apply Fin.ext; match a with | ⟨0, _⟩ => rfl | ⟨1, _⟩ => rfl
    rw [el, er]
  · have e : idx_main_v105 (idx_main_v106 (idx_main_v107 (ix2 r j))) k = (ix2 r k : S4096x4096.Idx) := by funext a; apply Fin.ext; match a with | ⟨0, _⟩ => rfl | ⟨1, _⟩ => rfl
    rw [e]

end Cert.ReferenceIdeal.Emb

end
-- ==== Proof.JoinEmb.lean ====
/- The two embeddings agree between the programs, as whole arrays: what the kernel program's host operations leave in
   the spatial and the temporal embedding before the node kernel runs is, entry by entry, the reference's embedding of
   the launch arguments. Both sides are the same quotient of the same sums over the 4096 columns of the incidence
   matrix, in the same order; for the spatial one the two programs' completed incidence matrices agree entry by entry
   (both are the clipped source left of the diagonal, one on it, the clipped source shifted by one right of it). -/
import proofs.«140739_j42683384987781_2_alg».proof.Proof.KI.GlueEmb
import proofs.«140739_j42683384987781_2_alg».proof.Proof.RefEmb
import proofs.«140739_j42683384987781_2_alg».proof.Proof.RefSquare

set_option maxRecDepth 16384

noncomputable section

open scoped BigOperators

namespace Cert.Proof.JoinEmb

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two programs' completed incidence matrices agree at every entry. -/
theorem incall_join (c : Dev nD) (a b : Fin 4096) :
    Cert.KernelIdeal.Glue.incall m c (ix2 a b)
      = Cert.ReferenceIdeal.Read.val_main_v86 (F := Ideal) (m ((c : Thread nD τ).loc main_arg3)) (ix2 a b) :=
  (Cert.KernelIdeal.Glue.incall_at m c a b).trans (Cert.ReferenceIdeal.Square.incall_ref_at (m ((c : Thread nD τ).loc main_arg3)) a b).symm

/-- The temporal embedding. -/
theorem tmp_join (c : Dev nD) :
    (U15 m c (Proc.devRef .tc main_v60) : S4096x256.Idx → EReal)
      = Cert.ReferenceIdeal.Read.val_main_v116 (F := Ideal) (m ((c : Thread nD τ).loc main_arg0)) (m ((c : Thread nD τ).loc main_arg1)) (m ((c : Thread nD τ).loc main_arg5)) := by
  funext i
  obtain ⟨r, j, rfl⟩ : ∃ (r : Fin 4096) (j : Fin 256), i = ix2 r j := ⟨i 0, i 1, eq_ix2 i⟩
  exact (Cert.KernelIdeal.GlueEmb.ker_tmp_at m c r j).trans
    (Cert.ReferenceIdeal.Emb.ref_tmp_at (m ((c : Thread nD τ).loc main_arg0)) (m ((c : Thread nD τ).loc main_arg1)) (m ((c : Thread nD τ).loc main_arg5)) r j).symm

/-- The spatial embedding. -/
theorem spa_join (c : Dev nD) :
    (U15 m c (Proc.devRef .tc main_v53) : S4096x256.Idx → EReal)
      = Cert.ReferenceIdeal.Read.val_main_v108 (F := Ideal) (m ((c : Thread nD τ).loc main_arg0)) (m ((c : Thread nD τ).loc main_arg3)) := by
  funext i
  obtain ⟨r, j, rfl⟩ : ∃ (r : Fin 4096) (j : Fin 256), i = ix2 r j := ⟨i 0, i 1, eq_ix2 i⟩
  refine (Cert.KernelIdeal.GlueEmb.ker_spa_at m c r j).trans
    (Eq.trans ?_ (Cert.ReferenceIdeal.Emb.ref_spa_at (m ((c : Thread nD τ).loc main_arg0)) (m ((c : Thread nD τ).loc main_arg3)) r j).symm)
  refine congrArg₂ Ideal.div (Finset.sum_congr rfl fun k _ => ?_) (Finset.sum_congr rfl fun k _ => ?_)
  · rw [incall_join m c r k]
  · exact incall_join m c r k

end Cert.Proof.JoinEmb

end
-- ==== Proof.JoinNode.lean ====
/-
  The first result agrees on the two sides.

  The kernel program's first result is the node update of eight arrays: the current rows, the spatial and temporal
  embeddings, the three projection weights, the transposed output weight and the bias row.  The reference's first result,
  entry by entry, is the same update of its own eight.  The current rows and the three projection weights are the same
  arguments on both sides; the two embeddings agree as whole arrays; the kernel program's transposed output weight at
  (k, j) is the output-weight argument at (j, k), and its bias row at (0, j) is the bias argument at j, which is how the
  reference reads those two arguments.  So the two results agree at every entry.
-/
import proofs.«140739_j42683384987781_2_alg».proof.Proof.KI.GlueNode
import proofs.«140739_j42683384987781_2_alg».proof.Proof.RefNode
import proofs.«140739_j42683384987781_2_alg».proof.Proof.JoinEmb

set_option maxRecDepth 16384

noncomputable section

open scoped BigOperators

namespace Cert.Proof.JoinNode

open Idealize.ShloMosaic Idealize.ShloMosaic.TcCoe Idealize.ShloMosaic.ValueIdx Idealize.SL.Sem
open Cert.KernelIdeal Cert.KernelIdeal.Gen Cert.KernelIdeal.RegionValue6 Cert.KernelIdeal.Glue6

variable (m : (ℓ : Loc nD τ sig) → Buf (Elt Ideal) ℓ)

/-- The kernel program's first result, as an array of extended reals. -/
abbrev kv63 (c : Dev nD) : S4096x256.Idx → EReal := U17 m c (Proc.devRef .tc main_v63)

/-- The kernel program's transposed output weight is the output-weight argument read with its coordinates swapped. -/
theorem thetaT_eq (c : Dev nD) :
    (U15 m c (Proc.devRef .tc main_v61) : S256x256.Idx → EReal)
      = fun i => ((m ((c : Thread nD τ).loc main_arg9)) : S256x256.Idx → EReal) (ix2 (n0 := 256) (n1 := 256) (i 1) (i 0)) := by
  funext i
  obtain ⟨k, j, rfl⟩ : ∃ (k j : Fin 256), i = ix2 k j := ⟨i 0, i 1, eq_ix2 i⟩
  exact thetaT_at m c k j

/-- The kernel program's bias row is the bias argument read at the column: the row coordinate of a one-row array is 0. -/
theorem bias_eq (c : Dev nD) :
    (U15 m c (Proc.devRef .tc main_v62) : S1x256.Idx → EReal)
      = fun i => ((m ((c : Thread nD τ).loc main_arg10)) : S256.Idx → EReal) (ix1 (n := 256) (i 1)) := by
  funext i
  obtain ⟨u, j, rfl⟩ : ∃ (u : Fin 1) (j : Fin 256), i = ix2 u j := ⟨i 0, i 1, eq_ix2 i⟩
  obtain rfl : u = 0 := Subsingleton.elim _ _
  exact bias_at m c j

/-- The two first results agree as soon as the two embeddings do. -/
theorem node_join_of (c : Dev nD)
    (hs : (U15 m c (Proc.devRef .tc main_v53) : S4096x256.Idx → EReal)
      = Cert.ReferenceIdeal.Read.val_main_v108 (F := Ideal) (m ((c : Thread nD τ).loc main_arg0)) (m ((c : Thread nD τ).loc main_arg3)))
    (ht : (U15 m c (Proc.devRef .tc main_v60) : S4096x256.Idx → EReal)
      = Cert.ReferenceIdeal.Read.val_main_v116 (F := Ideal) (m ((c : Thread nD τ).loc main_arg0)) (m ((c : Thread nD τ).loc main_arg1)) (m ((c : Thread nD τ).loc main_arg5))) :
    kv63 m c = Cert.ReferenceIdeal.Read.val_main_v140 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨r, j, rfl⟩ : ∃ (r : Fin 4096) (j : Fin 256), i = ix2 r j := ⟨i 0, i 1, eq_ix2 i⟩
  refine (congrFun (node_result m c) (ix2 r j)).trans ?_
  refine (node_out_ix2 _ _ _ _ _ _ _ _ r j).trans ?_
  refine Eq.trans ?_ (Cert.ReferenceIdeal.Node.ref_node_at _ _ _ _ _ _ _ _ _ r j).symm
  rw [hs, ht, thetaT_eq m c, bias_eq m c]
  rfl

/-- THE FIRST RESULT, JOINED: the kernel program's first result is the reference's, of the same nine arguments. -/
theorem node_join (c : Dev nD) :
    kv63 m c = Cert.ReferenceIdeal.Read.val_main_v140 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  node_join_of m c (Cert.Proof.JoinEmb.spa_join m c) (Cert.Proof.JoinEmb.tmp_join m c)

end Cert.Proof.JoinNode

end
-- ==== Proof.lean ====
/-
  The certificate's five claims.
  The two kernel programs (the word-level one and its idealization, the same text read at two float instances) run
  their seven tiled-product regions and the array operations between them to the end; the run names every buffer
  that outlives a region at its final contents, and an argument array's final contents walk back to the launch
  memory, which is the frame claim for both.  The reference is a straight line of array operations, and its frame is
  its run with the results dropped.  The idealization pass rewrote nothing, so the kernel is its own idealization.
  Over the extended reals the two programs' results agree: every tiled product accumulated step by step is the whole
  contraction (addition is commutative and associative and zero is neutral, so no finiteness is used); the square
  matrix the kernel program rebuilds by padding and selecting is the one the reference scatters, entry by entry; the
  remaining array operations are the same on both sides.
-/
import proofs.«140739_j42683384987781_2_alg».proof.Defs
import proofs.«140739_j42683384987781_2_alg».proof.Proof.Gen.Kernel
import proofs.«140739_j42683384987781_2_alg».proof.Proof.Gen.KernelIdeal
import proofs.«140739_j42683384987781_2_alg».proof.Proof.Gen.ReferenceIdeal
import proofs.«140739_j42683384987781_2_alg».proof.Proof.Gen.ReferenceIdeal.Run
import proofs.«140739_j42683384987781_2_alg».proof.Proof.Gen.ReferenceIdeal.Read
import proofs.«140739_j42683384987781_2_alg».proof.Proof.Gen.Pre_finite_inputs
import proofs.«140739_j42683384987781_2_alg».proof.Proof.K.Args
import proofs.«140739_j42683384987781_2_alg».proof.Proof.KI.Args
import proofs.«140739_j42683384987781_2_alg».proof.Proof.Bridge
import proofs.«140739_j42683384987781_2_alg».proof.Proof.JoinNode
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its arguments as launched. -/
theorem frame_k : @Cert.frame_Kernel Cert.Kernel.Gen.facts Cert.Pre_finite_inputs.Gen.facts := fun m ρ _ =>
  (θ_run Cert.Kernel.defs _ _).mono (fun r h c =>
    ⟨(h c _ (Cert.Kernel.Gen.mem_ucR Cert.Kernel.main_arg0 (by decide))).trans (Cert.Kernel.Gen.U17_main_arg0 m c),
      (h c _ (Cert.Kernel.Gen.mem_ucR Cert.Kernel.main_arg1 (by decide))).trans (Cert.Kernel.Gen.U17_main_arg1 m c),
      (h c _ (Cert.Kernel.Gen.mem_ucR Cert.Kernel.main_arg2 (by decide))).trans (Cert.Kernel.Gen.U17_main_arg2 m c),
      (h c _ (Cert.Kernel.Gen.mem_ucR Cert.Kernel.main_arg3 (by decide))).trans (Cert.Kernel.Gen.U17_main_arg3 m c),
      (h c _ (Cert.Kernel.Gen.mem_ucR Cert.Kernel.main_arg4 (by decide))).trans (Cert.Kernel.Gen.U17_main_arg4 m c),
      (h c _ (Cert.Kernel.Gen.mem_ucR Cert.Kernel.main_arg5 (by decide))).trans (Cert.Kernel.Gen.U17_main_arg5 m c),
      (h c _ (Cert.Kernel.Gen.mem_ucR Cert.Kernel.main_arg6 (by decide))).trans (Cert.Kernel.Gen.U17_main_arg6 m c),
      (h c _ (Cert.Kernel.Gen.mem_ucR Cert.Kernel.main_arg7 (by decide))).trans (Cert.Kernel.Gen.U17_main_arg7 m c),
      (h c _ (Cert.Kernel.Gen.mem_ucR Cert.Kernel.main_arg8 (by decide))).trans (Cert.Kernel.Gen.U17_main_arg8 m c),
      (h c _ (Cert.Kernel.Gen.mem_ucR Cert.Kernel.main_arg9 (by decide))).trans (Cert.Kernel.Gen.U17_main_arg9 m c),
      (h c _ (Cert.Kernel.Gen.mem_ucR Cert.Kernel.main_arg10 (by decide))).trans (Cert.Kernel.Gen.U17_main_arg10 m c)⟩)
    (Cert.Kernel.Gen.run_all (F := Bits) m ρ)

/-- The idealized kernel does the same. -/
theorem frame_ki : @Cert.frame_KernelIdeal Cert.KernelIdeal.Gen.facts Cert.Pre_finite_inputs.Gen.facts := fun m ρ _ =>
  (θ_run Cert.KernelIdeal.defs _ _).mono (fun r h c =>
    ⟨(h c _ (Cert.KernelIdeal.Gen.mem_ucR Cert.KernelIdeal.main_arg0 (by decide))).trans (Cert.KernelIdeal.Gen.U17_main_arg0 m c),
      (h c _ (Cert.KernelIdeal.Gen.mem_ucR Cert.KernelIdeal.main_arg1 (by decide))).trans (Cert.KernelIdeal.Gen.U17_main_arg1 m c),
      (h c _ (Cert.KernelIdeal.Gen.mem_ucR Cert.KernelIdeal.main_arg2 (by decide))).trans (Cert.KernelIdeal.Gen.U17_main_arg2 m c),
      (h c _ (Cert.KernelIdeal.Gen.mem_ucR Cert.KernelIdeal.main_arg3 (by decide))).trans (Cert.KernelIdeal.Gen.U17_main_arg3 m c),
      (h c _ (Cert.KernelIdeal.Gen.mem_ucR Cert.KernelIdeal.main_arg4 (by decide))).trans (Cert.KernelIdeal.Gen.U17_main_arg4 m c),
      (h c _ (Cert.KernelIdeal.Gen.mem_ucR Cert.KernelIdeal.main_arg5 (by decide))).trans (Cert.KernelIdeal.Gen.U17_main_arg5 m c),
      (h c _ (Cert.KernelIdeal.Gen.mem_ucR Cert.KernelIdeal.main_arg6 (by decide))).trans (Cert.KernelIdeal.Gen.U17_main_arg6 m c),
      (h c _ (Cert.KernelIdeal.Gen.mem_ucR Cert.KernelIdeal.main_arg7 (by decide))).trans (Cert.KernelIdeal.Gen.U17_main_arg7 m c),
      (h c _ (Cert.KernelIdeal.Gen.mem_ucR Cert.KernelIdeal.main_arg8 (by decide))).trans (Cert.KernelIdeal.Gen.U17_main_arg8 m c),
      (h c _ (Cert.KernelIdeal.Gen.mem_ucR Cert.KernelIdeal.main_arg9 (by decide))).trans (Cert.KernelIdeal.Gen.U17_main_arg9 m c),
      (h c _ (Cert.KernelIdeal.Gen.mem_ucR Cert.KernelIdeal.main_arg10 (by decide))).trans (Cert.KernelIdeal.Gen.U17_main_arg10 m c)⟩)
    (Cert.KernelIdeal.Gen.run_all (F := Ideal) m ρ)

/-- The reference: its run, the two results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.Value.run (F := Ideal) m ρ)

/-- Over the extended reals, from memories agreeing on the arguments, both idealized programs run to the end with
    the same two results: the kernel program's final node array and loss scalar, which the reference's composed terms
    of the same arguments equal. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.U17 m c (Proc.devRef .tc Cert.KernelIdeal.main_v63),
    fun c => Cert.KernelIdeal.Gen.U17 m c (Proc.devRef .tc Cert.KernelIdeal.main_v64), ?_, ?_⟩
  · exact (θ_run Cert.KernelIdeal.defs _ _).mono (fun r h c =>
      ⟨h c _ (Cert.KernelIdeal.Gen.mem_ucR Cert.KernelIdeal.main_v63 (by decide)),
       h c _ (Cert.KernelIdeal.Gen.mem_ucR Cert.KernelIdeal.main_v64 (by decide)),
      (h c _ (Cert.KernelIdeal.Gen.mem_ucR Cert.KernelIdeal.main_arg0 (by decide))).trans (Cert.KernelIdeal.Gen.U17_main_arg0 m c),
      (h c _ (Cert.KernelIdeal.Gen.mem_ucR Cert.KernelIdeal.main_arg1 (by decide))).trans (Cert.KernelIdeal.Gen.U17_main_arg1 m c),
      (h c _ (Cert.KernelIdeal.Gen.mem_ucR Cert.KernelIdeal.main_arg2 (by decide))).trans (Cert.KernelIdeal.Gen.U17_main_arg2 m c),
      (h c _ (Cert.KernelIdeal.Gen.mem_ucR Cert.KernelIdeal.main_arg3 (by decide))).trans (Cert.KernelIdeal.Gen.U17_main_arg3 m c),
      (h c _ (Cert.KernelIdeal.Gen.mem_ucR Cert.KernelIdeal.main_arg4 (by decide))).trans (Cert.KernelIdeal.Gen.U17_main_arg4 m c),
      (h c _ (Cert.KernelIdeal.Gen.mem_ucR Cert.KernelIdeal.main_arg5 (by decide))).trans (Cert.KernelIdeal.Gen.U17_main_arg5 m c),
      (h c _ (Cert.KernelIdeal.Gen.mem_ucR Cert.KernelIdeal.main_arg6 (by decide))).trans (Cert.KernelIdeal.Gen.U17_main_arg6 m c),
      (h c _ (Cert.KernelIdeal.Gen.mem_ucR Cert.KernelIdeal.main_arg7 (by decide))).trans (Cert.KernelIdeal.Gen.U17_main_arg7 m c),
      (h c _ (Cert.KernelIdeal.Gen.mem_ucR Cert.KernelIdeal.main_arg8 (by decide))).trans (Cert.KernelIdeal.Gen.U17_main_arg8 m c),
      (h c _ (Cert.KernelIdeal.Gen.mem_ucR Cert.KernelIdeal.main_arg9 (by decide))).trans (Cert.KernelIdeal.Gen.U17_main_arg9 m c),
      (h c _ (Cert.KernelIdeal.Gen.mem_ucR Cert.KernelIdeal.main_arg10 (by decide))).trans (Cert.KernelIdeal.Gen.U17_main_arg10 m c)⟩)
      (Cert.KernelIdeal.Gen.run_all (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      rw [Cert.ReferenceIdeal.Read.val_main_v140_eq, h0, h1, h3, h5, h6, h7, h8, h9, h10]
      exact (Cert.Proof.JoinNode.node_join m c).symm
    · obtain ⟨h0, h1, h2, h3, h4, h5, h6, h7, h8, h9, h10⟩ := hagree c
      rw [Cert.ReferenceIdeal.Read.val_main_v141_eq, h0, h1, h2, h3, h4, h5]
      exact (Cert.Proof.JoinLoss.loss_join m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
